-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S400000x32 : Shape := ⟨2, ![400000, 32]⟩
abbrev S27x64x32 : Shape := ⟨3, ![27, 64, 32]⟩
abbrev S32 : Shape := ⟨1, ![32]⟩
abbrev S27x32x32 : Shape := ⟨3, ![27, 32, 32]⟩
abbrev S27x100000 : Shape := ⟨2, ![27, 100000]⟩
abbrev S27x120000 : Shape := ⟨2, ![27, 120000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S27x64x32 : S_.BroadcastsInDim S27x64x32 (![] : Fin 0 → Fin S27x64x32.rank)
  reducesTo_S27x64x32_S_d0_1_2 : S27x64x32.ReducesTo [0, 1, 2] S_
  bcast_S_S32 : S_.BroadcastsInDim S32 (![] : Fin 0 → Fin S32.rank)
  reducesTo_S32_S_d0 : S32.ReducesTo [0] S_
  bcast_S_S27x32x32 : S_.BroadcastsInDim S27x32x32 (![] : Fin 0 → Fin S27x32x32.rank)
  reducesTo_S27x32x32_S_d0_1_2 : S27x32x32.ReducesTo [0, 1, 2] S_

variable [Facts]

def fn_part3 {F : FTy → Type} [FloatOps F] (main_arg11 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S32 .f32) (main_arg8 : FVec F S32 .f32) (main_arg9 : FVec F S27x32x32 .f32) (main_arg10 : FVec F S32 .f32) (main_arg11 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S27x32x32 .f32 := Host.absf main_arg9
  let main_cst_16 : FVec F S_ .f32 := constant S_ .f32 0x7F800000#32
  let main_v45 : FVec F S27x32x32 .f32 := broadcastInDim S27x32x32 ![] bcast_S_S27x32x32 main_cst_16
  let main_v46 : IVec S27x32x32 1 := cmpf .olt main_v44 main_v45
  let main_c_17 : IVec S_ 1 := constantI S_ 1 1#1
  let main_v47 : IVec S_ 1 := (fun x v => Host.reduce IntOp.andi x v reducesTo_S27x32x32_S_d0_1_2 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_v48 main_v49 main_v50

def fn_part1 {F : FTy → Type} [FloatOps F] (main_arg4 : FVec F S32 .f32) (main_arg5 : FVec F S32 .f32) (main_arg6 : FVec F S27x64x32 .f32) (main_arg7 : FVec F S32 .f32) (main_arg8 : FVec F S32 .f32) (main_arg9 : FVec F S27x32x32 .f32) (main_arg10 : FVec F S32 .f32) (main_arg11 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S27x64x32 .f32 := Host.absf main_arg6
  let main_cst_10 : FVec F S_ .f32 := constant S_ .f32 0x7F800000#32
  let main_v30 : FVec F S27x64x32 .f32 := broadcastInDim S27x64x32 ![] bcast_S_S27x64x32 main_cst_10
  let main_v31 : IVec S27x64x32 1 := cmpf .olt main_v29 main_v30
  let main_c_11 : IVec S_ 1 := constantI S_ 1 1#1
  let main_v32 : IVec S_ 1 := (fun x v => Host.reduce IntOp.andi x v reducesTo_S27x64x32_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S400000x32 .f32) (main_arg2 : FVec F S27x64x32 .f32) (main_arg3 : FVec F S32 .f32) (main_arg4 : FVec F S32 .f32) (main_arg5 : FVec F S32 .f32) (main_arg6 : FVec F S27x64x32 .f32) (main_arg7 : FVec F S32 .f32) (main_arg8 : FVec F S32 .f32) (main_arg9 : FVec F S27x32x32 .f32) (main_arg10 : FVec F S32 .f32) (main_arg11 : FVec F S32 .f32) (main_arg12 : IVec S27x100000 32) (main_arg13 : IVec S27x100000 32) (main_arg14 : IVec S27x120000 32) (main_arg15 : IVec S27x120000 32) (main_arg16 : IVec S27x120000 32) (main_arg17 : IVec S27x120000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S400000x32 .f32 := Host.absf main_arg1
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S27x64x32 .f32 := Host.absf main_arg2
  let main_cst_2 : FVec F S_ .f32 := constant S_ .f32 0x7F800000#32
  let main_v10 : FVec F S27x64x32 .f32 := broadcastInDim S27x64x32 ![] bcast_S_S27x64x32 main_cst_2
  let main_v11 : IVec S27x64x32 1 := cmpf .olt main_v9 main_v10
  let main_c_3 : IVec S_ 1 := constantI S_ 1 1#1
  let main_v12 : IVec S_ 1 := (fun x v => Host.reduce IntOp.andi x v reducesTo_S27x64x32_S_d0_1_2 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S400000x32 : Shape := ⟨2, ![400000, 32]⟩
abbrev S27x64x32 : Shape := ⟨3, ![27, 64, 32]⟩
abbrev S32 : Shape := ⟨1, ![32]⟩
abbrev S27x32x32 : Shape := ⟨3, ![27, 32, 32]⟩
abbrev S27x100000 : Shape := ⟨2, ![27, 100000]⟩
abbrev S27x120000 : Shape := ⟨2, ![27, 120000]⟩
abbrev S_ : Shape := ⟨0, ![]⟩
abbrev S27x100000x1 : Shape := ⟨3, ![27, 100000, 1]⟩
abbrev S27x100000x64 : Shape := ⟨3, ![27, 100000, 64]⟩
abbrev S27x100000x32 : Shape := ⟨3, ![27, 100000, 32]⟩
abbrev S27x200x64 : Shape := ⟨3, ![27, 200, 64]⟩
abbrev S27x200x32 : Shape := ⟨3, ![27, 200, 32]⟩
abbrev S2700000x32 : Shape := ⟨2, ![2700000, 32]⟩
abbrev S2700000 : Shape := ⟨1, ![2700000]⟩
abbrev S2700000x1 : Shape := ⟨2, ![2700000, 1]⟩
abbrev S1x32 : Shape := ⟨2, ![1, 32]⟩
abbrev S10000x32 : Shape := ⟨2, ![10000, 32]⟩
abbrev S400000x64 : Shape := ⟨2, ![400000, 64]⟩
abbrev S27x120000x1 : Shape := ⟨3, ![27, 120000, 1]⟩
abbrev S27x120000x64 : Shape := ⟨3, ![27, 120000, 64]⟩
abbrev S27x120000x32 : Shape := ⟨3, ![27, 120000, 32]⟩
abbrev S3240000x32 : Shape := ⟨2, ![3240000, 32]⟩
abbrev S3240000 : Shape := ⟨1, ![3240000]⟩
abbrev S3240000x1 : Shape := ⟨2, ![3240000, 1]⟩

abbrev nBuf : Space → Nat
  | .hbm => 120
  | .vmem => 57
  | .smem => 0
  | _ => 0

abbrev bufTy : (tb : Table) → Fin (tcTables nBuf tb) → BufTy
  | .hbm, ⟨0, _⟩ => ⟨S100000x64, .f32⟩
  | .hbm, ⟨1, _⟩ => ⟨S400000x32, .f32⟩
  | .hbm, ⟨2, _⟩ => ⟨S27x64x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S27x64x32, .f32⟩
  | .hbm, ⟨7, _⟩ => ⟨S32, .f32⟩
  | .hbm, ⟨8, _⟩ => ⟨S32, .f32⟩
  | .hbm, ⟨9, _⟩ => ⟨S27x32x32, .f32⟩
  | .hbm, ⟨10, _⟩ => ⟨S32, .f32⟩
  | .hbm, ⟨11, _⟩ => ⟨S32, .f32⟩
  | .hbm, ⟨12, _⟩ => ⟨S27x100000, .i32⟩
  | .hbm, ⟨13, _⟩ => ⟨S27x100000, .i32⟩
  | .hbm, ⟨14, _⟩ => ⟨S27x120000, .i32⟩
  | .hbm, ⟨15, _⟩ => ⟨S27x120000, .i32⟩
  | .hbm, ⟨16, _⟩ => ⟨S27x120000, .i32⟩
  | .hbm, ⟨17, _⟩ => ⟨S27x120000, .i32⟩
  | .hbm, ⟨18, _⟩ => ⟨S_, .f32⟩
  | .hbm, ⟨19, _⟩ => ⟨S32, .f32⟩
  | .hbm, ⟨20, _⟩ => ⟨S_, .i32⟩
  | .hbm, ⟨21, _⟩ => ⟨S27x100000, .i32⟩
  | .hbm, ⟨22, _⟩ => ⟨S27x100000, .i1⟩
  | .hbm, ⟨23, _⟩ => ⟨S_, .i32⟩
  | .hbm, ⟨24, _⟩ => ⟨S27x100000, .i32⟩
  | .hbm, ⟨25, _⟩ => ⟨S27x100000, .i32⟩
  | .hbm, ⟨26, _⟩ => ⟨S27x100000, .i32⟩
  | .hbm, ⟨27, _⟩ => ⟨S27x100000x1, .i32⟩
  | .hbm, ⟨28, _⟩ => ⟨S27x100000x64, .f32⟩
  | .hbm, ⟨29, _⟩ => ⟨S27x100000x32, .f32⟩
  | .hbm, ⟨30, _⟩ => ⟨S2700000x32, .f32⟩
  | .hbm, ⟨31, _⟩ => ⟨S2700000, .i32⟩
  | .hbm, ⟨32, _⟩ => ⟨S_, .f32⟩
  | .hbm, ⟨33, _⟩ => ⟨S400000x32, .f32⟩
  | .hbm, ⟨34, _⟩ => ⟨S2700000x1, .i32⟩
  | .hbm, ⟨35, _⟩ => ⟨S400000x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x32, .f32⟩
  | .hbm, ⟨41, _⟩ => ⟨S_, .f32⟩
  | .hbm, ⟨42, _⟩ => ⟨S1x32, .f32⟩
  | .hbm, ⟨43, _⟩ => ⟨S1x32, .f32⟩
  | .hbm, ⟨44, _⟩ => ⟨S_, .f32⟩
  | .hbm, ⟨45, _⟩ => ⟨S1x32, .f32⟩
  | .hbm, ⟨46, _⟩ => ⟨S1x32, .f32⟩
  | .hbm, ⟨47, _⟩ => ⟨S1x32, .f32⟩
  | .hbm, ⟨48, _⟩ => ⟨S1x32, .f32⟩
  | .hbm, ⟨49, _⟩ => ⟨S_, .f32⟩
  | .hbm, ⟨50, _⟩ => ⟨S1x32, .f32⟩
  | .hbm, ⟨51, _⟩ => ⟨S1x32, .f32⟩
  | .hbm, ⟨52, _⟩ => ⟨S400000x32, .f32⟩
  | .hbm, ⟨53, _⟩ => ⟨S400000x64, .f32⟩
  | .hbm, ⟨54, _⟩ => ⟨S_, .i32⟩
  | .hbm, ⟨55, _⟩ => ⟨S27x120000, .i32⟩
  | .hbm, ⟨56, _⟩ => ⟨S27x120000, .i1⟩
  | .hbm, ⟨57, _⟩ => ⟨S_, .i32⟩
  | .hbm, ⟨58, _⟩ => ⟨S27x120000, .i32⟩
  | .hbm, ⟨59, _⟩ => ⟨S27x120000, .i32⟩
  | .hbm, ⟨60, _⟩ => ⟨S27x120000, .i32⟩
  | .hbm, ⟨61, _⟩ => ⟨S27x120000x1, .i32⟩
  | .hbm, ⟨62, _⟩ => ⟨S27x120000x64, .f32⟩
  | .hbm, ⟨63, _⟩ => ⟨S27x120000x32, .f32⟩
  | .hbm, ⟨64, _⟩ => ⟨S3240000x32, .f32⟩
  | .hbm, ⟨65, _⟩ => ⟨S3240000, .i32⟩
  | .hbm, ⟨66, _⟩ => ⟨S_, .f32⟩
  | .hbm, ⟨67, _⟩ => ⟨S400000x32, .f32⟩
  | .hbm, ⟨68, _⟩ => ⟨S3240000x1, .i32⟩
  | .hbm, ⟨69, _⟩ => ⟨S400000x32, .f32⟩
  | .hbm, ⟨70, _⟩ => ⟨S1x32, .f32⟩
  | .hbm, ⟨71, _⟩ => ⟨S1x32, .f32⟩
  | .hbm, ⟨72, _⟩ => ⟨S1x32, .f32⟩
  | .hbm, ⟨73, _⟩ => ⟨S1x32, .f32⟩
  | .hbm, ⟨74, _⟩ => ⟨S1x32, .f32⟩
  | .hbm, ⟨75, _⟩ => ⟨S_, .f32⟩
  | .hbm, ⟨76, _⟩ => ⟨S1x32, .f32⟩
  | .hbm, ⟨77, _⟩ => ⟨S1x32, .f32⟩
  | .hbm, ⟨78, _⟩ => ⟨S_, .f32⟩
  | .hbm, ⟨79, _⟩ => ⟨S1x32, .f32⟩
  | .hbm, ⟨80, _⟩ => ⟨S1x32, .f32⟩
  | .hbm, ⟨81, _⟩ => ⟨S1x32, .f32⟩
  | .hbm, ⟨82, _⟩ => ⟨S1x32, .f32⟩
  | .hbm, ⟨83, _⟩ => ⟨S_, .f32⟩
  | .hbm, ⟨84, _⟩ => ⟨S1x32, .f32⟩
  | .hbm, ⟨85, _⟩ => ⟨S1x32, .f32⟩
  | .hbm, ⟨86, _⟩ => ⟨S400000x32, .f32⟩
  | .hbm, ⟨87, _⟩ => ⟨S_, .i32⟩
  | .hbm, ⟨88, _⟩ => ⟨S27x120000, .i32⟩
  | .hbm, ⟨89, _⟩ => ⟨S27x120000, .i1⟩
  | .hbm, ⟨90, _⟩ => ⟨S_, .i32⟩
  | .hbm, ⟨91, _⟩ => ⟨S27x120000, .i32⟩
  | .hbm, ⟨92, _⟩ => ⟨S27x120000, .i32⟩
  | .hbm, ⟨93, _⟩ => ⟨S27x120000, .i32⟩
  | .hbm, ⟨94, _⟩ => ⟨S27x120000x1, .i32⟩
  | .hbm, ⟨95, _⟩ => ⟨S27x120000x32, .f32⟩
  | .hbm, ⟨96, _⟩ => ⟨S27x120000x32, .f32⟩
  | .hbm, ⟨97, _⟩ => ⟨S3240000x32, .f32⟩
  | .hbm, ⟨98, _⟩ => ⟨S3240000, .i32⟩
  | .hbm, ⟨99, _⟩ => ⟨S_, .f32⟩
  | .hbm, ⟨100, _⟩ => ⟨S400000x32, .f32⟩
  | .hbm, ⟨101, _⟩ => ⟨S3240000x1, .i32⟩
  | .hbm, ⟨102, _⟩ => ⟨S400000x32, .f32⟩
  | .hbm, ⟨103, _⟩ => ⟨S1x32, .f32⟩
  | .hbm, ⟨104, _⟩ => ⟨S1x32, .f32⟩
  | .hbm, ⟨105, _⟩ => ⟨S1x32, .f32⟩
  | .hbm, ⟨106, _⟩ => ⟨S1x32, .f32⟩
  | .hbm, ⟨107, _⟩ => ⟨S1x32, .f32⟩
  | .hbm, ⟨108, _⟩ => ⟨S_, .f32⟩
  | .hbm, ⟨109, _⟩ => ⟨S1x32, .f32⟩
  | .hbm, ⟨110, _⟩ => ⟨S1x32, .f32⟩
  | .hbm, ⟨111, _⟩ => ⟨S_, .f32⟩
  | .hbm, ⟨112, _⟩ => ⟨S1x32, .f32⟩
  | .hbm, ⟨113, _⟩ => ⟨S1x32, .f32⟩
  | .hbm, ⟨114, _⟩ => ⟨S1x32, .f32⟩
  | .hbm, ⟨115, _⟩ => ⟨S1x32, .f32⟩
  | .hbm, ⟨116, _⟩ => ⟨S_, .f32⟩
  | .hbm, ⟨117, _⟩ => ⟨S1x32, .f32⟩
  | .hbm, ⟨118, _⟩ => ⟨S1x32, .f32⟩
  | .hbm, ⟨119, _⟩ => ⟨S400000x32, .f32⟩
  | .local _ .vmem, ⟨0, _⟩ => ⟨S27x200x64, .f32⟩
  | .local _ .vmem, ⟨1, _⟩ => ⟨S27x200x64, .f32⟩
  | .local _ .vmem, ⟨2, _⟩ => ⟨S27x64x32, .f32⟩
  | .local _ .vmem, ⟨3, _⟩ => ⟨S27x200x32, .f32⟩
  | .local _ .vmem, ⟨4, _⟩ => ⟨S27x200x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S10000x32, .f32⟩
  | .local _ .vmem, ⟨18, _⟩ => ⟨S10000x32, .f32⟩
  | .local _ .vmem, ⟨19, _⟩ => ⟨S27x200x64, .f32⟩
  | .local _ .vmem, ⟨20, _⟩ => ⟨S27x200x64, .f32⟩
  | .local _ .vmem, ⟨21, _⟩ => ⟨S27x64x32, .f32⟩
  | .local _ .vmem, ⟨22, _⟩ => ⟨S27x200x32, .f32⟩
  | .local _ .vmem, ⟨23, _⟩ => ⟨S27x200x32, .f32⟩
  | .local _ .vmem, ⟨24, _⟩ => ⟨S10000x32, .f32⟩
  | .local _ .vmem, ⟨25, _⟩ => ⟨S10000x32, .f32⟩
  | .local _ .vmem, ⟨26, _⟩ => ⟨S1x32, .f32⟩
  | .local _ .vmem, ⟨27, _⟩ => ⟨S1x32, .f32⟩
  | .local _ .vmem, ⟨28, _⟩ => ⟨S1x32, .f32⟩
  | .local _ .vmem, ⟨29, _⟩ => ⟨S10000x32, .f32⟩
  | .local _ .vmem, ⟨30, _⟩ => ⟨S10000x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S10000x32, .f32⟩
  | .local _ .vmem, ⟨37, _⟩ => ⟨S10000x32, .f32⟩
  | .local _ .vmem, ⟨38, _⟩ => ⟨S27x200x32, .f32⟩
  | .local _ .vmem, ⟨39, _⟩ => ⟨S27x200x32, .f32⟩
  | .local _ .vmem, ⟨40, _⟩ => ⟨S27x32x32, .f32⟩
  | .local _ .vmem, ⟨41, _⟩ => ⟨S27x200x32, .f32⟩
  | .local _ .vmem, ⟨42, _⟩ => ⟨S27x200x32, .f32⟩
  | .local _ .vmem, ⟨43, _⟩ => ⟨S10000x32, .f32⟩
  | .local _ .vmem, ⟨44, _⟩ => ⟨S10000x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S10000x32, .f32⟩
  | .local _ .vmem, ⟨49, _⟩ => ⟨S10000x32, .f32⟩
  | .local _ .vmem, ⟨50, _⟩ => ⟨S1x32, .f32⟩
  | .local _ .vmem, ⟨51, _⟩ => ⟨S1x32, .f32⟩
  | .local _ .vmem, ⟨52, _⟩ => ⟨S1x32, .f32⟩
  | .local _ .vmem, ⟨53, _⟩ => ⟨S1x32, .f32⟩
  | .local _ .vmem, ⟨54, _⟩ => ⟨S1x32, .f32⟩
  | .local _ .vmem, ⟨55, _⟩ => ⟨S10000x32, .f32⟩
  | .local _ .vmem, ⟨56, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17_0 : Ref sig .tc := ⟨.hbm, 39, rfl⟩
abbrev main_v17_1 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_c_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70_0 : Ref sig .tc := ⟨.hbm, 106, rfl⟩
abbrev main_v70_1 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S27x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S27x200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![600], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S27x200x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S27x64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S27x200x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![600], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S27x200x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S27x32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S27x200x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x32 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  bcast_S_S32 : S_.BroadcastsInDim S32 (![] : Fin 0 → Fin S32.rank)
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S27x200x64_S27x200x64_0_0_0 : ∀ a, (![0, 0, 0] : Fin 3 → Nat) a + S27x200x64.size a ≤ S27x200x64.size a
  h_S27x200x64 : 0 < S27x200x64.numel
  shapeCasts_S27x200x64_S27x200x64 : S27x200x64.ShapeCasts S27x200x64
  bitsLt_bf16_f32 : FTy.bits .bf16 < FTy.bits .f32
  inb_S27x64x32_S27x64x32_0_0_0 : ∀ a, (![0, 0, 0] : Fin 3 → Nat) a + S27x64x32.size a ≤ S27x64x32.size a
  h_S27x64x32 : 0 < S27x64x32.numel
  inb_S27x200x32_S27x200x32_0_0_0 : ∀ a, (![0, 0, 0] : Fin 3 → Nat) a + S27x200x32.size a ≤ S27x200x32.size a
  h_S27x200x32 : 0 < S27x200x32.numel
  shapeCasts_S27x100000x32_S2700000x32 : S27x100000x32.ShapeCasts S2700000x32
  shapeCasts_S27x100000_S2700000 : S27x100000.ShapeCasts S2700000
  bcast_S_S400000x32 : S_.BroadcastsInDim S400000x32 (![] : Fin 0 → Fin S400000x32.rank)
  bcast_S2700000_S2700000x1_0 : S2700000.BroadcastsInDim S2700000x1 (![0] : Fin 1 → Fin S2700000x1.rank)
  shapeCasts_S32_S1x32 : S32.ShapeCasts S1x32
  inb_S1x32_S1x32_0_0 : ∀ a, (![0, 0] : Fin 2 → Nat) a + S1x32.size a ≤ S1x32.size a
  h_S1x32 : 0 < S1x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  shapeCasts_S1x32_S1x32 : S1x32.ShapeCasts S1x32
  broadcasts_S1x32_S10000x32 : S1x32.Broadcasts S10000x32
  reduces_S10000x32_S32 : S10000x32.Reduces [0] S32
  bcast_S_S1x32 : S_.BroadcastsInDim S1x32 (![] : Fin 0 → Fin S1x32.rank)
  concatenates_S400000x32_S400000x32_S400000x64_d1 : Shape.Concatenates [S400000x32, S400000x32] S400000x64 1
  bcast_S_S27x120000 : S_.BroadcastsInDim S27x120000 (![] : Fin 0 → Fin S27x120000.rank)
  bcast_S27x120000_S27x120000x1_0_1 : S27x120000.BroadcastsInDim S27x120000x1 (![0, 1] : Fin 2 → Fin S27x120000x1.rank)
  shapeCasts_S27x120000x32_S3240000x32 : S27x120000x32.ShapeCasts S3240000x32
  shapeCasts_S27x120000_S3240000 : S27x120000.ShapeCasts S3240000
  bcast_S3240000_S3240000x1_0 : S3240000.BroadcastsInDim S3240000x1 (![0] : Fin 1 → Fin S3240000x1.rank)
  shapeCasts_S27x200x32_S27x200x32 : S27x200x32.ShapeCasts S27x200x32
  inb_S27x32x32_S27x32x32_0_0_0 : ∀ a, (![0, 0, 0] : Fin 3 → Nat) a + S27x32x32.size a ≤ S27x32x32.size a
  h_S27x32x32 : 0 < S27x32x32.numel
  gather_S100000x64_S27x100000x1_S27x100000x64_2_0_n_n_0_2_164_wf : GatherDims.WF S100000x64 S27x100000x1 S27x100000x64 [2] [0] [] [0] [] 2 ![1, 64]
  dot_S27x200x64_S27x64x32_S27x200x32_2_1_1_2_0_0_wf : DotDims.WF S27x200x64 S27x64x32 S27x200x32 [2] [1] [1] [2] [0] [0]
  scatter_S400000x32_S2700000x1_S2700000x32_1_0_0_1_wf : ScatterDims.WF S400000x32 S2700000x1 S2700000x32 [1] [0] [0] 1
  gather_S400000x64_S27x120000x1_S27x120000x64_2_0_n_n_0_2_164_wf : GatherDims.WF S400000x64 S27x120000x1 S27x120000x64 [2] [0] [] [0] [] 2 ![1, 64]
  scatter_S400000x32_S3240000x1_S3240000x32_1_0_0_1_wf : ScatterDims.WF S400000x32 S3240000x1 S3240000x32 [1] [0] [0] 1
  gather_S400000x32_S27x120000x1_S27x120000x32_2_0_n_n_0_2_132_wf : GatherDims.WF S400000x32 S27x120000x1 S27x120000x32 [2] [0] [] [0] [] 2 ![1, 32]
  dot_S27x200x32_S27x32x32_S27x200x32_2_1_1_2_0_0_wf : DotDims.WF S27x200x32 S27x32x32 S27x200x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S27x200x64.size a ≤ S27x100000x64.size a
  hwx0_0 : ∀ i : grid0.Coords, EltTy.bits .f32 = 32 ∨ (Rect.block (s := S27x100000x64) S27x200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x64x32.size a ≤ S27x64x32.size a
  hwx0_1 : ∀ i : grid0.Coords, EltTy.bits .f32 = 32 ∨ (Rect.block (s := S27x64x32) S27x64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S27x200x32.size a ≤ S27x100000x32.size a
  hwx0_2 : ∀ i : grid0.Coords, EltTy.bits .f32 = 32 ∨ (Rect.block (s := S27x100000x32) S27x200x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S400000x32.size a
  hwx1_0 : ∀ i : grid1.Coords, EltTy.bits .f32 = 32 ∨ (Rect.block (s := S400000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S400000x32.size a
  hwx2_0 : ∀ i : grid2.Coords, EltTy.bits .f32 = 32 ∨ (Rect.block (s := S400000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x32.size a ≤ S400000x32.size a
  hwx2_6 : ∀ i : grid2.Coords, EltTy.bits .f32 = 32 ∨ (Rect.block (s := S400000x32) S10000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S27x200x64.size a ≤ S27x120000x64.size a
  hwx3_0 : ∀ i : grid3.Coords, EltTy.bits .f32 = 32 ∨ (Rect.block (s := S27x120000x64) S27x200x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S27x64x32.size a ≤ S27x64x32.size a
  hwx3_1 : ∀ i : grid3.Coords, EltTy.bits .f32 = 32 ∨ (Rect.block (s := S27x64x32) S27x64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S27x200x32.size a ≤ S27x120000x32.size a
  hwx3_2 : ∀ i : grid3.Coords, EltTy.bits .f32 = 32 ∨ (Rect.block (s := S27x120000x32) S27x200x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S400000x32.size a
  hwx4_0 : ∀ i : grid4.Coords, EltTy.bits .f32 = 32 ∨ (Rect.block (s := S400000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S400000x32.size a
  hwx5_0 : ∀ i : grid5.Coords, EltTy.bits .f32 = 32 ∨ (Rect.block (s := S400000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x32.size a ≤ S400000x32.size a
  hwx5_6 : ∀ i : grid5.Coords, EltTy.bits .f32 = 32 ∨ (Rect.block (s := S400000x32) S10000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S27x200x32.size a ≤ S27x120000x32.size a
  hwx6_0 : ∀ i : grid6.Coords, EltTy.bits .f32 = 32 ∨ (Rect.block (s := S27x120000x32) S27x200x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S27x32x32.size a ≤ S27x32x32.size a
  hwx6_1 : ∀ i : grid6.Coords, EltTy.bits .f32 = 32 ∨ (Rect.block (s := S27x32x32) S27x32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S27x200x32.size a ≤ S27x120000x32.size a
  hwx6_2 : ∀ i : grid6.Coords, EltTy.bits .f32 = 32 ∨ (Rect.block (s := S27x120000x32) S27x200x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S400000x32.size a
  hwx7_0 : ∀ i : grid7.Coords, EltTy.bits .f32 = 32 ∨ (Rect.block (s := S400000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S400000x32.size a
  hwx8_0 : ∀ i : grid8.Coords, EltTy.bits .f32 = 32 ∨ (Rect.block (s := S400000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x32.size a ≤ S1x32.size a
  hwx8_5 : ∀ i : grid8.Coords, EltTy.bits .f32 = 32 ∨ (Rect.block (s := S1x32) S1x32.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x32.size a ≤ S400000x32.size a
  hwx8_6 : ∀ i : grid8.Coords, EltTy.bits .f32 = 32 ∨ (Rect.block (s := S400000x32) S10000x32.size (cc8_transform_6 i) (hinb8_6 i)).WholeWords (EltTy.packing .f32)

variable [Facts₀]

def gather_S100000x64_S27x100000x1_S27x100000x64_2_0_n_n_0_2_164 : GatherDims S100000x64 S27x100000x1 S27x100000x64 where
  offsetDims := [2]
  collapsedSliceDims := [0]
  operandBatchingDims := []
  startIndicesBatchingDims := []
  startIndexMap := [0]
  indexVectorDim := 2
  sliceSizes := ![1, 64]
  wf := gather_S100000x64_S27x100000x1_S27x100000x64_2_0_n_n_0_2_164_wf
def dot_S27x200x64_S27x64x32_S27x200x32_2_1_1_2_0_0 : DotDims S27x200x64 S27x64x32 S27x200x32 where
  lhsContracting := [2]
  rhsContracting := [1]
  lhsNonContracting := [1]
  rhsNonContracting := [2]
  lhsBatch := [0]
  rhsBatch := [0]
  wf := dot_S27x200x64_S27x64x32_S27x200x32_2_1_1_2_0_0_wf
def scatter_S400000x32_S2700000x1_S2700000x32_1_0_0_1 : ScatterDims S400000x32 S2700000x1 S2700000x32 where
  updateWindowDims := [1]
  insertedWindowDims := [0]
  scatterDimsToOperandDims := [0]
  indexVectorDim := 1
  wf := scatter_S400000x32_S2700000x1_S2700000x32_1_0_0_1_wf
def gather_S400000x64_S27x120000x1_S27x120000x64_2_0_n_n_0_2_164 : GatherDims S400000x64 S27x120000x1 S27x120000x64 where
  offsetDims := [2]
  collapsedSliceDims := [0]
  operandBatchingDims := []
  startIndicesBatchingDims := []
  startIndexMap := [0]
  indexVectorDim := 2
  sliceSizes := ![1, 64]
  wf := gather_S400000x64_S27x120000x1_S27x120000x64_2_0_n_n_0_2_164_wf
def scatter_S400000x32_S3240000x1_S3240000x32_1_0_0_1 : ScatterDims S400000x32 S3240000x1 S3240000x32 where
  updateWindowDims := [1]
  insertedWindowDims := [0]
  scatterDimsToOperandDims := [0]
  indexVectorDim := 1
  wf := scatter_S400000x32_S3240000x1_S3240000x32_1_0_0_1_wf
def gather_S400000x32_S27x120000x1_S27x120000x32_2_0_n_n_0_2_132 : GatherDims S400000x32 S27x120000x1 S27x120000x32 where
  offsetDims := [2]
  collapsedSliceDims := [0]
  operandBatchingDims := []
  startIndicesBatchingDims := []
  startIndexMap := [0]
  indexVectorDim := 2
  sliceSizes := ![1, 32]
  wf := gather_S400000x32_S27x120000x1_S27x120000x32_2_0_n_n_0_2_132_wf
def dot_S27x200x32_S27x32x32_S27x200x32_2_1_1_2_0_0 : DotDims S27x200x32 S27x32x32 S27x200x32 where
  lhsContracting := [2]
  rhsContracting := [1]
  lhsNonContracting := [1]
  rhsNonContracting := [2]
  lhsBatch := [0]
  rhsBatch := [0]
  wf := dot_S27x200x32_S27x32x32_S27x200x32_2_1_1_2_0_0_wf

abbrev win0_0 : Pipeline.Window sig grid0 :=
  Pipeline.Window.ofSpec (Memref.whole main_v7) S27x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S27x64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S27x200x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S1x32.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S1x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S10000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v34) S27x200x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S27x64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S27x200x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44_0) S1x32.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44_1) S1x32.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v40) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v46) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v52) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v42) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v53) S10000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v60) S27x200x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S27x32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S27x200x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v66) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v70_0) S1x32.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70_1) S1x32.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v66) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v67) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v72) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v78) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v68) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v69) S1x32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v79) S10000x32.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x64 : Shape := ⟨2, ![100000, 64]⟩
abbrev S400000x32 : Shape := ⟨2, ![400000, 32]⟩
abbrev S27x64x32 : Shape := ⟨3, ![27, 64, 32]⟩
abbrev S32 : Shape := ⟨1, ![32]⟩
abbrev S27x32x32 : Shape := ⟨3, ![27, 32, 32]⟩
abbrev S27x100000 : Shape := ⟨2, ![27, 100000]⟩
abbrev S27x120000 : Shape := ⟨2, ![27, 120000]⟩
abbrev S_ : Shape := ⟨0, ![]⟩
abbrev S27x100000x1 : Shape := ⟨3, ![27, 100000, 1]⟩
abbrev S27x100000x64 : Shape := ⟨3, ![27, 100000, 64]⟩
abbrev S27x100000x32 : Shape := ⟨3, ![27, 100000, 32]⟩
abbrev S2700000x32 : Shape := ⟨2, ![2700000, 32]⟩
abbrev S2700000 : Shape := ⟨1, ![2700000]⟩
abbrev S2700000x1 : Shape := ⟨2, ![2700000, 1]⟩
abbrev S1x32 : Shape := ⟨2, ![1, 32]⟩
abbrev S400000x64 : Shape := ⟨2, ![400000, 64]⟩
abbrev S27x120000x1 : Shape := ⟨3, ![27, 120000, 1]⟩
abbrev S27x120000x64 : Shape := ⟨3, ![27, 120000, 64]⟩
abbrev S27x120000x32 : Shape := ⟨3, ![27, 120000, 32]⟩
abbrev S3240000x32 : Shape := ⟨2, ![3240000, 32]⟩
abbrev S3240000 : Shape := ⟨1, ![3240000]⟩
abbrev S3240000x1 : Shape := ⟨2, ![3240000, 1]⟩

abbrev nBuf : Space → Nat
  | .hbm => 211
  | .vmem => 0
  | .smem => 0
  | _ => 0

abbrev hbmTy0_0 (i : Nat) : BufTy := match i % 128 with
  | 0 => ⟨S100000x64, .f32⟩
  | 1 => ⟨S400000x32, .f32⟩
  | 2 => ⟨S27x64x32, .f32⟩
  | 3 => ⟨S32, .f32⟩
  | 4 => ⟨S32, .f32⟩
  | 5 => ⟨S32, .f32⟩
  | 6 => ⟨S27x64x32, .f32⟩
  | 7 => ⟨S32, .f32⟩
  | 8 => ⟨S32, .f32⟩
  | 9 => ⟨S27x32x32, .f32⟩
  | 10 => ⟨S32, .f32⟩
  | 11 => ⟨S32, .f32⟩
  | 12 => ⟨S27x100000, .i32⟩
  | 13 => ⟨S27x100000, .i32⟩
  | 14 => ⟨S27x120000, .i32⟩
  | 15 => ⟨S27x120000, .i32⟩
  | 16 => ⟨S27x120000, .i32⟩
  | 17 => ⟨S27x120000, .i32⟩
  | 18 => ⟨S_, .i32⟩
  | 19 => ⟨S27x100000, .i32⟩
  | 20 => ⟨S27x100000, .i1⟩
  | 21 => ⟨S_, .i32⟩
  | 22 => ⟨S27x100000, .i32⟩
  | 23 => ⟨S27x100000, .i32⟩
  | 24 => ⟨S27x100000, .i32⟩
  | 25 => ⟨S27x100000x1, .i32⟩
  | 26 => ⟨S27x100000x64, .f32⟩
  | 27 => ⟨S27x100000x32, .f32⟩
  | 28 => ⟨S2700000x32, .f32⟩
  | 29 => ⟨S2700000, .i32⟩
  | 30 => ⟨S_, .f32⟩
  | 31 => ⟨S400000x32, .f32⟩
  | 32 => ⟨S2700000x1, .i32⟩
  | 33 => ⟨S400000x32, .f32⟩
  | 34 => ⟨S1x32, .f32⟩
  | 35 => ⟨S400000x32, .f32⟩
  | 36 => ⟨S400000x32, .f32⟩
  | 37 => ⟨S_, .f32⟩
  | 38 => ⟨S32, .f32⟩
  | 39 => ⟨S_, .f32⟩
  | 40 => ⟨S32, .f32⟩
  | 41 => ⟨S32, .f32⟩
  | 42 => ⟨S_, .i32⟩
  | 43 => ⟨S_, .f32⟩
  | 44 => ⟨S32, .f32⟩
  | 45 => ⟨S1x32, .f32⟩
  | 46 => ⟨S_, .f32⟩
  | 47 => ⟨S1x32, .f32⟩
  | 48 => ⟨S1x32, .f32⟩
  | 49 => ⟨S400000x32, .f32⟩
  | 50 => ⟨S400000x32, .f32⟩
  | 51 => ⟨S400000x32, .f32⟩
  | 52 => ⟨S_, .f32⟩
  | 53 => ⟨S_, .f32⟩
  | 54 => ⟨S_, .f32⟩
  | 55 => ⟨S_, .f32⟩
  | 56 => ⟨S32, .f32⟩
  | 57 => ⟨S32, .f32⟩
  | 58 => ⟨S32, .f32⟩
  | 59 => ⟨S_, .f32⟩
  | 60 => ⟨S_, .i1⟩
  | 61 => ⟨S_, .f32⟩
  | 62 => ⟨S_, .f32⟩
  | 63 => ⟨S32, .f32⟩
  | 64 => ⟨S32, .f32⟩
  | 65 => ⟨S1x32, .f32⟩
  | 66 => ⟨S400000x32, .f32⟩
  | 67 => ⟨S400000x32, .f32⟩
  | 68 => ⟨S_, .f32⟩
  | 69 => ⟨S32, .f32⟩
  | 70 => ⟨S32, .f32⟩
  | 71 => ⟨S32, .f32⟩
  | 72 => ⟨S1x32, .f32⟩
  | 73 => ⟨S400000x32, .f32⟩
  | 74 => ⟨S400000x32, .f32⟩
  | 75 => ⟨S1x32, .f32⟩
  | 76 => ⟨S400000x32, .f32⟩
  | 77 => ⟨S400000x32, .f32⟩
  | 78 => ⟨S1x32, .f32⟩
  | 79 => ⟨S400000x32, .f32⟩
  | 80 => ⟨S400000x32, .f32⟩
  | 81 => ⟨S_, .f32⟩
  | 82 => ⟨S400000x32, .f32⟩
  | 83 => ⟨S400000x32, .f32⟩
  | 84 => ⟨S400000x64, .f32⟩
  | 85 => ⟨S_, .i32⟩
  | 86 => ⟨S27x120000, .i32⟩
  | 87 => ⟨S27x120000, .i1⟩
  | 88 => ⟨S_, .i32⟩
  | 89 => ⟨S27x120000, .i32⟩
  | 90 => ⟨S27x120000, .i32⟩
  | 91 => ⟨S27x120000, .i32⟩
  | 92 => ⟨S27x120000x1, .i32⟩
  | 93 => ⟨S27x120000x64, .f32⟩
  | 94 => ⟨S27x120000x32, .f32⟩
  | 95 => ⟨S3240000x32, .f32⟩
  | 96 => ⟨S3240000, .i32⟩
  | 97 => ⟨S_, .f32⟩
  | 98 => ⟨S400000x32, .f32⟩
  | 99 => ⟨S3240000x1, .i32⟩
  | 100 => ⟨S400000x32, .f32⟩
  | 101 => ⟨S_, .f32⟩
  | 102 => ⟨S32, .f32⟩
  | 103 => ⟨S_, .f32⟩
  | 104 => ⟨S32, .f32⟩
  | 105 => ⟨S32, .f32⟩
  | 106 => ⟨S_, .i32⟩
  | 107 => ⟨S_, .f32⟩
  | 108 => ⟨S32, .f32⟩
  | 109 => ⟨S1x32, .f32⟩
  | 110 => ⟨S_, .f32⟩
  | 111 => ⟨S1x32, .f32⟩
  | 112 => ⟨S1x32, .f32⟩
  | 113 => ⟨S400000x32, .f32⟩
  | 114 => ⟨S400000x32, .f32⟩
  | 115 => ⟨S400000x32, .f32⟩
  | 116 => ⟨S_, .f32⟩
  | 117 => ⟨S_, .f32⟩
  | 118 => ⟨S_, .f32⟩
  | 119 => ⟨S_, .f32⟩
  | 120 => ⟨S32, .f32⟩
  | 121 => ⟨S32, .f32⟩
  | 122 => ⟨S32, .f32⟩
  | 123 => ⟨S_, .f32⟩
  | 124 => ⟨S_, .i1⟩
  | 125 => ⟨S_, .f32⟩
  | 126 => ⟨S_, .f32⟩
  | 127 => ⟨S32, .f32⟩
  | _ => ⟨S100000x64, .f32⟩

abbrev hbmTy0_1 (i : Nat) : BufTy := match i % 128 with
  | 0 => ⟨S32, .f32⟩
  | 1 => ⟨S1x32, .f32⟩
  | 2 => ⟨S400000x32, .f32⟩
  | 3 => ⟨S400000x32, .f32⟩
  | 4 => ⟨S_, .f32⟩
  | 5 => ⟨S32, .f32⟩
  | 6 => ⟨S32, .f32⟩
  | 7 => ⟨S32, .f32⟩
  | 8 => ⟨S1x32, .f32⟩
  | 9 => ⟨S400000x32, .f32⟩
  | 10 => ⟨S400000x32, .f32⟩
  | 11 => ⟨S1x32, .f32⟩
  | 12 => ⟨S400000x32, .f32⟩
  | 13 => ⟨S400000x32, .f32⟩
  | 14 => ⟨S1x32, .f32⟩
  | 15 => ⟨S400000x32, .f32⟩
  | 16 => ⟨S400000x32, .f32⟩
  | 17 => ⟨S_, .f32⟩
  | 18 => ⟨S400000x32, .f32⟩
  | 19 => ⟨S400000x32, .f32⟩
  | 20 => ⟨S_, .i32⟩
  | 21 => ⟨S27x120000, .i32⟩
  | 22 => ⟨S27x120000, .i1⟩
  | 23 => ⟨S_, .i32⟩
  | 24 => ⟨S27x120000, .i32⟩
  | 25 => ⟨S27x120000, .i32⟩
  | 26 => ⟨S27x120000, .i32⟩
  | 27 => ⟨S27x120000x1, .i32⟩
  | 28 => ⟨S27x120000x32, .f32⟩
  | 29 => ⟨S27x120000x32, .f32⟩
  | 30 => ⟨S3240000x32, .f32⟩
  | 31 => ⟨S3240000, .i32⟩
  | 32 => ⟨S_, .f32⟩
  | 33 => ⟨S400000x32, .f32⟩
  | 34 => ⟨S3240000x1, .i32⟩
  | 35 => ⟨S400000x32, .f32⟩
  | 36 => ⟨S_, .f32⟩
  | 37 => ⟨S32, .f32⟩
  | 38 => ⟨S_, .f32⟩
  | 39 => ⟨S32, .f32⟩
  | 40 => ⟨S32, .f32⟩
  | 41 => ⟨S_, .i32⟩
  | 42 => ⟨S_, .f32⟩
  | 43 => ⟨S32, .f32⟩
  | 44 => ⟨S1x32, .f32⟩
  | 45 => ⟨S_, .f32⟩
  | 46 => ⟨S1x32, .f32⟩
  | 47 => ⟨S1x32, .f32⟩
  | 48 => ⟨S400000x32, .f32⟩
  | 49 => ⟨S400000x32, .f32⟩
  | 50 => ⟨S400000x32, .f32⟩
  | 51 => ⟨S_, .f32⟩
  | 52 => ⟨S_, .f32⟩
  | 53 => ⟨S_, .f32⟩
  | 54 => ⟨S_, .f32⟩
  | 55 => ⟨S32, .f32⟩
  | 56 => ⟨S32, .f32⟩
  | 57 => ⟨S32, .f32⟩
  | 58 => ⟨S_, .f32⟩
  | 59 => ⟨S_, .i1⟩
  | 60 => ⟨S_, .f32⟩
  | 61 => ⟨S_, .f32⟩
  | 62 => ⟨S32, .f32⟩
  | 63 => ⟨S32, .f32⟩
  | 64 => ⟨S1x32, .f32⟩
  | 65 => ⟨S400000x32, .f32⟩
  | 66 => ⟨S400000x32, .f32⟩
  | 67 => ⟨S_, .f32⟩
  | 68 => ⟨S32, .f32⟩
  | 69 => ⟨S32, .f32⟩
  | 70 => ⟨S32, .f32⟩
  | 71 => ⟨S1x32, .f32⟩
  | 72 => ⟨S400000x32, .f32⟩
  | 73 => ⟨S400000x32, .f32⟩
  | 74 => ⟨S1x32, .f32⟩
  | 75 => ⟨S400000x32, .f32⟩
  | 76 => ⟨S400000x32, .f32⟩
  | 77 => ⟨S1x32, .f32⟩
  | 78 => ⟨S400000x32, .f32⟩
  | 79 => ⟨S400000x32, .f32⟩
  | 80 => ⟨S_, .f32⟩
  | 81 => ⟨S400000x32, .f32⟩
  | 82 => ⟨S400000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call1_cst : Ref sig .tc := ⟨.hbm, 81, rfl⟩
abbrev main_call1_v0 : Ref sig .tc := ⟨.hbm, 82, rfl⟩
abbrev main_v35 : Ref sig .tc := ⟨.hbm, 83, rfl⟩
abbrev main_v36 : Ref sig .tc := ⟨.hbm, 84, rfl⟩
abbrev main_c_5 : Ref sig .tc := ⟨.hbm, 85, rfl⟩
abbrev main_v37 : Ref sig .tc := ⟨.hbm, 86, rfl⟩
abbrev main_v38 : Ref sig .tc := ⟨.hbm, 87, rfl⟩
abbrev main_c_6 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_7 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_8 : Ref sig .tc := ⟨.hbm, 101, rfl⟩
abbrev main_v50 : Ref sig .tc := ⟨.hbm, 102, rfl⟩
abbrev main_cst_9 : Ref sig .tc := ⟨.hbm, 103, rfl⟩
abbrev main_v51 : Ref sig .tc := ⟨.hbm, 104, rfl⟩
abbrev main_v52 : Ref sig .tc := ⟨.hbm, 105, rfl⟩
abbrev main_c_10 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_cst_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_v7 : Ref sig .tc := ⟨.hbm, 116, rfl⟩
abbrev main_call2_cst_1 : Ref sig .tc := ⟨.hbm, 117, rfl⟩
abbrev main_call2_v8 : Ref sig .tc := ⟨.hbm, 118, rfl⟩
abbrev main_call2_cst_2 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_cst_3 : Ref sig .tc := ⟨.hbm, 123, rfl⟩
abbrev main_call2_v12 : Ref sig .tc := ⟨.hbm, 124, rfl⟩
abbrev main_call2_cst_4 : Ref sig .tc := ⟨.hbm, 125, rfl⟩
abbrev main_call2_call0_v0 : Ref sig .tc := ⟨.hbm, 126, rfl⟩
abbrev main_call2_call0_v1 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_cst_11 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_call3_cst : Ref sig .tc := ⟨.hbm, 145, rfl⟩
abbrev main_call3_v0 : Ref sig .tc := ⟨.hbm, 146, rfl⟩
abbrev main_v69 : Ref sig .tc := ⟨.hbm, 147, rfl⟩
abbrev main_c_12 : Ref sig .tc := ⟨.hbm, 148, rfl⟩
abbrev main_v70 : Ref sig .tc := ⟨.hbm, 149, rfl⟩
abbrev main_v71 : Ref sig .tc := ⟨.hbm, 150, rfl⟩
abbrev main_c_13 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_cst_14 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_cst_15 : Ref sig .tc := ⟨.hbm, 164, rfl⟩
abbrev main_v83 : Ref sig .tc := ⟨.hbm, 165, rfl⟩
abbrev main_cst_16 : Ref sig .tc := ⟨.hbm, 166, rfl⟩
abbrev main_v84 : Ref sig .tc := ⟨.hbm, 167, rfl⟩
abbrev main_v85 : Ref sig .tc := ⟨.hbm, 168, rfl⟩
abbrev main_c_17 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_cst_3 : Ref sig .tc := ⟨.hbm, 186, rfl⟩
abbrev main_call4_v12 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_cst_18 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_call5_cst : Ref sig .tc := ⟨.hbm, 208, rfl⟩
abbrev main_call5_v0 : Ref sig .tc := ⟨.hbm, 209, rfl⟩
abbrev main_v102 : Ref sig .tc := ⟨.hbm, 210, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  shapeCasts_S27x100000x32_S2700000x32 : S27x100000x32.ShapeCasts S2700000x32
  shapeCasts_S27x100000_S2700000 : S27x100000.ShapeCasts S2700000
  bcast_S_S400000x32 : S_.BroadcastsInDim S400000x32 (![] : Fin 0 → Fin S400000x32.rank)
  bcast_S2700000_S2700000x1_0 : S2700000.BroadcastsInDim S2700000x1 (![0] : Fin 1 → Fin S2700000x1.rank)
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  reducesTo_S400000x32_S32_d0 : S400000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  concatenates_S400000x32_S400000x32_S400000x64_d1 : Shape.Concatenates [S400000x32, S400000x32] S400000x64 1
  bcast_S_S27x120000 : S_.BroadcastsInDim S27x120000 (![] : Fin 0 → Fin S27x120000.rank)
  bcast_S27x120000_S27x120000x1_0_1 : S27x120000.BroadcastsInDim S27x120000x1 (![0, 1] : Fin 2 → Fin S27x120000x1.rank)
  shapeCasts_S27x120000x32_S3240000x32 : S27x120000x32.ShapeCasts S3240000x32
  shapeCasts_S27x120000_S3240000 : S27x120000.ShapeCasts S3240000
  bcast_S3240000_S3240000x1_0 : S3240000.BroadcastsInDim S3240000x1 (![0] : Fin 1 → Fin S3240000x1.rank)
  gather_S100000x64_S27x100000x1_S27x100000x64_2_0_n_n_0_2_164_wf : GatherDims.WF S100000x64 S27x100000x1 S27x100000x64 [2] [0] [] [0] [] 2 ![1, 64]
  dot_S27x100000x64_S27x64x32_S27x100000x32_2_1_1_2_0_0_wf : DotDims.WF S27x100000x64 S27x64x32 S27x100000x32 [2] [1] [1] [2] [0] [0]
  scatter_S400000x32_S2700000x1_S2700000x32_1_0_0_1_wf : ScatterDims.WF S400000x32 S2700000x1 S2700000x32 [1] [0] [0] 1
  gather_S400000x64_S27x120000x1_S27x120000x64_2_0_n_n_0_2_164_wf : GatherDims.WF S400000x64 S27x120000x1 S27x120000x64 [2] [0] [] [0] [] 2 ![1, 64]
  dot_S27x120000x64_S27x64x32_S27x120000x32_2_1_1_2_0_0_wf : DotDims.WF S27x120000x64 S27x64x32 S27x120000x32 [2] [1] [1] [2] [0] [0]
  scatter_S400000x32_S3240000x1_S3240000x32_1_0_0_1_wf : ScatterDims.WF S400000x32 S3240000x1 S3240000x32 [1] [0] [0] 1
  gather_S400000x32_S27x120000x1_S27x120000x32_2_0_n_n_0_2_132_wf : GatherDims.WF S400000x32 S27x120000x1 S27x120000x32 [2] [0] [] [0] [] 2 ![1, 32]
  dot_S27x120000x32_S27x32x32_S27x120000x32_2_1_1_2_0_0_wf : DotDims.WF S27x120000x32 S27x32x32 S27x120000x32 [2] [1] [1] [2] [0] [0]

variable [Facts₀]

def gather_S100000x64_S27x100000x1_S27x100000x64_2_0_n_n_0_2_164 : GatherDims S100000x64 S27x100000x1 S27x100000x64 where
  offsetDims := [2]
  collapsedSliceDims := [0]
  operandBatchingDims := []
  startIndicesBatchingDims := []
  startIndexMap := [0]
  indexVectorDim := 2
  sliceSizes := ![1, 64]
  wf := gather_S100000x64_S27x100000x1_S27x100000x64_2_0_n_n_0_2_164_wf
def dot_S27x100000x64_S27x64x32_S27x100000x32_2_1_1_2_0_0 : DotDims S27x100000x64 S27x64x32 S27x100000x32 where
  lhsContracting := [2]
  rhsContracting := [1]
  lhsNonContracting := [1]
  rhsNonContracting := [2]
  lhsBatch := [0]
  rhsBatch := [0]
  wf := dot_S27x100000x64_S27x64x32_S27x100000x32_2_1_1_2_0_0_wf
def scatter_S400000x32_S2700000x1_S2700000x32_1_0_0_1 : ScatterDims S400000x32 S2700000x1 S2700000x32 where
  updateWindowDims := [1]
  insertedWindowDims := [0]
  scatterDimsToOperandDims := [0]
  indexVectorDim := 1
  wf := scatter_S400000x32_S2700000x1_S2700000x32_1_0_0_1_wf
def gather_S400000x64_S27x120000x1_S27x120000x64_2_0_n_n_0_2_164 : GatherDims S400000x64 S27x120000x1 S27x120000x64 where
  offsetDims := [2]
  collapsedSliceDims := [0]
  operandBatchingDims := []
  startIndicesBatchingDims := []
  startIndexMap := [0]
  indexVectorDim := 2
  sliceSizes := ![1, 64]
  wf := gather_S400000x64_S27x120000x1_S27x120000x64_2_0_n_n_0_2_164_wf
def dot_S27x120000x64_S27x64x32_S27x120000x32_2_1_1_2_0_0 : DotDims S27x120000x64 S27x64x32 S27x120000x32 where
  lhsContracting := [2]
  rhsContracting := [1]
  lhsNonContracting := [1]
  rhsNonContracting := [2]
  lhsBatch := [0]
  rhsBatch := [0]
  wf := dot_S27x120000x64_S27x64x32_S27x120000x32_2_1_1_2_0_0_wf
def scatter_S400000x32_S3240000x1_S3240000x32_1_0_0_1 : ScatterDims S400000x32 S3240000x1 S3240000x32 where
  updateWindowDims := [1]
  insertedWindowDims := [0]
  scatterDimsToOperandDims := [0]
  indexVectorDim := 1
  wf := scatter_S400000x32_S3240000x1_S3240000x32_1_0_0_1_wf
def gather_S400000x32_S27x120000x1_S27x120000x32_2_0_n_n_0_2_132 : GatherDims S400000x32 S27x120000x1 S27x120000x32 where
  offsetDims := [2]
  collapsedSliceDims := [0]
  operandBatchingDims := []
  startIndicesBatchingDims := []
  startIndexMap := [0]
  indexVectorDim := 2
  sliceSizes := ![1, 32]
  wf := gather_S400000x32_S27x120000x1_S27x120000x32_2_0_n_n_0_2_132_wf
def dot_S27x120000x32_S27x32x32_S27x120000x32_2_1_1_2_0_0 : DotDims S27x120000x32 S27x32x32 S27x120000x32 where
  lhsContracting := [2]
  rhsContracting := [1]
  lhsNonContracting := [1]
  rhsNonContracting := [2]
  lhsBatch := [0]
  rhsBatch := [0]
  wf := dot_S27x120000x32_S27x32x32_S27x120000x32_2_1_1_2_0_0_wf

class Facts : Prop extends Facts₀ where

variable [Facts]
-- ==== Proof.KerRun.lean ====
/-
  The idealized kernel's run with its RESULT kept. The program's @main is nine TensorCore regions among
  stretches of host operations; the frame's launch over these eighteen segments ends with every unscoped buffer of a
  core at the last boundary's contents (the fold `W18` of the segments over the launch memory). The frame
  statement reads only the eighteen argument arrays off that state; here the result buffer (the ninth region's
  output array) is read off it as well, so that the run's post names the result as `W18` at that buffer.
-/
import proofs.«172556_j661424964110_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result array at the last boundary's
    contents and the argument arrays as launched. -/
theorem run : θ_run defs (onTc (τ := τ) (main (F := F))) ⟨m, fun _ => 0, ρ⟩ (fun r => ∀ c : Dev nD,
      r.2.mem ((c.tc : Thread nD τ).loc main_v79) = W18 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v79 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c)⟩)

end Cert.KernelIdeal.KerRun

end
-- ==== Proof.KDefs.lean ====
/-
  The idealized kernel's batch normalisation as pure functions of arrays, at the ideal instance (a float an extended
  real, every operation exact). A stage's convolution result `H` (400000 rows, 32 channels) and a bias row `b` give
  the column sums of `H + b` and of its square (the statistics region, accumulated over forty blocks of rows); the host
  divides both by the row count, takes the second moment less the squared mean and clamps it at zero; the apply region
  then normalises every row, scales, shifts and rectifies.
-/
import proofs.«172556_j661424964110_2_alg».proof.Proof.Gen.KernelIdeal
import Idealize.ShloMosaic.PureOps.Ideal
import Idealize.ShloMosaic.Lib.ValueIdx

noncomputable section

namespace Cert.KVal

open Idealize.ShloMosaic Idealize.ShloMosaic.ValueIdx
open Cert.KernelIdeal Cert.KernelIdeal.Gen

/-- A per-channel vector as one row (32 -> 1 x 32). -/
def row (v : FVec Ideal S32 .f32) : FVec Ideal S1x32 .f32 := shapeCast S1x32 v shapeCasts_S32_S1x32

/-- The zero per-channel vector, the bias of the stages that have none. -/
def zero32 : FVec Ideal S32 .f32 := broadcastInDim S32 ![] bcast_S_S32 (constant (F := Ideal) S_ .f32 0x00000000#32)

/-- The column sums of `H + b` over the 400000 rows. -/
def colSum (H : S400000x32.Idx → EReal) (b : S1x32.Idx → EReal) : S1x32.Idx → EReal :=
  fun j => ∑ r : Fin 400000, (H (ix2 r (j 1)) + b (ix2 (0 : Fin 1) (j 1)))

/-- The column sums of the square of `H + b` over the 400000 rows. -/
def colSumSq (H : S400000x32.Idx → EReal) (b : S1x32.Idx → EReal) : S1x32.Idx → EReal :=
  fun j => ∑ r : Fin 400000, (H (ix2 r (j 1)) + b (ix2 (0 : Fin 1) (j 1))) * (H (ix2 r (j 1)) + b (ix2 (0 : Fin 1) (j 1)))

/-- The row of the row count 400000. -/
def rowsCount : FVec Ideal S1x32 .f32 := broadcastInDim S1x32 ![] bcast_S_S1x32 (constant (F := Ideal) S_ .f32 0x48C35000#32)

/-- The per-channel mean: the column sums divided by the row count. -/
def meanK (s : FVec Ideal S1x32 .f32) : FVec Ideal S1x32 .f32 := Host.divf (F := Ideal) s rowsCount

/-- The per-channel variance in one pass: the mean of the squares less the squared mean, clamped at zero. -/
def varK (s q : FVec Ideal S1x32 .f32) : FVec Ideal S1x32 .f32 :=
  maximumf (F := Ideal) (subf (F := Ideal) (Host.divf (F := Ideal) q rowsCount) (mulf (F := Ideal) (meanK s) (meanK s)))
    (broadcastInDim S1x32 ![] bcast_S_S1x32 (constant (F := Ideal) S_ .f32 0x00000000#32))

/-- The apply region's result: `max ((((H + b) - mu) * rsqrt (va + eps)) * ga + be) 0`, the per-channel rows read at the
    entry's channel. -/
def applyK (H : S400000x32.Idx → EReal) (b mu va ga be : S1x32.Idx → EReal) : S400000x32.Idx → EReal :=
  fun j => max (((((H j + b (ix2 (0 : Fin 1) (j 1 : Fin 32))) - mu (ix2 (0 : Fin 1) (j 1 : Fin 32)))
          * Ideal.rsqrt (va (ix2 (0 : Fin 1) (j 1 : Fin 32)) + Ideal.ofBits .f32 0x3727C5AC#32))
          * ga (ix2 (0 : Fin 1) (j 1 : Fin 32))
        + be (ix2 (0 : Fin 1) (j 1 : Fin 32))))
        (Ideal.ofBits .f32 0x00000000#32)

/-- The kernel's batch normalisation of `H` with bias row `b`, scale row `ga` and shift row `be`. -/
def bnK (H : S400000x32.Idx → EReal) (b ga be : S1x32.Idx → EReal) : S400000x32.Idx → EReal :=
  applyK H b (meanK (colSum H b)) (varK (colSum H b) (colSumSq H b)) ga be

end Cert.KVal

end
-- ==== Proof.RefRunDefs.lean ====
import proofs.«172556_j661424964110_2_alg».proof.Proof.Gen.ReferenceIdeal
import Idealize.ShloMosaic.PureOps.Ideal

/-!
The reference's result as a function of its eighteen argument arrays, at the ideal instance
(a float an extended real, every operation exact).

Three sparse-convolution stages. A stage gathers the rows of its input that an index table
names (a negative index counting from the end), multiplies each of the 27 slabs of gathered
rows by that slab's weight matrix, and adds every product row into the row of a zeroed
400000 x 32 array that a second index table names. Each stage is followed by a batch
normalisation over the 400000 rows with a learnt scale and shift, and a rectifier. Stage 1
adds a bias before normalising, and its result is concatenated with the skip input along the
channel axis before stage 2.
-/

noncomputable section

namespace Cert.ReferenceIdeal.RefRun

open Cert.ReferenceIdeal Idealize.ShloMosaic Idealize.SL.Sem
open Cert.ReferenceIdeal.Facts₀ Cert.ReferenceIdeal.Facts

/-- Stage 1's index normalisation over 100000 input rows: `idx < 0 ? idx + 100000 : idx`. -/
def normIdx1 (idx : IVec S27x100000 32) : IVec S27x100000 32 :=
  select (cmpi .slt idx (broadcastInDim S27x100000 ![] bcast_S_S27x100000 (constantI S_ 32 0#32)))
    (addi idx (broadcastInDim S27x100000 ![] bcast_S_S27x100000 (constantI S_ 32 100000#32))) idx

/-- Stages 2 and 3's index normalisation over 400000 input rows: `idx < 0 ? idx + 400000 : idx`. -/
def normIdx2 (idx : IVec S27x120000 32) : IVec S27x120000 32 :=
  select (cmpi .slt idx (broadcastInDim S27x120000 ![] bcast_S_S27x120000 (constantI S_ 32 0#32)))
    (addi idx (broadcastInDim S27x120000 ![] bcast_S_S27x120000 (constantI S_ 32 400000#32))) idx

/-- Stage 1's sparse convolution: gather 27 x 100000 rows of `x` (64 channels) at the normalised
    `inIdx`, contract slab `k` with `w k` (64 x 32), flatten to 2700000 rows and add row `r` into row
    `outIdx r` of the zero array. -/
def conv1 (x : FVec Ideal S100000x64 .f32) (w : FVec Ideal S27x64x32 .f32) (inIdx outIdx : IVec S27x100000 32) :
    FVec Ideal S400000x32 .f32 :=
  Host.scatterAdd (F := Ideal) scatter_S400000x32_S2700000x1_S2700000x32_1_0_0_1
    (broadcastInDim S400000x32 ![] bcast_S_S400000x32 (constant (F := Ideal) S_ .f32 0x00000000#32))
    (broadcastInDim S2700000x1 ![0] bcast_S2700000_S2700000x1_0
      (shapeCast S2700000 outIdx shapeCasts_S27x100000_S2700000))
    (shapeCast S2700000x32
      (Host.dotGeneral (F := Ideal) dot_S27x100000x64_S27x64x32_S27x100000x32_2_1_1_2_0_0 none
        (Host.gather gather_S100000x64_S27x100000x1_S27x100000x64_2_0_n_n_0_2_164 x
          (broadcastInDim S27x100000x1 ![0, 1] bcast_S27x100000_S27x100000x1_0_1 (normIdx1 inIdx)))
        w)
      shapeCasts_S27x100000x32_S2700000x32)

/-- Stage 2's sparse convolution: as `conv1`, over 27 x 120000 rows of a 400000 x 64 input. -/
def conv2 (x : FVec Ideal S400000x64 .f32) (w : FVec Ideal S27x64x32 .f32) (inIdx outIdx : IVec S27x120000 32) :
    FVec Ideal S400000x32 .f32 :=
  Host.scatterAdd (F := Ideal) scatter_S400000x32_S3240000x1_S3240000x32_1_0_0_1
    (broadcastInDim S400000x32 ![] bcast_S_S400000x32 (constant (F := Ideal) S_ .f32 0x00000000#32))
    (broadcastInDim S3240000x1 ![0] bcast_S3240000_S3240000x1_0
      (shapeCast S3240000 outIdx shapeCasts_S27x120000_S3240000))
    (shapeCast S3240000x32
      (Host.dotGeneral (F := Ideal) dot_S27x120000x64_S27x64x32_S27x120000x32_2_1_1_2_0_0 none
        (Host.gather gather_S400000x64_S27x120000x1_S27x120000x64_2_0_n_n_0_2_164 x
          (broadcastInDim S27x120000x1 ![0, 1] bcast_S27x120000_S27x120000x1_0_1 (normIdx2 inIdx)))
        w)
      shapeCasts_S27x120000x32_S3240000x32)

/-- Stage 3's sparse convolution: as `conv2`, over a 400000 x 32 input and 32 x 32 weights. -/
def conv3 (x : FVec Ideal S400000x32 .f32) (w : FVec Ideal S27x32x32 .f32) (inIdx outIdx : IVec S27x120000 32) :
    FVec Ideal S400000x32 .f32 :=
  Host.scatterAdd (F := Ideal) scatter_S400000x32_S3240000x1_S3240000x32_1_0_0_1
    (broadcastInDim S400000x32 ![] bcast_S_S400000x32 (constant (F := Ideal) S_ .f32 0x00000000#32))
    (broadcastInDim S3240000x1 ![0] bcast_S3240000_S3240000x1_0
      (shapeCast S3240000 outIdx shapeCasts_S27x120000_S3240000))
    (shapeCast S3240000x32
      (Host.dotGeneral (F := Ideal) dot_S27x120000x32_S27x32x32_S27x120000x32_2_1_1_2_0_0 none
        (Host.gather gather_S400000x32_S27x120000x1_S27x120000x32_2_0_n_n_0_2_132 x
          (broadcastInDim S27x120000x1 ![0, 1] bcast_S27x120000_S27x120000x1_0_1 (normIdx2 inIdx)))
        w)
      shapeCasts_S27x120000x32_S3240000x32)

/-- A per-channel vector repeated over all 400000 rows (32 -> 1 x 32 -> 400000 x 32). -/
def rows (v : FVec Ideal S32 .f32) : FVec Ideal S400000x32 .f32 :=
  broadcastInDim S400000x32 ![0, 1] bcast_S1x32_S400000x32_0_1 (broadcastInDim S1x32 ![1] bcast_S32_S1x32_1 v)

/-- The per-channel mean over the rows: the column sums divided by 400000. -/
def mean (h : FVec Ideal S400000x32 .f32) : FVec Ideal S32 .f32 :=
  Host.divf (F := Ideal)
    (Host.reduceAdd (F := Ideal) h (constant (F := Ideal) S_ .f32 0x00000000#32) reducesTo_S400000x32_S32_d0 h_S_)
    (broadcastInDim S32 ![] bcast_S_S32 (constant (F := Ideal) S_ .f32 0x48C35000#32))

/-- The variance's normaliser, a rank-zero array: 400000 minus the correction `0` converted to a float. -/
def varNorm : FVec Ideal S_ .f32 :=
  subf (F := Ideal) (constant (F := Ideal) S_ .f32 0x48C35000#32) (sitofp (F := Ideal) .f32 (constantI S_ 32 0#32))

/-- The rows with the per-channel mean subtracted, the mean taken keeping the reduced axis
    (column sums as 1 x 32, divided by 400000, repeated over the rows). -/
def centered (h : FVec Ideal S400000x32 .f32) : FVec Ideal S400000x32 .f32 :=
  subf (F := Ideal) h
    (broadcastInDim S400000x32 ![0, 1] bcast_S1x32_S400000x32_0_1
      (Host.divf (F := Ideal)
        (broadcastInDim S1x32 ![1] bcast_S32_S1x32_1
          (Host.reduceAdd (F := Ideal) h (constant (F := Ideal) S_ .f32 0x00000000#32) reducesTo_S400000x32_S32_d0 h_S_))
        (broadcastInDim S1x32 ![] bcast_S_S1x32 (constant (F := Ideal) S_ .f32 0x48C35000#32))))

/-- The per-channel variance over the rows: the column sums of the squared centred rows divided by the
    normaliser where the normaliser is positive, elsewhere the constant of bit pattern `0x7FC00000`. -/
def var (h : FVec Ideal S400000x32 .f32) : FVec Ideal S32 .f32 :=
  select
    (broadcastInDim S32 ![] bcast_S_S32
      (cmpf (F := Ideal) .ogt varNorm (constant (F := Ideal) S_ .f32 0x00000000#32)))
    (Host.divf (F := Ideal)
      (Host.reduceAdd (F := Ideal) (mulf (F := Ideal) (centered h) (centered h))
        (constant (F := Ideal) S_ .f32 0x00000000#32) reducesTo_S400000x32_S32_d0 h_S_)
      (broadcastInDim S32 ![] bcast_S_S32 varNorm))
    (broadcastInDim S32 ![] bcast_S_S32 (constant (F := Ideal) S_ .f32 0x7FC00000#32))

/-- The rectifier: the maximum with the zero array. -/
def relu (h : FVec Ideal S400000x32 .f32) : FVec Ideal S400000x32 .f32 :=
  maximumf (F := Ideal) h (broadcastInDim S400000x32 ![] bcast_S_S400000x32 (constant (F := Ideal) S_ .f32 0x00000000#32))

/-- Batch normalisation over the rows, then the rectifier:
    `relu (((h - mean) * rsqrt (var + eps)) * gamma + beta)`, every per-channel vector repeated over the rows,
    `eps` the constant of bit pattern `0x3727C5AC`. -/
def bn (h : FVec Ideal S400000x32 .f32) (gamma beta : FVec Ideal S32 .f32) : FVec Ideal S400000x32 .f32 :=
  relu
    (addf (F := Ideal)
      (mulf (F := Ideal)
        (mulf (F := Ideal)
          (subf (F := Ideal) h (rows (mean h)))
          (rows (Host.rsqrt (F := Ideal)
            (addf (F := Ideal) (var h) (broadcastInDim S32 ![] bcast_S_S32 (constant (F := Ideal) S_ .f32 0x3727C5AC#32))))))
        (rows gamma))
      (rows beta))

/-- Two 400000 x 32 arrays side by side along the channel axis. -/
def cat (a b : FVec Ideal S400000x32 .f32) : FVec Ideal S400000x64 .f32 :=
  concatenate S400000x64 1 [⟨S400000x32, a⟩, ⟨S400000x32, b⟩] concatenates_S400000x32_S400000x32_S400000x64_d1

/-- Stage 1: the convolution, the bias added to every row, the normalisation. -/
def stage1 (x : FVec Ideal S100000x64 .f32) (w_up : FVec Ideal S27x64x32 .f32) (b_up g_up bt_up : FVec Ideal S32 .f32)
    (up_in up_out : IVec S27x100000 32) : FVec Ideal S400000x32 .f32 :=
  bn (addf (F := Ideal) (conv1 x w_up up_in up_out) (rows b_up)) g_up bt_up

/-- Stage 2: the convolution of the previous stage's result beside the skip input, the normalisation. -/
def stage2 (h x_skip : FVec Ideal S400000x32 .f32) (w1 : FVec Ideal S27x64x32 .f32) (g1 bt1 : FVec Ideal S32 .f32)
    (c1_in c1_out : IVec S27x120000 32) : FVec Ideal S400000x32 .f32 :=
  bn (conv2 (cat h x_skip) w1 c1_in c1_out) g1 bt1

/-- Stage 3: the convolution of the previous stage's result, the normalisation. -/
def stage3 (h : FVec Ideal S400000x32 .f32) (w2 : FVec Ideal S27x32x32 .f32) (g2 bt2 : FVec Ideal S32 .f32)
    (c2_in c2_out : IVec S27x120000 32) : FVec Ideal S400000x32 .f32 :=
  bn (conv3 h w2 c2_in c2_out) g2 bt2

/-- The reference's result, of its arguments in order. -/
def out (x : FVec Ideal S100000x64 .f32) (x_skip : FVec Ideal S400000x32 .f32) (w_up : FVec Ideal S27x64x32 .f32)
    (b_up g_up bt_up : FVec Ideal S32 .f32) (w1 : FVec Ideal S27x64x32 .f32) (g1 bt1 : FVec Ideal S32 .f32)
    (w2 : FVec Ideal S27x32x32 .f32) (g2 bt2 : FVec Ideal S32 .f32) (up_in up_out : IVec S27x100000 32)
    (c1_in c1_out c2_in c2_out : IVec S27x120000 32) : FVec Ideal S400000x32 .f32 :=
  stage3 (stage2 (stage1 x w_up b_up g_up bt_up up_in up_out) x_skip w1 g1 bt1 c1_in c1_out) w2 g2 bt2 c2_in c2_out

end Cert.ReferenceIdeal.RefRun

end
-- ==== Proof.KConv.lean ====
/-
  The host operations that surround the kernel's matmul regions, in the kernel program's own vocabulary: the index
  normalisation (a negative index counts from the end), the gather of the rows an index table names, the flattening
  of the 27 slabs of products to one list of rows, and the accumulating scatter of those rows into a zeroed
  400000 x 32 array. They are the reference's operations word for word — only the contraction is a matmul region in
  the kernel, whose result array is the same batched contraction — so each equals the reference's definition outright.
-/
import proofs.«172556_j661424964110_2_alg».proof.Proof.Gen.KernelIdeal
import proofs.«172556_j661424964110_2_alg».proof.Proof.RefRunDefs
import Idealize.ShloMosaic.PureOps.Ideal

noncomputable section

namespace Cert.KVal

open Idealize.ShloMosaic Idealize.SL.Sem
open Cert.KernelIdeal Cert.KernelIdeal.Gen

/-- Stage 1's index normalisation over 100000 input rows: `idx < 0 ? idx + 100000 : idx`. -/
def knormIdx1 (idx : IVec S27x100000 32) : IVec S27x100000 32 :=
  select (cmpi .slt idx (broadcastInDim S27x100000 ![] bcast_S_S27x100000 (constantI S_ 32 0#32)))
    (addi idx (broadcastInDim S27x100000 ![] bcast_S_S27x100000 (constantI S_ 32 100000#32))) idx

/-- Stages 2 and 3's index normalisation over 400000 input rows: `idx < 0 ? idx + 400000 : idx`. -/
def knormIdx2 (idx : IVec S27x120000 32) : IVec S27x120000 32 :=
  select (cmpi .slt idx (broadcastInDim S27x120000 ![] bcast_S_S27x120000 (constantI S_ 32 0#32)))
    (addi idx (broadcastInDim S27x120000 ![] bcast_S_S27x120000 (constantI S_ 32 400000#32))) idx

/-- Stage 1's sparse convolution: gather 27 x 100000 rows of `x` (64 channels) at the normalised
    `inIdx`, contract slab `k` with `w k` (64 x 32), flatten to 2700000 rows and add row `r` into row
    `outIdx r` of the zero array. -/
def kconv1 (x : FVec Ideal S100000x64 .f32) (w : FVec Ideal S27x64x32 .f32) (inIdx outIdx : IVec S27x100000 32) :
    FVec Ideal S400000x32 .f32 :=
  Host.scatterAdd (F := Ideal) scatter_S400000x32_S2700000x1_S2700000x32_1_0_0_1
    (broadcastInDim S400000x32 ![] bcast_S_S400000x32 (constant (F := Ideal) S_ .f32 0x00000000#32))
    (broadcastInDim S2700000x1 ![0] bcast_S2700000_S2700000x1_0
      (shapeCast S2700000 outIdx shapeCasts_S27x100000_S2700000))
    (shapeCast S2700000x32
      (Host.dotGeneral (F := Ideal) Cert.ReferenceIdeal.dot_S27x100000x64_S27x64x32_S27x100000x32_2_1_1_2_0_0 none
        (Host.gather gather_S100000x64_S27x100000x1_S27x100000x64_2_0_n_n_0_2_164 x
          (broadcastInDim S27x100000x1 ![0, 1] bcast_S27x100000_S27x100000x1_0_1 (knormIdx1 inIdx)))
        w)
      shapeCasts_S27x100000x32_S2700000x32)

/-- Stage 2's sparse convolution: as `kconv1`, over 27 x 120000 rows of a 400000 x 64 input. -/
def kconv2 (x : FVec Ideal S400000x64 .f32) (w : FVec Ideal S27x64x32 .f32) (inIdx outIdx : IVec S27x120000 32) :
    FVec Ideal S400000x32 .f32 :=
  Host.scatterAdd (F := Ideal) scatter_S400000x32_S3240000x1_S3240000x32_1_0_0_1
    (broadcastInDim S400000x32 ![] bcast_S_S400000x32 (constant (F := Ideal) S_ .f32 0x00000000#32))
    (broadcastInDim S3240000x1 ![0] bcast_S3240000_S3240000x1_0
      (shapeCast S3240000 outIdx shapeCasts_S27x120000_S3240000))
    (shapeCast S3240000x32
      (Host.dotGeneral (F := Ideal) Cert.ReferenceIdeal.dot_S27x120000x64_S27x64x32_S27x120000x32_2_1_1_2_0_0 none
        (Host.gather gather_S400000x64_S27x120000x1_S27x120000x64_2_0_n_n_0_2_164 x
          (broadcastInDim S27x120000x1 ![0, 1] bcast_S27x120000_S27x120000x1_0_1 (knormIdx2 inIdx)))
        w)
      shapeCasts_S27x120000x32_S3240000x32)

/-- Stage 3's sparse convolution: as `kconv2`, over a 400000 x 32 input and 32 x 32 weights. -/
def kconv3 (x : FVec Ideal S400000x32 .f32) (w : FVec Ideal S27x32x32 .f32) (inIdx outIdx : IVec S27x120000 32) :
    FVec Ideal S400000x32 .f32 :=
  Host.scatterAdd (F := Ideal) scatter_S400000x32_S3240000x1_S3240000x32_1_0_0_1
    (broadcastInDim S400000x32 ![] bcast_S_S400000x32 (constant (F := Ideal) S_ .f32 0x00000000#32))
    (broadcastInDim S3240000x1 ![0] bcast_S3240000_S3240000x1_0
      (shapeCast S3240000 outIdx shapeCasts_S27x120000_S3240000))
    (shapeCast S3240000x32
      (Host.dotGeneral (F := Ideal) Cert.ReferenceIdeal.dot_S27x120000x32_S27x32x32_S27x120000x32_2_1_1_2_0_0 none
        (Host.gather gather_S400000x32_S27x120000x1_S27x120000x32_2_0_n_n_0_2_132 x
          (broadcastInDim S27x120000x1 ![0, 1] bcast_S27x120000_S27x120000x1_0_1 (knormIdx2 inIdx)))
        w)
      shapeCasts_S27x120000x32_S3240000x32)

/-- Two 400000 x 32 arrays side by side along the channel axis. -/
def kcat (a b : FVec Ideal S400000x32 .f32) : FVec Ideal S400000x64 .f32 :=
  concatenate S400000x64 1 [⟨S400000x32, a⟩, ⟨S400000x32, b⟩] concatenates_S400000x32_S400000x32_S400000x64_d1

open Cert.ReferenceIdeal.RefRun in
theorem kconv1_eq (x w inIdx outIdx) : kconv1 x w inIdx outIdx = conv1 x w inIdx outIdx := rfl
open Cert.ReferenceIdeal.RefRun in
theorem kconv2_eq (x w inIdx outIdx) : kconv2 x w inIdx outIdx = conv2 x w inIdx outIdx := rfl
open Cert.ReferenceIdeal.RefRun in
theorem kconv3_eq (x w inIdx outIdx) : kconv3 x w inIdx outIdx = conv3 x w inIdx outIdx := rfl
open Cert.ReferenceIdeal.RefRun in
theorem kcat_eq (a b) : kcat a b = cat a b := rfl

end Cert.KVal

end
-- ==== Proof.MatmulValue0.lean ====
/-
  The value of the matrix-product region (pipeline 0) at the ideal values, for any contents of the buffers at the region's
  entry. The grid has 500 points; point t stages rows 200 t … 200 t + 199 of each of the 27 members of the first operand
  [27, 100000, 64], the whole second operand [27, 64, 32], and writes back rows 200 t … 200 t + 199 of each member of
  the result [27, 100000, 32]. The body rounds both blocks to bf16 (the identity on extended reals) and multiplies them
  member by member into a zero accumulator. So the result array ends holding the batched product
      G A B (g, r, d) = ∑ k, A (g, r, k) * B (g, k, d),
  a finite sum of products of extended reals: no finiteness is needed. The steps: the payload at an index
  (`pay_apply`), the same with the blocks placed in the arrays (`pay_eq_G`), the index maps decided once over the grid
  (`idx_facts`), what a point writes back (`flushed_eq`), the cover (row r is written by point r / 200), and the
  whole-array statement (`arr`).
-/
import proofs.«172556_j661424964110_2_alg».proof.Proof.Gen.KernelIdeal.Frame
import Idealize.ShloMosaic.Lib.Pipeline.Value
import Idealize.ShloMosaic.Lib.StackMember
import Idealize.ShloMosaic.Lib.ValueIdx

noncomputable section

open Idealize.ShloMosaic Idealize.ShloMosaic.TcCoe Idealize.SL.Sem
open Idealize.ShloMosaic.ValueIdx
open Idealize.ShloMosaic.Pipeline (Dat)

namespace Cert.KernelIdeal.MatmulValue0

open Cert.KernelIdeal Cert.KernelIdeal.Gen

/-- The batched product of a stack of 27 matrices [100000, 64] with a stack of 27 matrices [64, 32]: entry
    (g, r, d) is the sum over k of A (g, r, k) * B (g, k, d). -/
def G (A : S27x100000x64.Idx → EReal) (B : S27x64x32.Idx → EReal) : S27x100000x32.Idx → EReal :=
  fun j => ∑ k : Fin 64, A (ix3 (j 0 : Fin 27) (j 1 : Fin 100000) k) * B (ix3 (j 0 : Fin 27) k (j 2 : Fin 32))

/-- The batched product at explicit coordinates. -/
theorem G_apply (A : S27x100000x64.Idx → EReal) (B : S27x64x32.Idx → EReal) (g : Fin 27) (r : Fin 100000) (d : Fin 32) :
    G A B (ix3 g r d) = ∑ k : Fin 64, A (ix3 g r k) * B (ix3 g k d) := rfl

/-- The body's payload at an index: the product of the two blocks, member by member. The roundings to bf16 are the
    identity on extended reals, and the product into the zero accumulator is the bare sum over the contracted axis. -/
theorem pay_apply (x0 : Vec Ideal S27x200x64 .f32) (x1 : Vec Ideal S27x64x32 .f32) (g : Fin 27) (a : Fin 200) (b : Fin 32) :
    k0_pay1 x0 x1 (ix3 g a b) = ∑ k : Fin 64, x0 (ix3 g a k) * x1 (ix3 g k b) := by
  unfold k0_pay1
  simp only [shapeCast_self]
  rw [matmul_zero_eq_dotGeneral]
  exact StackMember.dotGeneral_stack_apply dot_S27x200x64_S27x64x32_S27x200x32_2_1_1_2_0_0.wf none _ _ g a b

/-- One entry of a block product, placed in the arrays: when the first block is rows 200 T … 200 T + 199 of every
    member of A (`e0` says where each of its entries sits), the second block is all of B (`e1`), and the entry sits in row
    200 T + y 1 of member y 0 (`hi`), it is that entry of the batched product. -/
theorem pay_eq_G (A : S27x100000x64.Idx → EReal) (B : S27x64x32.Idx → EReal)
    (x0 : Vec Ideal S27x200x64 .f32) (x1 : Vec Ideal S27x64x32 .f32)
    (e0 : S27x200x64.Idx → S27x100000x64.Idx) (e1 : S27x64x32.Idx → S27x64x32.Idx) (T : Nat)
    (hx0 : ∀ z, x0 z = A (e0 z)) (hx1 : ∀ z, x1 z = B (e1 z))
    (he0 : ∀ z, (e0 z 0).val = (z 0).val ∧ (e0 z 1).val = T * 200 + (z 1).val ∧ (e0 z 2).val = (z 2).val)
    (he1 : ∀ z, (e1 z 0).val = (z 0).val ∧ (e1 z 1).val = (z 1).val ∧ (e1 z 2).val = (z 2).val)
    (y : S27x200x32.Idx) (i : S27x100000x32.Idx)
    (hi : (i 0).val = (y 0).val ∧ (i 1).val = T * 200 + (y 1).val ∧ (i 2).val = (y 2).val) :
    k0_pay1 x0 x1 y = G A B i := by
  obtain ⟨g, a, b, rfl⟩ : ∃ (g : Fin 27) (a : Fin 200) (b : Fin 32), y = ix3 g a b := ⟨y 0, y 1, y 2, eq_ix3 y⟩
  rw [pay_apply]
  unfold G
  refine Finset.sum_congr rfl fun k _ => ?_
  rw [hx0, hx1]
  refine congrArg₂ (· * ·) (congrArg A ?_) (congrArg B ?_)
  · funext ax; apply Fin.ext
    match ax with
    | ⟨0, _⟩ => exact (he0 _).1.trans hi.1.symm
    | ⟨1, _⟩ => exact (he0 _).2.1.trans hi.2.1.symm
    | ⟨2, _⟩ => exact (he0 _).2.2
  · funext ax; apply Fin.ext
    match ax with
    | ⟨0, _⟩ => exact (he1 _).1.trans hi.1.symm
    | ⟨1, _⟩ => exact (he1 _).2.1
    | ⟨2, _⟩ => exact (he1 _).2.2.trans hi.2.2.symm

/-- The zero offsets of the body's whole-block loads and store, however spelt. -/
theorem hz : (![0, 0, 0] : Fin 3 → Nat) = fun _ => 0 := funext fun a => by fin_cases a <;> rfl

/-- The index maps, decided once over the grid: point t stages block (0, t, 0) of the first operand and of the
    result, and block (0, 0, 0) — the whole — of the second operand. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- What point t writes back is block t of the batched product of the two operand arrays as the region finds them:
    an element of a block sits in its array, on each axis, at the block index times the block size plus its own
    coordinate. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S27x200x64) hz, View.ld_unit_zero (S := S27x64x32) hz]
  obtain ⟨a0, a1, a2, b0, b1, b2, o0, o1, o2⟩ := idx_facts t
  funext y
  show k0_pay1 (iblk0 V c 0 t) (iblk0 V c 1 t) y
    = G (V c (Pipeline.arrRef spec0 0)) (V c (Pipeline.arrRef spec0 1)) (((cfg0.win 2).blk t).view.emb y)
  refine pay_eq_G (V c (Pipeline.arrRef spec0 0)) (V c (Pipeline.arrRef spec0 1)) (iblk0 V c 0 t) (iblk0 V c 1 t)
    ((cfg0.win 0).blk t).view.emb ((cfg0.win 1).blk t).view.emb t.val (fun _ => rfl) (fun _ => rfl) ?_ ?_ y
    (((cfg0.win 2).blk t).view.emb y) ?_
  · intro z
    refine ⟨?_, ?_, ?_⟩
    · show win0_0.index t (0 : Fin 3) * 27 + 1 * (z 0).val = (z 0).val
      rw [a0]; omega
    · show win0_0.index t (1 : Fin 3) * 200 + 1 * (z 1).val = t.val * 200 + (z 1).val
      rw [a1]; omega
    · show win0_0.index t (2 : Fin 3) * 64 + 1 * (z 2).val = (z 2).val
      rw [a2]; omega
  · intro z
    refine ⟨?_, ?_, ?_⟩
    · show win0_1.index t (0 : Fin 3) * 27 + 1 * (z 0).val = (z 0).val
      rw [b0]; omega
    · show win0_1.index t (1 : Fin 3) * 64 + 1 * (z 1).val = (z 1).val
      rw [b1]; omega
    · show win0_1.index t (2 : Fin 3) * 32 + 1 * (z 2).val = (z 2).val
      rw [b2]; omega
  · refine ⟨?_, ?_, ?_⟩
    · show win0_2.index t (0 : Fin 3) * 27 + 1 * (y 0).val = (y 0).val
      rw [o0]; omega
    · show win0_2.index t (1 : Fin 3) * 200 + 1 * (y 1).val = t.val * 200 + (y 1).val
      rw [o1]; omega
    · show win0_2.index t (2 : Fin 3) * 32 + 1 * (y 2).val = (y 2).val
      rw [o2]; omega

/-- An index of the result array is in point t's block iff each coordinate is in the block's range on its axis. -/
theorem mem_blk (t : Fin cfg0.N) (i : S27x100000x32.Idx) :
    i ∈ ((cfg0.win 2).blk t).view.set ↔ ∀ a : Fin 3, win0_2.index t a * S27x200x32.size a ≤ (i a).val ∧ (i a).val < win0_2.index t a * S27x200x32.size a + S27x200x32.size a := by
  show i ∈ ((View.whole main_v8).slice (win0_2.rect t)).set ↔ _
  rw [View.set_slice_whole, Rect.mem_set_unit]
  exact Iff.rfl

/-- Every index of the result array is written back by some point: row r by point r / 200. -/
theorem cover (i : S27x100000x32.Idx) :
    ∃ t : Fin cfg0.N, (cfg0.win 2).flush t = true ∧ i ∈ ((cfg0.win 2).blk t).view.set := by
  have hN : cfg0.N = 500 := N_0
  have h0 : (i 0).val < 27 := (i 0).isLt
  have h1 : (i 1).val < 100000 := (i 1).isLt
  have h2 : (i 2).val < 32 := (i 2).isLt
  obtain ⟨t, ht⟩ : ∃ t : Fin cfg0.N, t.val = (i 1).val / 200 := ⟨⟨(i 1).val / 200, by rw [hN]; omega⟩, rfl⟩
  obtain ⟨-, -, -, -, -, -, o0, o1, o2⟩ := idx_facts t
  refine ⟨t, flush0_2 t, ?_⟩
  rw [mem_blk]
  intro a
  match a with
  | ⟨0, _⟩ => show win0_2.index t (0 : Fin 3) * 27 ≤ (i 0).val ∧ (i 0).val < win0_2.index t (0 : Fin 3) * 27 + 27; rw [o0]; omega
  | ⟨1, _⟩ => show win0_2.index t (1 : Fin 3) * 200 ≤ (i 1).val ∧ (i 1).val < win0_2.index t (1 : Fin 3) * 200 + 200; rw [o1, ht]; omega
  | ⟨2, _⟩ => show win0_2.index t (2 : Fin 3) * 32 ≤ (i 2).val ∧ (i 2).val < win0_2.index t (2 : Fin 3) * 32 + 32; rw [o2]; omega

/-- The result array after the region is the batched product of the two operand arrays as the region finds them. -/
theorem arr (V : (c : Dev nD) → (b : Ref sig .tc) → Buf (Elt Ideal) ((c : Thread nD τ).loc b)) (c : Dev nD) :
    (dat0 (F := Ideal) V c).arrAt 2 cfg0.N = G (V c (Pipeline.arrRef spec0 0)) (V c (Pipeline.arrRef spec0 1)) :=
  (dat0 (F := Ideal) V c).arrAt_eq_of_cover 2 (G (V c (Pipeline.arrRef spec0 0)) (V c (Pipeline.arrRef spec0 1)))
    (fun t _ => flushed_eq V c t) cover

end Cert.KernelIdeal.MatmulValue0

end
-- ==== Proof.MatmulBridge0.lean ====
/-
  The matrix-product region (pipeline 0) against the reference's contraction: the result array after the region is
  the host's `dot_general` of the two operand arrays as the region finds them — batch axis 0, the first operand's axis 2
  contracted with the second's axis 1 — because both are, entry by entry, the same finite sum
  ∑ k, A (g, r, k) * B (g, k, d) of products of extended reals.
-/
import proofs.«172556_j661424964110_2_alg».proof.Proof.MatmulValue0
import proofs.«172556_j661424964110_2_alg».proof.Proof.RefRunDefs

noncomputable section

open Idealize.ShloMosaic Idealize.ShloMosaic.TcCoe Idealize.SL.Sem
open Idealize.ShloMosaic.ValueIdx
open Idealize.ShloMosaic.Pipeline (Dat)

namespace Cert.KernelIdeal.MatmulBridge0

open Cert.KernelIdeal Cert.KernelIdeal.Gen

/-- The batched product is the host's `dot_general` with the reference's dimension numbers. -/
theorem G_eq_dotGeneral (A : S27x100000x64.Idx → EReal) (B : S27x64x32.Idx → EReal) :
    MatmulValue0.G A B = Host.dotGeneral (F := Ideal) (φ₁ := .f32) (φ₂ := .f32) Cert.ReferenceIdeal.dot_S27x100000x64_S27x64x32_S27x100000x32_2_1_1_2_0_0 none A B := by
  funext j
  obtain ⟨g, r, d, rfl⟩ : ∃ (g : Fin 27) (r : Fin 100000) (d : Fin 32), j = ix3 g r d := ⟨j 0, j 1, j 2, eq_ix3 j⟩
  rw [MatmulValue0.G_apply]
  exact (StackMember.dotGeneral_stack_apply Cert.ReferenceIdeal.dot_S27x100000x64_S27x64x32_S27x100000x32_2_1_1_2_0_0.wf none A B g r d).symm

/-- The result array after the region is the reference's contraction of the two operand arrays as the region finds
    them. -/
theorem arr_dot (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S27x100000x64_S27x64x32_S27x100000x32_2_1_1_2_0_0 none (V c (Pipeline.arrRef spec0 0)) (V c (Pipeline.arrRef spec0 1)) :=
  (MatmulValue0.arr V c).trans (G_eq_dotGeneral _ _)

end Cert.KernelIdeal.MatmulBridge0

end
-- ==== Proof.StatsValue1.lean ====
import proofs.«172556_j661424964110_2_alg».proof.Proof.Gen.KernelIdeal.Frame
import proofs.«172556_j661424964110_2_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
# The batch-norm statistics of region 1, as closed sums

Region 1 walks the 400000 rows of a 32-lane array `h` in 40 blocks of 10000 rows. Each point forms
`x = h_block + bias` (the bias row broadcast over the block's rows) and adds, lane by lane, the sum of
`x` over the block's rows into one accumulator and the sum of `x * x` into another; the first point
starts both accumulators from zero. The accumulators' block never moves, so what the arrays hold in the
end is what the last point leaves.

This module shows that, over the extended reals, the two arrays end holding, in lane `l`,
`∑ r, (h r l + bias l)` and `∑ r, (h r l + bias l) * (h r l + bias l)` over all 400000 rows `r`.
Only commutativity and associativity of addition are used (regrouping 400000 terms as 40 blocks of
10000), so no finiteness of the entries is needed.
-/

noncomputable section

open Idealize.ShloMosaic Idealize.ShloMosaic.TcCoe Idealize.SL.Sem
open Idealize.ShloMosaic.Pipeline (Dat)
open Idealize.ShloMosaic.ValueIdx

namespace Cert.KernelIdeal.StatsValue1

open Cert.KernelIdeal Cert.KernelIdeal.Gen

/-! ## What one point leaves in the accumulators, for any float instance -/

section AnyInstance

variable {F : FTy → Type} [FloatOps F]

theorem hz : (![0, 0] : Fin 2 → Nat) = fun _ => 0 := funext fun a => by fin_cases a <;> rfl

/-- A later point leaves, in the first accumulator holding `xo2`, `xo2` plus the row sums of the shifted block. -/
theorem out_B_2 (c : Dev nD) (i : grid1.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : ¬cond1_0 i)
    (x0 : Vec F S10000x32 .f32) (x1 xo2 xo3 : Vec F S1x32 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, h4.read_unread,
    View.ld_unit_zero (S := S10000x32) hz, View.ld_unit_zero (S := S1x32) hz]

/-- A later point leaves, in the second accumulator holding `xo3`, `xo3` plus the row sums of the squared shifted block. -/
theorem out_B_3 (c : Dev nD) (i : grid1.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : ¬cond1_0 i)
    (x0 : Vec F S10000x32 .f32) (x1 xo2 xo3 : Vec F S1x32 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h3.read_unread, h4.read_unread,
    View.ld_unit_zero (S := S10000x32) hz, View.ld_unit_zero (S := S1x32) hz]

/-- The first point stores the zero row, reads it back, and leaves zero plus the row sums of the shifted block. -/
theorem out_A_2 (c : Dev nD) (i : grid1.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : cond1_0 i)
    (x0 : Vec F S10000x32 .f32) (x1 : Vec F S1x32 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x32) hz, View.readCov_unit_zero (S := S1x32) _ hz]
  simp only [View.readAt_eq_ld, h1.read_unread, h2.read_unread,
    View.ld_unit_zero (S := S10000x32) hz, View.ld_unit_zero (S := S1x32) hz]

/-- Likewise for the second accumulator and the squares. -/
theorem out_A_3 (c : Dev nD) (i : grid1.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : cond1_0 i)
    (x0 : Vec F S10000x32 .f32) (x1 : Vec F S1x32 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x32) hz, View.readCov_unit_zero (S := S1x32) _ hz]
  simp only [View.readAt_eq_ld, h1.read_unread, h2.read_unread,
    View.ld_unit_zero (S := S10000x32) hz, View.ld_unit_zero (S := S1x32) hz]

variable (V : (c : Dev nD) → (b : Ref sig .tc) → Buf (Elt F) ((c : Thread nD τ).loc b))

/-- The two accumulators after point `n`: from the zero rows at point 0, each point adds its block's row sums. -/
def acc (c : Dev nD) : (n : ℕ) → n < cfg1.N → Vec F S1x32 .f32 × Vec F S1x32 .f32
  | 0, h => (k1_pay4 (iblk1 V c 0 ⟨0, h⟩) (iblk1 V c 1 ⟨0, h⟩) k1_pay1,
             k1_pay5 (iblk1 V c 0 ⟨0, h⟩) (iblk1 V c 1 ⟨0, h⟩) k1_pay2)
  | n + 1, h => (k1_pay4 (iblk1 V c 0 ⟨n + 1, h⟩) (iblk1 V c 1 ⟨n + 1, h⟩) (acc c n (Nat.lt_of_succ_lt h)).1,
                 k1_pay5 (iblk1 V c 0 ⟨n + 1, h⟩) (iblk1 V c 1 ⟨n + 1, h⟩) (acc c n (Nat.lt_of_succ_lt h)).2)

/-- What the accumulators' staging buffers hold after point `n` is that recursion: by induction on the point. -/
theorem outsAt_eq (c : Dev nD) : ∀ (n : ℕ) (h : n < cfg1.N), outsAt1 V c n h = acc V c n h
  | 0, h => by
    rw [outsAt1_A V c ⟨0, h⟩ rfl, out_A_2, out_A_3]
    rfl
  | n + 1, h => by
    have hN : cfg1.N = 40 := N_1
    have hB : ¬(⟨n + 1, h⟩ : Fin cfg1.N).val % 40 = 0 := by dsimp only; omega
    rw [outsAt1_B V c ⟨n + 1, h⟩ hB, out_B_2, out_B_3]
    show (k1_pay4 _ _ (outsAt1 V c n _).1, k1_pay5 _ _ (outsAt1 V c n _).2) = _
    rw [outsAt_eq c n]
    rfl

/-- The last point. -/
abbrev tLast : Fin cfg1.N := ⟨39, by rw [show cfg1.N = 40 from N_1]; decide⟩

/-- What the last point leaves: the contents the two result arrays end with. -/
abbrev result2 (c : Dev nD) : Buf (Elt F) ((c : Thread nD τ).loc main_v17_0) := (acc V c 39 tLast.isLt).1
abbrev result3 (c : Dev nD) : Buf (Elt F) ((c : Thread nD τ).loc main_v17_1) := (acc V c 39 tLast.isLt).2

/-- The one write-back of the first accumulator, at the last point, writes `result2`: its block is the whole array. -/
theorem flushed2_eq (c : Dev nD) (t : Fin cfg1.N) (hf : (cfg1.win 2).flush t = true) :
    (dat1 V c).flushed 2 t = ((cfg1.win 2).blk t).view.read (Elt F) (result2 V c) := by
  have hN : cfg1.N = 40 := N_1
  have h3 : t.val = 39 := by have := (flush1_2 t).mp hf; have := t.isLt; omega
  obtain rfl : t = tLast := Fin.ext h3
  show (cfg1.win 2).cut (grid1.coords tLast) ((dat1 V c).after 2 tLast) = _
  rw [after1_2, outsAt_eq]
  have hz' : (fun a => win1_2.index tLast a * main_v17_0.ty.shape.size a) = fun _ => 0 := funext fun a => by fin_cases a <;> decide
  exact (Memref.read_access_unit_zero (Elt F) main_v17_0 hz' (fun a => by rw [congrFun hz' a]; simp) (result2 V c)).symm

/-- Likewise for the second accumulator. -/
theorem flushed3_eq (c : Dev nD) (t : Fin cfg1.N) (hf : (cfg1.win 3).flush t = true) :
    (dat1 V c).flushed 3 t = ((cfg1.win 3).blk t).view.read (Elt F) (result3 V c) := by
  have hN : cfg1.N = 40 := N_1
  have h3 : t.val = 39 := by have := (flush1_3 t).mp hf; have := t.isLt; omega
  obtain rfl : t = tLast := Fin.ext h3
  show (cfg1.win 3).cut (grid1.coords tLast) ((dat1 V c).after 3 tLast) = _
  rw [after1_3, outsAt_eq]
  have hz' : (fun a => win1_3.index tLast a * main_v17_1.ty.shape.size a) = fun _ => 0 := funext fun a => by fin_cases a <;> decide
  exact (Memref.read_access_unit_zero (Elt F) main_v17_1 hz' (fun a => by rw [congrFun hz' a]; simp) (result3 V c)).symm

/-- So the first result array ends holding what the last point leaves (the last point's block covers it). -/
theorem final2 (c : Dev nD) : (dat1 V c).arrAt 2 cfg1.N = result2 V c :=
  (dat1 V c).arrAt_eq_of_cover 2 (result2 V c) (flushed2_eq V c) fun i =>
    ⟨tLast, (flush1_2 tLast).mpr rfl, by
      show i ∈ ((View.whole main_v17_0).slice (win1_2.rect tLast)).set
      rw [View.set_slice_whole, Rect.mem_set_unit]
      intro a
      have h0 : (i 0 : Nat) < 1 := (i 0).isLt
      have h1 : (i 1 : Nat) < 32 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 32 from by decide +kernel]; omega⟩

/-- Likewise for the second result array. -/
theorem final3 (c : Dev nD) : (dat1 V c).arrAt 3 cfg1.N = result3 V c :=
  (dat1 V c).arrAt_eq_of_cover 3 (result3 V c) (flushed3_eq V c) fun i =>
    ⟨tLast, (flush1_3 tLast).mpr rfl, by
      show i ∈ ((View.whole main_v17_1).slice (win1_3.rect tLast)).set
      rw [View.set_slice_whole, Rect.mem_set_unit]
      intro a
      have h0 : (i 0 : Nat) < 1 := (i 0).isLt
      have h1 : (i 1 : Nat) < 32 := (i 1).isLt
      match a with
      | ⟨0, _⟩ => show win1_3.index tLast 0 * win1_3.size 0 ≤ (i 0 : Nat) ∧ (i 0 : Nat) < win1_3.index tLast 0 * win1_3.size 0 + win1_3.xsize (grid1.coords tLast) 0
                  rw [show win1_3.index tLast 0 * win1_3.size 0 = 0 from by decide +kernel, show win1_3.xsize (grid1.coords tLast) 0 = 1 from by decide +kernel]; omega
      | ⟨1, _⟩ => show win1_3.index tLast 1 * win1_3.size 1 ≤ (i 1 : Nat) ∧ (i 1 : Nat) < win1_3.index tLast 1 * win1_3.size 1 + win1_3.xsize (grid1.coords tLast) 1
                  rw [show win1_3.index tLast 1 * win1_3.size 1 = 0 from by decide +kernel, show win1_3.xsize (grid1.coords tLast) 1 = 32 from by decide +kernel]; omega⟩

end AnyInstance

/-! ## The arithmetic of one point, over the extended reals -/

section Arithmetic

/-- The shifted block at row `r`, lane `l`: the block's entry plus that lane's bias. -/
theorem pay3_apply (x0 : Vec Ideal S10000x32 .f32) (x1 : Vec Ideal S1x32 .f32) (r : Fin 10000) (l : Fin 32) :
    k1_pay3 (F := Ideal) x0 x1 (ix2 r l) = x0 (ix2 r l) + x1 (ix2 (0 : Fin 1) l) := by
  unfold k1_pay3
  show (shapeCast S10000x32 x0 shapeCasts_S10000x32_S10000x32) (ix2 r l)
      + (broadcastTo S10000x32 (shapeCast S1x32 x1 shapeCasts_S1x32_S1x32) broadcasts_S1x32_S10000x32) (ix2 r l) = _
  rw [shapeCast_self, shapeCast_self]
  exact congrArg (x0 (ix2 r l) + ·) (broadcastTo_1b_ab_apply x1 broadcasts_S1x32_S10000x32 r l)

/-- The index the row reduction sums over at lane `l`: row `k` put back in front of the lane. -/
theorem lift_eq (l : Fin 32) (k : Fin 10000) : reduces_S10000x32_S32.lift (ix1 l) k = ix2 k l := by
  funext a
  match a with
  | ⟨0, _⟩ => rfl
  | ⟨1, _⟩ => rfl

/-- The reduction over a block's rows is, lane by lane, the sum over the 10000 rows. -/
theorem rowsum_apply (src : FVec Ideal S10000x32 .f32) (l : Fin 32) :
    multiReduction (F := Ideal) .add [0] S32 src 0x00000000#32 reduces_S10000x32_S32 (.inl rfl) rfl (ix1 l)
      = ∑ k : Fin 10000, src (ix2 k l) := by
  refine (Ideal.multiReduction_add_single src 0x00000000#32 reduces_S10000x32_S32 (.inl rfl) rfl (ix1 l)).trans ?_
  show ∑ k : Fin 10000, src (reduces_S10000x32_S32.lift (ix1 l) k) = _
  exact Finset.sum_congr rfl fun k _ => congrArg src (lift_eq l k)

/-- One point's update of the first accumulator, at lane `l`. -/
theorem pay4_apply (x0 : Vec Ideal S10000x32 .f32) (x1 xo : Vec Ideal S1x32 .f32) (u : Fin 1) (l : Fin 32) :
    k1_pay4 (F := Ideal) x0 x1 xo (ix2 u l)
      = xo (ix2 u l) + ∑ k : Fin 10000, (x0 (ix2 k l) + x1 (ix2 (0 : Fin 1) l)) := by
  unfold k1_pay4
  show (shapeCast S1x32 xo shapeCasts_S1x32_S1x32) (ix2 u l)
      + (shapeCast S1x32 (multiReduction (F := Ideal) .add [0] S32 (k1_pay3 x0 x1) 0x00000000#32 reduces_S10000x32_S32 (.inl rfl) rfl) shapeCasts_S32_S1x32) (ix2 u l) = _
  rw [shapeCast_self]
  refine congrArg (xo (ix2 u l) + ·) ?_
  refine (shapeCast_a_1a_apply _ shapeCasts_S32_S1x32 u l).trans ?_
  refine (rowsum_apply _ l).trans ?_
  exact Finset.sum_congr rfl fun k _ => pay3_apply x0 x1 k l

/-- One point's update of the second accumulator, at lane `l`. -/
theorem pay5_apply (x0 : Vec Ideal S10000x32 .f32) (x1 xo : Vec Ideal S1x32 .f32) (u : Fin 1) (l : Fin 32) :
    k1_pay5 (F := Ideal) x0 x1 xo (ix2 u l)
      = xo (ix2 u l) + ∑ k : Fin 10000, (x0 (ix2 k l) + x1 (ix2 (0 : Fin 1) l)) * (x0 (ix2 k l) + x1 (ix2 (0 : Fin 1) l)) := by
  unfold k1_pay5
  show (shapeCast S1x32 xo shapeCasts_S1x32_S1x32) (ix2 u l)
      + (shapeCast S1x32 (multiReduction (F := Ideal) .add [0] S32 (mulf (k1_pay3 x0 x1) (k1_pay3 x0 x1)) 0x00000000#32 reduces_S10000x32_S32 (.inl rfl) rfl) shapeCasts_S32_S1x32) (ix2 u l) = _
  rw [shapeCast_self]
  refine congrArg (xo (ix2 u l) + ·) ?_
  refine (shapeCast_a_1a_apply _ shapeCasts_S32_S1x32 u l).trans ?_
  refine (rowsum_apply _ l).trans ?_
  refine Finset.sum_congr rfl fun k _ => ?_
  show k1_pay3 (F := Ideal) x0 x1 (ix2 k l) * k1_pay3 (F := Ideal) x0 x1 (ix2 k l) = _
  rw [pay3_apply]

/-- The zero rows the first point stores: every entry is zero. -/
theorem pay1_apply (j : S1x32.Idx) : k1_pay1 (F := Ideal) j = 0 := by
  unfold k1_pay1
  show (Scalar.ofBits (F := Ideal) .f32 0x00000000#32) = 0
  exact Ideal.ofBits_zero_f32

theorem pay2_apply (j : S1x32.Idx) : k1_pay2 (F := Ideal) j = 0 := by
  unfold k1_pay2
  show (Scalar.ofBits (F := Ideal) .f32 0x00000000#32) = 0
  exact Ideal.ofBits_zero_f32

/-- Regrouping: 40 consecutive blocks of 10000 terms are the 400000 terms. -/
theorem sum_blocks {M : Type*} [AddCommMonoid M] (g : ℕ → M) :
    ∑ s ∈ Finset.range 40, ∑ k : Fin 10000, g (10000 * s + k.val) = ∑ r : Fin 400000, g r.val := by
  rw [Finset.sum_range (fun s => ∑ k : Fin 10000, g (10000 * s + k.val))]
  have e : ∑ r : Fin 400000, g r.val = ∑ p : Fin 40 × Fin 10000, g (10000 * p.1.val + p.2.val) := by
    refine (Fintype.sum_equiv (finProdFinEquiv (m := 40) (n := 10000)) _ _ fun p => ?_).symm
    show g (10000 * p.1.val + p.2.val) = g (p.2.val + 10000 * p.1.val)
    rw [Nat.add_comm]
  rw [e, Fintype.sum_prod_type]

end Arithmetic

/-! ## The accumulators after every point, and the result arrays -/

section Value

variable (V : (c : Dev nD) → (b : Ref sig .tc) → Buf (Elt Ideal) ((c : Thread nD τ).loc b))

/-- The array the region walks, and the bias row, as the region finds them. -/
abbrev harr (c : Dev nD) : S400000x32.Idx → EReal := V c (Pipeline.arrRef spec1 0)
abbrev bias (c : Dev nD) : S1x32.Idx → EReal := V c (Pipeline.arrRef spec1 1)

/-- The shifted entry of row `r` in lane `l` (zero past the last row, where it is never read). -/
def rowVal (c : Dev nD) (l : Fin 32) (r : ℕ) : EReal :=
  if h : r < 400000 then harr V c (ix2 ⟨r, h⟩ l) + bias V c (ix2 (0 : Fin 1) l) else 0

/-- Block `t` of the walked array holds rows `10000 t … 10000 t + 9999`. -/
theorem iblk0_apply (c : Dev nD) (t : Fin cfg1.N) (k : Fin 10000) (l : Fin 32) (hr : 10000 * t.val + k.val < 400000) :
    (iblk1 V c 0 t : Vec Ideal S10000x32 .f32) (ix2 k l) = harr V c (ix2 ⟨10000 * t.val + k.val, hr⟩ l) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t 0 * 10000 + 1 * k.val = 10000 * t.val + k.val; rw [hi.1]; omega
  | ⟨1, _⟩ => show win1_0.index t 1 * 32 + 1 * l.val = l.val; rw [hi.2]; omega

/-- The bias window's block is the bias row at every point. -/
theorem iblk1_apply (c : Dev nD) (t : Fin cfg1.N) (u : Fin 1) (l : Fin 32) :
    (iblk1 V c 1 t : Vec Ideal S1x32 .f32) (ix2 u l) = bias V c (ix2 u l) := by
  have hi : win1_1.index t 0 = 0 ∧ win1_1.index t 1 = 0 :=
    (by decide +kernel : ∀ t : Fin grid1.N, win1_1.index t 0 = 0 ∧ win1_1.index t 1 = 0) t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t 0 * 1 + 1 * u.val = u.val; rw [hi.1]; omega
  | ⟨1, _⟩ => show win1_1.index t 1 * 32 + 1 * l.val = l.val; rw [hi.2]; omega

/-- The two input blocks at a point, typed by their literal shapes. -/
abbrev blk0 (c : Dev nD) (t : Fin cfg1.N) : Vec Ideal S10000x32 .f32 := iblk1 V c 0 t
abbrev blk1 (c : Dev nD) (t : Fin cfg1.N) : Vec Ideal S1x32 .f32 := iblk1 V c 1 t

/-- A block's shifted entry is the array's shifted entry of the corresponding row. -/
theorem block_row (c : Dev nD) (n : ℕ) (h : n < cfg1.N) (k : Fin 10000) (l : Fin 32) :
    blk0 V c ⟨n, h⟩ (ix2 k l) + blk1 V c ⟨n, h⟩ (ix2 (0 : Fin 1) l) = rowVal V c l (10000 * n + k.val) := by
  have hN : cfg1.N = 40 := N_1
  have hr : 10000 * n + k.val < 400000 := by have := k.isLt; omega
  have e0 : blk0 V c ⟨n, h⟩ (ix2 k l) = harr V c (ix2 ⟨10000 * n + k.val, hr⟩ l) := iblk0_apply V c ⟨n, h⟩ k l hr
  have e1 : blk1 V c ⟨n, h⟩ (ix2 (0 : Fin 1) l) = bias V c (ix2 (0 : Fin 1) l) := iblk1_apply V c ⟨n, h⟩ 0 l
  unfold rowVal
  rw [dif_pos hr, e0, e1]

/-- THE INVARIANT: after point `n` the accumulators hold, in lane `l`, the sums over the rows of blocks `0 … n`. -/
theorem acc_apply (c : Dev nD) (u : Fin 1) (l : Fin 32) : ∀ (n : ℕ) (h : n < cfg1.N),
    (acc V c n h).1 (ix2 u l) = 0 + ∑ s ∈ Finset.range (n + 1), ∑ k : Fin 10000, rowVal V c l (10000 * s + k.val)
    ∧ (acc V c n h).2 (ix2 u l) = 0 + ∑ s ∈ Finset.range (n + 1), ∑ k : Fin 10000,
        rowVal V c l (10000 * s + k.val) * rowVal V c l (10000 * s + k.val)
  | 0, h => by
    constructor
    · show k1_pay4 (F := Ideal) (iblk1 V c 0 ⟨0, h⟩) (iblk1 V c 1 ⟨0, h⟩) (k1_pay1 (F := Ideal)) (ix2 u l) = _
      rw [pay4_apply (iblk1 V c 0 ⟨0, h⟩) (iblk1 V c 1 ⟨0, h⟩) (k1_pay1 (F := Ideal)) u l, pay1_apply, Finset.sum_range_one]
      exact congrArg (0 + ·) (Finset.sum_congr rfl fun k _ => block_row V c 0 h k l)
    · show k1_pay5 (F := Ideal) (iblk1 V c 0 ⟨0, h⟩) (iblk1 V c 1 ⟨0, h⟩) (k1_pay2 (F := Ideal)) (ix2 u l) = _
      rw [pay5_apply (iblk1 V c 0 ⟨0, h⟩) (iblk1 V c 1 ⟨0, h⟩) (k1_pay2 (F := Ideal)) u l, pay2_apply, Finset.sum_range_one]
      exact congrArg (0 + ·) (Finset.sum_congr rfl fun k _ => by rw [block_row V c 0 h k l])
  | n + 1, h => by
    obtain ⟨ih1, ih2⟩ := acc_apply c u l n (Nat.lt_of_succ_lt h)
    constructor
    · show k1_pay4 (F := Ideal) (iblk1 V c 0 ⟨n + 1, h⟩) (iblk1 V c 1 ⟨n + 1, h⟩) (acc V c n (Nat.lt_of_succ_lt h)).1 (ix2 u l) = _
      rw [pay4_apply (iblk1 V c 0 ⟨n + 1, h⟩) (iblk1 V c 1 ⟨n + 1, h⟩) (acc V c n (Nat.lt_of_succ_lt h)).1 u l, ih1,
        Finset.sum_range_succ _ (n + 1), add_assoc]
      exact congrArg (fun z => 0 + (_ + z)) (Finset.sum_congr rfl fun k _ => block_row V c (n + 1) h k l)
    · show k1_pay5 (F := Ideal) (iblk1 V c 0 ⟨n + 1, h⟩) (iblk1 V c 1 ⟨n + 1, h⟩) (acc V c n (Nat.lt_of_succ_lt h)).2 (ix2 u l) = _
      rw [pay5_apply (iblk1 V c 0 ⟨n + 1, h⟩) (iblk1 V c 1 ⟨n + 1, h⟩) (acc V c n (Nat.lt_of_succ_lt h)).2 u l, ih2,
        Finset.sum_range_succ _ (n + 1), add_assoc]
      exact congrArg (fun z => 0 + (_ + z)) (Finset.sum_congr rfl fun k _ => by rw [block_row V c (n + 1) h k l])

/-- THE SUM: the first result array ends holding, in lane `l`, the sum over all 400000 rows of the shifted entries. -/
theorem sum (c : Dev nD) : (dat1 (F := Ideal) V c).arrAt 2 cfg1.N
    = fun j => ∑ r : Fin 400000, (harr V c (ix2 r (j 1)) + bias V c (ix2 (0 : Fin 1) (j 1))) := by
  rw [final2]
  funext j
  obtain ⟨u, l, rfl⟩ : ∃ (u : Fin 1) (l : Fin 32), j = ix2 u l := ⟨j 0, j 1, eq_ix2 j⟩
  show (acc V c 39 tLast.isLt).1 (ix2 u l) = ∑ r : Fin 400000, (harr V c (ix2 r l) + bias V c (ix2 (0 : Fin 1) l))
  rw [(acc_apply V c u l 39 tLast.isLt).1, zero_add, sum_blocks (rowVal V c l)]
  exact Finset.sum_congr rfl fun r _ => by unfold rowVal; rw [dif_pos r.isLt]

/-- THE SUM OF SQUARES: the second result array ends holding, in lane `l`, the sum over all rows of the squared shifted entries. -/
theorem sumsq (c : Dev nD) : (dat1 (F := Ideal) V c).arrAt 3 cfg1.N
    = fun j => ∑ r : Fin 400000, (harr V c (ix2 r (j 1)) + bias V c (ix2 (0 : Fin 1) (j 1)))
        * (harr V c (ix2 r (j 1)) + bias V c (ix2 (0 : Fin 1) (j 1))) := by
  rw [final3]
  funext j
  obtain ⟨u, l, rfl⟩ : ∃ (u : Fin 1) (l : Fin 32), j = ix2 u l := ⟨j 0, j 1, eq_ix2 j⟩
  show (acc V c 39 tLast.isLt).2 (ix2 u l) = ∑ r : Fin 400000, (harr V c (ix2 r l) + bias V c (ix2 (0 : Fin 1) l))
      * (harr V c (ix2 r l) + bias V c (ix2 (0 : Fin 1) l))
  rw [(acc_apply V c u l 39 tLast.isLt).2, zero_add, sum_blocks (fun r => rowVal V c l r * rowVal V c l r)]
  exact Finset.sum_congr rfl fun r _ => by unfold rowVal; rw [dif_pos r.isLt]

/-- The same, read at lane `l`. -/
theorem sum_apply (c : Dev nD) (u : Fin 1) (l : Fin 32) :
    (dat1 (F := Ideal) V c).arrAt 2 cfg1.N (ix2 u l)
      = ∑ r : Fin 400000, (harr V c (ix2 r l) + bias V c (ix2 (0 : Fin 1) l)) :=
  congrFun (sum V c) (ix2 u l)

theorem sumsq_apply (c : Dev nD) (u : Fin 1) (l : Fin 32) :
    (dat1 (F := Ideal) V c).arrAt 3 cfg1.N (ix2 u l)
      = ∑ r : Fin 400000, (harr V c (ix2 r l) + bias V c (ix2 (0 : Fin 1) l))
          * (harr V c (ix2 r l) + bias V c (ix2 (0 : Fin 1) l)) :=
  congrFun (sumsq V c) (ix2 u l)

/-- The two results in the shared vocabulary: the column sums of the shifted array and of its square. -/
theorem sum_colSum (c : Dev nD) : (dat1 (F := Ideal) V c).arrAt 2 cfg1.N
    = Cert.KVal.colSum (V c (Pipeline.arrRef spec1 0)) (V c (Pipeline.arrRef spec1 1)) :=
  sum V c

theorem sumsq_colSumSq (c : Dev nD) : (dat1 (F := Ideal) V c).arrAt 3 cfg1.N
    = Cert.KVal.colSumSq (V c (Pipeline.arrRef spec1 0)) (V c (Pipeline.arrRef spec1 1)) :=
  sumsq V c

end Value

end Cert.KernelIdeal.StatsValue1

end
-- ==== Proof.ApplyValue2.lean ====
/-
  The value of the first batch-normalisation apply region, at the ideal instance (a float an extended real, every
  operation exact), whatever the buffers hold when the region is entered.

  The region runs over forty grid points. Point `t` stages rows `10000 t … 10000 t + 9999` of the 400000 x 32 input and
  the five one-row arrays whole (bias, mean, variance, scale, shift), and writes back the same rows of the output. On a
  block the body computes, entry by entry,
      max ((((x + bias) - mean) * rsqrt (variance + eps)) * scale + shift) 0,
  the one-row arrays read at the entry's column. Every row of the output lies in exactly the block of point
  `row / 10000`, so after the region the output array is that function of the six input arrays, entry by entry.
-/
import proofs.«172556_j661424964110_2_alg».proof.Proof.Gen.KernelIdeal.Frame
import proofs.«172556_j661424964110_2_alg».proof.Proof.KDefs
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.ApplyValue2

open Cert.KernelIdeal Cert.KernelIdeal.Gen

variable (V : (c : Dev nD) → (b : Ref sig .tc) → Buf (Elt Ideal) ((c : Thread nD τ).loc b))

/-- One element of the normalised, scaled, shifted and rectified array: from the element `x`, the bias `b`, the mean
    `mu`, the variance `va`, the scale `ga` and the shift `be` of its column. -/
def bnRelu (x b mu va ga be : EReal) : EReal :=
  max ((((x + b) - mu) * Ideal.rsqrt (va + Ideal.ofBits .f32 0x3727C5AC#32)) * ga + be) (Ideal.ofBits .f32 0x00000000#32)

/-- The whole array: every row is treated alike, column `q` with the `q`-th entries of the five one-row arrays. -/
def bnReluArr (H : S400000x32.Idx → EReal) (b mu va ga be : S1x32.Idx → EReal) : S400000x32.Idx → EReal :=
  fun j => bnRelu (H j) (b (ix2 (0 : Fin 1) (j 1 : Fin 32))) (mu (ix2 (0 : Fin 1) (j 1 : Fin 32))) (va (ix2 (0 : Fin 1) (j 1 : Fin 32)))
    (ga (ix2 (0 : Fin 1) (j 1 : Fin 32))) (be (ix2 (0 : Fin 1) (j 1 : Fin 32)))

theorem hz : (![0, 0] : Fin 2 → Nat) = fun _ => 0 := funext fun a => by fin_cases a <;> rfl

/-- The body's arithmetic at one element of a block. -/
theorem pay_apply (x0 : Vec Ideal S10000x32 .f32) (x1 x2 x3 x4 x5 : Vec Ideal S1x32 .f32) (p : Fin 10000) (q : Fin 32) :
    k2_pay1 (F := Ideal) x0 x1 x3 x2 x4 x5 (ix2 p q)
      = bnRelu (x0 (ix2 p q)) (x1 (ix2 0 q)) (x2 (ix2 0 q)) (x3 (ix2 0 q)) (x4 (ix2 0 q)) (x5 (ix2 0 q)) := by
  unfold k2_pay1 bnRelu
  simp only [shapeCast_self, maximumf_apply, addf_apply, mulf_apply, subf_apply, broadcastTo_1b_ab_apply, broadcast_apply]
  rfl

/-- The printed index maps over the grid: the two blocked windows sit at row block `t`, the one-row windows at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem iblk_1 (c : Dev nD) (t : Fin cfg2.N) : iblk2 V c 1 t = V c (Pipeline.arrRef spec2 1) := by
  obtain ⟨-, -, e0, e1, -⟩ := idx_facts t
  unfold iblk2
  funext y
  show V c (Pipeline.arrRef spec2 1) (((cfg2.win 1).blk t).view.emb y) = V c (Pipeline.arrRef spec2 1) y
  congr 1
  funext a; apply Fin.ext
  match a with
  | ⟨0, _⟩ => show win2_1.index t (0 : Fin 2) * 1 + 1 * (y 0).val = (y 0).val; omega
  | ⟨1, _⟩ => show win2_1.index t (1 : Fin 2) * 32 + 1 * (y 1).val = (y 1).val; omega

theorem iblk_2 (c : Dev nD) (t : Fin cfg2.N) : iblk2 V c 2 t = V c (Pipeline.arrRef spec2 2) := by
  obtain ⟨-, -, -, -, e0, e1, -⟩ := idx_facts t
  unfold iblk2
  funext y
  show V c (Pipeline.arrRef spec2 2) (((cfg2.win 2).blk t).view.emb y) = V c (Pipeline.arrRef spec2 2) y
  congr 1
  funext a; apply Fin.ext
  match a with
  | ⟨0, _⟩ => show win2_2.index t (0 : Fin 2) * 1 + 1 * (y 0).val = (y 0).val; omega
  | ⟨1, _⟩ => show win2_2.index t (1 : Fin 2) * 32 + 1 * (y 1).val = (y 1).val; omega

theorem iblk_3 (c : Dev nD) (t : Fin cfg2.N) : iblk2 V c 3 t = V c (Pipeline.arrRef spec2 3) := by
  obtain ⟨-, -, -, -, -, -, e0, e1, -⟩ := idx_facts t
  unfold iblk2
  funext y
  show V c (Pipeline.arrRef spec2 3) (((cfg2.win 3).blk t).view.emb y) = V c (Pipeline.arrRef spec2 3) y
  congr 1
  funext a; apply Fin.ext
  match a with
  | ⟨0, _⟩ => show win2_3.index t (0 : Fin 2) * 1 + 1 * (y 0).val = (y 0).val; omega
  | ⟨1, _⟩ => show win2_3.index t (1 : Fin 2) * 32 + 1 * (y 1).val = (y 1).val; omega

theorem iblk_4 (c : Dev nD) (t : Fin cfg2.N) : iblk2 V c 4 t = V c (Pipeline.arrRef spec2 4) := by
  obtain ⟨-, -, -, -, -, -, -, -, e0, e1, -⟩ := idx_facts t
  unfold iblk2
  funext y
  show V c (Pipeline.arrRef spec2 4) (((cfg2.win 4).blk t).view.emb y) = V c (Pipeline.arrRef spec2 4) y
  congr 1
  funext a; apply Fin.ext
  match a with
  | ⟨0, _⟩ => show win2_4.index t (0 : Fin 2) * 1 + 1 * (y 0).val = (y 0).val; omega
  | ⟨1, _⟩ => show win2_4.index t (1 : Fin 2) * 32 + 1 * (y 1).val = (y 1).val; omega

theorem iblk_5 (c : Dev nD) (t : Fin cfg2.N) : iblk2 V c 5 t = V c (Pipeline.arrRef spec2 5) := by
  obtain ⟨-, -, -, -, -, -, -, -, -, -, e0, e1, -⟩ := idx_facts t
  unfold iblk2
  funext y
  show V c (Pipeline.arrRef spec2 5) (((cfg2.win 5).blk t).view.emb y) = V c (Pipeline.arrRef spec2 5) y
  congr 1
  funext a; apply Fin.ext
  match a with
  | ⟨0, _⟩ => show win2_5.index t (0 : Fin 2) * 1 + 1 * (y 0).val = (y 0).val; omega
  | ⟨1, _⟩ => show win2_5.index t (1 : Fin 2) * 32 + 1 * (y 1).val = (y 1).val; omega

/-- The body's arithmetic on a block, as one function of the block's index. -/
theorem pay_fun (x0 : Vec Ideal S10000x32 .f32) (x1 x2 x3 x4 x5 : Vec Ideal S1x32 .f32) :
    (k2_pay1 (F := Ideal) x0 x1 x3 x2 x4 x5 : S10000x32.Idx → EReal)
      = fun y => bnRelu (x0 y) (x1 (ix2 (0 : Fin 1) (y 1 : Fin 32))) (x2 (ix2 (0 : Fin 1) (y 1 : Fin 32))) (x3 (ix2 (0 : Fin 1) (y 1 : Fin 32)))
          (x4 (ix2 (0 : Fin 1) (y 1 : Fin 32))) (x5 (ix2 (0 : Fin 1) (y 1 : Fin 32))) := by
  funext y
  obtain ⟨p, q, rfl⟩ : ∃ (p : Fin 10000) (q : Fin 32), y = ix2 p q := ⟨y 0, y 1, eq_ix2 y⟩
  exact pay_apply x0 x1 x2 x3 x4 x5 p q

/-- The body's arithmetic at a block's element that sits at index `i` of the array: the whole-array function there. -/
theorem point (x0 : Vec Ideal S10000x32 .f32) (x1 x2 x3 x4 x5 : Vec Ideal S1x32 .f32) (H : S400000x32.Idx → EReal)
    (y : S10000x32.Idx) (i : S400000x32.Idx) (h0 : x0 y = H i) (h1 : (i 1).val = (y 1).val) :
    k2_pay1 (F := Ideal) x0 x1 x3 x2 x4 x5 y = bnReluArr H x1 x2 x3 x4 x5 i := by
  rw [pay_fun]
  have e : (ix2 (0 : Fin 1) (i 1 : Fin 32) : S1x32.Idx) = ix2 (0 : Fin 1) (y 1 : Fin 32) := by
    congr 1; exact Fin.ext h1
  show bnRelu (x0 y) _ _ _ _ _ = bnRelu (H i) _ _ _ _ _
  rw [e, h0]
  rfl

set_option maxHeartbeats 1000000 in
/-- What point `t` writes back is block `t` of the whole-array function of the arrays the region finds. -/
theorem flushed_eq (c : Dev nD) (t : Fin cfg2.N) :
    (dat2 V c).flushed 6 t = ((cfg2.win 6).blk t).view.read (Elt Ideal)
      (bnReluArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6, iblk_1, iblk_2, iblk_3, iblk_4, iblk_5]
  unfold out2_6
  rw [View.canon_unit_zero hz]
  simp only [View.ld_unit_zero (S := S10000x32) hz, View.ld_unit_zero (S := S1x32) hz]
  obtain ⟨e0, e1, -, -, -, -, -, -, -, -, -, -, e12, e13⟩ := idx_facts t
  funext j
  show k2_pay1 (F := Ideal) (iblk2 V c 0 t) (V c (Pipeline.arrRef spec2 1)) (V c (Pipeline.arrRef spec2 3)) (V c (Pipeline.arrRef spec2 2))
      (V c (Pipeline.arrRef spec2 4)) (V c (Pipeline.arrRef spec2 5)) ((cfg2.win 6).xinj (grid2.coords t) j)
    = bnReluArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (((cfg2.win 6).blk t).view.emb j)
  refine point _ _ _ _ _ _ _ _ _ ?_ ?_
  · show V c (Pipeline.arrRef spec2 0) (((cfg2.win 0).blk t).view.emb ((cfg2.win 6).xinj (grid2.coords t) j)) = V c (Pipeline.arrRef spec2 0) (((cfg2.win 6).blk t).view.emb j)
    rfl
  · show win2_6.index t (1 : Fin 2) * 32 + 1 * (j 1).val = (j 1).val; omega

theorem idx_facts6 : ∀ t : Fin cfg2.N, win2_6.index t (0 : Fin 2) = t.val ∧ win2_6.index t (1 : Fin 2) = 0 :=
  (by decide +kernel : ∀ t : Fin grid2.N, _)

/-- An index of the array lies in point `t`'s block iff each coordinate lies in the block's range on its axis. -/
theorem mem_blk (t : Fin cfg2.N) (i : S400000x32.Idx) :
    i ∈ ((cfg2.win 6).blk t).view.set ↔ ∀ a : Fin 2, win2_6.index t a * S10000x32.size a ≤ (i a).val ∧ (i a).val < win2_6.index t a * S10000x32.size a + S10000x32.size a := by
  show i ∈ ((View.whole main_v26).slice (win2_6.rect t)).set ↔ _
  rw [View.set_slice_whole, Rect.mem_set_unit]
  exact Iff.rfl

/-- Row `r` lies in the block of point `r / 10000`: the forty blocks of 10000 rows tile the 400000 rows. -/
theorem cover (i : S400000x32.Idx) : ∃ t : Fin cfg2.N, (cfg2.win 6).flush t = true ∧ i ∈ ((cfg2.win 6).blk t).view.set := by
  have hi0 : (i 0).val < 400000 := (i 0).isLt
  have hi1 : (i 1).val < 32 := (i 1).isLt
  have hN : grid2.N = 40 := N_2
  obtain ⟨t, ht⟩ : ∃ t : Fin cfg2.N, t.val = (i 0).val / 10000 := ⟨⟨(i 0).val / 10000, by show _ < grid2.N; rw [hN]; omega⟩, rfl⟩
  obtain ⟨e0, e1⟩ := idx_facts6 t
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 32 ≤ (i 1).val ∧ (i 1).val < win2_6.index t (1 : Fin 2) * 32 + 32; omega

/-- THE ARRAY after the region: every entry normalised, scaled, shifted and rectified. -/
theorem arr (c : Dev nD) :
    (dat2 V c).arrAt 6 cfg2.N
      = bnReluArr (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 _ (fun t _ => flushed_eq V c t) cover

/-- The same array, as the shared definition of the apply stage's result. -/
theorem arr_applyK (c : Dev nD) :
    (dat2 (F := Ideal) V c).arrAt 6 cfg2.N
      = Cert.KVal.applyK (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  arr V c

/-- The same at an entry with its coordinates named. -/
theorem arr_apply (c : Dev nD) (r : Fin 400000) (q : Fin 32) :
    ((dat2 V c).arrAt 6 cfg2.N : S400000x32.Idx → EReal) (ix2 r q)
      = bnRelu ((V c (Pipeline.arrRef spec2 0) : S400000x32.Idx → EReal) (ix2 r q)) ((V c (Pipeline.arrRef spec2 1) : S1x32.Idx → EReal) (ix2 0 q))
          ((V c (Pipeline.arrRef spec2 2) : S1x32.Idx → EReal) (ix2 0 q)) ((V c (Pipeline.arrRef spec2 3) : S1x32.Idx → EReal) (ix2 0 q))
          ((V c (Pipeline.arrRef spec2 4) : S1x32.Idx → EReal) (ix2 0 q)) ((V c (Pipeline.arrRef spec2 5) : S1x32.Idx → EReal) (ix2 0 q)) := by
  rw [arr]; rfl

end Cert.KernelIdeal.ApplyValue2

end
-- ==== Proof.KerChain1.lean ====
/-
  Stage 1 of the idealized kernel read off the frame's boundary contents: from the launch memory through the host
  gather, the matmul region (its result array the batched contraction of the gathered rows with the weights), the
  flattening and the accumulating scatter, the statistics region (the column sums of the biased rows and of their
  squares), the host mean and clamped one-pass variance, and the apply region: the stage's result array is the
  kernel's batch normalisation of the stage's convolution. Every buffer a later segment reads is carried across the
  boundaries in between, where no host operation and no region writes it.
-/
import proofs.«172556_j661424964110_2_alg».proof.Proof.Gen.KernelIdeal.Frame
import proofs.«172556_j661424964110_2_alg».proof.Proof.KDefs
import proofs.«172556_j661424964110_2_alg».proof.Proof.KConv
import proofs.«172556_j661424964110_2_alg».proof.Proof.MatmulBridge0
import proofs.«172556_j661424964110_2_alg».proof.Proof.StatsValue1
import proofs.«172556_j661424964110_2_alg».proof.Proof.ApplyValue2
import Idealize.ShloMosaic.Lib.StableHlo.Run

set_option maxRecDepth 16384

noncomputable section

namespace Cert.KernelIdeal.KerChain1

open Idealize.ShloMosaic Idealize.ShloMosaic.TcCoe Idealize.SL.Sem
open Idealize.ShloMosaic.StableHlo
open Cert.KernelIdeal Cert.KernelIdeal.Gen Cert.KVal

variable (m : (ℓ : Loc nD τ sig) → Buf (Elt Ideal) ℓ) (ρ : Dev nD → PrngReg)

local macro "host_skip" : tactic =>
  `(tactic| (refine StableHlo.after_of_forall_not_mem _ _ (List.forall_iff_forall_mem.mp ?_)
             simp only [hostOps0, hostOps1, hostOps2, hostOps3, hostOps4, hostOps5, hostOps6, hostOps7, hostOps8,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

theorem arg0_0 (c : Dev nD) : W0 m ρ c (Proc.devRef .tc main_arg0) = (m ((c : Thread nD τ).loc main_arg0)) := rfl
theorem arg12_0 (c : Dev nD) : W0 m ρ c (Proc.devRef .tc main_arg12) = (m ((c : Thread nD τ).loc main_arg12)) := rfl
theorem arg2_0 (c : Dev nD) : W0 m ρ c (Proc.devRef .tc main_arg2) = (m ((c : Thread nD τ).loc main_arg2)) := rfl
theorem arg2_1 (c : Dev nD) : W1 m ρ c (Proc.devRef .tc main_arg2) = (m ((c : Thread nD τ).loc main_arg2)) :=
  (by host_skip : W1 m ρ c (Proc.devRef .tc main_arg2) = W0 m ρ c (Proc.devRef .tc main_arg2)).trans (arg2_0 m ρ c)
theorem arg13_0 (c : Dev nD) : W0 m ρ c (Proc.devRef .tc main_arg13) = (m ((c : Thread nD τ).loc main_arg13)) := rfl
theorem arg13_1 (c : Dev nD) : W1 m ρ c (Proc.devRef .tc main_arg13) = (m ((c : Thread nD τ).loc main_arg13)) :=
  (by host_skip : W1 m ρ c (Proc.devRef .tc main_arg13) = W0 m ρ c (Proc.devRef .tc main_arg13)).trans (arg13_0 m ρ c)
theorem arg13_2 (c : Dev nD) : W2 m ρ c (Proc.devRef .tc main_arg13) = (m ((c : Thread nD τ).loc main_arg13)) :=
  (W2_of_ne m ρ c main_arg13 (by decide) : W2 m ρ c (Proc.devRef .tc main_arg13) = W1 m ρ c (Proc.devRef .tc main_arg13)).trans (arg13_1 m ρ c)
theorem arg3_0 (c : Dev nD) : W0 m ρ c (Proc.devRef .tc main_arg3) = (m ((c : Thread nD τ).loc main_arg3)) := rfl
theorem arg3_1 (c : Dev nD) : W1 m ρ c (Proc.devRef .tc main_arg3) = (m ((c : Thread nD τ).loc main_arg3)) :=
  (by host_skip : W1 m ρ c (Proc.devRef .tc main_arg3) = W0 m ρ c (Proc.devRef .tc main_arg3)).trans (arg3_0 m ρ c)
theorem arg3_2 (c : Dev nD) : W2 m ρ c (Proc.devRef .tc main_arg3) = (m ((c : Thread nD τ).loc main_arg3)) :=
  (W2_of_ne m ρ c main_arg3 (by decide) : W2 m ρ c (Proc.devRef .tc main_arg3) = W1 m ρ c (Proc.devRef .tc main_arg3)).trans (arg3_1 m ρ c)
theorem arg4_0 (c : Dev nD) : W0 m ρ c (Proc.devRef .tc main_arg4) = (m ((c : Thread nD τ).loc main_arg4)) := rfl
theorem arg4_1 (c : Dev nD) : W1 m ρ c (Proc.devRef .tc main_arg4) = (m ((c : Thread nD τ).loc main_arg4)) :=
  (by host_skip : W1 m ρ c (Proc.devRef .tc main_arg4) = W0 m ρ c (Proc.devRef .tc main_arg4)).trans (arg4_0 m ρ c)
theorem arg4_2 (c : Dev nD) : W2 m ρ c (Proc.devRef .tc main_arg4) = (m ((c : Thread nD τ).loc main_arg4)) :=
  (W2_of_ne m ρ c main_arg4 (by decide) : W2 m ρ c (Proc.devRef .tc main_arg4) = W1 m ρ c (Proc.devRef .tc main_arg4)).trans (arg4_1 m ρ c)
theorem arg5_0 (c : Dev nD) : W0 m ρ c (Proc.devRef .tc main_arg5) = (m ((c : Thread nD τ).loc main_arg5)) := rfl
theorem arg5_1 (c : Dev nD) : W1 m ρ c (Proc.devRef .tc main_arg5) = (m ((c : Thread nD τ).loc main_arg5)) :=
  (by host_skip : W1 m ρ c (Proc.devRef .tc main_arg5) = W0 m ρ c (Proc.devRef .tc main_arg5)).trans (arg5_0 m ρ c)
theorem arg5_2 (c : Dev nD) : W2 m ρ c (Proc.devRef .tc main_arg5) = (m ((c : Thread nD τ).loc main_arg5)) :=
  (W2_of_ne m ρ c main_arg5 (by decide) : W2 m ρ c (Proc.devRef .tc main_arg5) = W1 m ρ c (Proc.devRef .tc main_arg5)).trans (arg5_1 m ρ c)
theorem v7_1 (c : Dev nD) : W1 m ρ c (Proc.devRef .tc main_v7) = (Host.gather gather_S100000x64_S27x100000x1_S27x100000x64_2_0_n_n_0_2_164 (m ((c : Thread nD τ).loc main_arg0)) (broadcastInDim S27x100000x1 ![0, 1] bcast_S27x100000_S27x100000x1_0_1 (knormIdx1 (m ((c : Thread nD τ).loc main_arg12))))) := by
  show StableHlo.after hostOps0 (W0 m ρ c) (Proc.devRef .tc main_v7) = _
  dsimp only [hostOps0]
  after_results
  rfl
theorem v8_2 (c : Dev nD) : W2 m ρ c (Proc.devRef .tc main_v8) = (Host.dotGeneral (F := Ideal) (φ₁ := .f32) (φ₂ := .f32) Cert.ReferenceIdeal.dot_S27x100000x64_S27x64x32_S27x100000x32_2_1_1_2_0_0 none (Host.gather gather_S100000x64_S27x100000x1_S27x100000x64_2_0_n_n_0_2_164 (m ((c : Thread nD τ).loc main_arg0)) (broadcastInDim S27x100000x1 ![0, 1] bcast_S27x100000_S27x100000x1_0_1 (knormIdx1 (m ((c : Thread nD τ).loc main_arg12))))) (m ((c : Thread nD τ).loc main_arg2))) := by
  refine (W2_arr m ρ c 2).trans ((MatmulBridge0.arr_dot (V1 m ρ) c).trans ?_)
  show Host.dotGeneral (F := Ideal) (φ₁ := .f32) (φ₂ := .f32) Cert.ReferenceIdeal.dot_S27x100000x64_S27x64x32_S27x100000x32_2_1_1_2_0_0 none (W1 m ρ c (Proc.devRef .tc main_v7)) (W1 m ρ c (Proc.devRef .tc main_arg2)) = _
  rw [v7_1 m ρ c, arg2_1 m ρ c]
theorem v13_3 (c : Dev nD) : W3 m ρ c (Proc.devRef .tc main_v13) = (kconv1 (m ((c : Thread nD τ).loc main_arg0)) (m ((c : Thread nD τ).loc main_arg2)) (m ((c : Thread nD τ).loc main_arg12)) (m ((c : Thread nD τ).loc main_arg13))) := by
  show StableHlo.after hostOps1 (W2 m ρ c) (Proc.devRef .tc main_v13) = _
  dsimp only [hostOps1]
  after_results
  rw [v8_2 m ρ c, arg13_2 m ρ c]
  rfl
theorem v14_3 (c : Dev nD) : W3 m ρ c (Proc.devRef .tc main_v14) = (row (m ((c : Thread nD τ).loc main_arg3))) := by
  show StableHlo.after hostOps1 (W2 m ρ c) (Proc.devRef .tc main_v14) = _
  dsimp only [hostOps1]
  after_results
  rw [arg3_2 m ρ c]
  rfl
theorem v15_3 (c : Dev nD) : W3 m ρ c (Proc.devRef .tc main_v15) = (row (m ((c : Thread nD τ).loc main_arg4))) := by
  show StableHlo.after hostOps1 (W2 m ρ c) (Proc.devRef .tc main_v15) = _
  dsimp only [hostOps1]
  after_results
  rw [arg4_2 m ρ c]
  rfl
theorem v16_3 (c : Dev nD) : W3 m ρ c (Proc.devRef .tc main_v16) = (row (m ((c : Thread nD τ).loc main_arg5))) := by
  show StableHlo.after hostOps1 (W2 m ρ c) (Proc.devRef .tc main_v16) = _
  dsimp only [hostOps1]
  after_results
  rw [arg5_2 m ρ c]
  rfl
theorem v13_4 (c : Dev nD) : W4 m ρ c (Proc.devRef .tc main_v13) = (kconv1 (m ((c : Thread nD τ).loc main_arg0)) (m ((c : Thread nD τ).loc main_arg2)) (m ((c : Thread nD τ).loc main_arg12)) (m ((c : Thread nD τ).loc main_arg13))) :=
  (((W4_arr m ρ c 0).trans (((dat1 (V3 m ρ) c).arrAt_in 0 rfl _).trans (A_eq1 (V3 m ρ) c 0))) : W4 m ρ c (Proc.devRef .tc main_v13) = W3 m ρ c (Proc.devRef .tc main_v13)).trans (v13_3 m ρ c)
theorem v13_5 (c : Dev nD) : W5 m ρ c (Proc.devRef .tc main_v13) = (kconv1 (m ((c : Thread nD τ).loc main_arg0)) (m ((c : Thread nD τ).loc main_arg2)) (m ((c : Thread nD τ).loc main_arg12)) (m ((c : Thread nD τ).loc main_arg13))) :=
  (by host_skip : W5 m ρ c (Proc.devRef .tc main_v13) = W4 m ρ c (Proc.devRef .tc main_v13)).trans (v13_4 m ρ c)
theorem v14_4 (c : Dev nD) : W4 m ρ c (Proc.devRef .tc main_v14) = (row (m ((c : Thread nD τ).loc main_arg3))) :=
  (((W4_arr m ρ c 1).trans (((dat1 (V3 m ρ) c).arrAt_in 1 rfl _).trans (A_eq1 (V3 m ρ) c 1))) : W4 m ρ c (Proc.devRef .tc main_v14) = W3 m ρ c (Proc.devRef .tc main_v14)).trans (v14_3 m ρ c)
theorem v14_5 (c : Dev nD) : W5 m ρ c (Proc.devRef .tc main_v14) = (row (m ((c : Thread nD τ).loc main_arg3))) :=
  (by host_skip : W5 m ρ c (Proc.devRef .tc main_v14) = W4 m ρ c (Proc.devRef .tc main_v14)).trans (v14_4 m ρ c)
theorem v15_4 (c : Dev nD) : W4 m ρ c (Proc.devRef .tc main_v15) = (row (m ((c : Thread nD τ).loc main_arg4))) :=
  (W4_of_ne m ρ c main_v15 (by decide) : W4 m ρ c (Proc.devRef .tc main_v15) = W3 m ρ c (Proc.devRef .tc main_v15)).trans (v15_3 m ρ c)
theorem v15_5 (c : Dev nD) : W5 m ρ c (Proc.devRef .tc main_v15) = (row (m ((c : Thread nD τ).loc main_arg4))) :=
  (by host_skip : W5 m ρ c (Proc.devRef .tc main_v15) = W4 m ρ c (Proc.devRef .tc main_v15)).trans (v15_4 m ρ c)
theorem v16_4 (c : Dev nD) : W4 m ρ c (Proc.devRef .tc main_v16) = (row (m ((c : Thread nD τ).loc main_arg5))) :=
  (W4_of_ne m ρ c main_v16 (by decide) : W4 m ρ c (Proc.devRef .tc main_v16) = W3 m ρ c (Proc.devRef .tc main_v16)).trans (v16_3 m ρ c)
theorem v16_5 (c : Dev nD) : W5 m ρ c (Proc.devRef .tc main_v16) = (row (m ((c : Thread nD τ).loc main_arg5))) :=
  (by host_skip : W5 m ρ c (Proc.devRef .tc main_v16) = W4 m ρ c (Proc.devRef .tc main_v16)).trans (v16_4 m ρ c)
theorem v17_0_4 (c : Dev nD) : W4 m ρ c (Proc.devRef .tc main_v17_0) = (colSum (kconv1 (m ((c : Thread nD τ).loc main_arg0)) (m ((c : Thread nD τ).loc main_arg2)) (m ((c : Thread nD τ).loc main_arg12)) (m ((c : Thread nD τ).loc main_arg13))) (row (m ((c : Thread nD τ).loc main_arg3)))) := by
  refine (W4_arr m ρ c 2).trans ((StatsValue1.sum_colSum (V3 m ρ) c).trans ?_)
  show colSum (W3 m ρ c (Proc.devRef .tc main_v13)) (W3 m ρ c (Proc.devRef .tc main_v14)) = _
  rw [v13_3 m ρ c, v14_3 m ρ c]
theorem v17_1_4 (c : Dev nD) : W4 m ρ c (Proc.devRef .tc main_v17_1) = (colSumSq (kconv1 (m ((c : Thread nD τ).loc main_arg0)) (m ((c : Thread nD τ).loc main_arg2)) (m ((c : Thread nD τ).loc main_arg12)) (m ((c : Thread nD τ).loc main_arg13))) (row (m ((c : Thread nD τ).loc main_arg3)))) := by
  refine (W4_arr m ρ c 3).trans ((StatsValue1.sumsq_colSumSq (V3 m ρ) c).trans ?_)
  show colSumSq (W3 m ρ c (Proc.devRef .tc main_v13)) (W3 m ρ c (Proc.devRef .tc main_v14)) = _
  rw [v13_3 m ρ c, v14_3 m ρ c]
theorem v19_5 (c : Dev nD) : W5 m ρ c (Proc.devRef .tc main_v19) = (meanK (colSum (kconv1 (m ((c : Thread nD τ).loc main_arg0)) (m ((c : Thread nD τ).loc main_arg2)) (m ((c : Thread nD τ).loc main_arg12)) (m ((c : Thread nD τ).loc main_arg13))) (row (m ((c : Thread nD τ).loc main_arg3))))) := by
  show StableHlo.after hostOps2 (W4 m ρ c) (Proc.devRef .tc main_v19) = _
  dsimp only [hostOps2]
  after_results
  rw [v17_0_4 m ρ c]
  rfl
theorem v25_5 (c : Dev nD) : W5 m ρ c (Proc.devRef .tc main_v25) = (varK (colSum (kconv1 (m ((c : Thread nD τ).loc main_arg0)) (m ((c : Thread nD τ).loc main_arg2)) (m ((c : Thread nD τ).loc main_arg12)) (m ((c : Thread nD τ).loc main_arg13))) (row (m ((c : Thread nD τ).loc main_arg3)))) (colSumSq (kconv1 (m ((c : Thread nD τ).loc main_arg0)) (m ((c : Thread nD τ).loc main_arg2)) (m ((c : Thread nD τ).loc main_arg12)) (m ((c : Thread nD τ).loc main_arg13))) (row (m ((c : Thread nD τ).loc main_arg3))))) := by
  show StableHlo.after hostOps2 (W4 m ρ c) (Proc.devRef .tc main_v25) = _
  dsimp only [hostOps2]
  after_results
  rw [v17_0_4 m ρ c, v17_1_4 m ρ c]
  rfl
/-- The stage's result array: the kernel's batch normalisation of the stage's convolution. -/
theorem v26_6 (c : Dev nD) : W6 m ρ c (Proc.devRef .tc main_v26) = (bnK (kconv1 (m ((c : Thread nD τ).loc main_arg0)) (m ((c : Thread nD τ).loc main_arg2)) (m ((c : Thread nD τ).loc main_arg12)) (m ((c : Thread nD τ).loc main_arg13))) (row (m ((c : Thread nD τ).loc main_arg3))) (row (m ((c : Thread nD τ).loc main_arg4))) (row (m ((c : Thread nD τ).loc main_arg5)))) := by
  refine (W6_arr m ρ c 6).trans ((ApplyValue2.arr_applyK (V5 m ρ) c).trans ?_)
  show applyK (W5 m ρ c (Proc.devRef .tc main_v13)) (W5 m ρ c (Proc.devRef .tc main_v14)) (W5 m ρ c (Proc.devRef .tc main_v19)) (W5 m ρ c (Proc.devRef .tc main_v25)) (W5 m ρ c (Proc.devRef .tc main_v15)) (W5 m ρ c (Proc.devRef .tc main_v16)) = _
  rw [v13_5 m ρ c, v14_5 m ρ c, v19_5 m ρ c, v25_5 m ρ c, v15_5 m ρ c, v16_5 m ρ c]
  rfl

end Cert.KernelIdeal.KerChain1

end
-- ==== Proof.MatmulValue3.lean ====
/-
  The value of the matrix-product region (pipeline 3) at the ideal values, for any contents of the buffers at the region's
  entry. The grid has 600 points; point t stages rows 200 t … 200 t + 199 of each of the 27 members of the first operand
  [27, 120000, 64], the whole second operand [27, 64, 32], and writes back rows 200 t … 200 t + 199 of each member of
  the result [27, 120000, 32]. The body rounds both blocks to bf16 (the identity on extended reals) and multiplies them
  member by member into a zero accumulator. So the result array ends holding the batched product
      G A B (g, r, d) = ∑ k, A (g, r, k) * B (g, k, d),
  a finite sum of products of extended reals: no finiteness is needed. The steps: the payload at an index
  (`pay_apply`), the same with the blocks placed in the arrays (`pay_eq_G`), the index maps decided once over the grid
  (`idx_facts`), what a point writes back (`flushed_eq`), the cover (row r is written by point r / 200), and the
  whole-array statement (`arr`).
-/
import proofs.«172556_j661424964110_2_alg».proof.Proof.Gen.KernelIdeal.Frame
import Idealize.ShloMosaic.Lib.Pipeline.Value
import Idealize.ShloMosaic.Lib.StackMember
import Idealize.ShloMosaic.Lib.ValueIdx

noncomputable section

open Idealize.ShloMosaic Idealize.ShloMosaic.TcCoe Idealize.SL.Sem
open Idealize.ShloMosaic.ValueIdx
open Idealize.ShloMosaic.Pipeline (Dat)

namespace Cert.KernelIdeal.MatmulValue3

open Cert.KernelIdeal Cert.KernelIdeal.Gen

/-- The batched product of a stack of 27 matrices [120000, 64] with a stack of 27 matrices [64, 32]: entry
    (g, r, d) is the sum over k of A (g, r, k) * B (g, k, d). -/
def G (A : S27x120000x64.Idx → EReal) (B : S27x64x32.Idx → EReal) : S27x120000x32.Idx → EReal :=
  fun j => ∑ k : Fin 64, A (ix3 (j 0 : Fin 27) (j 1 : Fin 120000) k) * B (ix3 (j 0 : Fin 27) k (j 2 : Fin 32))

/-- The batched product at explicit coordinates. -/
theorem G_apply (A : S27x120000x64.Idx → EReal) (B : S27x64x32.Idx → EReal) (g : Fin 27) (r : Fin 120000) (d : Fin 32) :
    G A B (ix3 g r d) = ∑ k : Fin 64, A (ix3 g r k) * B (ix3 g k d) := rfl

/-- The body's payload at an index: the product of the two blocks, member by member. The roundings to bf16 are the
    identity on extended reals, and the product into the zero accumulator is the bare sum over the contracted axis. -/
theorem pay_apply (x0 : Vec Ideal S27x200x64 .f32) (x1 : Vec Ideal S27x64x32 .f32) (g : Fin 27) (a : Fin 200) (b : Fin 32) :
    k3_pay1 x0 x1 (ix3 g a b) = ∑ k : Fin 64, x0 (ix3 g a k) * x1 (ix3 g k b) := by
  unfold k3_pay1
  simp only [shapeCast_self]
  rw [matmul_zero_eq_dotGeneral]
  exact StackMember.dotGeneral_stack_apply dot_S27x200x64_S27x64x32_S27x200x32_2_1_1_2_0_0.wf none _ _ g a b

/-- One entry of a block product, placed in the arrays: when the first block is rows 200 T … 200 T + 199 of every
    member of A (`e0` says where each of its entries sits), the second block is all of B (`e1`), and the entry sits in row
    200 T + y 1 of member y 0 (`hi`), it is that entry of the batched product. -/
theorem pay_eq_G (A : S27x120000x64.Idx → EReal) (B : S27x64x32.Idx → EReal)
    (x0 : Vec Ideal S27x200x64 .f32) (x1 : Vec Ideal S27x64x32 .f32)
    (e0 : S27x200x64.Idx → S27x120000x64.Idx) (e1 : S27x64x32.Idx → S27x64x32.Idx) (T : Nat)
    (hx0 : ∀ z, x0 z = A (e0 z)) (hx1 : ∀ z, x1 z = B (e1 z))
    (he0 : ∀ z, (e0 z 0).val = (z 0).val ∧ (e0 z 1).val = T * 200 + (z 1).val ∧ (e0 z 2).val = (z 2).val)
    (he1 : ∀ z, (e1 z 0).val = (z 0).val ∧ (e1 z 1).val = (z 1).val ∧ (e1 z 2).val = (z 2).val)
    (y : S27x200x32.Idx) (i : S27x120000x32.Idx)
    (hi : (i 0).val = (y 0).val ∧ (i 1).val = T * 200 + (y 1).val ∧ (i 2).val = (y 2).val) :
    k3_pay1 x0 x1 y = G A B i := by
  obtain ⟨g, a, b, rfl⟩ : ∃ (g : Fin 27) (a : Fin 200) (b : Fin 32), y = ix3 g a b := ⟨y 0, y 1, y 2, eq_ix3 y⟩
  rw [pay_apply]
  unfold G
  refine Finset.sum_congr rfl fun k _ => ?_
  rw [hx0, hx1]
  refine congrArg₂ (· * ·) (congrArg A ?_) (congrArg B ?_)
  · funext ax; apply Fin.ext
    match ax with
    | ⟨0, _⟩ => exact (he0 _).1.trans hi.1.symm
    | ⟨1, _⟩ => exact (he0 _).2.1.trans hi.2.1.symm
    | ⟨2, _⟩ => exact (he0 _).2.2
  · funext ax; apply Fin.ext
    match ax with
    | ⟨0, _⟩ => exact (he1 _).1.trans hi.1.symm
    | ⟨1, _⟩ => exact (he1 _).2.1
    | ⟨2, _⟩ => exact (he1 _).2.2.trans hi.2.2.symm

/-- The zero offsets of the body's whole-block loads and store, however spelt. -/
theorem hz : (![0, 0, 0] : Fin 3 → Nat) = fun _ => 0 := funext fun a => by fin_cases a <;> rfl

/-- The index maps, decided once over the grid: point t stages block (0, t, 0) of the first operand and of the
    result, and block (0, 0, 0) — the whole — of the second operand. -/
theorem idx_facts : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = 0 ∧ win3_1.index t (2 : Fin 3) = 0
    ∧ win3_2.index t (0 : Fin 3) = 0 ∧ win3_2.index t (1 : Fin 3) = t.val ∧ win3_2.index t (2 : Fin 3) = 0 :=
  (by decide +kernel : ∀ t : Fin grid3.N, _)

/-- What point t writes back is block t of the batched product of the two operand arrays as the region finds them:
    an element of a block sits in its array, on each axis, at the block index times the block size plus its own
    coordinate. -/
theorem flushed_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (G (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S27x200x64) hz, View.ld_unit_zero (S := S27x64x32) hz]
  obtain ⟨a0, a1, a2, b0, b1, b2, o0, o1, o2⟩ := idx_facts t
  funext y
  show k3_pay1 (iblk3 V c 0 t) (iblk3 V c 1 t) y
    = G (V c (Pipeline.arrRef spec3 0)) (V c (Pipeline.arrRef spec3 1)) (((cfg3.win 2).blk t).view.emb y)
  refine pay_eq_G (V c (Pipeline.arrRef spec3 0)) (V c (Pipeline.arrRef spec3 1)) (iblk3 V c 0 t) (iblk3 V c 1 t)
    ((cfg3.win 0).blk t).view.emb ((cfg3.win 1).blk t).view.emb t.val (fun _ => rfl) (fun _ => rfl) ?_ ?_ y
    (((cfg3.win 2).blk t).view.emb y) ?_
  · intro z
    refine ⟨?_, ?_, ?_⟩
    · show win3_0.index t (0 : Fin 3) * 27 + 1 * (z 0).val = (z 0).val
      rw [a0]; omega
    · show win3_0.index t (1 : Fin 3) * 200 + 1 * (z 1).val = t.val * 200 + (z 1).val
      rw [a1]; omega
    · show win3_0.index t (2 : Fin 3) * 64 + 1 * (z 2).val = (z 2).val
      rw [a2]; omega
  · intro z
    refine ⟨?_, ?_, ?_⟩
    · show win3_1.index t (0 : Fin 3) * 27 + 1 * (z 0).val = (z 0).val
      rw [b0]; omega
    · show win3_1.index t (1 : Fin 3) * 64 + 1 * (z 1).val = (z 1).val
      rw [b1]; omega
    · show win3_1.index t (2 : Fin 3) * 32 + 1 * (z 2).val = (z 2).val
      rw [b2]; omega
  · refine ⟨?_, ?_, ?_⟩
    · show win3_2.index t (0 : Fin 3) * 27 + 1 * (y 0).val = (y 0).val
      rw [o0]; omega
    · show win3_2.index t (1 : Fin 3) * 200 + 1 * (y 1).val = t.val * 200 + (y 1).val
      rw [o1]; omega
    · show win3_2.index t (2 : Fin 3) * 32 + 1 * (y 2).val = (y 2).val
      rw [o2]; omega

/-- An index of the result array is in point t's block iff each coordinate is in the block's range on its axis. -/
theorem mem_blk (t : Fin cfg3.N) (i : S27x120000x32.Idx) :
    i ∈ ((cfg3.win 2).blk t).view.set ↔ ∀ a : Fin 3, win3_2.index t a * S27x200x32.size a ≤ (i a).val ∧ (i a).val < win3_2.index t a * S27x200x32.size a + S27x200x32.size a := by
  show i ∈ ((View.whole main_v35).slice (win3_2.rect t)).set ↔ _
  rw [View.set_slice_whole, Rect.mem_set_unit]
  exact Iff.rfl

/-- Every index of the result array is written back by some point: row r by point r / 200. -/
theorem cover (i : S27x120000x32.Idx) :
    ∃ t : Fin cfg3.N, (cfg3.win 2).flush t = true ∧ i ∈ ((cfg3.win 2).blk t).view.set := by
  have hN : cfg3.N = 600 := N_3
  have h0 : (i 0).val < 27 := (i 0).isLt
  have h1 : (i 1).val < 120000 := (i 1).isLt
  have h2 : (i 2).val < 32 := (i 2).isLt
  obtain ⟨t, ht⟩ : ∃ t : Fin cfg3.N, t.val = (i 1).val / 200 := ⟨⟨(i 1).val / 200, by rw [hN]; omega⟩, rfl⟩
  obtain ⟨-, -, -, -, -, -, o0, o1, o2⟩ := idx_facts t
  refine ⟨t, flush3_2 t, ?_⟩
  rw [mem_blk]
  intro a
  match a with
  | ⟨0, _⟩ => show win3_2.index t (0 : Fin 3) * 27 ≤ (i 0).val ∧ (i 0).val < win3_2.index t (0 : Fin 3) * 27 + 27; rw [o0]; omega
  | ⟨1, _⟩ => show win3_2.index t (1 : Fin 3) * 200 ≤ (i 1).val ∧ (i 1).val < win3_2.index t (1 : Fin 3) * 200 + 200; rw [o1, ht]; omega
  | ⟨2, _⟩ => show win3_2.index t (2 : Fin 3) * 32 ≤ (i 2).val ∧ (i 2).val < win3_2.index t (2 : Fin 3) * 32 + 32; rw [o2]; omega

/-- The result array after the region is the batched product of the two operand arrays as the region finds them. -/
theorem arr (V : (c : Dev nD) → (b : Ref sig .tc) → Buf (Elt Ideal) ((c : Thread nD τ).loc b)) (c : Dev nD) :
    (dat3 (F := Ideal) V c).arrAt 2 cfg3.N = G (V c (Pipeline.arrRef spec3 0)) (V c (Pipeline.arrRef spec3 1)) :=
  (dat3 (F := Ideal) V c).arrAt_eq_of_cover 2 (G (V c (Pipeline.arrRef spec3 0)) (V c (Pipeline.arrRef spec3 1)))
    (fun t _ => flushed_eq V c t) cover

end Cert.KernelIdeal.MatmulValue3

end
-- ==== Proof.MatmulBridge3.lean ====
/-
  The matrix-product region (pipeline 3) against the reference's contraction: the result array after the region is
  the host's `dot_general` of the two operand arrays as the region finds them — batch axis 0, the first operand's axis 2
  contracted with the second's axis 1 — because both are, entry by entry, the same finite sum
  ∑ k, A (g, r, k) * B (g, k, d) of products of extended reals.
-/
import proofs.«172556_j661424964110_2_alg».proof.Proof.MatmulValue3
import proofs.«172556_j661424964110_2_alg».proof.Proof.RefRunDefs

noncomputable section

open Idealize.ShloMosaic Idealize.ShloMosaic.TcCoe Idealize.SL.Sem
open Idealize.ShloMosaic.ValueIdx
open Idealize.ShloMosaic.Pipeline (Dat)

namespace Cert.KernelIdeal.MatmulBridge3

open Cert.KernelIdeal Cert.KernelIdeal.Gen

/-- The batched product is the host's `dot_general` with the reference's dimension numbers. -/
theorem G_eq_dotGeneral (A : S27x120000x64.Idx → EReal) (B : S27x64x32.Idx → EReal) :
    MatmulValue3.G A B = Host.dotGeneral (F := Ideal) (φ₁ := .f32) (φ₂ := .f32) Cert.ReferenceIdeal.dot_S27x120000x64_S27x64x32_S27x120000x32_2_1_1_2_0_0 none A B := by
  funext j
  obtain ⟨g, r, d, rfl⟩ : ∃ (g : Fin 27) (r : Fin 120000) (d : Fin 32), j = ix3 g r d := ⟨j 0, j 1, j 2, eq_ix3 j⟩
  rw [MatmulValue3.G_apply]
  exact (StackMember.dotGeneral_stack_apply Cert.ReferenceIdeal.dot_S27x120000x64_S27x64x32_S27x120000x32_2_1_1_2_0_0.wf none A B g r d).symm

/-- The result array after the region is the reference's contraction of the two operand arrays as the region finds
    them. -/
theorem arr_dot (V : (c : Dev nD) → (b : Ref sig .tc) → Buf (Elt Ideal) ((c : Thread nD τ).loc b)) (c : Dev nD) :
    (dat3 (F := Ideal) V c).arrAt 2 cfg3.N
      = Host.dotGeneral (F := Ideal) (φ₁ := .f32) (φ₂ := .f32) Cert.ReferenceIdeal.dot_S27x120000x64_S27x64x32_S27x120000x32_2_1_1_2_0_0 none (V c (Pipeline.arrRef spec3 0)) (V c (Pipeline.arrRef spec3 1)) :=
  (MatmulValue3.arr V c).trans (G_eq_dotGeneral _ _)

end Cert.KernelIdeal.MatmulBridge3

end
-- ==== Proof.StatsValue4.lean ====
import proofs.«172556_j661424964110_2_alg».proof.Proof.Gen.KernelIdeal.Frame
import proofs.«172556_j661424964110_2_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
# The batch-norm statistics of region 4, as closed sums

Region 4 walks the 400000 rows of a 32-lane array `h` in 40 blocks of 10000 rows. Each point forms
`x = h_block + bias` (the bias row broadcast over the block's rows) and adds, lane by lane, the sum of
`x` over the block's rows into one accumulator and the sum of `x * x` into another; the first point
starts both accumulators from zero. The accumulators' block never moves, so what the arrays hold in the
end is what the last point leaves.

This module shows that, over the extended reals, the two arrays end holding, in lane `l`,
`∑ r, (h r l + bias l)` and `∑ r, (h r l + bias l) * (h r l + bias l)` over all 400000 rows `r`.
Only commutativity and associativity of addition are used (regrouping 400000 terms as 40 blocks of
10000), so no finiteness of the entries is needed.
-/

noncomputable section

open Idealize.ShloMosaic Idealize.ShloMosaic.TcCoe Idealize.SL.Sem
open Idealize.ShloMosaic.Pipeline (Dat)
open Idealize.ShloMosaic.ValueIdx

namespace Cert.KernelIdeal.StatsValue4

open Cert.KernelIdeal Cert.KernelIdeal.Gen

/-! ## What one point leaves in the accumulators, for any float instance -/

section AnyInstance

variable {F : FTy → Type} [FloatOps F]

theorem hz : (![0, 0] : Fin 2 → Nat) = fun _ => 0 := funext fun a => by fin_cases a <;> rfl

/-- A later point leaves, in the first accumulator holding `xo2`, `xo2` plus the row sums of the shifted block. -/
theorem out_B_2 (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : ¬cond4_0 i)
    (x0 : Vec F S10000x32 .f32) (x1 xo2 xo3 : Vec F S1x32 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero hz]
  simp only [View.readAt_eq_ld, h1.read_unread, h2.read_unread, h3.read_unread, h4.read_unread,
    View.ld_unit_zero (S := S10000x32) hz, View.ld_unit_zero (S := S1x32) hz]

/-- A later point leaves, in the second accumulator holding `xo3`, `xo3` plus the row sums of the squared shifted block. -/
theorem out_B_3 (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : ¬cond4_0 i)
    (x0 : Vec F S10000x32 .f32) (x1 xo2 xo3 : Vec F S1x32 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero hz]
  simp only [View.readAt_eq_ld, h1.read_unread, h2.read_unread, h3.read_unread, h4.read_unread,
    View.ld_unit_zero (S := S10000x32) hz, View.ld_unit_zero (S := S1x32) hz]

/-- The first point stores the zero row, reads it back, and leaves zero plus the row sums of the shifted block. -/
theorem out_A_2 (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : cond4_0 i)
    (x0 : Vec F S10000x32 .f32) (x1 : Vec F S1x32 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x32) hz, View.readCov_unit_zero (S := S1x32) _ hz]
  simp only [View.readAt_eq_ld, h1.read_unread, h2.read_unread,
    View.ld_unit_zero (S := S10000x32) hz, View.ld_unit_zero (S := S1x32) hz]

/-- Likewise for the second accumulator and the squares. -/
theorem out_A_3 (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : cond4_0 i)
    (x0 : Vec F S10000x32 .f32) (x1 : Vec F S1x32 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x32) hz, View.readCov_unit_zero (S := S1x32) _ hz]
  simp only [View.readAt_eq_ld, h1.read_unread, h2.read_unread,
    View.ld_unit_zero (S := S10000x32) hz, View.ld_unit_zero (S := S1x32) hz]

variable (V : (c : Dev nD) → (b : Ref sig .tc) → Buf (Elt F) ((c : Thread nD τ).loc b))

/-- The two accumulators after point `n`: from the zero rows at point 0, each point adds its block's row sums. -/
def acc (c : Dev nD) : (n : ℕ) → n < cfg4.N → Vec F S1x32 .f32 × Vec F S1x32 .f32
  | 0, h => (k4_pay4 (iblk4 V c 0 ⟨0, h⟩) (iblk4 V c 1 ⟨0, h⟩) k4_pay1,
             k4_pay5 (iblk4 V c 0 ⟨0, h⟩) (iblk4 V c 1 ⟨0, h⟩) k4_pay2)
  | n + 1, h => (k4_pay4 (iblk4 V c 0 ⟨n + 1, h⟩) (iblk4 V c 1 ⟨n + 1, h⟩) (acc c n (Nat.lt_of_succ_lt h)).1,
                 k4_pay5 (iblk4 V c 0 ⟨n + 1, h⟩) (iblk4 V c 1 ⟨n + 1, h⟩) (acc c n (Nat.lt_of_succ_lt h)).2)

/-- What the accumulators' staging buffers hold after point `n` is that recursion: by induction on the point. -/
theorem outsAt_eq (c : Dev nD) : ∀ (n : ℕ) (h : n < cfg4.N), outsAt4 V c n h = acc V c n h
  | 0, h => by
    rw [outsAt4_A V c ⟨0, h⟩ rfl, out_A_2, out_A_3]
    rfl
  | n + 1, h => by
    have hN : cfg4.N = 40 := N_4
    have hB : ¬(⟨n + 1, h⟩ : Fin cfg4.N).val % 40 = 0 := by dsimp only; omega
    rw [outsAt4_B V c ⟨n + 1, h⟩ hB, out_B_2, out_B_3]
    show (k4_pay4 _ _ (outsAt4 V c n _).1, k4_pay5 _ _ (outsAt4 V c n _).2) = _
    rw [outsAt_eq c n]
    rfl

/-- The last point. -/
abbrev tLast : Fin cfg4.N := ⟨39, by rw [show cfg4.N = 40 from N_4]; decide⟩

/-- What the last point leaves: the contents the two result arrays end with. -/
abbrev result2 (c : Dev nD) : Buf (Elt F) ((c : Thread nD τ).loc main_v44_0) := (acc V c 39 tLast.isLt).1
abbrev result3 (c : Dev nD) : Buf (Elt F) ((c : Thread nD τ).loc main_v44_1) := (acc V c 39 tLast.isLt).2

/-- The one write-back of the first accumulator, at the last point, writes `result2`: its block is the whole array. -/
theorem flushed2_eq (c : Dev nD) (t : Fin cfg4.N) (hf : (cfg4.win 2).flush t = true) :
    (dat4 V c).flushed 2 t = ((cfg4.win 2).blk t).view.read (Elt F) (result2 V c) := by
  have hN : cfg4.N = 40 := N_4
  have h3 : t.val = 39 := by have := (flush4_2 t).mp hf; have := t.isLt; omega
  obtain rfl : t = tLast := Fin.ext h3
  show (cfg4.win 2).cut (grid4.coords tLast) ((dat4 V c).after 2 tLast) = _
  rw [after4_2, outsAt_eq]
  have hz' : (fun a => win4_2.index tLast a * main_v44_0.ty.shape.size a) = fun _ => 0 := funext fun a => by fin_cases a <;> decide
  exact (Memref.read_access_unit_zero (Elt F) main_v44_0 hz' (fun a => by rw [congrFun hz' a]; simp) (result2 V c)).symm

/-- Likewise for the second accumulator. -/
theorem flushed3_eq (c : Dev nD) (t : Fin cfg4.N) (hf : (cfg4.win 3).flush t = true) :
    (dat4 V c).flushed 3 t = ((cfg4.win 3).blk t).view.read (Elt F) (result3 V c) := by
  have hN : cfg4.N = 40 := N_4
  have h3 : t.val = 39 := by have := (flush4_3 t).mp hf; have := t.isLt; omega
  obtain rfl : t = tLast := Fin.ext h3
  show (cfg4.win 3).cut (grid4.coords tLast) ((dat4 V c).after 3 tLast) = _
  rw [after4_3, outsAt_eq]
  have hz' : (fun a => win4_3.index tLast a * main_v44_1.ty.shape.size a) = fun _ => 0 := funext fun a => by fin_cases a <;> decide
  exact (Memref.read_access_unit_zero (Elt F) main_v44_1 hz' (fun a => by rw [congrFun hz' a]; simp) (result3 V c)).symm

/-- So the first result array ends holding what the last point leaves (the last point's block covers it). -/
theorem final2 (c : Dev nD) : (dat4 V c).arrAt 2 cfg4.N = result2 V c :=
  (dat4 V c).arrAt_eq_of_cover 2 (result2 V c) (flushed2_eq V c) fun i =>
    ⟨tLast, (flush4_2 tLast).mpr rfl, by
      show i ∈ ((View.whole main_v44_0).slice (win4_2.rect tLast)).set
      rw [View.set_slice_whole, Rect.mem_set_unit]
      intro a
      have h0 : (i 0 : Nat) < 1 := (i 0).isLt
      have h1 : (i 1 : Nat) < 32 := (i 1).isLt
      match a with
      | ⟨0, _⟩ => show win4_2.index tLast 0 * win4_2.size 0 ≤ (i 0 : Nat) ∧ (i 0 : Nat) < win4_2.index tLast 0 * win4_2.size 0 + win4_2.xsize (grid4.coords tLast) 0
                  rw [show win4_2.index tLast 0 * win4_2.size 0 = 0 from by decide +kernel, show win4_2.xsize (grid4.coords tLast) 0 = 1 from by decide +kernel]; omega
      | ⟨1, _⟩ => show win4_2.index tLast 1 * win4_2.size 1 ≤ (i 1 : Nat) ∧ (i 1 : Nat) < win4_2.index tLast 1 * win4_2.size 1 + win4_2.xsize (grid4.coords tLast) 1
                  rw [show win4_2.index tLast 1 * win4_2.size 1 = 0 from by decide +kernel, show win4_2.xsize (grid4.coords tLast) 1 = 32 from by decide +kernel]; omega⟩

/-- Likewise for the second result array. -/
theorem final3 (c : Dev nD) : (dat4 V c).arrAt 3 cfg4.N = result3 V c :=
  (dat4 V c).arrAt_eq_of_cover 3 (result3 V c) (flushed3_eq V c) fun i =>
    ⟨tLast, (flush4_3 tLast).mpr rfl, by
      show i ∈ ((View.whole main_v44_1).slice (win4_3.rect tLast)).set
      rw [View.set_slice_whole, Rect.mem_set_unit]
      intro a
      have h0 : (i 0 : Nat) < 1 := (i 0).isLt
      have h1 : (i 1 : Nat) < 32 := (i 1).isLt
      match a with
      | ⟨0, _⟩ => show win4_3.index tLast 0 * win4_3.size 0 ≤ (i 0 : Nat) ∧ (i 0 : Nat) < win4_3.index tLast 0 * win4_3.size 0 + win4_3.xsize (grid4.coords tLast) 0
                  rw [show win4_3.index tLast 0 * win4_3.size 0 = 0 from by decide +kernel, show win4_3.xsize (grid4.coords tLast) 0 = 1 from by decide +kernel]; omega
      | ⟨1, _⟩ => show win4_3.index tLast 1 * win4_3.size 1 ≤ (i 1 : Nat) ∧ (i 1 : Nat) < win4_3.index tLast 1 * win4_3.size 1 + win4_3.xsize (grid4.coords tLast) 1
                  rw [show win4_3.index tLast 1 * win4_3.size 1 = 0 from by decide +kernel, show win4_3.xsize (grid4.coords tLast) 1 = 32 from by decide +kernel]; omega⟩

end AnyInstance

/-! ## The arithmetic of one point, over the extended reals -/

section Arithmetic

/-- The shifted block at row `r`, lane `l`: the block's entry plus that lane's bias. -/
theorem pay3_apply (x0 : Vec Ideal S10000x32 .f32) (x1 : Vec Ideal S1x32 .f32) (r : Fin 10000) (l : Fin 32) :
    k4_pay3 (F := Ideal) x0 x1 (ix2 r l) = x0 (ix2 r l) + x1 (ix2 (0 : Fin 1) l) := by
  unfold k4_pay3
  show (shapeCast S10000x32 x0 shapeCasts_S10000x32_S10000x32) (ix2 r l)
      + (broadcastTo S10000x32 (shapeCast S1x32 x1 shapeCasts_S1x32_S1x32) broadcasts_S1x32_S10000x32) (ix2 r l) = _
  rw [shapeCast_self, shapeCast_self]
  exact congrArg (x0 (ix2 r l) + ·) (broadcastTo_1b_ab_apply x1 broadcasts_S1x32_S10000x32 r l)

/-- The index the row reduction sums over at lane `l`: row `k` put back in front of the lane. -/
theorem lift_eq (l : Fin 32) (k : Fin 10000) : reduces_S10000x32_S32.lift (ix1 l) k = ix2 k l := by
  funext a
  match a with
  | ⟨0, _⟩ => rfl
  | ⟨1, _⟩ => rfl

/-- The reduction over a block's rows is, lane by lane, the sum over the 10000 rows. -/
theorem rowsum_apply (src : FVec Ideal S10000x32 .f32) (l : Fin 32) :
    multiReduction (F := Ideal) .add [0] S32 src 0x00000000#32 reduces_S10000x32_S32 (.inl rfl) rfl (ix1 l)
      = ∑ k : Fin 10000, src (ix2 k l) := by
  refine (Ideal.multiReduction_add_single src 0x00000000#32 reduces_S10000x32_S32 (.inl rfl) rfl (ix1 l)).trans ?_
  show ∑ k : Fin 10000, src (reduces_S10000x32_S32.lift (ix1 l) k) = _
  exact Finset.sum_congr rfl fun k _ => congrArg src (lift_eq l k)

/-- One point's update of the first accumulator, at lane `l`. -/
theorem pay4_apply (x0 : Vec Ideal S10000x32 .f32) (x1 xo : Vec Ideal S1x32 .f32) (u : Fin 1) (l : Fin 32) :
    k4_pay4 (F := Ideal) x0 x1 xo (ix2 u l)
      = xo (ix2 u l) + ∑ k : Fin 10000, (x0 (ix2 k l) + x1 (ix2 (0 : Fin 1) l)) := by
  unfold k4_pay4
  show (shapeCast S1x32 xo shapeCasts_S1x32_S1x32) (ix2 u l)
      + (shapeCast S1x32 (multiReduction (F := Ideal) .add [0] S32 (k4_pay3 x0 x1) 0x00000000#32 reduces_S10000x32_S32 (.inl rfl) rfl) shapeCasts_S32_S1x32) (ix2 u l) = _
  rw [shapeCast_self]
  refine congrArg (xo (ix2 u l) + ·) ?_
  refine (shapeCast_a_1a_apply _ shapeCasts_S32_S1x32 u l).trans ?_
  refine (rowsum_apply _ l).trans ?_
  exact Finset.sum_congr rfl fun k _ => pay3_apply x0 x1 k l

/-- One point's update of the second accumulator, at lane `l`. -/
theorem pay5_apply (x0 : Vec Ideal S10000x32 .f32) (x1 xo : Vec Ideal S1x32 .f32) (u : Fin 1) (l : Fin 32) :
    k4_pay5 (F := Ideal) x0 x1 xo (ix2 u l)
      = xo (ix2 u l) + ∑ k : Fin 10000, (x0 (ix2 k l) + x1 (ix2 (0 : Fin 1) l)) * (x0 (ix2 k l) + x1 (ix2 (0 : Fin 1) l)) := by
  unfold k4_pay5
  show (shapeCast S1x32 xo shapeCasts_S1x32_S1x32) (ix2 u l)
      + (shapeCast S1x32 (multiReduction (F := Ideal) .add [0] S32 (mulf (k4_pay3 x0 x1) (k4_pay3 x0 x1)) 0x00000000#32 reduces_S10000x32_S32 (.inl rfl) rfl) shapeCasts_S32_S1x32) (ix2 u l) = _
  rw [shapeCast_self]
  refine congrArg (xo (ix2 u l) + ·) ?_
  refine (shapeCast_a_1a_apply _ shapeCasts_S32_S1x32 u l).trans ?_
  refine (rowsum_apply _ l).trans ?_
  refine Finset.sum_congr rfl fun k _ => ?_
  show k4_pay3 (F := Ideal) x0 x1 (ix2 k l) * k4_pay3 (F := Ideal) x0 x1 (ix2 k l) = _
  rw [pay3_apply]

/-- The zero rows the first point stores: every entry is zero. -/
theorem pay1_apply (j : S1x32.Idx) : k4_pay1 (F := Ideal) j = 0 := by
  unfold k4_pay1
  show (Scalar.ofBits (F := Ideal) .f32 0x00000000#32) = 0
  exact Ideal.ofBits_zero_f32

theorem pay2_apply (j : S1x32.Idx) : k4_pay2 (F := Ideal) j = 0 := by
  unfold k4_pay2
  show (Scalar.ofBits (F := Ideal) .f32 0x00000000#32) = 0
  exact Ideal.ofBits_zero_f32

/-- Regrouping: 40 consecutive blocks of 10000 terms are the 400000 terms. -/
theorem sum_blocks {M : Type*} [AddCommMonoid M] (g : ℕ → M) :
    ∑ s ∈ Finset.range 40, ∑ k : Fin 10000, g (10000 * s + k.val) = ∑ r : Fin 400000, g r.val := by
  rw [Finset.sum_range (fun s => ∑ k : Fin 10000, g (10000 * s + k.val))]
  have e : ∑ r : Fin 400000, g r.val = ∑ p : Fin 40 × Fin 10000, g (10000 * p.1.val + p.2.val) := by
    refine (Fintype.sum_equiv (finProdFinEquiv (m := 40) (n := 10000)) _ _ fun p => ?_).symm
    show g (10000 * p.1.val + p.2.val) = g (p.2.val + 10000 * p.1.val)
    rw [Nat.add_comm]
  rw [e, Fintype.sum_prod_type]

end Arithmetic

/-! ## The accumulators after every point, and the result arrays -/

section Value

variable (V : (c : Dev nD) → (b : Ref sig .tc) → Buf (Elt Ideal) ((c : Thread nD τ).loc b))

/-- The array the region walks, and the bias row, as the region finds them. -/
abbrev harr (c : Dev nD) : S400000x32.Idx → EReal := V c (Pipeline.arrRef spec4 0)
abbrev bias (c : Dev nD) : S1x32.Idx → EReal := V c (Pipeline.arrRef spec4 1)

/-- The shifted entry of row `r` in lane `l` (zero past the last row, where it is never read). -/
def rowVal (c : Dev nD) (l : Fin 32) (r : ℕ) : EReal :=
  if h : r < 400000 then harr V c (ix2 ⟨r, h⟩ l) + bias V c (ix2 (0 : Fin 1) l) else 0

/-- Block `t` of the walked array holds rows `10000 t … 10000 t + 9999`. -/
theorem iblk0_apply (c : Dev nD) (t : Fin cfg4.N) (k : Fin 10000) (l : Fin 32) (hr : 10000 * t.val + k.val < 400000) :
    (iblk4 V c 0 t : Vec Ideal S10000x32 .f32) (ix2 k l) = harr V c (ix2 ⟨10000 * t.val + k.val, hr⟩ l) := by
  have hi : win4_0.index t 0 = t.val ∧ win4_0.index t 1 = 0 :=
    (by decide +kernel : ∀ t : Fin grid4.N, win4_0.index t 0 = t.val ∧ win4_0.index t 1 = 0) t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t 0 * 10000 + 1 * k.val = 10000 * t.val + k.val; rw [hi.1]; omega
  | ⟨1, _⟩ => show win4_0.index t 1 * 32 + 1 * l.val = l.val; rw [hi.2]; omega

/-- The bias window's block is the bias row at every point. -/
theorem iblk1_apply (c : Dev nD) (t : Fin cfg4.N) (u : Fin 1) (l : Fin 32) :
    (iblk4 V c 1 t : Vec Ideal S1x32 .f32) (ix2 u l) = bias V c (ix2 u l) := by
  have hi : win4_1.index t 0 = 0 ∧ win4_1.index t 1 = 0 :=
    (by decide +kernel : ∀ t : Fin grid4.N, win4_1.index t 0 = 0 ∧ win4_1.index t 1 = 0) t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t 0 * 1 + 1 * u.val = u.val; rw [hi.1]; omega
  | ⟨1, _⟩ => show win4_1.index t 1 * 32 + 1 * l.val = l.val; rw [hi.2]; omega

/-- The two input blocks at a point, typed by their literal shapes. -/
abbrev blk0 (c : Dev nD) (t : Fin cfg4.N) : Vec Ideal S10000x32 .f32 := iblk4 V c 0 t
abbrev blk1 (c : Dev nD) (t : Fin cfg4.N) : Vec Ideal S1x32 .f32 := iblk4 V c 1 t

/-- A block's shifted entry is the array's shifted entry of the corresponding row. -/
theorem block_row (c : Dev nD) (n : ℕ) (h : n < cfg4.N) (k : Fin 10000) (l : Fin 32) :
    blk0 V c ⟨n, h⟩ (ix2 k l) + blk1 V c ⟨n, h⟩ (ix2 (0 : Fin 1) l) = rowVal V c l (10000 * n + k.val) := by
  have hN : cfg4.N = 40 := N_4
  have hr : 10000 * n + k.val < 400000 := by have := k.isLt; omega
  have e0 : blk0 V c ⟨n, h⟩ (ix2 k l) = harr V c (ix2 ⟨10000 * n + k.val, hr⟩ l) := iblk0_apply V c ⟨n, h⟩ k l hr
  have e1 : blk1 V c ⟨n, h⟩ (ix2 (0 : Fin 1) l) = bias V c (ix2 (0 : Fin 1) l) := iblk1_apply V c ⟨n, h⟩ 0 l
  unfold rowVal
  rw [dif_pos hr, e0, e1]

/-- THE INVARIANT: after point `n` the accumulators hold, in lane `l`, the sums over the rows of blocks `0 … n`. -/
theorem acc_apply (c : Dev nD) (u : Fin 1) (l : Fin 32) : ∀ (n : ℕ) (h : n < cfg4.N),
    (acc V c n h).1 (ix2 u l) = 0 + ∑ s ∈ Finset.range (n + 1), ∑ k : Fin 10000, rowVal V c l (10000 * s + k.val)
    ∧ (acc V c n h).2 (ix2 u l) = 0 + ∑ s ∈ Finset.range (n + 1), ∑ k : Fin 10000,
        rowVal V c l (10000 * s + k.val) * rowVal V c l (10000 * s + k.val)
  | 0, h => by
    constructor
    · show k4_pay4 (F := Ideal) (iblk4 V c 0 ⟨0, h⟩) (iblk4 V c 1 ⟨0, h⟩) (k4_pay1 (F := Ideal)) (ix2 u l) = _
      rw [pay4_apply (iblk4 V c 0 ⟨0, h⟩) (iblk4 V c 1 ⟨0, h⟩) (k4_pay1 (F := Ideal)) u l, pay1_apply, Finset.sum_range_one]
      exact congrArg (0 + ·) (Finset.sum_congr rfl fun k _ => block_row V c 0 h k l)
    · show k4_pay5 (F := Ideal) (iblk4 V c 0 ⟨0, h⟩) (iblk4 V c 1 ⟨0, h⟩) (k4_pay2 (F := Ideal)) (ix2 u l) = _
      rw [pay5_apply (iblk4 V c 0 ⟨0, h⟩) (iblk4 V c 1 ⟨0, h⟩) (k4_pay2 (F := Ideal)) u l, pay2_apply, Finset.sum_range_one]
      exact congrArg (0 + ·) (Finset.sum_congr rfl fun k _ => by rw [block_row V c 0 h k l])
  | n + 1, h => by
    obtain ⟨ih1, ih2⟩ := acc_apply c u l n (Nat.lt_of_succ_lt h)
    constructor
    · show k4_pay4 (F := Ideal) (iblk4 V c 0 ⟨n + 1, h⟩) (iblk4 V c 1 ⟨n + 1, h⟩) (acc V c n (Nat.lt_of_succ_lt h)).1 (ix2 u l) = _
      rw [pay4_apply (iblk4 V c 0 ⟨n + 1, h⟩) (iblk4 V c 1 ⟨n + 1, h⟩) (acc V c n (Nat.lt_of_succ_lt h)).1 u l, ih1,
        Finset.sum_range_succ _ (n + 1), add_assoc]
      exact congrArg (fun z => 0 + (_ + z)) (Finset.sum_congr rfl fun k _ => block_row V c (n + 1) h k l)
    · show k4_pay5 (F := Ideal) (iblk4 V c 0 ⟨n + 1, h⟩) (iblk4 V c 1 ⟨n + 1, h⟩) (acc V c n (Nat.lt_of_succ_lt h)).2 (ix2 u l) = _
      rw [pay5_apply (iblk4 V c 0 ⟨n + 1, h⟩) (iblk4 V c 1 ⟨n + 1, h⟩) (acc V c n (Nat.lt_of_succ_lt h)).2 u l, ih2,
        Finset.sum_range_succ _ (n + 1), add_assoc]
      exact congrArg (fun z => 0 + (_ + z)) (Finset.sum_congr rfl fun k _ => by rw [block_row V c (n + 1) h k l])

/-- THE SUM: the first result array ends holding, in lane `l`, the sum over all 400000 rows of the shifted entries. -/
theorem sum (c : Dev nD) : (dat4 (F := Ideal) V c).arrAt 2 cfg4.N
    = fun j => ∑ r : Fin 400000, (harr V c (ix2 r (j 1)) + bias V c (ix2 (0 : Fin 1) (j 1))) := by
  rw [final2]
  funext j
  obtain ⟨u, l, rfl⟩ : ∃ (u : Fin 1) (l : Fin 32), j = ix2 u l := ⟨j 0, j 1, eq_ix2 j⟩
  show (acc V c 39 tLast.isLt).1 (ix2 u l) = ∑ r : Fin 400000, (harr V c (ix2 r l) + bias V c (ix2 (0 : Fin 1) l))
  rw [(acc_apply V c u l 39 tLast.isLt).1, zero_add, sum_blocks (rowVal V c l)]
  exact Finset.sum_congr rfl fun r _ => by unfold rowVal; rw [dif_pos r.isLt]

/-- THE SUM OF SQUARES: the second result array ends holding, in lane `l`, the sum over all rows of the squared shifted entries. -/
theorem sumsq (c : Dev nD) : (dat4 (F := Ideal) V c).arrAt 3 cfg4.N
    = fun j => ∑ r : Fin 400000, (harr V c (ix2 r (j 1)) + bias V c (ix2 (0 : Fin 1) (j 1)))
        * (harr V c (ix2 r (j 1)) + bias V c (ix2 (0 : Fin 1) (j 1))) := by
  rw [final3]
  funext j
  obtain ⟨u, l, rfl⟩ : ∃ (u : Fin 1) (l : Fin 32), j = ix2 u l := ⟨j 0, j 1, eq_ix2 j⟩
  show (acc V c 39 tLast.isLt).2 (ix2 u l) = ∑ r : Fin 400000, (harr V c (ix2 r l) + bias V c (ix2 (0 : Fin 1) l))
      * (harr V c (ix2 r l) + bias V c (ix2 (0 : Fin 1) l))
  rw [(acc_apply V c u l 39 tLast.isLt).2, zero_add, sum_blocks (fun r => rowVal V c l r * rowVal V c l r)]
  exact Finset.sum_congr rfl fun r _ => by unfold rowVal; rw [dif_pos r.isLt]

/-- The same, read at lane `l`. -/
theorem sum_apply (c : Dev nD) (u : Fin 1) (l : Fin 32) :
    (dat4 (F := Ideal) V c).arrAt 2 cfg4.N (ix2 u l)
      = ∑ r : Fin 400000, (harr V c (ix2 r l) + bias V c (ix2 (0 : Fin 1) l)) :=
  congrFun (sum V c) (ix2 u l)

theorem sumsq_apply (c : Dev nD) (u : Fin 1) (l : Fin 32) :
    (dat4 (F := Ideal) V c).arrAt 3 cfg4.N (ix2 u l)
      = ∑ r : Fin 400000, (harr V c (ix2 r l) + bias V c (ix2 (0 : Fin 1) l))
          * (harr V c (ix2 r l) + bias V c (ix2 (0 : Fin 1) l)) :=
  congrFun (sumsq V c) (ix2 u l)

/-- The two results in the shared vocabulary: the column sums of the shifted array and of its square. -/
theorem sum_colSum (c : Dev nD) : (dat4 (F := Ideal) V c).arrAt 2 cfg4.N
    = Cert.KVal.colSum (V c (Pipeline.arrRef spec4 0)) (V c (Pipeline.arrRef spec4 1)) :=
  sum V c

theorem sumsq_colSumSq (c : Dev nD) : (dat4 (F := Ideal) V c).arrAt 3 cfg4.N
    = Cert.KVal.colSumSq (V c (Pipeline.arrRef spec4 0)) (V c (Pipeline.arrRef spec4 1)) :=
  sumsq V c

end Value

end Cert.KernelIdeal.StatsValue4

end
-- ==== Proof.ApplyValue5.lean ====
/-
  The value of the second batch-normalisation apply region, at the ideal instance (a float an extended real, every
  operation exact), whatever the buffers hold when the region is entered.

  The region runs over forty grid points. Point `t` stages rows `10000 t … 10000 t + 9999` of the 400000 x 32 input and
  the five one-row arrays whole (bias, mean, variance, scale, shift), and writes back the same rows of the output. On a
  block the body computes, entry by entry,
      max ((((x + bias) - mean) * rsqrt (variance + eps)) * scale + shift) 0,
  the one-row arrays read at the entry's column. Every row of the output lies in exactly the block of point
  `row / 10000`, so after the region the output array is that function of the six input arrays, entry by entry.
-/
import proofs.«172556_j661424964110_2_alg».proof.Proof.Gen.KernelIdeal.Frame
import proofs.«172556_j661424964110_2_alg».proof.Proof.KDefs
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.ApplyValue5

open Cert.KernelIdeal Cert.KernelIdeal.Gen

variable (V : (c : Dev nD) → (b : Ref sig .tc) → Buf (Elt Ideal) ((c : Thread nD τ).loc b))

/-- One element of the normalised, scaled, shifted and rectified array: from the element `x`, the bias `b`, the mean
    `mu`, the variance `va`, the scale `ga` and the shift `be` of its column. -/
def bnRelu (x b mu va ga be : EReal) : EReal :=
  max ((((x + b) - mu) * Ideal.rsqrt (va + Ideal.ofBits .f32 0x3727C5AC#32)) * ga + be) (Ideal.ofBits .f32 0x00000000#32)

/-- The whole array: every row is treated alike, column `q` with the `q`-th entries of the five one-row arrays. -/
def bnReluArr (H : S400000x32.Idx → EReal) (b mu va ga be : S1x32.Idx → EReal) : S400000x32.Idx → EReal :=
  fun j => bnRelu (H j) (b (ix2 (0 : Fin 1) (j 1 : Fin 32))) (mu (ix2 (0 : Fin 1) (j 1 : Fin 32))) (va (ix2 (0 : Fin 1) (j 1 : Fin 32)))
    (ga (ix2 (0 : Fin 1) (j 1 : Fin 32))) (be (ix2 (0 : Fin 1) (j 1 : Fin 32)))

theorem hz : (![0, 0] : Fin 2 → Nat) = fun _ => 0 := funext fun a => by fin_cases a <;> rfl

/-- The body's arithmetic at one element of a block. -/
theorem pay_apply (x0 : Vec Ideal S10000x32 .f32) (x1 x2 x3 x4 x5 : Vec Ideal S1x32 .f32) (p : Fin 10000) (q : Fin 32) :
    k5_pay1 (F := Ideal) x0 x1 x3 x2 x4 x5 (ix2 p q)
      = bnRelu (x0 (ix2 p q)) (x1 (ix2 0 q)) (x2 (ix2 0 q)) (x3 (ix2 0 q)) (x4 (ix2 0 q)) (x5 (ix2 0 q)) := by
  unfold k5_pay1 bnRelu
  simp only [shapeCast_self, maximumf_apply, addf_apply, mulf_apply, subf_apply, broadcastTo_1b_ab_apply, broadcast_apply]
  rfl

/-- The printed index maps over the grid: the two blocked windows sit at row block `t`, the one-row windows at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem iblk_1 (c : Dev nD) (t : Fin cfg5.N) : iblk5 V c 1 t = V c (Pipeline.arrRef spec5 1) := by
  obtain ⟨-, -, e0, e1, -⟩ := idx_facts t
  unfold iblk5
  funext y
  show V c (Pipeline.arrRef spec5 1) (((cfg5.win 1).blk t).view.emb y) = V c (Pipeline.arrRef spec5 1) y
  congr 1
  funext a; apply Fin.ext
  match a with
  | ⟨0, _⟩ => show win5_1.index t (0 : Fin 2) * 1 + 1 * (y 0).val = (y 0).val; omega
  | ⟨1, _⟩ => show win5_1.index t (1 : Fin 2) * 32 + 1 * (y 1).val = (y 1).val; omega

theorem iblk_2 (c : Dev nD) (t : Fin cfg5.N) : iblk5 V c 2 t = V c (Pipeline.arrRef spec5 2) := by
  obtain ⟨-, -, -, -, e0, e1, -⟩ := idx_facts t
  unfold iblk5
  funext y
  show V c (Pipeline.arrRef spec5 2) (((cfg5.win 2).blk t).view.emb y) = V c (Pipeline.arrRef spec5 2) y
  congr 1
  funext a; apply Fin.ext
  match a with
  | ⟨0, _⟩ => show win5_2.index t (0 : Fin 2) * 1 + 1 * (y 0).val = (y 0).val; omega
  | ⟨1, _⟩ => show win5_2.index t (1 : Fin 2) * 32 + 1 * (y 1).val = (y 1).val; omega

theorem iblk_3 (c : Dev nD) (t : Fin cfg5.N) : iblk5 V c 3 t = V c (Pipeline.arrRef spec5 3) := by
  obtain ⟨-, -, -, -, -, -, e0, e1, -⟩ := idx_facts t
  unfold iblk5
  funext y
  show V c (Pipeline.arrRef spec5 3) (((cfg5.win 3).blk t).view.emb y) = V c (Pipeline.arrRef spec5 3) y
  congr 1
  funext a; apply Fin.ext
  match a with
  | ⟨0, _⟩ => show win5_3.index t (0 : Fin 2) * 1 + 1 * (y 0).val = (y 0).val; omega
  | ⟨1, _⟩ => show win5_3.index t (1 : Fin 2) * 32 + 1 * (y 1).val = (y 1).val; omega

theorem iblk_4 (c : Dev nD) (t : Fin cfg5.N) : iblk5 V c 4 t = V c (Pipeline.arrRef spec5 4) := by
  obtain ⟨-, -, -, -, -, -, -, -, e0, e1, -⟩ := idx_facts t
  unfold iblk5
  funext y
  show V c (Pipeline.arrRef spec5 4) (((cfg5.win 4).blk t).view.emb y) = V c (Pipeline.arrRef spec5 4) y
  congr 1
  funext a; apply Fin.ext
  match a with
  | ⟨0, _⟩ => show win5_4.index t (0 : Fin 2) * 1 + 1 * (y 0).val = (y 0).val; omega
  | ⟨1, _⟩ => show win5_4.index t (1 : Fin 2) * 32 + 1 * (y 1).val = (y 1).val; omega

theorem iblk_5 (c : Dev nD) (t : Fin cfg5.N) : iblk5 V c 5 t = V c (Pipeline.arrRef spec5 5) := by
  obtain ⟨-, -, -, -, -, -, -, -, -, -, e0, e1, -⟩ := idx_facts t
  unfold iblk5
  funext y
  show V c (Pipeline.arrRef spec5 5) (((cfg5.win 5).blk t).view.emb y) = V c (Pipeline.arrRef spec5 5) y
  congr 1
  funext a; apply Fin.ext
  match a with
  | ⟨0, _⟩ => show win5_5.index t (0 : Fin 2) * 1 + 1 * (y 0).val = (y 0).val; omega
  | ⟨1, _⟩ => show win5_5.index t (1 : Fin 2) * 32 + 1 * (y 1).val = (y 1).val; omega

/-- The body's arithmetic on a block, as one function of the block's index. -/
theorem pay_fun (x0 : Vec Ideal S10000x32 .f32) (x1 x2 x3 x4 x5 : Vec Ideal S1x32 .f32) :
    (k5_pay1 (F := Ideal) x0 x1 x3 x2 x4 x5 : S10000x32.Idx → EReal)
      = fun y => bnRelu (x0 y) (x1 (ix2 (0 : Fin 1) (y 1 : Fin 32))) (x2 (ix2 (0 : Fin 1) (y 1 : Fin 32))) (x3 (ix2 (0 : Fin 1) (y 1 : Fin 32)))
          (x4 (ix2 (0 : Fin 1) (y 1 : Fin 32))) (x5 (ix2 (0 : Fin 1) (y 1 : Fin 32))) := by
  funext y
  obtain ⟨p, q, rfl⟩ : ∃ (p : Fin 10000) (q : Fin 32), y = ix2 p q := ⟨y 0, y 1, eq_ix2 y⟩
  exact pay_apply x0 x1 x2 x3 x4 x5 p q

/-- The body's arithmetic at a block's element that sits at index `i` of the array: the whole-array function there. -/
theorem point (x0 : Vec Ideal S10000x32 .f32) (x1 x2 x3 x4 x5 : Vec Ideal S1x32 .f32) (H : S400000x32.Idx → EReal)
    (y : S10000x32.Idx) (i : S400000x32.Idx) (h0 : x0 y = H i) (h1 : (i 1).val = (y 1).val) :
    k5_pay1 (F := Ideal) x0 x1 x3 x2 x4 x5 y = bnReluArr H x1 x2 x3 x4 x5 i := by
  rw [pay_fun]
  have e : (ix2 (0 : Fin 1) (i 1 : Fin 32) : S1x32.Idx) = ix2 (0 : Fin 1) (y 1 : Fin 32) := by
    congr 1; exact Fin.ext h1
  show bnRelu (x0 y) _ _ _ _ _ = bnRelu (H i) _ _ _ _ _
  rw [e, h0]
  rfl

set_option maxHeartbeats 1000000 in
/-- What point `t` writes back is block `t` of the whole-array function of the arrays the region finds. -/
theorem flushed_eq (c : Dev nD) (t : Fin cfg5.N) :
    (dat5 V c).flushed 6 t = ((cfg5.win 6).blk t).view.read (Elt Ideal)
      (bnReluArr (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6, iblk_1, iblk_2, iblk_3, iblk_4, iblk_5]
  unfold out5_6
  rw [View.canon_unit_zero hz]
  simp only [View.ld_unit_zero (S := S10000x32) hz, View.ld_unit_zero (S := S1x32) hz]
  obtain ⟨e0, e1, -, -, -, -, -, -, -, -, -, -, e12, e13⟩ := idx_facts t
  funext j
  show k5_pay1 (F := Ideal) (iblk5 V c 0 t) (V c (Pipeline.arrRef spec5 1)) (V c (Pipeline.arrRef spec5 3)) (V c (Pipeline.arrRef spec5 2))
      (V c (Pipeline.arrRef spec5 4)) (V c (Pipeline.arrRef spec5 5)) ((cfg5.win 6).xinj (grid5.coords t) j)
    = bnReluArr (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (((cfg5.win 6).blk t).view.emb j)
  refine point _ _ _ _ _ _ _ _ _ ?_ ?_
  · show V c (Pipeline.arrRef spec5 0) (((cfg5.win 0).blk t).view.emb ((cfg5.win 6).xinj (grid5.coords t) j)) = V c (Pipeline.arrRef spec5 0) (((cfg5.win 6).blk t).view.emb j)
    rfl
  · show win5_6.index t (1 : Fin 2) * 32 + 1 * (j 1).val = (j 1).val; omega

theorem idx_facts6 : ∀ t : Fin cfg5.N, win5_6.index t (0 : Fin 2) = t.val ∧ win5_6.index t (1 : Fin 2) = 0 :=
  (by decide +kernel : ∀ t : Fin grid5.N, _)

/-- An index of the array lies in point `t`'s block iff each coordinate lies in the block's range on its axis. -/
theorem mem_blk (t : Fin cfg5.N) (i : S400000x32.Idx) :
    i ∈ ((cfg5.win 6).blk t).view.set ↔ ∀ a : Fin 2, win5_6.index t a * S10000x32.size a ≤ (i a).val ∧ (i a).val < win5_6.index t a * S10000x32.size a + S10000x32.size a := by
  show i ∈ ((View.whole main_v53).slice (win5_6.rect t)).set ↔ _
  rw [View.set_slice_whole, Rect.mem_set_unit]
  exact Iff.rfl

/-- Row `r` lies in the block of point `r / 10000`: the forty blocks of 10000 rows tile the 400000 rows. -/
theorem cover (i : S400000x32.Idx) : ∃ t : Fin cfg5.N, (cfg5.win 6).flush t = true ∧ i ∈ ((cfg5.win 6).blk t).view.set := by
  have hi0 : (i 0).val < 400000 := (i 0).isLt
  have hi1 : (i 1).val < 32 := (i 1).isLt
  have hN : grid5.N = 40 := N_5
  obtain ⟨t, ht⟩ : ∃ t : Fin cfg5.N, t.val = (i 0).val / 10000 := ⟨⟨(i 0).val / 10000, by show _ < grid5.N; rw [hN]; omega⟩, rfl⟩
  obtain ⟨e0, e1⟩ := idx_facts6 t
  refine ⟨t, flush5_6 t, ?_⟩
  rw [mem_blk]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 32 ≤ (i 1).val ∧ (i 1).val < win5_6.index t (1 : Fin 2) * 32 + 32; omega

/-- THE ARRAY after the region: every entry normalised, scaled, shifted and rectified. -/
theorem arr (c : Dev nD) :
    (dat5 V c).arrAt 6 cfg5.N
      = bnReluArr (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 V c).arrAt_eq_of_cover 6 _ (fun t _ => flushed_eq V c t) cover

/-- The same array, as the shared definition of the apply stage's result. -/
theorem arr_applyK (c : Dev nD) :
    (dat5 (F := Ideal) V c).arrAt 6 cfg5.N
      = Cert.KVal.applyK (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  arr V c

/-- The same at an entry with its coordinates named. -/
theorem arr_apply (c : Dev nD) (r : Fin 400000) (q : Fin 32) :
    ((dat5 V c).arrAt 6 cfg5.N : S400000x32.Idx → EReal) (ix2 r q)
      = bnRelu ((V c (Pipeline.arrRef spec5 0) : S400000x32.Idx → EReal) (ix2 r q)) ((V c (Pipeline.arrRef spec5 1) : S1x32.Idx → EReal) (ix2 0 q))
          ((V c (Pipeline.arrRef spec5 2) : S1x32.Idx → EReal) (ix2 0 q)) ((V c (Pipeline.arrRef spec5 3) : S1x32.Idx → EReal) (ix2 0 q))
          ((V c (Pipeline.arrRef spec5 4) : S1x32.Idx → EReal) (ix2 0 q)) ((V c (Pipeline.arrRef spec5 5) : S1x32.Idx → EReal) (ix2 0 q)) := by
  rw [arr]; rfl

end Cert.KernelIdeal.ApplyValue5

end
-- ==== Proof.KerChain2.lean ====
/-
  Stage 2 of the idealized kernel read off the frame's boundary contents: from the previous stage's result array through the host
  gather, the matmul region (its result array the batched contraction of the gathered rows with the weights), the
  flattening and the accumulating scatter, the statistics region (the column sums of the biased rows and of their
  squares), the host mean and clamped one-pass variance, and the apply region: the stage's result array is the
  kernel's batch normalisation of the stage's convolution. Every buffer a later segment reads is carried across the
  boundaries in between, where no host operation and no region writes it.
-/
import proofs.«172556_j661424964110_2_alg».proof.Proof.Gen.KernelIdeal.Frame
import proofs.«172556_j661424964110_2_alg».proof.Proof.KDefs
import proofs.«172556_j661424964110_2_alg».proof.Proof.KConv
import proofs.«172556_j661424964110_2_alg».proof.Proof.MatmulBridge3
import proofs.«172556_j661424964110_2_alg».proof.Proof.StatsValue4
import proofs.«172556_j661424964110_2_alg».proof.Proof.ApplyValue5
import Idealize.ShloMosaic.Lib.StableHlo.Run

set_option maxRecDepth 16384

noncomputable section

namespace Cert.KernelIdeal.KerChain2

open Idealize.ShloMosaic Idealize.ShloMosaic.TcCoe Idealize.SL.Sem
open Idealize.ShloMosaic.StableHlo
open Cert.KernelIdeal Cert.KernelIdeal.Gen Cert.KVal

variable (m : (ℓ : Loc nD τ sig) → Buf (Elt Ideal) ℓ) (ρ : Dev nD → PrngReg)

local macro "host_skip" : tactic =>
  `(tactic| (refine StableHlo.after_of_forall_not_mem _ _ (List.forall_iff_forall_mem.mp ?_)
             simp only [hostOps0, hostOps1, hostOps2, hostOps3, hostOps4, hostOps5, hostOps6, hostOps7, hostOps8,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

theorem arg1_0 (c : Dev nD) : W0 m ρ c (Proc.devRef .tc main_arg1) = (m ((c : Thread nD τ).loc main_arg1)) := rfl
theorem arg1_1 (c : Dev nD) : W1 m ρ c (Proc.devRef .tc main_arg1) = (m ((c : Thread nD τ).loc main_arg1)) :=
  (by host_skip : W1 m ρ c (Proc.devRef .tc main_arg1) = W0 m ρ c (Proc.devRef .tc main_arg1)).trans (arg1_0 m ρ c)
theorem arg1_2 (c : Dev nD) : W2 m ρ c (Proc.devRef .tc main_arg1) = (m ((c : Thread nD τ).loc main_arg1)) :=
  (W2_of_ne m ρ c main_arg1 (by decide) : W2 m ρ c (Proc.devRef .tc main_arg1) = W1 m ρ c (Proc.devRef .tc main_arg1)).trans (arg1_1 m ρ c)
theorem arg1_3 (c : Dev nD) : W3 m ρ c (Proc.devRef .tc main_arg1) = (m ((c : Thread nD τ).loc main_arg1)) :=
  (by host_skip : W3 m ρ c (Proc.devRef .tc main_arg1) = W2 m ρ c (Proc.devRef .tc main_arg1)).trans (arg1_2 m ρ c)
theorem arg1_4 (c : Dev nD) : W4 m ρ c (Proc.devRef .tc main_arg1) = (m ((c : Thread nD τ).loc main_arg1)) :=
  (W4_of_ne m ρ c main_arg1 (by decide) : W4 m ρ c (Proc.devRef .tc main_arg1) = W3 m ρ c (Proc.devRef .tc main_arg1)).trans (arg1_3 m ρ c)
theorem arg1_5 (c : Dev nD) : W5 m ρ c (Proc.devRef .tc main_arg1) = (m ((c : Thread nD τ).loc main_arg1)) :=
  (by host_skip : W5 m ρ c (Proc.devRef .tc main_arg1) = W4 m ρ c (Proc.devRef .tc main_arg1)).trans (arg1_4 m ρ c)
theorem arg1_6 (c : Dev nD) : W6 m ρ c (Proc.devRef .tc main_arg1) = (m ((c : Thread nD τ).loc main_arg1)) :=
  (W6_of_ne m ρ c main_arg1 (by decide) : W6 m ρ c (Proc.devRef .tc main_arg1) = W5 m ρ c (Proc.devRef .tc main_arg1)).trans (arg1_5 m ρ c)
theorem arg14_0 (c : Dev nD) : W0 m ρ c (Proc.devRef .tc main_arg14) = (m ((c : Thread nD τ).loc main_arg14)) := rfl
theorem arg14_1 (c : Dev nD) : W1 m ρ c (Proc.devRef .tc main_arg14) = (m ((c : Thread nD τ).loc main_arg14)) :=
  (by host_skip : W1 m ρ c (Proc.devRef .tc main_arg14) = W0 m ρ c (Proc.devRef .tc main_arg14)).trans (arg14_0 m ρ c)
theorem arg14_2 (c : Dev nD) : W2 m ρ c (Proc.devRef .tc main_arg14) = (m ((c : Thread nD τ).loc main_arg14)) :=
  (W2_of_ne m ρ c main_arg14 (by decide) : W2 m ρ c (Proc.devRef .tc main_arg14) = W1 m ρ c (Proc.devRef .tc main_arg14)).trans (arg14_1 m ρ c)
theorem arg14_3 (c : Dev nD) : W3 m ρ c (Proc.devRef .tc main_arg14) = (m ((c : Thread nD τ).loc main_arg14)) :=
  (by host_skip : W3 m ρ c (Proc.devRef .tc main_arg14) = W2 m ρ c (Proc.devRef .tc main_arg14)).trans (arg14_2 m ρ c)
theorem arg14_4 (c : Dev nD) : W4 m ρ c (Proc.devRef .tc main_arg14) = (m ((c : Thread nD τ).loc main_arg14)) :=
  (W4_of_ne m ρ c main_arg14 (by decide) : W4 m ρ c (Proc.devRef .tc main_arg14) = W3 m ρ c (Proc.devRef .tc main_arg14)).trans (arg14_3 m ρ c)
theorem arg14_5 (c : Dev nD) : W5 m ρ c (Proc.devRef .tc main_arg14) = (m ((c : Thread nD τ).loc main_arg14)) :=
  (by host_skip : W5 m ρ c (Proc.devRef .tc main_arg14) = W4 m ρ c (Proc.devRef .tc main_arg14)).trans (arg14_4 m ρ c)
theorem arg14_6 (c : Dev nD) : W6 m ρ c (Proc.devRef .tc main_arg14) = (m ((c : Thread nD τ).loc main_arg14)) :=
  (W6_of_ne m ρ c main_arg14 (by decide) : W6 m ρ c (Proc.devRef .tc main_arg14) = W5 m ρ c (Proc.devRef .tc main_arg14)).trans (arg14_5 m ρ c)
theorem arg6_0 (c : Dev nD) : W0 m ρ c (Proc.devRef .tc main_arg6) = (m ((c : Thread nD τ).loc main_arg6)) := rfl
theorem arg6_1 (c : Dev nD) : W1 m ρ c (Proc.devRef .tc main_arg6) = (m ((c : Thread nD τ).loc main_arg6)) :=
  (by host_skip : W1 m ρ c (Proc.devRef .tc main_arg6) = W0 m ρ c (Proc.devRef .tc main_arg6)).trans (arg6_0 m ρ c)
theorem arg6_2 (c : Dev nD) : W2 m ρ c (Proc.devRef .tc main_arg6) = (m ((c : Thread nD τ).loc main_arg6)) :=
  (W2_of_ne m ρ c main_arg6 (by decide) : W2 m ρ c (Proc.devRef .tc main_arg6) = W1 m ρ c (Proc.devRef .tc main_arg6)).trans (arg6_1 m ρ c)
theorem arg6_3 (c : Dev nD) : W3 m ρ c (Proc.devRef .tc main_arg6) = (m ((c : Thread nD τ).loc main_arg6)) :=
  (by host_skip : W3 m ρ c (Proc.devRef .tc main_arg6) = W2 m ρ c (Proc.devRef .tc main_arg6)).trans (arg6_2 m ρ c)
theorem arg6_4 (c : Dev nD) : W4 m ρ c (Proc.devRef .tc main_arg6) = (m ((c : Thread nD τ).loc main_arg6)) :=
  (W4_of_ne m ρ c main_arg6 (by decide) : W4 m ρ c (Proc.devRef .tc main_arg6) = W3 m ρ c (Proc.devRef .tc main_arg6)).trans (arg6_3 m ρ c)
theorem arg6_5 (c : Dev nD) : W5 m ρ c (Proc.devRef .tc main_arg6) = (m ((c : Thread nD τ).loc main_arg6)) :=
  (by host_skip : W5 m ρ c (Proc.devRef .tc main_arg6) = W4 m ρ c (Proc.devRef .tc main_arg6)).trans (arg6_4 m ρ c)
theorem arg6_6 (c : Dev nD) : W6 m ρ c (Proc.devRef .tc main_arg6) = (m ((c : Thread nD τ).loc main_arg6)) :=
  (W6_of_ne m ρ c main_arg6 (by decide) : W6 m ρ c (Proc.devRef .tc main_arg6) = W5 m ρ c (Proc.devRef .tc main_arg6)).trans (arg6_5 m ρ c)
theorem arg6_7 (c : Dev nD) : W7 m ρ c (Proc.devRef .tc main_arg6) = (m ((c : Thread nD τ).loc main_arg6)) :=
  (by host_skip : W7 m ρ c (Proc.devRef .tc main_arg6) = W6 m ρ c (Proc.devRef .tc main_arg6)).trans (arg6_6 m ρ c)
theorem arg15_0 (c : Dev nD) : W0 m ρ c (Proc.devRef .tc main_arg15) = (m ((c : Thread nD τ).loc main_arg15)) := rfl
theorem arg15_1 (c : Dev nD) : W1 m ρ c (Proc.devRef .tc main_arg15) = (m ((c : Thread nD τ).loc main_arg15)) :=
  (by host_skip : W1 m ρ c (Proc.devRef .tc main_arg15) = W0 m ρ c (Proc.devRef .tc main_arg15)).trans (arg15_0 m ρ c)
theorem arg15_2 (c : Dev nD) : W2 m ρ c (Proc.devRef .tc main_arg15) = (m ((c : Thread nD τ).loc main_arg15)) :=
  (W2_of_ne m ρ c main_arg15 (by decide) : W2 m ρ c (Proc.devRef .tc main_arg15) = W1 m ρ c (Proc.devRef .tc main_arg15)).trans (arg15_1 m ρ c)
theorem arg15_3 (c : Dev nD) : W3 m ρ c (Proc.devRef .tc main_arg15) = (m ((c : Thread nD τ).loc main_arg15)) :=
  (by host_skip : W3 m ρ c (Proc.devRef .tc main_arg15) = W2 m ρ c (Proc.devRef .tc main_arg15)).trans (arg15_2 m ρ c)
theorem arg15_4 (c : Dev nD) : W4 m ρ c (Proc.devRef .tc main_arg15) = (m ((c : Thread nD τ).loc main_arg15)) :=
  (W4_of_ne m ρ c main_arg15 (by decide) : W4 m ρ c (Proc.devRef .tc main_arg15) = W3 m ρ c (Proc.devRef .tc main_arg15)).trans (arg15_3 m ρ c)
theorem arg15_5 (c : Dev nD) : W5 m ρ c (Proc.devRef .tc main_arg15) = (m ((c : Thread nD τ).loc main_arg15)) :=
  (by host_skip : W5 m ρ c (Proc.devRef .tc main_arg15) = W4 m ρ c (Proc.devRef .tc main_arg15)).trans (arg15_4 m ρ c)
theorem arg15_6 (c : Dev nD) : W6 m ρ c (Proc.devRef .tc main_arg15) = (m ((c : Thread nD τ).loc main_arg15)) :=
  (W6_of_ne m ρ c main_arg15 (by decide) : W6 m ρ c (Proc.devRef .tc main_arg15) = W5 m ρ c (Proc.devRef .tc main_arg15)).trans (arg15_5 m ρ c)
theorem arg15_7 (c : Dev nD) : W7 m ρ c (Proc.devRef .tc main_arg15) = (m ((c : Thread nD τ).loc main_arg15)) :=
  (by host_skip : W7 m ρ c (Proc.devRef .tc main_arg15) = W6 m ρ c (Proc.devRef .tc main_arg15)).trans (arg15_6 m ρ c)
theorem arg15_8 (c : Dev nD) : W8 m ρ c (Proc.devRef .tc main_arg15) = (m ((c : Thread nD τ).loc main_arg15)) :=
  (W8_of_ne m ρ c main_arg15 (by decide) : W8 m ρ c (Proc.devRef .tc main_arg15) = W7 m ρ c (Proc.devRef .tc main_arg15)).trans (arg15_7 m ρ c)
theorem arg7_0 (c : Dev nD) : W0 m ρ c (Proc.devRef .tc main_arg7) = (m ((c : Thread nD τ).loc main_arg7)) := rfl
theorem arg7_1 (c : Dev nD) : W1 m ρ c (Proc.devRef .tc main_arg7) = (m ((c : Thread nD τ).loc main_arg7)) :=
  (by host_skip : W1 m ρ c (Proc.devRef .tc main_arg7) = W0 m ρ c (Proc.devRef .tc main_arg7)).trans (arg7_0 m ρ c)
theorem arg7_2 (c : Dev nD) : W2 m ρ c (Proc.devRef .tc main_arg7) = (m ((c : Thread nD τ).loc main_arg7)) :=
  (W2_of_ne m ρ c main_arg7 (by decide) : W2 m ρ c (Proc.devRef .tc main_arg7) = W1 m ρ c (Proc.devRef .tc main_arg7)).trans (arg7_1 m ρ c)
theorem arg7_3 (c : Dev nD) : W3 m ρ c (Proc.devRef .tc main_arg7) = (m ((c : Thread nD τ).loc main_arg7)) :=
  (by host_skip : W3 m ρ c (Proc.devRef .tc main_arg7) = W2 m ρ c (Proc.devRef .tc main_arg7)).trans (arg7_2 m ρ c)
theorem arg7_4 (c : Dev nD) : W4 m ρ c (Proc.devRef .tc main_arg7) = (m ((c : Thread nD τ).loc main_arg7)) :=
  (W4_of_ne m ρ c main_arg7 (by decide) : W4 m ρ c (Proc.devRef .tc main_arg7) = W3 m ρ c (Proc.devRef .tc main_arg7)).trans (arg7_3 m ρ c)
theorem arg7_5 (c : Dev nD) : W5 m ρ c (Proc.devRef .tc main_arg7) = (m ((c : Thread nD τ).loc main_arg7)) :=
  (by host_skip : W5 m ρ c (Proc.devRef .tc main_arg7) = W4 m ρ c (Proc.devRef .tc main_arg7)).trans (arg7_4 m ρ c)
theorem arg7_6 (c : Dev nD) : W6 m ρ c (Proc.devRef .tc main_arg7) = (m ((c : Thread nD τ).loc main_arg7)) :=
  (W6_of_ne m ρ c main_arg7 (by decide) : W6 m ρ c (Proc.devRef .tc main_arg7) = W5 m ρ c (Proc.devRef .tc main_arg7)).trans (arg7_5 m ρ c)
theorem arg7_7 (c : Dev nD) : W7 m ρ c (Proc.devRef .tc main_arg7) = (m ((c : Thread nD τ).loc main_arg7)) :=
  (by host_skip : W7 m ρ c (Proc.devRef .tc main_arg7) = W6 m ρ c (Proc.devRef .tc main_arg7)).trans (arg7_6 m ρ c)
theorem arg7_8 (c : Dev nD) : W8 m ρ c (Proc.devRef .tc main_arg7) = (m ((c : Thread nD τ).loc main_arg7)) :=
  (W8_of_ne m ρ c main_arg7 (by decide) : W8 m ρ c (Proc.devRef .tc main_arg7) = W7 m ρ c (Proc.devRef .tc main_arg7)).trans (arg7_7 m ρ c)
theorem arg8_0 (c : Dev nD) : W0 m ρ c (Proc.devRef .tc main_arg8) = (m ((c : Thread nD τ).loc main_arg8)) := rfl
theorem arg8_1 (c : Dev nD) : W1 m ρ c (Proc.devRef .tc main_arg8) = (m ((c : Thread nD τ).loc main_arg8)) :=
  (by host_skip : W1 m ρ c (Proc.devRef .tc main_arg8) = W0 m ρ c (Proc.devRef .tc main_arg8)).trans (arg8_0 m ρ c)
theorem arg8_2 (c : Dev nD) : W2 m ρ c (Proc.devRef .tc main_arg8) = (m ((c : Thread nD τ).loc main_arg8)) :=
  (W2_of_ne m ρ c main_arg8 (by decide) : W2 m ρ c (Proc.devRef .tc main_arg8) = W1 m ρ c (Proc.devRef .tc main_arg8)).trans (arg8_1 m ρ c)
theorem arg8_3 (c : Dev nD) : W3 m ρ c (Proc.devRef .tc main_arg8) = (m ((c : Thread nD τ).loc main_arg8)) :=
  (by host_skip : W3 m ρ c (Proc.devRef .tc main_arg8) = W2 m ρ c (Proc.devRef .tc main_arg8)).trans (arg8_2 m ρ c)
theorem arg8_4 (c : Dev nD) : W4 m ρ c (Proc.devRef .tc main_arg8) = (m ((c : Thread nD τ).loc main_arg8)) :=
  (W4_of_ne m ρ c main_arg8 (by decide) : W4 m ρ c (Proc.devRef .tc main_arg8) = W3 m ρ c (Proc.devRef .tc main_arg8)).trans (arg8_3 m ρ c)
theorem arg8_5 (c : Dev nD) : W5 m ρ c (Proc.devRef .tc main_arg8) = (m ((c : Thread nD τ).loc main_arg8)) :=
  (by host_skip : W5 m ρ c (Proc.devRef .tc main_arg8) = W4 m ρ c (Proc.devRef .tc main_arg8)).trans (arg8_4 m ρ c)
theorem arg8_6 (c : Dev nD) : W6 m ρ c (Proc.devRef .tc main_arg8) = (m ((c : Thread nD τ).loc main_arg8)) :=
  (W6_of_ne m ρ c main_arg8 (by decide) : W6 m ρ c (Proc.devRef .tc main_arg8) = W5 m ρ c (Proc.devRef .tc main_arg8)).trans (arg8_5 m ρ c)
theorem arg8_7 (c : Dev nD) : W7 m ρ c (Proc.devRef .tc main_arg8) = (m ((c : Thread nD τ).loc main_arg8)) :=
  (by host_skip : W7 m ρ c (Proc.devRef .tc main_arg8) = W6 m ρ c (Proc.devRef .tc main_arg8)).trans (arg8_6 m ρ c)
theorem arg8_8 (c : Dev nD) : W8 m ρ c (Proc.devRef .tc main_arg8) = (m ((c : Thread nD τ).loc main_arg8)) :=
  (W8_of_ne m ρ c main_arg8 (by decide) : W8 m ρ c (Proc.devRef .tc main_arg8) = W7 m ρ c (Proc.devRef .tc main_arg8)).trans (arg8_7 m ρ c)
theorem v0_1 (c : Dev nD) : W1 m ρ c (Proc.devRef .tc main_v0) = zero32 := by
  show StableHlo.after hostOps0 (W0 m ρ c) (Proc.devRef .tc main_v0) = _
  dsimp only [hostOps0]
  after_results
  rfl
theorem v0_2 (c : Dev nD) : W2 m ρ c (Proc.devRef .tc main_v0) = zero32 :=
  (W2_of_ne m ρ c main_v0 (by decide) : W2 m ρ c (Proc.devRef .tc main_v0) = W1 m ρ c (Proc.devRef .tc main_v0)).trans (v0_1 m ρ c)
theorem v0_3 (c : Dev nD) : W3 m ρ c (Proc.devRef .tc main_v0) = zero32 :=
  (by host_skip : W3 m ρ c (Proc.devRef .tc main_v0) = W2 m ρ c (Proc.devRef .tc main_v0)).trans (v0_2 m ρ c)
theorem v0_4 (c : Dev nD) : W4 m ρ c (Proc.devRef .tc main_v0) = zero32 :=
  (W4_of_ne m ρ c main_v0 (by decide) : W4 m ρ c (Proc.devRef .tc main_v0) = W3 m ρ c (Proc.devRef .tc main_v0)).trans (v0_3 m ρ c)
theorem v0_5 (c : Dev nD) : W5 m ρ c (Proc.devRef .tc main_v0) = zero32 :=
  (by host_skip : W5 m ρ c (Proc.devRef .tc main_v0) = W4 m ρ c (Proc.devRef .tc main_v0)).trans (v0_4 m ρ c)
theorem v0_6 (c : Dev nD) : W6 m ρ c (Proc.devRef .tc main_v0) = zero32 :=
  (W6_of_ne m ρ c main_v0 (by decide) : W6 m ρ c (Proc.devRef .tc main_v0) = W5 m ρ c (Proc.devRef .tc main_v0)).trans (v0_5 m ρ c)
theorem v0_7 (c : Dev nD) : W7 m ρ c (Proc.devRef .tc main_v0) = zero32 :=
  (by host_skip : W7 m ρ c (Proc.devRef .tc main_v0) = W6 m ρ c (Proc.devRef .tc main_v0)).trans (v0_6 m ρ c)
theorem v0_8 (c : Dev nD) : W8 m ρ c (Proc.devRef .tc main_v0) = zero32 :=
  (W8_of_ne m ρ c main_v0 (by decide) : W8 m ρ c (Proc.devRef .tc main_v0) = W7 m ρ c (Proc.devRef .tc main_v0)).trans (v0_7 m ρ c)
theorem v34_7 (c : Dev nD) : W7 m ρ c (Proc.devRef .tc main_v34) = (Host.gather gather_S400000x64_S27x120000x1_S27x120000x64_2_0_n_n_0_2_164 (kcat (W6 m ρ c (Proc.devRef .tc main_v26)) (m ((c : Thread nD τ).loc main_arg1))) (broadcastInDim S27x120000x1 ![0, 1] bcast_S27x120000_S27x120000x1_0_1 (knormIdx2 (m ((c : Thread nD τ).loc main_arg14))))) := by
  show StableHlo.after hostOps3 (W6 m ρ c) (Proc.devRef .tc main_v34) = _
  dsimp only [hostOps3]
  after_results
  rw [arg1_6 m ρ c, arg14_6 m ρ c]
  rfl
theorem v35_8 (c : Dev nD) : W8 m ρ c (Proc.devRef .tc main_v35) = (Host.dotGeneral (F := Ideal) (φ₁ := .f32) (φ₂ := .f32) Cert.ReferenceIdeal.dot_S27x120000x64_S27x64x32_S27x120000x32_2_1_1_2_0_0 none (Host.gather gather_S400000x64_S27x120000x1_S27x120000x64_2_0_n_n_0_2_164 (kcat (W6 m ρ c (Proc.devRef .tc main_v26)) (m ((c : Thread nD τ).loc main_arg1))) (broadcastInDim S27x120000x1 ![0, 1] bcast_S27x120000_S27x120000x1_0_1 (knormIdx2 (m ((c : Thread nD τ).loc main_arg14))))) (m ((c : Thread nD τ).loc main_arg6))) := by
  refine (W8_arr m ρ c 2).trans ((MatmulBridge3.arr_dot (V7 m ρ) c).trans ?_)
  show Host.dotGeneral (F := Ideal) (φ₁ := .f32) (φ₂ := .f32) Cert.ReferenceIdeal.dot_S27x120000x64_S27x64x32_S27x120000x32_2_1_1_2_0_0 none (W7 m ρ c (Proc.devRef .tc main_v34)) (W7 m ρ c (Proc.devRef .tc main_arg6)) = _
  rw [v34_7 m ρ c, arg6_7 m ρ c]
theorem v40_9 (c : Dev nD) : W9 m ρ c (Proc.devRef .tc main_v40) = (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) := by
  show StableHlo.after hostOps4 (W8 m ρ c) (Proc.devRef .tc main_v40) = _
  dsimp only [hostOps4]
  after_results
  rw [v35_8 m ρ c, arg15_8 m ρ c]
  rfl
theorem v41_9 (c : Dev nD) : W9 m ρ c (Proc.devRef .tc main_v41) = (row zero32) := by
  show StableHlo.after hostOps4 (W8 m ρ c) (Proc.devRef .tc main_v41) = _
  dsimp only [hostOps4]
  after_results
  rw [v0_8 m ρ c]
  rfl
theorem v42_9 (c : Dev nD) : W9 m ρ c (Proc.devRef .tc main_v42) = (row (m ((c : Thread nD τ).loc main_arg7))) := by
  show StableHlo.after hostOps4 (W8 m ρ c) (Proc.devRef .tc main_v42) = _
  dsimp only [hostOps4]
  after_results
  rw [arg7_8 m ρ c]
  rfl
theorem v43_9 (c : Dev nD) : W9 m ρ c (Proc.devRef .tc main_v43) = (row (m ((c : Thread nD τ).loc main_arg8))) := by
  show StableHlo.after hostOps4 (W8 m ρ c) (Proc.devRef .tc main_v43) = _
  dsimp only [hostOps4]
  after_results
  rw [arg8_8 m ρ c]
  rfl
theorem v40_10 (c : Dev nD) : W10 m ρ c (Proc.devRef .tc main_v40) = (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) :=
  (((W10_arr m ρ c 0).trans (((dat4 (V9 m ρ) c).arrAt_in 0 rfl _).trans (A_eq4 (V9 m ρ) c 0))) : W10 m ρ c (Proc.devRef .tc main_v40) = W9 m ρ c (Proc.devRef .tc main_v40)).trans (v40_9 m ρ c)
theorem v40_11 (c : Dev nD) : W11 m ρ c (Proc.devRef .tc main_v40) = (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) :=
  (by host_skip : W11 m ρ c (Proc.devRef .tc main_v40) = W10 m ρ c (Proc.devRef .tc main_v40)).trans (v40_10 m ρ c)
theorem v41_10 (c : Dev nD) : W10 m ρ c (Proc.devRef .tc main_v41) = (row zero32) :=
  (((W10_arr m ρ c 1).trans (((dat4 (V9 m ρ) c).arrAt_in 1 rfl _).trans (A_eq4 (V9 m ρ) c 1))) : W10 m ρ c (Proc.devRef .tc main_v41) = W9 m ρ c (Proc.devRef .tc main_v41)).trans (v41_9 m ρ c)
theorem v41_11 (c : Dev nD) : W11 m ρ c (Proc.devRef .tc main_v41) = (row zero32) :=
  (by host_skip : W11 m ρ c (Proc.devRef .tc main_v41) = W10 m ρ c (Proc.devRef .tc main_v41)).trans (v41_10 m ρ c)
theorem v42_10 (c : Dev nD) : W10 m ρ c (Proc.devRef .tc main_v42) = (row (m ((c : Thread nD τ).loc main_arg7))) :=
  (W10_of_ne m ρ c main_v42 (by decide) : W10 m ρ c (Proc.devRef .tc main_v42) = W9 m ρ c (Proc.devRef .tc main_v42)).trans (v42_9 m ρ c)
theorem v42_11 (c : Dev nD) : W11 m ρ c (Proc.devRef .tc main_v42) = (row (m ((c : Thread nD τ).loc main_arg7))) :=
  (by host_skip : W11 m ρ c (Proc.devRef .tc main_v42) = W10 m ρ c (Proc.devRef .tc main_v42)).trans (v42_10 m ρ c)
theorem v43_10 (c : Dev nD) : W10 m ρ c (Proc.devRef .tc main_v43) = (row (m ((c : Thread nD τ).loc main_arg8))) :=
  (W10_of_ne m ρ c main_v43 (by decide) : W10 m ρ c (Proc.devRef .tc main_v43) = W9 m ρ c (Proc.devRef .tc main_v43)).trans (v43_9 m ρ c)
theorem v43_11 (c : Dev nD) : W11 m ρ c (Proc.devRef .tc main_v43) = (row (m ((c : Thread nD τ).loc main_arg8))) :=
  (by host_skip : W11 m ρ c (Proc.devRef .tc main_v43) = W10 m ρ c (Proc.devRef .tc main_v43)).trans (v43_10 m ρ c)
theorem v44_0_10 (c : Dev nD) : W10 m ρ c (Proc.devRef .tc main_v44_0) = (colSum (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) (row zero32)) := by
  refine (W10_arr m ρ c 2).trans ((StatsValue4.sum_colSum (V9 m ρ) c).trans ?_)
  show colSum (W9 m ρ c (Proc.devRef .tc main_v40)) (W9 m ρ c (Proc.devRef .tc main_v41)) = _
  rw [v40_9 m ρ c, v41_9 m ρ c]
theorem v44_1_10 (c : Dev nD) : W10 m ρ c (Proc.devRef .tc main_v44_1) = (colSumSq (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) (row zero32)) := by
  refine (W10_arr m ρ c 3).trans ((StatsValue4.sumsq_colSumSq (V9 m ρ) c).trans ?_)
  show colSumSq (W9 m ρ c (Proc.devRef .tc main_v40)) (W9 m ρ c (Proc.devRef .tc main_v41)) = _
  rw [v40_9 m ρ c, v41_9 m ρ c]
theorem v46_11 (c : Dev nD) : W11 m ρ c (Proc.devRef .tc main_v46) = (meanK (colSum (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) (row zero32))) := by
  show StableHlo.after hostOps5 (W10 m ρ c) (Proc.devRef .tc main_v46) = _
  dsimp only [hostOps5]
  after_results
  rw [v44_0_10 m ρ c]
  rfl
theorem v52_11 (c : Dev nD) : W11 m ρ c (Proc.devRef .tc main_v52) = (varK (colSum (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) (row zero32)) (colSumSq (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) (row zero32))) := by
  show StableHlo.after hostOps5 (W10 m ρ c) (Proc.devRef .tc main_v52) = _
  dsimp only [hostOps5]
  after_results
  rw [v44_0_10 m ρ c, v44_1_10 m ρ c]
  rfl
/-- The stage's result array: the kernel's batch normalisation of the stage's convolution. -/
theorem v53_12 (c : Dev nD) : W12 m ρ c (Proc.devRef .tc main_v53) = (bnK (kconv2 (kcat (W6 m ρ c (Proc.devRef .tc main_v26)) (m ((c : Thread nD τ).loc main_arg1))) (m ((c : Thread nD τ).loc main_arg6)) (m ((c : Thread nD τ).loc main_arg14)) (m ((c : Thread nD τ).loc main_arg15))) (row zero32) (row (m ((c : Thread nD τ).loc main_arg7))) (row (m ((c : Thread nD τ).loc main_arg8)))) := by
  refine (W12_arr m ρ c 6).trans ((ApplyValue5.arr_applyK (V11 m ρ) c).trans ?_)
  show applyK (W11 m ρ c (Proc.devRef .tc main_v40)) (W11 m ρ c (Proc.devRef .tc main_v41)) (W11 m ρ c (Proc.devRef .tc main_v46)) (W11 m ρ c (Proc.devRef .tc main_v52)) (W11 m ρ c (Proc.devRef .tc main_v42)) (W11 m ρ c (Proc.devRef .tc main_v43)) = _
  rw [v40_11 m ρ c, v41_11 m ρ c, v46_11 m ρ c, v52_11 m ρ c, v42_11 m ρ c, v43_11 m ρ c]
  rfl

end Cert.KernelIdeal.KerChain2

end
-- ==== Proof.MatmulValue6.lean ====
/-
  The value of the matrix-product region (pipeline 6) at the ideal values, for any contents of the buffers at the region's
  entry. The grid has 600 points; point t stages rows 200 t … 200 t + 199 of each of the 27 members of the first operand
  [27, 120000, 32], the whole second operand [27, 32, 32], and writes back rows 200 t … 200 t + 199 of each member of
  the result [27, 120000, 32]. The body rounds both blocks to bf16 (the identity on extended reals) and multiplies them
  member by member into a zero accumulator. So the result array ends holding the batched product
      G A B (g, r, d) = ∑ k, A (g, r, k) * B (g, k, d),
  a finite sum of products of extended reals: no finiteness is needed. The steps: the payload at an index
  (`pay_apply`), the same with the blocks placed in the arrays (`pay_eq_G`), the index maps decided once over the grid
  (`idx_facts`), what a point writes back (`flushed_eq`), the cover (row r is written by point r / 200), and the
  whole-array statement (`arr`).
-/
import proofs.«172556_j661424964110_2_alg».proof.Proof.Gen.KernelIdeal.Frame
import Idealize.ShloMosaic.Lib.Pipeline.Value
import Idealize.ShloMosaic.Lib.StackMember
import Idealize.ShloMosaic.Lib.ValueIdx

noncomputable section

open Idealize.ShloMosaic Idealize.ShloMosaic.TcCoe Idealize.SL.Sem
open Idealize.ShloMosaic.ValueIdx
open Idealize.ShloMosaic.Pipeline (Dat)

namespace Cert.KernelIdeal.MatmulValue6

open Cert.KernelIdeal Cert.KernelIdeal.Gen

/-- The batched product of a stack of 27 matrices [120000, 32] with a stack of 27 matrices [32, 32]: entry
    (g, r, d) is the sum over k of A (g, r, k) * B (g, k, d). -/
def G (A : S27x120000x32.Idx → EReal) (B : S27x32x32.Idx → EReal) : S27x120000x32.Idx → EReal :=
  fun j => ∑ k : Fin 32, A (ix3 (j 0 : Fin 27) (j 1 : Fin 120000) k) * B (ix3 (j 0 : Fin 27) k (j 2 : Fin 32))

/-- The batched product at explicit coordinates. -/
theorem G_apply (A : S27x120000x32.Idx → EReal) (B : S27x32x32.Idx → EReal) (g : Fin 27) (r : Fin 120000) (d : Fin 32) :
    G A B (ix3 g r d) = ∑ k : Fin 32, A (ix3 g r k) * B (ix3 g k d) := rfl

/-- The body's payload at an index: the product of the two blocks, member by member. The roundings to bf16 are the
    identity on extended reals, and the product into the zero accumulator is the bare sum over the contracted axis. -/
theorem pay_apply (x0 : Vec Ideal S27x200x32 .f32) (x1 : Vec Ideal S27x32x32 .f32) (g : Fin 27) (a : Fin 200) (b : Fin 32) :
    k6_pay1 x0 x1 (ix3 g a b) = ∑ k : Fin 32, x0 (ix3 g a k) * x1 (ix3 g k b) := by
  unfold k6_pay1
  simp only [shapeCast_self]
  rw [matmul_zero_eq_dotGeneral]
  exact StackMember.dotGeneral_stack_apply dot_S27x200x32_S27x32x32_S27x200x32_2_1_1_2_0_0.wf none _ _ g a b

/-- One entry of a block product, placed in the arrays: when the first block is rows 200 T … 200 T + 199 of every
    member of A (`e0` says where each of its entries sits), the second block is all of B (`e1`), and the entry sits in row
    200 T + y 1 of member y 0 (`hi`), it is that entry of the batched product. -/
theorem pay_eq_G (A : S27x120000x32.Idx → EReal) (B : S27x32x32.Idx → EReal)
    (x0 : Vec Ideal S27x200x32 .f32) (x1 : Vec Ideal S27x32x32 .f32)
    (e0 : S27x200x32.Idx → S27x120000x32.Idx) (e1 : S27x32x32.Idx → S27x32x32.Idx) (T : Nat)
    (hx0 : ∀ z, x0 z = A (e0 z)) (hx1 : ∀ z, x1 z = B (e1 z))
    (he0 : ∀ z, (e0 z 0).val = (z 0).val ∧ (e0 z 1).val = T * 200 + (z 1).val ∧ (e0 z 2).val = (z 2).val)
    (he1 : ∀ z, (e1 z 0).val = (z 0).val ∧ (e1 z 1).val = (z 1).val ∧ (e1 z 2).val = (z 2).val)
    (y : S27x200x32.Idx) (i : S27x120000x32.Idx)
    (hi : (i 0).val = (y 0).val ∧ (i 1).val = T * 200 + (y 1).val ∧ (i 2).val = (y 2).val) :
    k6_pay1 x0 x1 y = G A B i := by
  obtain ⟨g, a, b, rfl⟩ : ∃ (g : Fin 27) (a : Fin 200) (b : Fin 32), y = ix3 g a b := ⟨y 0, y 1, y 2, eq_ix3 y⟩
  rw [pay_apply]
  unfold G
  refine Finset.sum_congr rfl fun k _ => ?_
  rw [hx0, hx1]
  refine congrArg₂ (· * ·) (congrArg A ?_) (congrArg B ?_)
  · funext ax; apply Fin.ext
    match ax with
    | ⟨0, _⟩ => exact (he0 _).1.trans hi.1.symm
    | ⟨1, _⟩ => exact (he0 _).2.1.trans hi.2.1.symm
    | ⟨2, _⟩ => exact (he0 _).2.2
  · funext ax; apply Fin.ext
    match ax with
    | ⟨0, _⟩ => exact (he1 _).1.trans hi.1.symm
    | ⟨1, _⟩ => exact (he1 _).2.1
    | ⟨2, _⟩ => exact (he1 _).2.2.trans hi.2.2.symm

/-- The zero offsets of the body's whole-block loads and store, however spelt. -/
theorem hz : (![0, 0, 0] : Fin 3 → Nat) = fun _ => 0 := funext fun a => by fin_cases a <;> rfl

/-- The index maps, decided once over the grid: point t stages block (0, t, 0) of the first operand and of the
    result, and block (0, 0, 0) — the whole — of the second operand. -/
theorem idx_facts : ∀ t : Fin cfg6.N,
    win6_0.index t (0 : Fin 3) = 0 ∧ win6_0.index t (1 : Fin 3) = t.val ∧ win6_0.index t (2 : Fin 3) = 0
    ∧ win6_1.index t (0 : Fin 3) = 0 ∧ win6_1.index t (1 : Fin 3) = 0 ∧ win6_1.index t (2 : Fin 3) = 0
    ∧ win6_2.index t (0 : Fin 3) = 0 ∧ win6_2.index t (1 : Fin 3) = t.val ∧ win6_2.index t (2 : Fin 3) = 0 :=
  (by decide +kernel : ∀ t : Fin grid6.N, _)

/-- What point t writes back is block t of the batched product of the two operand arrays as the region finds them:
    an element of a block sits in its array, on each axis, at the block index times the block size plus its own
    coordinate. -/
theorem flushed_eq (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (G (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S27x200x32) hz, View.ld_unit_zero (S := S27x32x32) hz]
  obtain ⟨a0, a1, a2, b0, b1, b2, o0, o1, o2⟩ := idx_facts t
  funext y
  show k6_pay1 (iblk6 V c 0 t) (iblk6 V c 1 t) y
    = G (V c (Pipeline.arrRef spec6 0)) (V c (Pipeline.arrRef spec6 1)) (((cfg6.win 2).blk t).view.emb y)
  refine pay_eq_G (V c (Pipeline.arrRef spec6 0)) (V c (Pipeline.arrRef spec6 1)) (iblk6 V c 0 t) (iblk6 V c 1 t)
    ((cfg6.win 0).blk t).view.emb ((cfg6.win 1).blk t).view.emb t.val (fun _ => rfl) (fun _ => rfl) ?_ ?_ y
    (((cfg6.win 2).blk t).view.emb y) ?_
  · intro z
    refine ⟨?_, ?_, ?_⟩
    · show win6_0.index t (0 : Fin 3) * 27 + 1 * (z 0).val = (z 0).val
      rw [a0]; omega
    · show win6_0.index t (1 : Fin 3) * 200 + 1 * (z 1).val = t.val * 200 + (z 1).val
      rw [a1]; omega
    · show win6_0.index t (2 : Fin 3) * 32 + 1 * (z 2).val = (z 2).val
      rw [a2]; omega
  · intro z
    refine ⟨?_, ?_, ?_⟩
    · show win6_1.index t (0 : Fin 3) * 27 + 1 * (z 0).val = (z 0).val
      rw [b0]; omega
    · show win6_1.index t (1 : Fin 3) * 32 + 1 * (z 1).val = (z 1).val
      rw [b1]; omega
    · show win6_1.index t (2 : Fin 3) * 32 + 1 * (z 2).val = (z 2).val
      rw [b2]; omega
  · refine ⟨?_, ?_, ?_⟩
    · show win6_2.index t (0 : Fin 3) * 27 + 1 * (y 0).val = (y 0).val
      rw [o0]; omega
    · show win6_2.index t (1 : Fin 3) * 200 + 1 * (y 1).val = t.val * 200 + (y 1).val
      rw [o1]; omega
    · show win6_2.index t (2 : Fin 3) * 32 + 1 * (y 2).val = (y 2).val
      rw [o2]; omega

/-- An index of the result array is in point t's block iff each coordinate is in the block's range on its axis. -/
theorem mem_blk (t : Fin cfg6.N) (i : S27x120000x32.Idx) :
    i ∈ ((cfg6.win 2).blk t).view.set ↔ ∀ a : Fin 3, win6_2.index t a * S27x200x32.size a ≤ (i a).val ∧ (i a).val < win6_2.index t a * S27x200x32.size a + S27x200x32.size a := by
  show i ∈ ((View.whole main_v61).slice (win6_2.rect t)).set ↔ _
  rw [View.set_slice_whole, Rect.mem_set_unit]
  exact Iff.rfl

/-- Every index of the result array is written back by some point: row r by point r / 200. -/
theorem cover (i : S27x120000x32.Idx) :
    ∃ t : Fin cfg6.N, (cfg6.win 2).flush t = true ∧ i ∈ ((cfg6.win 2).blk t).view.set := by
  have hN : cfg6.N = 600 := N_6
  have h0 : (i 0).val < 27 := (i 0).isLt
  have h1 : (i 1).val < 120000 := (i 1).isLt
  have h2 : (i 2).val < 32 := (i 2).isLt
  obtain ⟨t, ht⟩ : ∃ t : Fin cfg6.N, t.val = (i 1).val / 200 := ⟨⟨(i 1).val / 200, by rw [hN]; omega⟩, rfl⟩
  obtain ⟨-, -, -, -, -, -, o0, o1, o2⟩ := idx_facts t
  refine ⟨t, flush6_2 t, ?_⟩
  rw [mem_blk]
  intro a
  match a with
  | ⟨0, _⟩ => show win6_2.index t (0 : Fin 3) * 27 ≤ (i 0).val ∧ (i 0).val < win6_2.index t (0 : Fin 3) * 27 + 27; rw [o0]; omega
  | ⟨1, _⟩ => show win6_2.index t (1 : Fin 3) * 200 ≤ (i 1).val ∧ (i 1).val < win6_2.index t (1 : Fin 3) * 200 + 200; rw [o1, ht]; omega
  | ⟨2, _⟩ => show win6_2.index t (2 : Fin 3) * 32 ≤ (i 2).val ∧ (i 2).val < win6_2.index t (2 : Fin 3) * 32 + 32; rw [o2]; omega

/-- The result array after the region is the batched product of the two operand arrays as the region finds them. -/
theorem arr (V : (c : Dev nD) → (b : Ref sig .tc) → Buf (Elt Ideal) ((c : Thread nD τ).loc b)) (c : Dev nD) :
    (dat6 (F := Ideal) V c).arrAt 2 cfg6.N = G (V c (Pipeline.arrRef spec6 0)) (V c (Pipeline.arrRef spec6 1)) :=
  (dat6 (F := Ideal) V c).arrAt_eq_of_cover 2 (G (V c (Pipeline.arrRef spec6 0)) (V c (Pipeline.arrRef spec6 1)))
    (fun t _ => flushed_eq V c t) cover

end Cert.KernelIdeal.MatmulValue6

end
-- ==== Proof.MatmulBridge6.lean ====
/-
  The matrix-product region (pipeline 6) against the reference's contraction: the result array after the region is
  the host's `dot_general` of the two operand arrays as the region finds them — batch axis 0, the first operand's axis 2
  contracted with the second's axis 1 — because both are, entry by entry, the same finite sum
  ∑ k, A (g, r, k) * B (g, k, d) of products of extended reals.
-/
import proofs.«172556_j661424964110_2_alg».proof.Proof.MatmulValue6
import proofs.«172556_j661424964110_2_alg».proof.Proof.RefRunDefs

noncomputable section

open Idealize.ShloMosaic Idealize.ShloMosaic.TcCoe Idealize.SL.Sem
open Idealize.ShloMosaic.ValueIdx
open Idealize.ShloMosaic.Pipeline (Dat)

namespace Cert.KernelIdeal.MatmulBridge6

open Cert.KernelIdeal Cert.KernelIdeal.Gen

/-- The batched product is the host's `dot_general` with the reference's dimension numbers. -/
theorem G_eq_dotGeneral (A : S27x120000x32.Idx → EReal) (B : S27x32x32.Idx → EReal) :
    MatmulValue6.G A B = Host.dotGeneral (F := Ideal) (φ₁ := .f32) (φ₂ := .f32) Cert.ReferenceIdeal.dot_S27x120000x32_S27x32x32_S27x120000x32_2_1_1_2_0_0 none A B := by
  funext j
  obtain ⟨g, r, d, rfl⟩ : ∃ (g : Fin 27) (r : Fin 120000) (d : Fin 32), j = ix3 g r d := ⟨j 0, j 1, j 2, eq_ix3 j⟩
  rw [MatmulValue6.G_apply]
  exact (StackMember.dotGeneral_stack_apply Cert.ReferenceIdeal.dot_S27x120000x32_S27x32x32_S27x120000x32_2_1_1_2_0_0.wf none A B g r d).symm

/-- The result array after the region is the reference's contraction of the two operand arrays as the region finds
    them. -/
theorem arr_dot (V : (c : Dev nD) → (b : Ref sig .tc) → Buf (Elt Ideal) ((c : Thread nD τ).loc b)) (c : Dev nD) :
    (dat6 (F := Ideal) V c).arrAt 2 cfg6.N
      = Host.dotGeneral (F := Ideal) (φ₁ := .f32) (φ₂ := .f32) Cert.ReferenceIdeal.dot_S27x120000x32_S27x32x32_S27x120000x32_2_1_1_2_0_0 none (V c (Pipeline.arrRef spec6 0)) (V c (Pipeline.arrRef spec6 1)) :=
  (MatmulValue6.arr V c).trans (G_eq_dotGeneral _ _)

end Cert.KernelIdeal.MatmulBridge6

end
-- ==== Proof.StatsValue7.lean ====
import proofs.«172556_j661424964110_2_alg».proof.Proof.Gen.KernelIdeal.Frame
import proofs.«172556_j661424964110_2_alg».proof.Proof.KDefs
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
# The batch-norm statistics of region 7, as closed sums

Region 7 walks the 400000 rows of a 32-lane array `h` in 40 blocks of 10000 rows. Each point forms
`x = h_block + bias` (the bias row broadcast over the block's rows) and adds, lane by lane, the sum of
`x` over the block's rows into one accumulator and the sum of `x * x` into another; the first point
starts both accumulators from zero. The accumulators' block never moves, so what the arrays hold in the
end is what the last point leaves.

This module shows that, over the extended reals, the two arrays end holding, in lane `l`,
`∑ r, (h r l + bias l)` and `∑ r, (h r l + bias l) * (h r l + bias l)` over all 400000 rows `r`.
Only commutativity and associativity of addition are used (regrouping 400000 terms as 40 blocks of
10000), so no finiteness of the entries is needed.
-/

noncomputable section

open Idealize.ShloMosaic Idealize.ShloMosaic.TcCoe Idealize.SL.Sem
open Idealize.ShloMosaic.Pipeline (Dat)
open Idealize.ShloMosaic.ValueIdx

namespace Cert.KernelIdeal.StatsValue7

open Cert.KernelIdeal Cert.KernelIdeal.Gen

/-! ## What one point leaves in the accumulators, for any float instance -/

section AnyInstance

variable {F : FTy → Type} [FloatOps F]

theorem hz : (![0, 0] : Fin 2 → Nat) = fun _ => 0 := funext fun a => by fin_cases a <;> rfl

/-- A later point leaves, in the first accumulator holding `xo2`, `xo2` plus the row sums of the shifted block. -/
theorem out_B_2 (c : Dev nD) (i : grid7.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : ¬cond7_0 i)
    (x0 : Vec F S10000x32 .f32) (x1 xo2 xo3 : Vec F S1x32 .f32) :
    out7_B_2 c i a1 h1 a2 h2 a3 h3 a4 h4 hc x0 x1 xo2 xo3 = k7_pay4 x0 x1 xo2 := by
  unfold out7_B_2
  rw [View.read_writes_eq_canon _ _ _ (cover7_B_2 c i a1 h1 a2 h2 a3 h3 a4 h4 hc x0 x1 xo2 xo3)]
  unfold kernelRun7_B
  dsimp only
  rw [View.canon_unit_zero hz]
  simp only [View.readAt_eq_ld, h1.read_unread, h2.read_unread, h3.read_unread, h4.read_unread,
    View.ld_unit_zero (S := S10000x32) hz, View.ld_unit_zero (S := S1x32) hz]

/-- A later point leaves, in the second accumulator holding `xo3`, `xo3` plus the row sums of the squared shifted block. -/
theorem out_B_3 (c : Dev nD) (i : grid7.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : ¬cond7_0 i)
    (x0 : Vec F S10000x32 .f32) (x1 xo2 xo3 : Vec F S1x32 .f32) :
    out7_B_3 c i a1 h1 a2 h2 a3 h3 a4 h4 hc x0 x1 xo2 xo3 = k7_pay5 x0 x1 xo3 := by
  unfold out7_B_3
  rw [View.read_writes_eq_canon _ _ _ (cover7_B_3 c i a1 h1 a2 h2 a3 h3 a4 h4 hc x0 x1 xo2 xo3)]
  unfold kernelRun7_B
  dsimp only
  rw [View.canon_unit_zero hz]
  simp only [View.readAt_eq_ld, h1.read_unread, h2.read_unread, h3.read_unread, h4.read_unread,
    View.ld_unit_zero (S := S10000x32) hz, View.ld_unit_zero (S := S1x32) hz]

/-- The first point stores the zero row, reads it back, and leaves zero plus the row sums of the shifted block. -/
theorem out_A_2 (c : Dev nD) (i : grid7.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : cond7_0 i)
    (x0 : Vec F S10000x32 .f32) (x1 : Vec F S1x32 .f32) :
    out7_A_2 c i a1 h1 a2 h2 a3 h3 a4 h4 hc x0 x1 = k7_pay4 x0 x1 k7_pay1 := by
  unfold out7_A_2
  rw [View.read_writes_eq_canon _ _ _ (cover7_A_2 c i a1 h1 a2 h2 a3 h3 a4 h4 hc x0 x1)]
  unfold kernelRun7_A
  dsimp only
  sl_unfold_words
  rw [View.canon_cons_unit_zero (S := S1x32) hz, View.readCov_unit_zero (S := S1x32) _ hz]
  simp only [View.readAt_eq_ld, h1.read_unread, h2.read_unread,
    View.ld_unit_zero (S := S10000x32) hz, View.ld_unit_zero (S := S1x32) hz]

/-- Likewise for the second accumulator and the squares. -/
theorem out_A_3 (c : Dev nD) (i : grid7.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (a4 : Memref sig .tc .vmem S1x32 .f32) (h4 : a4.IsWhole) (hc : cond7_0 i)
    (x0 : Vec F S10000x32 .f32) (x1 : Vec F S1x32 .f32) :
    out7_A_3 c i a1 h1 a2 h2 a3 h3 a4 h4 hc x0 x1 = k7_pay5 x0 x1 k7_pay2 := by
  unfold out7_A_3
  rw [View.read_writes_eq_canon _ _ _ (cover7_A_3 c i a1 h1 a2 h2 a3 h3 a4 h4 hc x0 x1)]
  unfold kernelRun7_A
  dsimp only
  sl_unfold_words
  rw [View.canon_cons_unit_zero (S := S1x32) hz, View.readCov_unit_zero (S := S1x32) _ hz]
  simp only [View.readAt_eq_ld, h1.read_unread, h2.read_unread,
    View.ld_unit_zero (S := S10000x32) hz, View.ld_unit_zero (S := S1x32) hz]

variable (V : (c : Dev nD) → (b : Ref sig .tc) → Buf (Elt F) ((c : Thread nD τ).loc b))

/-- The two accumulators after point `n`: from the zero rows at point 0, each point adds its block's row sums. -/
def acc (c : Dev nD) : (n : ℕ) → n < cfg7.N → Vec F S1x32 .f32 × Vec F S1x32 .f32
  | 0, h => (k7_pay4 (iblk7 V c 0 ⟨0, h⟩) (iblk7 V c 1 ⟨0, h⟩) k7_pay1,
             k7_pay5 (iblk7 V c 0 ⟨0, h⟩) (iblk7 V c 1 ⟨0, h⟩) k7_pay2)
  | n + 1, h => (k7_pay4 (iblk7 V c 0 ⟨n + 1, h⟩) (iblk7 V c 1 ⟨n + 1, h⟩) (acc c n (Nat.lt_of_succ_lt h)).1,
                 k7_pay5 (iblk7 V c 0 ⟨n + 1, h⟩) (iblk7 V c 1 ⟨n + 1, h⟩) (acc c n (Nat.lt_of_succ_lt h)).2)

/-- What the accumulators' staging buffers hold after point `n` is that recursion: by induction on the point. -/
theorem outsAt_eq (c : Dev nD) : ∀ (n : ℕ) (h : n < cfg7.N), outsAt7 V c n h = acc V c n h
  | 0, h => by
    rw [outsAt7_A V c ⟨0, h⟩ rfl, out_A_2, out_A_3]
    rfl
  | n + 1, h => by
    have hN : cfg7.N = 40 := N_7
    have hB : ¬(⟨n + 1, h⟩ : Fin cfg7.N).val % 40 = 0 := by dsimp only; omega
    rw [outsAt7_B V c ⟨n + 1, h⟩ hB, out_B_2, out_B_3]
    show (k7_pay4 _ _ (outsAt7 V c n _).1, k7_pay5 _ _ (outsAt7 V c n _).2) = _
    rw [outsAt_eq c n]
    rfl

/-- The last point. -/
abbrev tLast : Fin cfg7.N := ⟨39, by rw [show cfg7.N = 40 from N_7]; decide⟩

/-- What the last point leaves: the contents the two result arrays end with. -/
abbrev result2 (c : Dev nD) : Buf (Elt F) ((c : Thread nD τ).loc main_v70_0) := (acc V c 39 tLast.isLt).1
abbrev result3 (c : Dev nD) : Buf (Elt F) ((c : Thread nD τ).loc main_v70_1) := (acc V c 39 tLast.isLt).2

/-- The one write-back of the first accumulator, at the last point, writes `result2`: its block is the whole array. -/
theorem flushed2_eq (c : Dev nD) (t : Fin cfg7.N) (hf : (cfg7.win 2).flush t = true) :
    (dat7 V c).flushed 2 t = ((cfg7.win 2).blk t).view.read (Elt F) (result2 V c) := by
  have hN : cfg7.N = 40 := N_7
  have h3 : t.val = 39 := by have := (flush7_2 t).mp hf; have := t.isLt; omega
  obtain rfl : t = tLast := Fin.ext h3
  show (cfg7.win 2).cut (grid7.coords tLast) ((dat7 V c).after 2 tLast) = _
  rw [after7_2, outsAt_eq]
  have hz' : (fun a => win7_2.index tLast a * main_v70_0.ty.shape.size a) = fun _ => 0 := funext fun a => by fin_cases a <;> decide
  exact (Memref.read_access_unit_zero (Elt F) main_v70_0 hz' (fun a => by rw [congrFun hz' a]; simp) (result2 V c)).symm

/-- Likewise for the second accumulator. -/
theorem flushed3_eq (c : Dev nD) (t : Fin cfg7.N) (hf : (cfg7.win 3).flush t = true) :
    (dat7 V c).flushed 3 t = ((cfg7.win 3).blk t).view.read (Elt F) (result3 V c) := by
  have hN : cfg7.N = 40 := N_7
  have h3 : t.val = 39 := by have := (flush7_3 t).mp hf; have := t.isLt; omega
  obtain rfl : t = tLast := Fin.ext h3
  show (cfg7.win 3).cut (grid7.coords tLast) ((dat7 V c).after 3 tLast) = _
  rw [after7_3, outsAt_eq]
  have hz' : (fun a => win7_3.index tLast a * main_v70_1.ty.shape.size a) = fun _ => 0 := funext fun a => by fin_cases a <;> decide
  exact (Memref.read_access_unit_zero (Elt F) main_v70_1 hz' (fun a => by rw [congrFun hz' a]; simp) (result3 V c)).symm

/-- So the first result array ends holding what the last point leaves (the last point's block covers it). -/
theorem final2 (c : Dev nD) : (dat7 V c).arrAt 2 cfg7.N = result2 V c :=
  (dat7 V c).arrAt_eq_of_cover 2 (result2 V c) (flushed2_eq V c) fun i =>
    ⟨tLast, (flush7_2 tLast).mpr rfl, by
      show i ∈ ((View.whole main_v70_0).slice (win7_2.rect tLast)).set
      rw [View.set_slice_whole, Rect.mem_set_unit]
      intro a
      have h0 : (i 0 : Nat) < 1 := (i 0).isLt
      have h1 : (i 1 : Nat) < 32 := (i 1).isLt
      match a with
      | ⟨0, _⟩ => show win7_2.index tLast 0 * win7_2.size 0 ≤ (i 0 : Nat) ∧ (i 0 : Nat) < win7_2.index tLast 0 * win7_2.size 0 + win7_2.xsize (grid7.coords tLast) 0
                  rw [show win7_2.index tLast 0 * win7_2.size 0 = 0 from by decide +kernel, show win7_2.xsize (grid7.coords tLast) 0 = 1 from by decide +kernel]; omega
      | ⟨1, _⟩ => show win7_2.index tLast 1 * win7_2.size 1 ≤ (i 1 : Nat) ∧ (i 1 : Nat) < win7_2.index tLast 1 * win7_2.size 1 + win7_2.xsize (grid7.coords tLast) 1
                  rw [show win7_2.index tLast 1 * win7_2.size 1 = 0 from by decide +kernel, show win7_2.xsize (grid7.coords tLast) 1 = 32 from by decide +kernel]; omega⟩

/-- Likewise for the second result array. -/
theorem final3 (c : Dev nD) : (dat7 V c).arrAt 3 cfg7.N = result3 V c :=
  (dat7 V c).arrAt_eq_of_cover 3 (result3 V c) (flushed3_eq V c) fun i =>
    ⟨tLast, (flush7_3 tLast).mpr rfl, by
      show i ∈ ((View.whole main_v70_1).slice (win7_3.rect tLast)).set
      rw [View.set_slice_whole, Rect.mem_set_unit]
      intro a
      have h0 : (i 0 : Nat) < 1 := (i 0).isLt
      have h1 : (i 1 : Nat) < 32 := (i 1).isLt
      match a with
      | ⟨0, _⟩ => show win7_3.index tLast 0 * win7_3.size 0 ≤ (i 0 : Nat) ∧ (i 0 : Nat) < win7_3.index tLast 0 * win7_3.size 0 + win7_3.xsize (grid7.coords tLast) 0
                  rw [show win7_3.index tLast 0 * win7_3.size 0 = 0 from by decide +kernel, show win7_3.xsize (grid7.coords tLast) 0 = 1 from by decide +kernel]; omega
      | ⟨1, _⟩ => show win7_3.index tLast 1 * win7_3.size 1 ≤ (i 1 : Nat) ∧ (i 1 : Nat) < win7_3.index tLast 1 * win7_3.size 1 + win7_3.xsize (grid7.coords tLast) 1
                  rw [show win7_3.index tLast 1 * win7_3.size 1 = 0 from by decide +kernel, show win7_3.xsize (grid7.coords tLast) 1 = 32 from by decide +kernel]; omega⟩

end AnyInstance

/-! ## The arithmetic of one point, over the extended reals -/

section Arithmetic

/-- The shifted block at row `r`, lane `l`: the block's entry plus that lane's bias. -/
theorem pay3_apply (x0 : Vec Ideal S10000x32 .f32) (x1 : Vec Ideal S1x32 .f32) (r : Fin 10000) (l : Fin 32) :
    k7_pay3 (F := Ideal) x0 x1 (ix2 r l) = x0 (ix2 r l) + x1 (ix2 (0 : Fin 1) l) := by
  unfold k7_pay3
  show (shapeCast S10000x32 x0 shapeCasts_S10000x32_S10000x32) (ix2 r l)
      + (broadcastTo S10000x32 (shapeCast S1x32 x1 shapeCasts_S1x32_S1x32) broadcasts_S1x32_S10000x32) (ix2 r l) = _
  rw [shapeCast_self, shapeCast_self]
  exact congrArg (x0 (ix2 r l) + ·) (broadcastTo_1b_ab_apply x1 broadcasts_S1x32_S10000x32 r l)

/-- The index the row reduction sums over at lane `l`: row `k` put back in front of the lane. -/
theorem lift_eq (l : Fin 32) (k : Fin 10000) : reduces_S10000x32_S32.lift (ix1 l) k = ix2 k l := by
  funext a
  match a with
  | ⟨0, _⟩ => rfl
  | ⟨1, _⟩ => rfl

/-- The reduction over a block's rows is, lane by lane, the sum over the 10000 rows. -/
theorem rowsum_apply (src : FVec Ideal S10000x32 .f32) (l : Fin 32) :
    multiReduction (F := Ideal) .add [0] S32 src 0x00000000#32 reduces_S10000x32_S32 (.inl rfl) rfl (ix1 l)
      = ∑ k : Fin 10000, src (ix2 k l) := by
  refine (Ideal.multiReduction_add_single src 0x00000000#32 reduces_S10000x32_S32 (.inl rfl) rfl (ix1 l)).trans ?_
  show ∑ k : Fin 10000, src (reduces_S10000x32_S32.lift (ix1 l) k) = _
  exact Finset.sum_congr rfl fun k _ => congrArg src (lift_eq l k)

/-- One point's update of the first accumulator, at lane `l`. -/
theorem pay4_apply (x0 : Vec Ideal S10000x32 .f32) (x1 xo : Vec Ideal S1x32 .f32) (u : Fin 1) (l : Fin 32) :
    k7_pay4 (F := Ideal) x0 x1 xo (ix2 u l)
      = xo (ix2 u l) + ∑ k : Fin 10000, (x0 (ix2 k l) + x1 (ix2 (0 : Fin 1) l)) := by
  unfold k7_pay4
  show (shapeCast S1x32 xo shapeCasts_S1x32_S1x32) (ix2 u l)
      + (shapeCast S1x32 (multiReduction (F := Ideal) .add [0] S32 (k7_pay3 x0 x1) 0x00000000#32 reduces_S10000x32_S32 (.inl rfl) rfl) shapeCasts_S32_S1x32) (ix2 u l) = _
  rw [shapeCast_self]
  refine congrArg (xo (ix2 u l) + ·) ?_
  refine (shapeCast_a_1a_apply _ shapeCasts_S32_S1x32 u l).trans ?_
  refine (rowsum_apply _ l).trans ?_
  exact Finset.sum_congr rfl fun k _ => pay3_apply x0 x1 k l

/-- One point's update of the second accumulator, at lane `l`. -/
theorem pay5_apply (x0 : Vec Ideal S10000x32 .f32) (x1 xo : Vec Ideal S1x32 .f32) (u : Fin 1) (l : Fin 32) :
    k7_pay5 (F := Ideal) x0 x1 xo (ix2 u l)
      = xo (ix2 u l) + ∑ k : Fin 10000, (x0 (ix2 k l) + x1 (ix2 (0 : Fin 1) l)) * (x0 (ix2 k l) + x1 (ix2 (0 : Fin 1) l)) := by
  unfold k7_pay5
  show (shapeCast S1x32 xo shapeCasts_S1x32_S1x32) (ix2 u l)
      + (shapeCast S1x32 (multiReduction (F := Ideal) .add [0] S32 (mulf (k7_pay3 x0 x1) (k7_pay3 x0 x1)) 0x00000000#32 reduces_S10000x32_S32 (.inl rfl) rfl) shapeCasts_S32_S1x32) (ix2 u l) = _
  rw [shapeCast_self]
  refine congrArg (xo (ix2 u l) + ·) ?_
  refine (shapeCast_a_1a_apply _ shapeCasts_S32_S1x32 u l).trans ?_
  refine (rowsum_apply _ l).trans ?_
  refine Finset.sum_congr rfl fun k _ => ?_
  show k7_pay3 (F := Ideal) x0 x1 (ix2 k l) * k7_pay3 (F := Ideal) x0 x1 (ix2 k l) = _
  rw [pay3_apply]

/-- The zero rows the first point stores: every entry is zero. -/
theorem pay1_apply (j : S1x32.Idx) : k7_pay1 (F := Ideal) j = 0 := by
  unfold k7_pay1
  show (Scalar.ofBits (F := Ideal) .f32 0x00000000#32) = 0
  exact Ideal.ofBits_zero_f32

theorem pay2_apply (j : S1x32.Idx) : k7_pay2 (F := Ideal) j = 0 := by
  unfold k7_pay2
  show (Scalar.ofBits (F := Ideal) .f32 0x00000000#32) = 0
  exact Ideal.ofBits_zero_f32

/-- Regrouping: 40 consecutive blocks of 10000 terms are the 400000 terms. -/
theorem sum_blocks {M : Type*} [AddCommMonoid M] (g : ℕ → M) :
    ∑ s ∈ Finset.range 40, ∑ k : Fin 10000, g (10000 * s + k.val) = ∑ r : Fin 400000, g r.val := by
  rw [Finset.sum_range (fun s => ∑ k : Fin 10000, g (10000 * s + k.val))]
  have e : ∑ r : Fin 400000, g r.val = ∑ p : Fin 40 × Fin 10000, g (10000 * p.1.val + p.2.val) := by
    refine (Fintype.sum_equiv (finProdFinEquiv (m := 40) (n := 10000)) _ _ fun p => ?_).symm
    show g (10000 * p.1.val + p.2.val) = g (p.2.val + 10000 * p.1.val)
    rw [Nat.add_comm]
  rw [e, Fintype.sum_prod_type]

end Arithmetic

/-! ## The accumulators after every point, and the result arrays -/

section Value

variable (V : (c : Dev nD) → (b : Ref sig .tc) → Buf (Elt Ideal) ((c : Thread nD τ).loc b))

/-- The array the region walks, and the bias row, as the region finds them. -/
abbrev harr (c : Dev nD) : S400000x32.Idx → EReal := V c (Pipeline.arrRef spec7 0)
abbrev bias (c : Dev nD) : S1x32.Idx → EReal := V c (Pipeline.arrRef spec7 1)

/-- The shifted entry of row `r` in lane `l` (zero past the last row, where it is never read). -/
def rowVal (c : Dev nD) (l : Fin 32) (r : ℕ) : EReal :=
  if h : r < 400000 then harr V c (ix2 ⟨r, h⟩ l) + bias V c (ix2 (0 : Fin 1) l) else 0

/-- Block `t` of the walked array holds rows `10000 t … 10000 t + 9999`. -/
theorem iblk0_apply (c : Dev nD) (t : Fin cfg7.N) (k : Fin 10000) (l : Fin 32) (hr : 10000 * t.val + k.val < 400000) :
    (iblk7 V c 0 t : Vec Ideal S10000x32 .f32) (ix2 k l) = harr V c (ix2 ⟨10000 * t.val + k.val, hr⟩ l) := by
  have hi : win7_0.index t 0 = t.val ∧ win7_0.index t 1 = 0 :=
    (by decide +kernel : ∀ t : Fin grid7.N, win7_0.index t 0 = t.val ∧ win7_0.index t 1 = 0) t
  unfold iblk7
  rw [View.read_apply]
  show V c (Pipeline.arrRef spec7 0) _ = V c (Pipeline.arrRef spec7 0) _
  refine congrArg (V c (Pipeline.arrRef spec7 0)) (funext fun a => Fin.ext ?_)
  match a with
  | ⟨0, _⟩ => show win7_0.index t 0 * 10000 + 1 * k.val = 10000 * t.val + k.val; rw [hi.1]; omega
  | ⟨1, _⟩ => show win7_0.index t 1 * 32 + 1 * l.val = l.val; rw [hi.2]; omega

/-- The bias window's block is the bias row at every point. -/
theorem iblk1_apply (c : Dev nD) (t : Fin cfg7.N) (u : Fin 1) (l : Fin 32) :
    (iblk7 V c 1 t : Vec Ideal S1x32 .f32) (ix2 u l) = bias V c (ix2 u l) := by
  have hi : win7_1.index t 0 = 0 ∧ win7_1.index t 1 = 0 :=
    (by decide +kernel : ∀ t : Fin grid7.N, win7_1.index t 0 = 0 ∧ win7_1.index t 1 = 0) t
  unfold iblk7
  rw [View.read_apply]
  show V c (Pipeline.arrRef spec7 1) _ = V c (Pipeline.arrRef spec7 1) _
  refine congrArg (V c (Pipeline.arrRef spec7 1)) (funext fun a => Fin.ext ?_)
  match a with
  | ⟨0, _⟩ => show win7_1.index t 0 * 1 + 1 * u.val = u.val; rw [hi.1]; omega
  | ⟨1, _⟩ => show win7_1.index t 1 * 32 + 1 * l.val = l.val; rw [hi.2]; omega

/-- The two input blocks at a point, typed by their literal shapes. -/
abbrev blk0 (c : Dev nD) (t : Fin cfg7.N) : Vec Ideal S10000x32 .f32 := iblk7 V c 0 t
abbrev blk1 (c : Dev nD) (t : Fin cfg7.N) : Vec Ideal S1x32 .f32 := iblk7 V c 1 t

/-- A block's shifted entry is the array's shifted entry of the corresponding row. -/
theorem block_row (c : Dev nD) (n : ℕ) (h : n < cfg7.N) (k : Fin 10000) (l : Fin 32) :
    blk0 V c ⟨n, h⟩ (ix2 k l) + blk1 V c ⟨n, h⟩ (ix2 (0 : Fin 1) l) = rowVal V c l (10000 * n + k.val) := by
  have hN : cfg7.N = 40 := N_7
  have hr : 10000 * n + k.val < 400000 := by have := k.isLt; omega
  have e0 : blk0 V c ⟨n, h⟩ (ix2 k l) = harr V c (ix2 ⟨10000 * n + k.val, hr⟩ l) := iblk0_apply V c ⟨n, h⟩ k l hr
  have e1 : blk1 V c ⟨n, h⟩ (ix2 (0 : Fin 1) l) = bias V c (ix2 (0 : Fin 1) l) := iblk1_apply V c ⟨n, h⟩ 0 l
  unfold rowVal
  rw [dif_pos hr, e0, e1]

/-- THE INVARIANT: after point `n` the accumulators hold, in lane `l`, the sums over the rows of blocks `0 … n`. -/
theorem acc_apply (c : Dev nD) (u : Fin 1) (l : Fin 32) : ∀ (n : ℕ) (h : n < cfg7.N),
    (acc V c n h).1 (ix2 u l) = 0 + ∑ s ∈ Finset.range (n + 1), ∑ k : Fin 10000, rowVal V c l (10000 * s + k.val)
    ∧ (acc V c n h).2 (ix2 u l) = 0 + ∑ s ∈ Finset.range (n + 1), ∑ k : Fin 10000,
        rowVal V c l (10000 * s + k.val) * rowVal V c l (10000 * s + k.val)
  | 0, h => by
    constructor
    · show k7_pay4 (F := Ideal) (iblk7 V c 0 ⟨0, h⟩) (iblk7 V c 1 ⟨0, h⟩) (k7_pay1 (F := Ideal)) (ix2 u l) = _
      rw [pay4_apply (iblk7 V c 0 ⟨0, h⟩) (iblk7 V c 1 ⟨0, h⟩) (k7_pay1 (F := Ideal)) u l, pay1_apply, Finset.sum_range_one]
      exact congrArg (0 + ·) (Finset.sum_congr rfl fun k _ => block_row V c 0 h k l)
    · show k7_pay5 (F := Ideal) (iblk7 V c 0 ⟨0, h⟩) (iblk7 V c 1 ⟨0, h⟩) (k7_pay2 (F := Ideal)) (ix2 u l) = _
      rw [pay5_apply (iblk7 V c 0 ⟨0, h⟩) (iblk7 V c 1 ⟨0, h⟩) (k7_pay2 (F := Ideal)) u l, pay2_apply, Finset.sum_range_one]
      exact congrArg (0 + ·) (Finset.sum_congr rfl fun k _ => by rw [block_row V c 0 h k l])
  | n + 1, h => by
    obtain ⟨ih1, ih2⟩ := acc_apply c u l n (Nat.lt_of_succ_lt h)
    constructor
    · show k7_pay4 (F := Ideal) (iblk7 V c 0 ⟨n + 1, h⟩) (iblk7 V c 1 ⟨n + 1, h⟩) (acc V c n (Nat.lt_of_succ_lt h)).1 (ix2 u l) = _
      rw [pay4_apply (iblk7 V c 0 ⟨n + 1, h⟩) (iblk7 V c 1 ⟨n + 1, h⟩) (acc V c n (Nat.lt_of_succ_lt h)).1 u l, ih1,
        Finset.sum_range_succ _ (n + 1), add_assoc]
      exact congrArg (fun z => 0 + (_ + z)) (Finset.sum_congr rfl fun k _ => block_row V c (n + 1) h k l)
    · show k7_pay5 (F := Ideal) (iblk7 V c 0 ⟨n + 1, h⟩) (iblk7 V c 1 ⟨n + 1, h⟩) (acc V c n (Nat.lt_of_succ_lt h)).2 (ix2 u l) = _
      rw [pay5_apply (iblk7 V c 0 ⟨n + 1, h⟩) (iblk7 V c 1 ⟨n + 1, h⟩) (acc V c n (Nat.lt_of_succ_lt h)).2 u l, ih2,
        Finset.sum_range_succ _ (n + 1), add_assoc]
      exact congrArg (fun z => 0 + (_ + z)) (Finset.sum_congr rfl fun k _ => by rw [block_row V c (n + 1) h k l])

/-- THE SUM: the first result array ends holding, in lane `l`, the sum over all 400000 rows of the shifted entries. -/
theorem sum (c : Dev nD) : (dat7 (F := Ideal) V c).arrAt 2 cfg7.N
    = fun j => ∑ r : Fin 400000, (harr V c (ix2 r (j 1)) + bias V c (ix2 (0 : Fin 1) (j 1))) := by
  rw [final2]
  funext j
  obtain ⟨u, l, rfl⟩ : ∃ (u : Fin 1) (l : Fin 32), j = ix2 u l := ⟨j 0, j 1, eq_ix2 j⟩
  show (acc V c 39 tLast.isLt).1 (ix2 u l) = ∑ r : Fin 400000, (harr V c (ix2 r l) + bias V c (ix2 (0 : Fin 1) l))
  rw [(acc_apply V c u l 39 tLast.isLt).1, zero_add, sum_blocks (rowVal V c l)]
  exact Finset.sum_congr rfl fun r _ => by unfold rowVal; rw [dif_pos r.isLt]

/-- THE SUM OF SQUARES: the second result array ends holding, in lane `l`, the sum over all rows of the squared shifted entries. -/
theorem sumsq (c : Dev nD) : (dat7 (F := Ideal) V c).arrAt 3 cfg7.N
    = fun j => ∑ r : Fin 400000, (harr V c (ix2 r (j 1)) + bias V c (ix2 (0 : Fin 1) (j 1)))
        * (harr V c (ix2 r (j 1)) + bias V c (ix2 (0 : Fin 1) (j 1))) := by
  rw [final3]
  funext j
  obtain ⟨u, l, rfl⟩ : ∃ (u : Fin 1) (l : Fin 32), j = ix2 u l := ⟨j 0, j 1, eq_ix2 j⟩
  show (acc V c 39 tLast.isLt).2 (ix2 u l) = ∑ r : Fin 400000, (harr V c (ix2 r l) + bias V c (ix2 (0 : Fin 1) l))
      * (harr V c (ix2 r l) + bias V c (ix2 (0 : Fin 1) l))
  rw [(acc_apply V c u l 39 tLast.isLt).2, zero_add, sum_blocks (fun r => rowVal V c l r * rowVal V c l r)]
  exact Finset.sum_congr rfl fun r _ => by unfold rowVal; rw [dif_pos r.isLt]

/-- The same, read at lane `l`. -/
theorem sum_apply (c : Dev nD) (u : Fin 1) (l : Fin 32) :
    (dat7 (F := Ideal) V c).arrAt 2 cfg7.N (ix2 u l)
      = ∑ r : Fin 400000, (harr V c (ix2 r l) + bias V c (ix2 (0 : Fin 1) l)) :=
  congrFun (sum V c) (ix2 u l)

theorem sumsq_apply (c : Dev nD) (u : Fin 1) (l : Fin 32) :
    (dat7 (F := Ideal) V c).arrAt 3 cfg7.N (ix2 u l)
      = ∑ r : Fin 400000, (harr V c (ix2 r l) + bias V c (ix2 (0 : Fin 1) l))
          * (harr V c (ix2 r l) + bias V c (ix2 (0 : Fin 1) l)) :=
  congrFun (sumsq V c) (ix2 u l)

/-- The two results in the shared vocabulary: the column sums of the shifted array and of its square. -/
theorem sum_colSum (c : Dev nD) : (dat7 (F := Ideal) V c).arrAt 2 cfg7.N
    = Cert.KVal.colSum (V c (Pipeline.arrRef spec7 0)) (V c (Pipeline.arrRef spec7 1)) :=
  sum V c

theorem sumsq_colSumSq (c : Dev nD) : (dat7 (F := Ideal) V c).arrAt 3 cfg7.N
    = Cert.KVal.colSumSq (V c (Pipeline.arrRef spec7 0)) (V c (Pipeline.arrRef spec7 1)) :=
  sumsq V c

end Value

end Cert.KernelIdeal.StatsValue7

end
-- ==== Proof.ApplyValue8.lean ====
/-
  The value of the third batch-normalisation apply region, at the ideal instance (a float an extended real, every
  operation exact), whatever the buffers hold when the region is entered.

  The region runs over forty grid points. Point `t` stages rows `10000 t … 10000 t + 9999` of the 400000 x 32 input and
  the five one-row arrays whole (bias, mean, variance, scale, shift), and writes back the same rows of the output. On a
  block the body computes, entry by entry,
      max ((((x + bias) - mean) * rsqrt (variance + eps)) * scale + shift) 0,
  the one-row arrays read at the entry's column. Every row of the output lies in exactly the block of point
  `row / 10000`, so after the region the output array is that function of the six input arrays, entry by entry.
-/
import proofs.«172556_j661424964110_2_alg».proof.Proof.Gen.KernelIdeal.Frame
import proofs.«172556_j661424964110_2_alg».proof.Proof.KDefs
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)
open Idealize.ShloMosaic.ValueIdx

namespace Cert.KernelIdeal.ApplyValue8

open Cert.KernelIdeal Cert.KernelIdeal.Gen

variable (V : (c : Dev nD) → (b : Ref sig .tc) → Buf (Elt Ideal) ((c : Thread nD τ).loc b))

/-- One element of the normalised, scaled, shifted and rectified array: from the element `x`, the bias `b`, the mean
    `mu`, the variance `va`, the scale `ga` and the shift `be` of its column. -/
def bnRelu (x b mu va ga be : EReal) : EReal :=
  max ((((x + b) - mu) * Ideal.rsqrt (va + Ideal.ofBits .f32 0x3727C5AC#32)) * ga + be) (Ideal.ofBits .f32 0x00000000#32)

/-- The whole array: every row is treated alike, column `q` with the `q`-th entries of the five one-row arrays. -/
def bnReluArr (H : S400000x32.Idx → EReal) (b mu va ga be : S1x32.Idx → EReal) : S400000x32.Idx → EReal :=
  fun j => bnRelu (H j) (b (ix2 (0 : Fin 1) (j 1 : Fin 32))) (mu (ix2 (0 : Fin 1) (j 1 : Fin 32))) (va (ix2 (0 : Fin 1) (j 1 : Fin 32)))
    (ga (ix2 (0 : Fin 1) (j 1 : Fin 32))) (be (ix2 (0 : Fin 1) (j 1 : Fin 32)))

theorem hz : (![0, 0] : Fin 2 → Nat) = fun _ => 0 := funext fun a => by fin_cases a <;> rfl

/-- The body's arithmetic at one element of a block. -/
theorem pay_apply (x0 : Vec Ideal S10000x32 .f32) (x1 x2 x3 x4 x5 : Vec Ideal S1x32 .f32) (p : Fin 10000) (q : Fin 32) :
    k8_pay1 (F := Ideal) x0 x1 x3 x2 x4 x5 (ix2 p q)
      = bnRelu (x0 (ix2 p q)) (x1 (ix2 0 q)) (x2 (ix2 0 q)) (x3 (ix2 0 q)) (x4 (ix2 0 q)) (x5 (ix2 0 q)) := by
  unfold k8_pay1 bnRelu
  simp only [shapeCast_self, maximumf_apply, addf_apply, mulf_apply, subf_apply, broadcastTo_1b_ab_apply, broadcast_apply]
  rfl

/-- The printed index maps over the grid: the two blocked windows sit at row block `t`, the one-row windows at the origin. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

theorem iblk_1 (c : Dev nD) (t : Fin cfg8.N) : iblk8 V c 1 t = V c (Pipeline.arrRef spec8 1) := by
  obtain ⟨-, -, e0, e1, -⟩ := idx_facts t
  unfold iblk8
  funext y
  show V c (Pipeline.arrRef spec8 1) (((cfg8.win 1).blk t).view.emb y) = V c (Pipeline.arrRef spec8 1) y
  congr 1
  funext a; apply Fin.ext
  match a with
  | ⟨0, _⟩ => show win8_1.index t (0 : Fin 2) * 1 + 1 * (y 0).val = (y 0).val; omega
  | ⟨1, _⟩ => show win8_1.index t (1 : Fin 2) * 32 + 1 * (y 1).val = (y 1).val; omega

theorem iblk_2 (c : Dev nD) (t : Fin cfg8.N) : iblk8 V c 2 t = V c (Pipeline.arrRef spec8 2) := by
  obtain ⟨-, -, -, -, e0, e1, -⟩ := idx_facts t
  unfold iblk8
  funext y
  show V c (Pipeline.arrRef spec8 2) (((cfg8.win 2).blk t).view.emb y) = V c (Pipeline.arrRef spec8 2) y
  congr 1
  funext a; apply Fin.ext
  match a with
  | ⟨0, _⟩ => show win8_2.index t (0 : Fin 2) * 1 + 1 * (y 0).val = (y 0).val; omega
  | ⟨1, _⟩ => show win8_2.index t (1 : Fin 2) * 32 + 1 * (y 1).val = (y 1).val; omega

theorem iblk_3 (c : Dev nD) (t : Fin cfg8.N) : iblk8 V c 3 t = V c (Pipeline.arrRef spec8 3) := by
  obtain ⟨-, -, -, -, -, -, e0, e1, -⟩ := idx_facts t
  unfold iblk8
  funext y
  show V c (Pipeline.arrRef spec8 3) (((cfg8.win 3).blk t).view.emb y) = V c (Pipeline.arrRef spec8 3) y
  congr 1
  funext a; apply Fin.ext
  match a with
  | ⟨0, _⟩ => show win8_3.index t (0 : Fin 2) * 1 + 1 * (y 0).val = (y 0).val; omega
  | ⟨1, _⟩ => show win8_3.index t (1 : Fin 2) * 32 + 1 * (y 1).val = (y 1).val; omega

theorem iblk_4 (c : Dev nD) (t : Fin cfg8.N) : iblk8 V c 4 t = V c (Pipeline.arrRef spec8 4) := by
  obtain ⟨-, -, -, -, -, -, -, -, e0, e1, -⟩ := idx_facts t
  unfold iblk8
  funext y
  show V c (Pipeline.arrRef spec8 4) (((cfg8.win 4).blk t).view.emb y) = V c (Pipeline.arrRef spec8 4) y
  congr 1
  funext a; apply Fin.ext
  match a with
  | ⟨0, _⟩ => show win8_4.index t (0 : Fin 2) * 1 + 1 * (y 0).val = (y 0).val; omega
  | ⟨1, _⟩ => show win8_4.index t (1 : Fin 2) * 32 + 1 * (y 1).val = (y 1).val; omega

theorem iblk_5 (c : Dev nD) (t : Fin cfg8.N) : iblk8 V c 5 t = V c (Pipeline.arrRef spec8 5) := by
  obtain ⟨-, -, -, -, -, -, -, -, -, -, e0, e1, -⟩ := idx_facts t
  unfold iblk8
  funext y
  show V c (Pipeline.arrRef spec8 5) (((cfg8.win 5).blk t).view.emb y) = V c (Pipeline.arrRef spec8 5) y
  congr 1
  funext a; apply Fin.ext
  match a with
  | ⟨0, _⟩ => show win8_5.index t (0 : Fin 2) * 1 + 1 * (y 0).val = (y 0).val; omega
  | ⟨1, _⟩ => show win8_5.index t (1 : Fin 2) * 32 + 1 * (y 1).val = (y 1).val; omega

/-- The body's arithmetic on a block, as one function of the block's index. -/
theorem pay_fun (x0 : Vec Ideal S10000x32 .f32) (x1 x2 x3 x4 x5 : Vec Ideal S1x32 .f32) :
    (k8_pay1 (F := Ideal) x0 x1 x3 x2 x4 x5 : S10000x32.Idx → EReal)
      = fun y => bnRelu (x0 y) (x1 (ix2 (0 : Fin 1) (y 1 : Fin 32))) (x2 (ix2 (0 : Fin 1) (y 1 : Fin 32))) (x3 (ix2 (0 : Fin 1) (y 1 : Fin 32)))
          (x4 (ix2 (0 : Fin 1) (y 1 : Fin 32))) (x5 (ix2 (0 : Fin 1) (y 1 : Fin 32))) := by
  funext y
  obtain ⟨p, q, rfl⟩ : ∃ (p : Fin 10000) (q : Fin 32), y = ix2 p q := ⟨y 0, y 1, eq_ix2 y⟩
  exact pay_apply x0 x1 x2 x3 x4 x5 p q

/-- The body's arithmetic at a block's element that sits at index `i` of the array: the whole-array function there. -/
theorem point (x0 : Vec Ideal S10000x32 .f32) (x1 x2 x3 x4 x5 : Vec Ideal S1x32 .f32) (H : S400000x32.Idx → EReal)
    (y : S10000x32.Idx) (i : S400000x32.Idx) (h0 : x0 y = H i) (h1 : (i 1).val = (y 1).val) :
    k8_pay1 (F := Ideal) x0 x1 x3 x2 x4 x5 y = bnReluArr H x1 x2 x3 x4 x5 i := by
  rw [pay_fun]
  have e : (ix2 (0 : Fin 1) (i 1 : Fin 32) : S1x32.Idx) = ix2 (0 : Fin 1) (y 1 : Fin 32) := by
    congr 1; exact Fin.ext h1
  show bnRelu (x0 y) _ _ _ _ _ = bnRelu (H i) _ _ _ _ _
  rw [e, h0]
  rfl

set_option maxHeartbeats 1000000 in
/-- What point `t` writes back is block `t` of the whole-array function of the arrays the region finds. -/
theorem flushed_eq (c : Dev nD) (t : Fin cfg8.N) :
    (dat8 V c).flushed 6 t = ((cfg8.win 6).blk t).view.read (Elt Ideal)
      (bnReluArr (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6, iblk_1, iblk_2, iblk_3, iblk_4, iblk_5]
  unfold out8_6
  rw [View.canon_unit_zero hz]
  simp only [View.ld_unit_zero (S := S10000x32) hz, View.ld_unit_zero (S := S1x32) hz]
  obtain ⟨e0, e1, -, -, -, -, -, -, -, -, -, -, e12, e13⟩ := idx_facts t
  funext j
  show k8_pay1 (F := Ideal) (iblk8 V c 0 t) (V c (Pipeline.arrRef spec8 1)) (V c (Pipeline.arrRef spec8 3)) (V c (Pipeline.arrRef spec8 2))
      (V c (Pipeline.arrRef spec8 4)) (V c (Pipeline.arrRef spec8 5)) ((cfg8.win 6).xinj (grid8.coords t) j)
    = bnReluArr (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (((cfg8.win 6).blk t).view.emb j)
  refine point _ _ _ _ _ _ _ _ _ ?_ ?_
  · show V c (Pipeline.arrRef spec8 0) (((cfg8.win 0).blk t).view.emb ((cfg8.win 6).xinj (grid8.coords t) j)) = V c (Pipeline.arrRef spec8 0) (((cfg8.win 6).blk t).view.emb j)
    rfl
  · show win8_6.index t (1 : Fin 2) * 32 + 1 * (j 1).val = (j 1).val; omega

theorem idx_facts6 : ∀ t : Fin cfg8.N, win8_6.index t (0 : Fin 2) = t.val ∧ win8_6.index t (1 : Fin 2) = 0 :=
  (by decide +kernel : ∀ t : Fin grid8.N, _)

/-- An index of the array lies in point `t`'s block iff each coordinate lies in the block's range on its axis. -/
theorem mem_blk (t : Fin cfg8.N) (i : S400000x32.Idx) :
    i ∈ ((cfg8.win 6).blk t).view.set ↔ ∀ a : Fin 2, win8_6.index t a * S10000x32.size a ≤ (i a).val ∧ (i a).val < win8_6.index t a * S10000x32.size a + S10000x32.size a := by
  show i ∈ ((View.whole main_v79).slice (win8_6.rect t)).set ↔ _
  rw [View.set_slice_whole, Rect.mem_set_unit]
  exact Iff.rfl

/-- Row `r` lies in the block of point `r / 10000`: the forty blocks of 10000 rows tile the 400000 rows. -/
theorem cover (i : S400000x32.Idx) : ∃ t : Fin cfg8.N, (cfg8.win 6).flush t = true ∧ i ∈ ((cfg8.win 6).blk t).view.set := by
  have hi0 : (i 0).val < 400000 := (i 0).isLt
  have hi1 : (i 1).val < 32 := (i 1).isLt
  have hN : grid8.N = 40 := N_8
  obtain ⟨t, ht⟩ : ∃ t : Fin cfg8.N, t.val = (i 0).val / 10000 := ⟨⟨(i 0).val / 10000, by show _ < grid8.N; rw [hN]; omega⟩, rfl⟩
  obtain ⟨e0, e1⟩ := idx_facts6 t
  refine ⟨t, flush8_6 t, ?_⟩
  rw [mem_blk]
  intro a
  match a with
  | ⟨0, _⟩ => show win8_6.index t (0 : Fin 2) * 10000 ≤ (i 0).val ∧ (i 0).val < win8_6.index t (0 : Fin 2) * 10000 + 10000; omega
  | ⟨1, _⟩ => show win8_6.index t (1 : Fin 2) * 32 ≤ (i 1).val ∧ (i 1).val < win8_6.index t (1 : Fin 2) * 32 + 32; omega

/-- THE ARRAY after the region: every entry normalised, scaled, shifted and rectified. -/
theorem arr (c : Dev nD) :
    (dat8 V c).arrAt 6 cfg8.N
      = bnReluArr (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) :=
  (dat8 V c).arrAt_eq_of_cover 6 _ (fun t _ => flushed_eq V c t) cover

/-- The same array, as the shared definition of the apply stage's result. -/
theorem arr_applyK (c : Dev nD) :
    (dat8 (F := Ideal) V c).arrAt 6 cfg8.N
      = Cert.KVal.applyK (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) :=
  arr V c

/-- The same at an entry with its coordinates named. -/
theorem arr_apply (c : Dev nD) (r : Fin 400000) (q : Fin 32) :
    ((dat8 V c).arrAt 6 cfg8.N : S400000x32.Idx → EReal) (ix2 r q)
      = bnRelu ((V c (Pipeline.arrRef spec8 0) : S400000x32.Idx → EReal) (ix2 r q)) ((V c (Pipeline.arrRef spec8 1) : S1x32.Idx → EReal) (ix2 0 q))
          ((V c (Pipeline.arrRef spec8 2) : S1x32.Idx → EReal) (ix2 0 q)) ((V c (Pipeline.arrRef spec8 3) : S1x32.Idx → EReal) (ix2 0 q))
          ((V c (Pipeline.arrRef spec8 4) : S1x32.Idx → EReal) (ix2 0 q)) ((V c (Pipeline.arrRef spec8 5) : S1x32.Idx → EReal) (ix2 0 q)) := by
  rw [arr]; rfl

end Cert.KernelIdeal.ApplyValue8

end
-- ==== Proof.KerChain3.lean ====
/-
  Stage 3 of the idealized kernel read off the frame's boundary contents: from the previous stage's result array through the host
  gather, the matmul region (its result array the batched contraction of the gathered rows with the weights), the
  flattening and the accumulating scatter, the statistics region (the column sums of the biased rows and of their
  squares), the host mean and clamped one-pass variance, and the apply region: the stage's result array is the
  kernel's batch normalisation of the stage's convolution. Every buffer a later segment reads is carried across the
  boundaries in between, where no host operation and no region writes it.
-/
import proofs.«172556_j661424964110_2_alg».proof.Proof.Gen.KernelIdeal.Frame
import proofs.«172556_j661424964110_2_alg».proof.Proof.KDefs
import proofs.«172556_j661424964110_2_alg».proof.Proof.KConv
import proofs.«172556_j661424964110_2_alg».proof.Proof.MatmulBridge6
import proofs.«172556_j661424964110_2_alg».proof.Proof.StatsValue7
import proofs.«172556_j661424964110_2_alg».proof.Proof.ApplyValue8
import Idealize.ShloMosaic.Lib.StableHlo.Run

set_option maxRecDepth 16384

noncomputable section

namespace Cert.KernelIdeal.KerChain3

open Idealize.ShloMosaic Idealize.ShloMosaic.TcCoe Idealize.SL.Sem
open Idealize.ShloMosaic.StableHlo
open Cert.KernelIdeal Cert.KernelIdeal.Gen Cert.KVal

variable (m : (ℓ : Loc nD τ sig) → Buf (Elt Ideal) ℓ) (ρ : Dev nD → PrngReg)

local macro "host_skip" : tactic =>
  `(tactic| (refine StableHlo.after_of_forall_not_mem _ _ (List.forall_iff_forall_mem.mp ?_)
             simp only [hostOps0, hostOps1, hostOps2, hostOps3, hostOps4, hostOps5, hostOps6, hostOps7, hostOps8,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

theorem arg16_0 (c : Dev nD) : W0 m ρ c (Proc.devRef .tc main_arg16) = (m ((c : Thread nD τ).loc main_arg16)) := rfl
theorem arg16_1 (c : Dev nD) : W1 m ρ c (Proc.devRef .tc main_arg16) = (m ((c : Thread nD τ).loc main_arg16)) :=
  (by host_skip : W1 m ρ c (Proc.devRef .tc main_arg16) = W0 m ρ c (Proc.devRef .tc main_arg16)).trans (arg16_0 m ρ c)
theorem arg16_2 (c : Dev nD) : W2 m ρ c (Proc.devRef .tc main_arg16) = (m ((c : Thread nD τ).loc main_arg16)) :=
  (W2_of_ne m ρ c main_arg16 (by decide) : W2 m ρ c (Proc.devRef .tc main_arg16) = W1 m ρ c (Proc.devRef .tc main_arg16)).trans (arg16_1 m ρ c)
theorem arg16_3 (c : Dev nD) : W3 m ρ c (Proc.devRef .tc main_arg16) = (m ((c : Thread nD τ).loc main_arg16)) :=
  (by host_skip : W3 m ρ c (Proc.devRef .tc main_arg16) = W2 m ρ c (Proc.devRef .tc main_arg16)).trans (arg16_2 m ρ c)
theorem arg16_4 (c : Dev nD) : W4 m ρ c (Proc.devRef .tc main_arg16) = (m ((c : Thread nD τ).loc main_arg16)) :=
  (W4_of_ne m ρ c main_arg16 (by decide) : W4 m ρ c (Proc.devRef .tc main_arg16) = W3 m ρ c (Proc.devRef .tc main_arg16)).trans (arg16_3 m ρ c)
theorem arg16_5 (c : Dev nD) : W5 m ρ c (Proc.devRef .tc main_arg16) = (m ((c : Thread nD τ).loc main_arg16)) :=
  (by host_skip : W5 m ρ c (Proc.devRef .tc main_arg16) = W4 m ρ c (Proc.devRef .tc main_arg16)).trans (arg16_4 m ρ c)
theorem arg16_6 (c : Dev nD) : W6 m ρ c (Proc.devRef .tc main_arg16) = (m ((c : Thread nD τ).loc main_arg16)) :=
  (W6_of_ne m ρ c main_arg16 (by decide) : W6 m ρ c (Proc.devRef .tc main_arg16) = W5 m ρ c (Proc.devRef .tc main_arg16)).trans (arg16_5 m ρ c)
theorem arg16_7 (c : Dev nD) : W7 m ρ c (Proc.devRef .tc main_arg16) = (m ((c : Thread nD τ).loc main_arg16)) :=
  (by host_skip : W7 m ρ c (Proc.devRef .tc main_arg16) = W6 m ρ c (Proc.devRef .tc main_arg16)).trans (arg16_6 m ρ c)
theorem arg16_8 (c : Dev nD) : W8 m ρ c (Proc.devRef .tc main_arg16) = (m ((c : Thread nD τ).loc main_arg16)) :=
  (W8_of_ne m ρ c main_arg16 (by decide) : W8 m ρ c (Proc.devRef .tc main_arg16) = W7 m ρ c (Proc.devRef .tc main_arg16)).trans (arg16_7 m ρ c)
theorem arg16_9 (c : Dev nD) : W9 m ρ c (Proc.devRef .tc main_arg16) = (m ((c : Thread nD τ).loc main_arg16)) :=
  (by host_skip : W9 m ρ c (Proc.devRef .tc main_arg16) = W8 m ρ c (Proc.devRef .tc main_arg16)).trans (arg16_8 m ρ c)
theorem arg16_10 (c : Dev nD) : W10 m ρ c (Proc.devRef .tc main_arg16) = (m ((c : Thread nD τ).loc main_arg16)) :=
  (W10_of_ne m ρ c main_arg16 (by decide) : W10 m ρ c (Proc.devRef .tc main_arg16) = W9 m ρ c (Proc.devRef .tc main_arg16)).trans (arg16_9 m ρ c)
theorem arg16_11 (c : Dev nD) : W11 m ρ c (Proc.devRef .tc main_arg16) = (m ((c : Thread nD τ).loc main_arg16)) :=
  (by host_skip : W11 m ρ c (Proc.devRef .tc main_arg16) = W10 m ρ c (Proc.devRef .tc main_arg16)).trans (arg16_10 m ρ c)
theorem arg16_12 (c : Dev nD) : W12 m ρ c (Proc.devRef .tc main_arg16) = (m ((c : Thread nD τ).loc main_arg16)) :=
  (W12_of_ne m ρ c main_arg16 (by decide) : W12 m ρ c (Proc.devRef .tc main_arg16) = W11 m ρ c (Proc.devRef .tc main_arg16)).trans (arg16_11 m ρ c)
theorem arg9_0 (c : Dev nD) : W0 m ρ c (Proc.devRef .tc main_arg9) = (m ((c : Thread nD τ).loc main_arg9)) := rfl
theorem arg9_1 (c : Dev nD) : W1 m ρ c (Proc.devRef .tc main_arg9) = (m ((c : Thread nD τ).loc main_arg9)) :=
  (by host_skip : W1 m ρ c (Proc.devRef .tc main_arg9) = W0 m ρ c (Proc.devRef .tc main_arg9)).trans (arg9_0 m ρ c)
theorem arg9_2 (c : Dev nD) : W2 m ρ c (Proc.devRef .tc main_arg9) = (m ((c : Thread nD τ).loc main_arg9)) :=
  (W2_of_ne m ρ c main_arg9 (by decide) : W2 m ρ c (Proc.devRef .tc main_arg9) = W1 m ρ c (Proc.devRef .tc main_arg9)).trans (arg9_1 m ρ c)
theorem arg9_3 (c : Dev nD) : W3 m ρ c (Proc.devRef .tc main_arg9) = (m ((c : Thread nD τ).loc main_arg9)) :=
  (by host_skip : W3 m ρ c (Proc.devRef .tc main_arg9) = W2 m ρ c (Proc.devRef .tc main_arg9)).trans (arg9_2 m ρ c)
theorem arg9_4 (c : Dev nD) : W4 m ρ c (Proc.devRef .tc main_arg9) = (m ((c : Thread nD τ).loc main_arg9)) :=
  (W4_of_ne m ρ c main_arg9 (by decide) : W4 m ρ c (Proc.devRef .tc main_arg9) = W3 m ρ c (Proc.devRef .tc main_arg9)).trans (arg9_3 m ρ c)
theorem arg9_5 (c : Dev nD) : W5 m ρ c (Proc.devRef .tc main_arg9) = (m ((c : Thread nD τ).loc main_arg9)) :=
  (by host_skip : W5 m ρ c (Proc.devRef .tc main_arg9) = W4 m ρ c (Proc.devRef .tc main_arg9)).trans (arg9_4 m ρ c)
theorem arg9_6 (c : Dev nD) : W6 m ρ c (Proc.devRef .tc main_arg9) = (m ((c : Thread nD τ).loc main_arg9)) :=
  (W6_of_ne m ρ c main_arg9 (by decide) : W6 m ρ c (Proc.devRef .tc main_arg9) = W5 m ρ c (Proc.devRef .tc main_arg9)).trans (arg9_5 m ρ c)
theorem arg9_7 (c : Dev nD) : W7 m ρ c (Proc.devRef .tc main_arg9) = (m ((c : Thread nD τ).loc main_arg9)) :=
  (by host_skip : W7 m ρ c (Proc.devRef .tc main_arg9) = W6 m ρ c (Proc.devRef .tc main_arg9)).trans (arg9_6 m ρ c)
theorem arg9_8 (c : Dev nD) : W8 m ρ c (Proc.devRef .tc main_arg9) = (m ((c : Thread nD τ).loc main_arg9)) :=
  (W8_of_ne m ρ c main_arg9 (by decide) : W8 m ρ c (Proc.devRef .tc main_arg9) = W7 m ρ c (Proc.devRef .tc main_arg9)).trans (arg9_7 m ρ c)
theorem arg9_9 (c : Dev nD) : W9 m ρ c (Proc.devRef .tc main_arg9) = (m ((c : Thread nD τ).loc main_arg9)) :=
  (by host_skip : W9 m ρ c (Proc.devRef .tc main_arg9) = W8 m ρ c (Proc.devRef .tc main_arg9)).trans (arg9_8 m ρ c)
theorem arg9_10 (c : Dev nD) : W10 m ρ c (Proc.devRef .tc main_arg9) = (m ((c : Thread nD τ).loc main_arg9)) :=
  (W10_of_ne m ρ c main_arg9 (by decide) : W10 m ρ c (Proc.devRef .tc main_arg9) = W9 m ρ c (Proc.devRef .tc main_arg9)).trans (arg9_9 m ρ c)
theorem arg9_11 (c : Dev nD) : W11 m ρ c (Proc.devRef .tc main_arg9) = (m ((c : Thread nD τ).loc main_arg9)) :=
  (by host_skip : W11 m ρ c (Proc.devRef .tc main_arg9) = W10 m ρ c (Proc.devRef .tc main_arg9)).trans (arg9_10 m ρ c)
theorem arg9_12 (c : Dev nD) : W12 m ρ c (Proc.devRef .tc main_arg9) = (m ((c : Thread nD τ).loc main_arg9)) :=
  (W12_of_ne m ρ c main_arg9 (by decide) : W12 m ρ c (Proc.devRef .tc main_arg9) = W11 m ρ c (Proc.devRef .tc main_arg9)).trans (arg9_11 m ρ c)
theorem arg9_13 (c : Dev nD) : W13 m ρ c (Proc.devRef .tc main_arg9) = (m ((c : Thread nD τ).loc main_arg9)) :=
  (by host_skip : W13 m ρ c (Proc.devRef .tc main_arg9) = W12 m ρ c (Proc.devRef .tc main_arg9)).trans (arg9_12 m ρ c)
theorem arg17_0 (c : Dev nD) : W0 m ρ c (Proc.devRef .tc main_arg17) = (m ((c : Thread nD τ).loc main_arg17)) := rfl
theorem arg17_1 (c : Dev nD) : W1 m ρ c (Proc.devRef .tc main_arg17) = (m ((c : Thread nD τ).loc main_arg17)) :=
  (by host_skip : W1 m ρ c (Proc.devRef .tc main_arg17) = W0 m ρ c (Proc.devRef .tc main_arg17)).trans (arg17_0 m ρ c)
theorem arg17_2 (c : Dev nD) : W2 m ρ c (Proc.devRef .tc main_arg17) = (m ((c : Thread nD τ).loc main_arg17)) :=
  (W2_of_ne m ρ c main_arg17 (by decide) : W2 m ρ c (Proc.devRef .tc main_arg17) = W1 m ρ c (Proc.devRef .tc main_arg17)).trans (arg17_1 m ρ c)
theorem arg17_3 (c : Dev nD) : W3 m ρ c (Proc.devRef .tc main_arg17) = (m ((c : Thread nD τ).loc main_arg17)) :=
  (by host_skip : W3 m ρ c (Proc.devRef .tc main_arg17) = W2 m ρ c (Proc.devRef .tc main_arg17)).trans (arg17_2 m ρ c)
theorem arg17_4 (c : Dev nD) : W4 m ρ c (Proc.devRef .tc main_arg17) = (m ((c : Thread nD τ).loc main_arg17)) :=
  (W4_of_ne m ρ c main_arg17 (by decide) : W4 m ρ c (Proc.devRef .tc main_arg17) = W3 m ρ c (Proc.devRef .tc main_arg17)).trans (arg17_3 m ρ c)
theorem arg17_5 (c : Dev nD) : W5 m ρ c (Proc.devRef .tc main_arg17) = (m ((c : Thread nD τ).loc main_arg17)) :=
  (by host_skip : W5 m ρ c (Proc.devRef .tc main_arg17) = W4 m ρ c (Proc.devRef .tc main_arg17)).trans (arg17_4 m ρ c)
theorem arg17_6 (c : Dev nD) : W6 m ρ c (Proc.devRef .tc main_arg17) = (m ((c : Thread nD τ).loc main_arg17)) :=
  (W6_of_ne m ρ c main_arg17 (by decide) : W6 m ρ c (Proc.devRef .tc main_arg17) = W5 m ρ c (Proc.devRef .tc main_arg17)).trans (arg17_5 m ρ c)
theorem arg17_7 (c : Dev nD) : W7 m ρ c (Proc.devRef .tc main_arg17) = (m ((c : Thread nD τ).loc main_arg17)) :=
  (by host_skip : W7 m ρ c (Proc.devRef .tc main_arg17) = W6 m ρ c (Proc.devRef .tc main_arg17)).trans (arg17_6 m ρ c)
theorem arg17_8 (c : Dev nD) : W8 m ρ c (Proc.devRef .tc main_arg17) = (m ((c : Thread nD τ).loc main_arg17)) :=
  (W8_of_ne m ρ c main_arg17 (by decide) : W8 m ρ c (Proc.devRef .tc main_arg17) = W7 m ρ c (Proc.devRef .tc main_arg17)).trans (arg17_7 m ρ c)
theorem arg17_9 (c : Dev nD) : W9 m ρ c (Proc.devRef .tc main_arg17) = (m ((c : Thread nD τ).loc main_arg17)) :=
  (by host_skip : W9 m ρ c (Proc.devRef .tc main_arg17) = W8 m ρ c (Proc.devRef .tc main_arg17)).trans (arg17_8 m ρ c)
theorem arg17_10 (c : Dev nD) : W10 m ρ c (Proc.devRef .tc main_arg17) = (m ((c : Thread nD τ).loc main_arg17)) :=
  (W10_of_ne m ρ c main_arg17 (by decide) : W10 m ρ c (Proc.devRef .tc main_arg17) = W9 m ρ c (Proc.devRef .tc main_arg17)).trans (arg17_9 m ρ c)
theorem arg17_11 (c : Dev nD) : W11 m ρ c (Proc.devRef .tc main_arg17) = (m ((c : Thread nD τ).loc main_arg17)) :=
  (by host_skip : W11 m ρ c (Proc.devRef .tc main_arg17) = W10 m ρ c (Proc.devRef .tc main_arg17)).trans (arg17_10 m ρ c)
theorem arg17_12 (c : Dev nD) : W12 m ρ c (Proc.devRef .tc main_arg17) = (m ((c : Thread nD τ).loc main_arg17)) :=
  (W12_of_ne m ρ c main_arg17 (by decide) : W12 m ρ c (Proc.devRef .tc main_arg17) = W11 m ρ c (Proc.devRef .tc main_arg17)).trans (arg17_11 m ρ c)
theorem arg17_13 (c : Dev nD) : W13 m ρ c (Proc.devRef .tc main_arg17) = (m ((c : Thread nD τ).loc main_arg17)) :=
  (by host_skip : W13 m ρ c (Proc.devRef .tc main_arg17) = W12 m ρ c (Proc.devRef .tc main_arg17)).trans (arg17_12 m ρ c)
theorem arg17_14 (c : Dev nD) : W14 m ρ c (Proc.devRef .tc main_arg17) = (m ((c : Thread nD τ).loc main_arg17)) :=
  (W14_of_ne m ρ c main_arg17 (by decide) : W14 m ρ c (Proc.devRef .tc main_arg17) = W13 m ρ c (Proc.devRef .tc main_arg17)).trans (arg17_13 m ρ c)
theorem arg10_0 (c : Dev nD) : W0 m ρ c (Proc.devRef .tc main_arg10) = (m ((c : Thread nD τ).loc main_arg10)) := rfl
theorem arg10_1 (c : Dev nD) : W1 m ρ c (Proc.devRef .tc main_arg10) = (m ((c : Thread nD τ).loc main_arg10)) :=
  (by host_skip : W1 m ρ c (Proc.devRef .tc main_arg10) = W0 m ρ c (Proc.devRef .tc main_arg10)).trans (arg10_0 m ρ c)
theorem arg10_2 (c : Dev nD) : W2 m ρ c (Proc.devRef .tc main_arg10) = (m ((c : Thread nD τ).loc main_arg10)) :=
  (W2_of_ne m ρ c main_arg10 (by decide) : W2 m ρ c (Proc.devRef .tc main_arg10) = W1 m ρ c (Proc.devRef .tc main_arg10)).trans (arg10_1 m ρ c)
theorem arg10_3 (c : Dev nD) : W3 m ρ c (Proc.devRef .tc main_arg10) = (m ((c : Thread nD τ).loc main_arg10)) :=
  (by host_skip : W3 m ρ c (Proc.devRef .tc main_arg10) = W2 m ρ c (Proc.devRef .tc main_arg10)).trans (arg10_2 m ρ c)
theorem arg10_4 (c : Dev nD) : W4 m ρ c (Proc.devRef .tc main_arg10) = (m ((c : Thread nD τ).loc main_arg10)) :=
  (W4_of_ne m ρ c main_arg10 (by decide) : W4 m ρ c (Proc.devRef .tc main_arg10) = W3 m ρ c (Proc.devRef .tc main_arg10)).trans (arg10_3 m ρ c)
theorem arg10_5 (c : Dev nD) : W5 m ρ c (Proc.devRef .tc main_arg10) = (m ((c : Thread nD τ).loc main_arg10)) :=
  (by host_skip : W5 m ρ c (Proc.devRef .tc main_arg10) = W4 m ρ c (Proc.devRef .tc main_arg10)).trans (arg10_4 m ρ c)
theorem arg10_6 (c : Dev nD) : W6 m ρ c (Proc.devRef .tc main_arg10) = (m ((c : Thread nD τ).loc main_arg10)) :=
  (W6_of_ne m ρ c main_arg10 (by decide) : W6 m ρ c (Proc.devRef .tc main_arg10) = W5 m ρ c (Proc.devRef .tc main_arg10)).trans (arg10_5 m ρ c)
theorem arg10_7 (c : Dev nD) : W7 m ρ c (Proc.devRef .tc main_arg10) = (m ((c : Thread nD τ).loc main_arg10)) :=
  (by host_skip : W7 m ρ c (Proc.devRef .tc main_arg10) = W6 m ρ c (Proc.devRef .tc main_arg10)).trans (arg10_6 m ρ c)
theorem arg10_8 (c : Dev nD) : W8 m ρ c (Proc.devRef .tc main_arg10) = (m ((c : Thread nD τ).loc main_arg10)) :=
  (W8_of_ne m ρ c main_arg10 (by decide) : W8 m ρ c (Proc.devRef .tc main_arg10) = W7 m ρ c (Proc.devRef .tc main_arg10)).trans (arg10_7 m ρ c)
theorem arg10_9 (c : Dev nD) : W9 m ρ c (Proc.devRef .tc main_arg10) = (m ((c : Thread nD τ).loc main_arg10)) :=
  (by host_skip : W9 m ρ c (Proc.devRef .tc main_arg10) = W8 m ρ c (Proc.devRef .tc main_arg10)).trans (arg10_8 m ρ c)
theorem arg10_10 (c : Dev nD) : W10 m ρ c (Proc.devRef .tc main_arg10) = (m ((c : Thread nD τ).loc main_arg10)) :=
  (W10_of_ne m ρ c main_arg10 (by decide) : W10 m ρ c (Proc.devRef .tc main_arg10) = W9 m ρ c (Proc.devRef .tc main_arg10)).trans (arg10_9 m ρ c)
theorem arg10_11 (c : Dev nD) : W11 m ρ c (Proc.devRef .tc main_arg10) = (m ((c : Thread nD τ).loc main_arg10)) :=
  (by host_skip : W11 m ρ c (Proc.devRef .tc main_arg10) = W10 m ρ c (Proc.devRef .tc main_arg10)).trans (arg10_10 m ρ c)
theorem arg10_12 (c : Dev nD) : W12 m ρ c (Proc.devRef .tc main_arg10) = (m ((c : Thread nD τ).loc main_arg10)) :=
  (W12_of_ne m ρ c main_arg10 (by decide) : W12 m ρ c (Proc.devRef .tc main_arg10) = W11 m ρ c (Proc.devRef .tc main_arg10)).trans (arg10_11 m ρ c)
theorem arg10_13 (c : Dev nD) : W13 m ρ c (Proc.devRef .tc main_arg10) = (m ((c : Thread nD τ).loc main_arg10)) :=
  (by host_skip : W13 m ρ c (Proc.devRef .tc main_arg10) = W12 m ρ c (Proc.devRef .tc main_arg10)).trans (arg10_12 m ρ c)
theorem arg10_14 (c : Dev nD) : W14 m ρ c (Proc.devRef .tc main_arg10) = (m ((c : Thread nD τ).loc main_arg10)) :=
  (W14_of_ne m ρ c main_arg10 (by decide) : W14 m ρ c (Proc.devRef .tc main_arg10) = W13 m ρ c (Proc.devRef .tc main_arg10)).trans (arg10_13 m ρ c)
theorem arg11_0 (c : Dev nD) : W0 m ρ c (Proc.devRef .tc main_arg11) = (m ((c : Thread nD τ).loc main_arg11)) := rfl
theorem arg11_1 (c : Dev nD) : W1 m ρ c (Proc.devRef .tc main_arg11) = (m ((c : Thread nD τ).loc main_arg11)) :=
  (by host_skip : W1 m ρ c (Proc.devRef .tc main_arg11) = W0 m ρ c (Proc.devRef .tc main_arg11)).trans (arg11_0 m ρ c)
theorem arg11_2 (c : Dev nD) : W2 m ρ c (Proc.devRef .tc main_arg11) = (m ((c : Thread nD τ).loc main_arg11)) :=
  (W2_of_ne m ρ c main_arg11 (by decide) : W2 m ρ c (Proc.devRef .tc main_arg11) = W1 m ρ c (Proc.devRef .tc main_arg11)).trans (arg11_1 m ρ c)
theorem arg11_3 (c : Dev nD) : W3 m ρ c (Proc.devRef .tc main_arg11) = (m ((c : Thread nD τ).loc main_arg11)) :=
  (by host_skip : W3 m ρ c (Proc.devRef .tc main_arg11) = W2 m ρ c (Proc.devRef .tc main_arg11)).trans (arg11_2 m ρ c)
theorem arg11_4 (c : Dev nD) : W4 m ρ c (Proc.devRef .tc main_arg11) = (m ((c : Thread nD τ).loc main_arg11)) :=
  (W4_of_ne m ρ c main_arg11 (by decide) : W4 m ρ c (Proc.devRef .tc main_arg11) = W3 m ρ c (Proc.devRef .tc main_arg11)).trans (arg11_3 m ρ c)
theorem arg11_5 (c : Dev nD) : W5 m ρ c (Proc.devRef .tc main_arg11) = (m ((c : Thread nD τ).loc main_arg11)) :=
  (by host_skip : W5 m ρ c (Proc.devRef .tc main_arg11) = W4 m ρ c (Proc.devRef .tc main_arg11)).trans (arg11_4 m ρ c)
theorem arg11_6 (c : Dev nD) : W6 m ρ c (Proc.devRef .tc main_arg11) = (m ((c : Thread nD τ).loc main_arg11)) :=
  (W6_of_ne m ρ c main_arg11 (by decide) : W6 m ρ c (Proc.devRef .tc main_arg11) = W5 m ρ c (Proc.devRef .tc main_arg11)).trans (arg11_5 m ρ c)
theorem arg11_7 (c : Dev nD) : W7 m ρ c (Proc.devRef .tc main_arg11) = (m ((c : Thread nD τ).loc main_arg11)) :=
  (by host_skip : W7 m ρ c (Proc.devRef .tc main_arg11) = W6 m ρ c (Proc.devRef .tc main_arg11)).trans (arg11_6 m ρ c)
theorem arg11_8 (c : Dev nD) : W8 m ρ c (Proc.devRef .tc main_arg11) = (m ((c : Thread nD τ).loc main_arg11)) :=
  (W8_of_ne m ρ c main_arg11 (by decide) : W8 m ρ c (Proc.devRef .tc main_arg11) = W7 m ρ c (Proc.devRef .tc main_arg11)).trans (arg11_7 m ρ c)
theorem arg11_9 (c : Dev nD) : W9 m ρ c (Proc.devRef .tc main_arg11) = (m ((c : Thread nD τ).loc main_arg11)) :=
  (by host_skip : W9 m ρ c (Proc.devRef .tc main_arg11) = W8 m ρ c (Proc.devRef .tc main_arg11)).trans (arg11_8 m ρ c)
theorem arg11_10 (c : Dev nD) : W10 m ρ c (Proc.devRef .tc main_arg11) = (m ((c : Thread nD τ).loc main_arg11)) :=
  (W10_of_ne m ρ c main_arg11 (by decide) : W10 m ρ c (Proc.devRef .tc main_arg11) = W9 m ρ c (Proc.devRef .tc main_arg11)).trans (arg11_9 m ρ c)
theorem arg11_11 (c : Dev nD) : W11 m ρ c (Proc.devRef .tc main_arg11) = (m ((c : Thread nD τ).loc main_arg11)) :=
  (by host_skip : W11 m ρ c (Proc.devRef .tc main_arg11) = W10 m ρ c (Proc.devRef .tc main_arg11)).trans (arg11_10 m ρ c)
theorem arg11_12 (c : Dev nD) : W12 m ρ c (Proc.devRef .tc main_arg11) = (m ((c : Thread nD τ).loc main_arg11)) :=
  (W12_of_ne m ρ c main_arg11 (by decide) : W12 m ρ c (Proc.devRef .tc main_arg11) = W11 m ρ c (Proc.devRef .tc main_arg11)).trans (arg11_11 m ρ c)
theorem arg11_13 (c : Dev nD) : W13 m ρ c (Proc.devRef .tc main_arg11) = (m ((c : Thread nD τ).loc main_arg11)) :=
  (by host_skip : W13 m ρ c (Proc.devRef .tc main_arg11) = W12 m ρ c (Proc.devRef .tc main_arg11)).trans (arg11_12 m ρ c)
theorem arg11_14 (c : Dev nD) : W14 m ρ c (Proc.devRef .tc main_arg11) = (m ((c : Thread nD τ).loc main_arg11)) :=
  (W14_of_ne m ρ c main_arg11 (by decide) : W14 m ρ c (Proc.devRef .tc main_arg11) = W13 m ρ c (Proc.devRef .tc main_arg11)).trans (arg11_13 m ρ c)
theorem v0_1 (c : Dev nD) : W1 m ρ c (Proc.devRef .tc main_v0) = zero32 := by
  show StableHlo.after hostOps0 (W0 m ρ c) (Proc.devRef .tc main_v0) = _
  dsimp only [hostOps0]
  after_results
  rfl
theorem v0_2 (c : Dev nD) : W2 m ρ c (Proc.devRef .tc main_v0) = zero32 :=
  (W2_of_ne m ρ c main_v0 (by decide) : W2 m ρ c (Proc.devRef .tc main_v0) = W1 m ρ c (Proc.devRef .tc main_v0)).trans (v0_1 m ρ c)
theorem v0_3 (c : Dev nD) : W3 m ρ c (Proc.devRef .tc main_v0) = zero32 :=
  (by host_skip : W3 m ρ c (Proc.devRef .tc main_v0) = W2 m ρ c (Proc.devRef .tc main_v0)).trans (v0_2 m ρ c)
theorem v0_4 (c : Dev nD) : W4 m ρ c (Proc.devRef .tc main_v0) = zero32 :=
  (W4_of_ne m ρ c main_v0 (by decide) : W4 m ρ c (Proc.devRef .tc main_v0) = W3 m ρ c (Proc.devRef .tc main_v0)).trans (v0_3 m ρ c)
theorem v0_5 (c : Dev nD) : W5 m ρ c (Proc.devRef .tc main_v0) = zero32 :=
  (by host_skip : W5 m ρ c (Proc.devRef .tc main_v0) = W4 m ρ c (Proc.devRef .tc main_v0)).trans (v0_4 m ρ c)
theorem v0_6 (c : Dev nD) : W6 m ρ c (Proc.devRef .tc main_v0) = zero32 :=
  (W6_of_ne m ρ c main_v0 (by decide) : W6 m ρ c (Proc.devRef .tc main_v0) = W5 m ρ c (Proc.devRef .tc main_v0)).trans (v0_5 m ρ c)
theorem v0_7 (c : Dev nD) : W7 m ρ c (Proc.devRef .tc main_v0) = zero32 :=
  (by host_skip : W7 m ρ c (Proc.devRef .tc main_v0) = W6 m ρ c (Proc.devRef .tc main_v0)).trans (v0_6 m ρ c)
theorem v0_8 (c : Dev nD) : W8 m ρ c (Proc.devRef .tc main_v0) = zero32 :=
  (W8_of_ne m ρ c main_v0 (by decide) : W8 m ρ c (Proc.devRef .tc main_v0) = W7 m ρ c (Proc.devRef .tc main_v0)).trans (v0_7 m ρ c)
theorem v0_9 (c : Dev nD) : W9 m ρ c (Proc.devRef .tc main_v0) = zero32 :=
  (by host_skip : W9 m ρ c (Proc.devRef .tc main_v0) = W8 m ρ c (Proc.devRef .tc main_v0)).trans (v0_8 m ρ c)
theorem v0_10 (c : Dev nD) : W10 m ρ c (Proc.devRef .tc main_v0) = zero32 :=
  (W10_of_ne m ρ c main_v0 (by decide) : W10 m ρ c (Proc.devRef .tc main_v0) = W9 m ρ c (Proc.devRef .tc main_v0)).trans (v0_9 m ρ c)
theorem v0_11 (c : Dev nD) : W11 m ρ c (Proc.devRef .tc main_v0) = zero32 :=
  (by host_skip : W11 m ρ c (Proc.devRef .tc main_v0) = W10 m ρ c (Proc.devRef .tc main_v0)).trans (v0_10 m ρ c)
theorem v0_12 (c : Dev nD) : W12 m ρ c (Proc.devRef .tc main_v0) = zero32 :=
  (W12_of_ne m ρ c main_v0 (by decide) : W12 m ρ c (Proc.devRef .tc main_v0) = W11 m ρ c (Proc.devRef .tc main_v0)).trans (v0_11 m ρ c)
theorem v0_13 (c : Dev nD) : W13 m ρ c (Proc.devRef .tc main_v0) = zero32 :=
  (by host_skip : W13 m ρ c (Proc.devRef .tc main_v0) = W12 m ρ c (Proc.devRef .tc main_v0)).trans (v0_12 m ρ c)
theorem v0_14 (c : Dev nD) : W14 m ρ c (Proc.devRef .tc main_v0) = zero32 :=
  (W14_of_ne m ρ c main_v0 (by decide) : W14 m ρ c (Proc.devRef .tc main_v0) = W13 m ρ c (Proc.devRef .tc main_v0)).trans (v0_13 m ρ c)
theorem v60_13 (c : Dev nD) : W13 m ρ c (Proc.devRef .tc main_v60) = (Host.gather gather_S400000x32_S27x120000x1_S27x120000x32_2_0_n_n_0_2_132 (W12 m ρ c (Proc.devRef .tc main_v53)) (broadcastInDim S27x120000x1 ![0, 1] bcast_S27x120000_S27x120000x1_0_1 (knormIdx2 (m ((c : Thread nD τ).loc main_arg16))))) := by
  show StableHlo.after hostOps6 (W12 m ρ c) (Proc.devRef .tc main_v60) = _
  dsimp only [hostOps6]
  after_results
  rw [arg16_12 m ρ c]
  rfl
theorem v61_14 (c : Dev nD) : W14 m ρ c (Proc.devRef .tc main_v61) = (Host.dotGeneral (F := Ideal) (φ₁ := .f32) (φ₂ := .f32) Cert.ReferenceIdeal.dot_S27x120000x32_S27x32x32_S27x120000x32_2_1_1_2_0_0 none (Host.gather gather_S400000x32_S27x120000x1_S27x120000x32_2_0_n_n_0_2_132 (W12 m ρ c (Proc.devRef .tc main_v53)) (broadcastInDim S27x120000x1 ![0, 1] bcast_S27x120000_S27x120000x1_0_1 (knormIdx2 (m ((c : Thread nD τ).loc main_arg16))))) (m ((c : Thread nD τ).loc main_arg9))) := by
  refine (W14_arr m ρ c 2).trans ((MatmulBridge6.arr_dot (V13 m ρ) c).trans ?_)
  show Host.dotGeneral (F := Ideal) (φ₁ := .f32) (φ₂ := .f32) Cert.ReferenceIdeal.dot_S27x120000x32_S27x32x32_S27x120000x32_2_1_1_2_0_0 none (W13 m ρ c (Proc.devRef .tc main_v60)) (W13 m ρ c (Proc.devRef .tc main_arg9)) = _
  rw [v60_13 m ρ c, arg9_13 m ρ c]
theorem v66_15 (c : Dev nD) : W15 m ρ c (Proc.devRef .tc main_v66) = (kconv3 (W12 m ρ c (Proc.devRef .tc main_v53)) (m ((c : Thread nD τ).loc main_arg9)) (m ((c : Thread nD τ).loc main_arg16)) (m ((c : Thread nD τ).loc main_arg17))) := by
  show StableHlo.after hostOps7 (W14 m ρ c) (Proc.devRef .tc main_v66) = _
  dsimp only [hostOps7]
  after_results
  rw [v61_14 m ρ c, arg17_14 m ρ c]
  rfl
theorem v67_15 (c : Dev nD) : W15 m ρ c (Proc.devRef .tc main_v67) = (row zero32) := by
  show StableHlo.after hostOps7 (W14 m ρ c) (Proc.devRef .tc main_v67) = _
  dsimp only [hostOps7]
  after_results
  rw [v0_14 m ρ c]
  rfl
theorem v68_15 (c : Dev nD) : W15 m ρ c (Proc.devRef .tc main_v68) = (row (m ((c : Thread nD τ).loc main_arg10))) := by
  show StableHlo.after hostOps7 (W14 m ρ c) (Proc.devRef .tc main_v68) = _
  dsimp only [hostOps7]
  after_results
  rw [arg10_14 m ρ c]
  rfl
theorem v69_15 (c : Dev nD) : W15 m ρ c (Proc.devRef .tc main_v69) = (row (m ((c : Thread nD τ).loc main_arg11))) := by
  show StableHlo.after hostOps7 (W14 m ρ c) (Proc.devRef .tc main_v69) = _
  dsimp only [hostOps7]
  after_results
  rw [arg11_14 m ρ c]
  rfl
theorem v66_16 (c : Dev nD) : W16 m ρ c (Proc.devRef .tc main_v66) = (kconv3 (W12 m ρ c (Proc.devRef .tc main_v53)) (m ((c : Thread nD τ).loc main_arg9)) (m ((c : Thread nD τ).loc main_arg16)) (m ((c : Thread nD τ).loc main_arg17))) :=
  (((W16_arr m ρ c 0).trans (((dat7 (V15 m ρ) c).arrAt_in 0 rfl _).trans (A_eq7 (V15 m ρ) c 0))) : W16 m ρ c (Proc.devRef .tc main_v66) = W15 m ρ c (Proc.devRef .tc main_v66)).trans (v66_15 m ρ c)
theorem v66_17 (c : Dev nD) : W17 m ρ c (Proc.devRef .tc main_v66) = (kconv3 (W12 m ρ c (Proc.devRef .tc main_v53)) (m ((c : Thread nD τ).loc main_arg9)) (m ((c : Thread nD τ).loc main_arg16)) (m ((c : Thread nD τ).loc main_arg17))) :=
  (by host_skip : W17 m ρ c (Proc.devRef .tc main_v66) = W16 m ρ c (Proc.devRef .tc main_v66)).trans (v66_16 m ρ c)
theorem v67_16 (c : Dev nD) : W16 m ρ c (Proc.devRef .tc main_v67) = (row zero32) :=
  (((W16_arr m ρ c 1).trans (((dat7 (V15 m ρ) c).arrAt_in 1 rfl _).trans (A_eq7 (V15 m ρ) c 1))) : W16 m ρ c (Proc.devRef .tc main_v67) = W15 m ρ c (Proc.devRef .tc main_v67)).trans (v67_15 m ρ c)
theorem v67_17 (c : Dev nD) : W17 m ρ c (Proc.devRef .tc main_v67) = (row zero32) :=
  (by host_skip : W17 m ρ c (Proc.devRef .tc main_v67) = W16 m ρ c (Proc.devRef .tc main_v67)).trans (v67_16 m ρ c)
theorem v68_16 (c : Dev nD) : W16 m ρ c (Proc.devRef .tc main_v68) = (row (m ((c : Thread nD τ).loc main_arg10))) :=
  (W16_of_ne m ρ c main_v68 (by decide) : W16 m ρ c (Proc.devRef .tc main_v68) = W15 m ρ c (Proc.devRef .tc main_v68)).trans (v68_15 m ρ c)
theorem v68_17 (c : Dev nD) : W17 m ρ c (Proc.devRef .tc main_v68) = (row (m ((c : Thread nD τ).loc main_arg10))) :=
  (by host_skip : W17 m ρ c (Proc.devRef .tc main_v68) = W16 m ρ c (Proc.devRef .tc main_v68)).trans (v68_16 m ρ c)
theorem v69_16 (c : Dev nD) : W16 m ρ c (Proc.devRef .tc main_v69) = (row (m ((c : Thread nD τ).loc main_arg11))) :=
  (W16_of_ne m ρ c main_v69 (by decide) : W16 m ρ c (Proc.devRef .tc main_v69) = W15 m ρ c (Proc.devRef .tc main_v69)).trans (v69_15 m ρ c)
theorem v69_17 (c : Dev nD) : W17 m ρ c (Proc.devRef .tc main_v69) = (row (m ((c : Thread nD τ).loc main_arg11))) :=
  (by host_skip : W17 m ρ c (Proc.devRef .tc main_v69) = W16 m ρ c (Proc.devRef .tc main_v69)).trans (v69_16 m ρ c)
theorem v70_0_16 (c : Dev nD) : W16 m ρ c (Proc.devRef .tc main_v70_0) = (colSum (kconv3 (W12 m ρ c (Proc.devRef .tc main_v53)) (m ((c : Thread nD τ).loc main_arg9)) (m ((c : Thread nD τ).loc main_arg16)) (m ((c : Thread nD τ).loc main_arg17))) (row zero32)) := by
  refine (W16_arr m ρ c 2).trans ((StatsValue7.sum_colSum (V15 m ρ) c).trans ?_)
  show colSum (W15 m ρ c (Proc.devRef .tc main_v66)) (W15 m ρ c (Proc.devRef .tc main_v67)) = _
  rw [v66_15 m ρ c, v67_15 m ρ c]
theorem v70_1_16 (c : Dev nD) : W16 m ρ c (Proc.devRef .tc main_v70_1) = (colSumSq (kconv3 (W12 m ρ c (Proc.devRef .tc main_v53)) (m ((c : Thread nD τ).loc main_arg9)) (m ((c : Thread nD τ).loc main_arg16)) (m ((c : Thread nD τ).loc main_arg17))) (row zero32)) := by
  refine (W16_arr m ρ c 3).trans ((StatsValue7.sumsq_colSumSq (V15 m ρ) c).trans ?_)
  show colSumSq (W15 m ρ c (Proc.devRef .tc main_v66)) (W15 m ρ c (Proc.devRef .tc main_v67)) = _
  rw [v66_15 m ρ c, v67_15 m ρ c]
theorem v72_17 (c : Dev nD) : W17 m ρ c (Proc.devRef .tc main_v72) = (meanK (colSum (kconv3 (W12 m ρ c (Proc.devRef .tc main_v53)) (m ((c : Thread nD τ).loc main_arg9)) (m ((c : Thread nD τ).loc main_arg16)) (m ((c : Thread nD τ).loc main_arg17))) (row zero32))) := by
  show StableHlo.after hostOps8 (W16 m ρ c) (Proc.devRef .tc main_v72) = _
  dsimp only [hostOps8]
  after_results
  rw [v70_0_16 m ρ c]
  rfl
theorem v78_17 (c : Dev nD) : W17 m ρ c (Proc.devRef .tc main_v78) = (varK (colSum (kconv3 (W12 m ρ c (Proc.devRef .tc main_v53)) (m ((c : Thread nD τ).loc main_arg9)) (m ((c : Thread nD τ).loc main_arg16)) (m ((c : Thread nD τ).loc main_arg17))) (row zero32)) (colSumSq (kconv3 (W12 m ρ c (Proc.devRef .tc main_v53)) (m ((c : Thread nD τ).loc main_arg9)) (m ((c : Thread nD τ).loc main_arg16)) (m ((c : Thread nD τ).loc main_arg17))) (row zero32))) := by
  show StableHlo.after hostOps8 (W16 m ρ c) (Proc.devRef .tc main_v78) = _
  dsimp only [hostOps8]
  after_results
  rw [v70_0_16 m ρ c, v70_1_16 m ρ c]
  rfl
/-- The stage's result array: the kernel's batch normalisation of the stage's convolution. -/
theorem v79_18 (c : Dev nD) : W18 m ρ c (Proc.devRef .tc main_v79) = (bnK (kconv3 (W12 m ρ c (Proc.devRef .tc main_v53)) (m ((c : Thread nD τ).loc main_arg9)) (m ((c : Thread nD τ).loc main_arg16)) (m ((c : Thread nD τ).loc main_arg17))) (row zero32) (row (m ((c : Thread nD τ).loc main_arg10))) (row (m ((c : Thread nD τ).loc main_arg11)))) := by
  refine (W18_arr m ρ c 6).trans ((ApplyValue8.arr_applyK (V17 m ρ) c).trans ?_)
  show applyK (W17 m ρ c (Proc.devRef .tc main_v66)) (W17 m ρ c (Proc.devRef .tc main_v67)) (W17 m ρ c (Proc.devRef .tc main_v72)) (W17 m ρ c (Proc.devRef .tc main_v78)) (W17 m ρ c (Proc.devRef .tc main_v68)) (W17 m ρ c (Proc.devRef .tc main_v69)) = _
  rw [v66_17 m ρ c, v67_17 m ρ c, v72_17 m ρ c, v78_17 m ρ c, v68_17 m ρ c, v69_17 m ρ c]
  rfl

end Cert.KernelIdeal.KerChain3

end
-- ==== Proof.KOut.lean ====
/-
  The idealized kernel's result as one function of its eighteen argument arrays: three stages, each the kernel's
  batch normalisation of that stage's sparse convolution — stage 1 with the bias row, stages 2 and 3 with the zero
  row; stage 2 convolves stage 1's result beside the skip input, stage 3 convolves stage 2's result.
-/
import proofs.«172556_j661424964110_2_alg».proof.Proof.KDefs
import proofs.«172556_j661424964110_2_alg».proof.Proof.KConv

noncomputable section

namespace Cert.KVal

open Idealize.ShloMosaic
open Cert.KernelIdeal Cert.KernelIdeal.Gen

/-- Stage 1: the convolution of the input, normalised with the bias, scale and shift rows. -/
def kstage1 (x : FVec Ideal S100000x64 .f32) (w_up : FVec Ideal S27x64x32 .f32) (b_up g_up bt_up : FVec Ideal S32 .f32)
    (up_in up_out : IVec S27x100000 32) : FVec Ideal S400000x32 .f32 :=
  bnK (kconv1 x w_up up_in up_out) (row b_up) (row g_up) (row bt_up)

/-- Stage 2: the convolution of the previous result beside the skip input, normalised with no bias. -/
def kstage2 (h x_skip : FVec Ideal S400000x32 .f32) (w1 : FVec Ideal S27x64x32 .f32) (g1 bt1 : FVec Ideal S32 .f32)
    (c1_in c1_out : IVec S27x120000 32) : FVec Ideal S400000x32 .f32 :=
  bnK (kconv2 (kcat h x_skip) w1 c1_in c1_out) (row zero32) (row g1) (row bt1)

/-- Stage 3: the convolution of the previous result, normalised with no bias. -/
def kstage3 (h : FVec Ideal S400000x32 .f32) (w2 : FVec Ideal S27x32x32 .f32) (g2 bt2 : FVec Ideal S32 .f32)
    (c2_in c2_out : IVec S27x120000 32) : FVec Ideal S400000x32 .f32 :=
  bnK (kconv3 h w2 c2_in c2_out) (row zero32) (row g2) (row bt2)

/-- The kernel's result, of its arguments in order. -/
def kout (x : FVec Ideal S100000x64 .f32) (x_skip : FVec Ideal S400000x32 .f32) (w_up : FVec Ideal S27x64x32 .f32)
    (b_up g_up bt_up : FVec Ideal S32 .f32) (w1 : FVec Ideal S27x64x32 .f32) (g1 bt1 : FVec Ideal S32 .f32)
    (w2 : FVec Ideal S27x32x32 .f32) (g2 bt2 : FVec Ideal S32 .f32) (up_in up_out : IVec S27x100000 32)
    (c1_in c1_out c2_in c2_out : IVec S27x120000 32) : FVec Ideal S400000x32 .f32 :=
  kstage3 (kstage2 (kstage1 x w_up b_up g_up bt_up up_in up_out) x_skip w1 g1 bt1 c1_in c1_out) w2 g2 bt2 c2_in c2_out

end Cert.KVal

end
-- ==== Proof.KerValue.lean ====
/-
  The idealized kernel's result array, at the last boundary of its run, is the kernel-side function of the launch
  memory's argument arrays: the three stages' boundary facts composed, each stage's input the previous stage's result
  array as the boundary before it holds it.
-/
import proofs.«172556_j661424964110_2_alg».proof.Proof.KerChain1
import proofs.«172556_j661424964110_2_alg».proof.Proof.KerChain2
import proofs.«172556_j661424964110_2_alg».proof.Proof.KerChain3
import proofs.«172556_j661424964110_2_alg».proof.Proof.KOut

noncomputable section

namespace Cert.KernelIdeal.KerValue

open Idealize.ShloMosaic Idealize.ShloMosaic.TcCoe Idealize.SL.Sem
open Cert.KernelIdeal Cert.KernelIdeal.Gen Cert.KVal

variable (m : (ℓ : Loc nD τ sig) → Buf (Elt Ideal) ℓ) (ρ : Dev nD → PrngReg)

/-- The result array after the run, as the kernel-side function of the argument arrays. -/
theorem result (c : Dev nD) : W18 m ρ c (Proc.devRef .tc main_v79)
    = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [KerChain3.v79_18 m ρ c, KerChain2.v53_12 m ρ c, KerChain1.v26_6 m ρ c]
  rfl

end Cert.KernelIdeal.KerValue

end
-- ==== Proof.RefRunOps.lean ====
import proofs.«172556_j661424964110_2_alg».proof.Proof.RefRunDefs
import Idealize.ShloMosaic.Lib.StableHlo.Run

/-!
The reference's run. Its program is a straight line of 193 array operations once the three
calls of the variance function (each with its inner call of the selection function) and the
three calls of the rectifier are replaced by their bodies over the buffers of the call. The line is
cut where the mathematics cuts it: a convolution, then a normalisation, three times.
Every weakly fair execution ends with the result buffer at `out` of the arguments' launch
contents and the arguments unchanged.
-/

-- the local notations below abbreviate typed operations whose element types are written `.f32`, `.i32`, `.i1`
set_option quotPrecheck false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The contents of a buffer of shape `S` and element type `e`. -/
local notation:max "𝕋[" S "," e "]" => BufTy.Contents (Elt F) (BufTy.mk S e)

/-! The operations that every normalisation repeats, at their types. -/
local notation "𝕓c1" => (broadcastInDim S1x32 ![1] bcast_S32_S1x32_1 : 𝕋[S32, .f32] → 𝕋[S1x32, .f32])
local notation "𝕓c2" => (broadcastInDim S400000x32 ![0, 1] bcast_S1x32_S400000x32_0_1 : 𝕋[S1x32, .f32] → 𝕋[S400000x32, .f32])
local notation "𝕓s32" => (broadcastInDim S32 ![] bcast_S_S32 : 𝕋[S_, .f32] → 𝕋[S32, .f32])
local notation "𝕓s1x32" => (broadcastInDim S1x32 ![] bcast_S_S1x32 : 𝕋[S_, .f32] → 𝕋[S1x32, .f32])
local notation "𝕓sBig" => (broadcastInDim S400000x32 ![] bcast_S_S400000x32 : 𝕋[S_, .f32] → 𝕋[S400000x32, .f32])
local notation "𝕒Big" => (addf : 𝕋[S400000x32, .f32] → 𝕋[S400000x32, .f32] → 𝕋[S400000x32, .f32])
local notation "𝕤Big" => (subf : 𝕋[S400000x32, .f32] → 𝕋[S400000x32, .f32] → 𝕋[S400000x32, .f32])
local notation "𝕞Big" => (mulf : 𝕋[S400000x32, .f32] → 𝕋[S400000x32, .f32] → 𝕋[S400000x32, .f32])
local notation "𝕩Big" => (maximumf : 𝕋[S400000x32, .f32] → 𝕋[S400000x32, .f32] → 𝕋[S400000x32, .f32])
local notation "𝕒32" => (addf : 𝕋[S32, .f32] → 𝕋[S32, .f32] → 𝕋[S32, .f32])
local notation "𝕕32" => (Host.divf : 𝕋[S32, .f32] → 𝕋[S32, .f32] → 𝕋[S32, .f32])
local notation "𝕕1x32" => (Host.divf : 𝕋[S1x32, .f32] → 𝕋[S1x32, .f32] → 𝕋[S1x32, .f32])
local notation "𝕢32" => (Host.rsqrt : 𝕋[S32, .f32] → 𝕋[S32, .f32])
local notation "𝕣Add" => ((fun x v => Host.reduceAdd x v reducesTo_S400000x32_S32_d0 h_S_) : 𝕋[S400000x32, .f32] → 𝕋[S_, .f32] → 𝕋[S32, .f32])
local notation "𝕤0" => (subf : 𝕋[S_, .f32] → 𝕋[S_, .f32] → 𝕋[S_, .f32])
local notation "𝕘0" => (cmpf .ogt : 𝕋[S_, .f32] → 𝕋[S_, .f32] → 𝕋[S_, .i1])
local notation "𝕚0" => (sitofp .f32 : 𝕋[S_, .i32] → 𝕋[S_, .f32])
local notation "𝕨32" => ((fun p a b => select (broadcastInDim S32 ![] bcast_S_S32 p) a b) : 𝕋[S_, .i1] → 𝕋[S32, .f32] → 𝕋[S32, .f32] → 𝕋[S32, .f32])

/-- Stage 1's convolution: @main's operations 1 … 16. -/
abbrev opsA : List (HloOp τ sig (Elt F)) :=
  [ nullary main_c (constantI S_ 32 0#32),
    unary main_c main_v0 (broadcastInDim S27x100000 ![] bcast_S_S27x100000 : 𝕋[S_, .i32] → 𝕋[S27x100000, .i32]),
    binary main_arg12 main_v0 main_v1 (cmpi .slt : 𝕋[S27x100000, .i32] → 𝕋[S27x100000, .i32] → 𝕋[S27x100000, .i1]),
    nullary main_c_0 (constantI S_ 32 100000#32),
    unary main_c_0 main_v2 (broadcastInDim S27x100000 ![] bcast_S_S27x100000 : 𝕋[S_, .i32] → 𝕋[S27x100000, .i32]),
    binary main_arg12 main_v2 main_v3 (addi : 𝕋[S27x100000, .i32] → 𝕋[S27x100000, .i32] → 𝕋[S27x100000, .i32]),
    ternary main_v1 main_v3 main_arg12 main_v4 (select : 𝕋[S27x100000, .i1] → 𝕋[S27x100000, .i32] → 𝕋[S27x100000, .i32] → 𝕋[S27x100000, .i32]),
    unary main_v4 main_v5 (broadcastInDim S27x100000x1 ![0, 1] bcast_S27x100000_S27x100000x1_0_1 : 𝕋[S27x100000, .i32] → 𝕋[S27x100000x1, .i32]),
    binary main_arg0 main_v5 main_v6 ((fun x i => Host.gather gather_S100000x64_S27x100000x1_S27x100000x64_2_0_n_n_0_2_164 x i) : 𝕋[S100000x64, .f32] → 𝕋[S27x100000x1, .i32] → 𝕋[S27x100000x64, .f32]),
    binary main_v6 main_arg2 main_v7 ((fun l r => Host.dotGeneral dot_S27x100000x64_S27x64x32_S27x100000x32_2_1_1_2_0_0 none l r) : 𝕋[S27x100000x64, .f32] → 𝕋[S27x64x32, .f32] → 𝕋[S27x100000x32, .f32]),
    reshape main_v7 main_v8 rfl shapeCasts_S27x100000x32_S2700000x32,
    reshape main_arg13 main_v9 rfl shapeCasts_S27x100000_S2700000,
    nullary main_cst (constant S_ .f32 0x00000000#32),
    unary main_cst main_v10 𝕓sBig,
    unary main_v9 main_v11 (broadcastInDim S2700000x1 ![0] bcast_S2700000_S2700000x1_0 : 𝕋[S2700000, .i32] → 𝕋[S2700000x1, .i32]),
    ternary main_v10 main_v11 main_v8 main_v12 ((fun x i u => Host.scatterAdd scatter_S400000x32_S2700000x1_S2700000x32_1_0_0_1 x i u) : 𝕋[S400000x32, .f32] → 𝕋[S2700000x1, .i32] → 𝕋[S2700000x32, .f32] → 𝕋[S400000x32, .f32]) ]

/-- Stage 1's bias, normalisation and rectifier, then the concatenation with the skip input:
    @main's operations 17 … 44 with the variance function's 22 and the rectifier's 3 in place of their calls. -/
abbrev opsB : List (HloOp τ sig (Elt F)) :=
  [ unary main_arg3 main_v13 𝕓c1,
    unary main_v13 main_v14 𝕓c2,
    binary main_v12 main_v14 main_v15 𝕒Big,
    nullary main_cst_1 (constant S_ .f32 0x00000000#32),
    binary main_v15 main_cst_1 main_v16 𝕣Add,
    nullary main_cst_2 (constant S_ .f32 0x48C35000#32),
    unary main_cst_2 main_v17 𝕓s32,
    binary main_v16 main_v17 main_v18 𝕕32,
    nullary main_c_3 (constantI S_ 32 0#32),
    nullary main_call0_cst (constant S_ .f32 0x00000000#32),
    binary main_v15 main_call0_cst main_call0_v0 𝕣Add,
    unary main_call0_v0 main_call0_v1 𝕓c1,
    nullary main_call0_cst_0 (constant S_ .f32 0x48C35000#32),
    unary main_call0_cst_0 main_call0_v2 𝕓s1x32,
    binary main_call0_v1 main_call0_v2 main_call0_v3 𝕕1x32,
    unary main_call0_v3 main_call0_v4 𝕓c2,
    binary main_v15 main_call0_v4 main_call0_v5 𝕤Big,
    binary main_call0_v5 main_call0_v5 main_call0_v6 𝕞Big,
    unary main_c_3 main_call0_v7 𝕚0,
    nullary main_call0_cst_1 (constant S_ .f32 0x48C35000#32),
    binary main_call0_cst_1 main_call0_v7 main_call0_v8 𝕤0,
    nullary main_call0_cst_2 (constant S_ .f32 0x00000000#32),
    binary main_call0_v6 main_call0_cst_2 main_call0_v9 𝕣Add,
    unary main_call0_v8 main_call0_v10 𝕓s32,
    binary main_call0_v9 main_call0_v10 main_call0_v11 𝕕32,
    nullary main_call0_cst_3 (constant S_ .f32 0x00000000#32),
    binary main_call0_v8 main_call0_cst_3 main_call0_v12 𝕘0,
    nullary main_call0_cst_4 (constant S_ .f32 0x7FC00000#32),
    unary main_call0_cst_4 main_call0_call0_v0 (id : 𝕋[S_, .f32] → 𝕋[S_, .f32]),
    unary main_call0_call0_v0 main_call0_call0_v1 𝕓s32,
    ternary main_call0_v12 main_call0_v11 main_call0_call0_v1 main_v19 𝕨32,
    unary main_v18 main_v20 𝕓c1,
    unary main_v20 main_v21 𝕓c2,
    binary main_v15 main_v21 main_v22 𝕤Big,
    nullary main_cst_4 (constant S_ .f32 0x3727C5AC#32),
    unary main_cst_4 main_v23 𝕓s32,
    binary main_v19 main_v23 main_v24 𝕒32,
    unary main_v24 main_v25 𝕢32,
    unary main_v25 main_v26 𝕓c1,
    unary main_v26 main_v27 𝕓c2,
    binary main_v22 main_v27 main_v28 𝕞Big,
    unary main_arg4 main_v29 𝕓c1,
    unary main_v29 main_v30 𝕓c2,
    binary main_v28 main_v30 main_v31 𝕞Big,
    unary main_arg5 main_v32 𝕓c1,
    unary main_v32 main_v33 𝕓c2,
    binary main_v31 main_v33 main_v34 𝕒Big,
    nullary main_call1_cst (constant S_ .f32 0x00000000#32),
    unary main_call1_cst main_call1_v0 𝕓sBig,
    binary main_v34 main_call1_v0 main_v35 𝕩Big,
    binary main_v35 main_arg1 main_v36 ((fun a b => concatenate S400000x64 1 [⟨S400000x32, a⟩, ⟨S400000x32, b⟩] concatenates_S400000x32_S400000x32_S400000x64_d1) : 𝕋[S400000x32, .f32] → 𝕋[S400000x32, .f32] → 𝕋[S400000x64, .f32]) ]

/-- Stage 2's convolution: @main's operations 45 … 60. -/
abbrev opsC : List (HloOp τ sig (Elt F)) :=
  [ nullary main_c_5 (constantI S_ 32 0#32),
    unary main_c_5 main_v37 (broadcastInDim S27x120000 ![] bcast_S_S27x120000 : 𝕋[S_, .i32] → 𝕋[S27x120000, .i32]),
    binary main_arg14 main_v37 main_v38 (cmpi .slt : 𝕋[S27x120000, .i32] → 𝕋[S27x120000, .i32] → 𝕋[S27x120000, .i1]),
    nullary main_c_6 (constantI S_ 32 400000#32),
    unary main_c_6 main_v39 (broadcastInDim S27x120000 ![] bcast_S_S27x120000 : 𝕋[S_, .i32] → 𝕋[S27x120000, .i32]),
    binary main_arg14 main_v39 main_v40 (addi : 𝕋[S27x120000, .i32] → 𝕋[S27x120000, .i32] → 𝕋[S27x120000, .i32]),
    ternary main_v38 main_v40 main_arg14 main_v41 (select : 𝕋[S27x120000, .i1] → 𝕋[S27x120000, .i32] → 𝕋[S27x120000, .i32] → 𝕋[S27x120000, .i32]),
    unary main_v41 main_v42 (broadcastInDim S27x120000x1 ![0, 1] bcast_S27x120000_S27x120000x1_0_1 : 𝕋[S27x120000, .i32] → 𝕋[S27x120000x1, .i32]),
    binary main_v36 main_v42 main_v43 ((fun x i => Host.gather gather_S400000x64_S27x120000x1_S27x120000x64_2_0_n_n_0_2_164 x i) : 𝕋[S400000x64, .f32] → 𝕋[S27x120000x1, .i32] → 𝕋[S27x120000x64, .f32]),
    binary main_v43 main_arg6 main_v44 ((fun l r => Host.dotGeneral dot_S27x120000x64_S27x64x32_S27x120000x32_2_1_1_2_0_0 none l r) : 𝕋[S27x120000x64, .f32] → 𝕋[S27x64x32, .f32] → 𝕋[S27x120000x32, .f32]),
    reshape main_v44 main_v45 rfl shapeCasts_S27x120000x32_S3240000x32,
    reshape main_arg15 main_v46 rfl shapeCasts_S27x120000_S3240000,
    nullary main_cst_7 (constant S_ .f32 0x00000000#32),
    unary main_cst_7 main_v47 𝕓sBig,
    unary main_v46 main_v48 (broadcastInDim S3240000x1 ![0] bcast_S3240000_S3240000x1_0 : 𝕋[S3240000, .i32] → 𝕋[S3240000x1, .i32]),
    ternary main_v47 main_v48 main_v45 main_v49 ((fun x i u => Host.scatterAdd scatter_S400000x32_S3240000x1_S3240000x32_1_0_0_1 x i u) : 𝕋[S400000x32, .f32] → 𝕋[S3240000x1, .i32] → 𝕋[S3240000x32, .f32] → 𝕋[S400000x32, .f32]) ]

/-- Stage 2's normalisation and rectifier: @main's operations 61 … 84, the calls' bodies in place. -/
abbrev opsD : List (HloOp τ sig (Elt F)) :=
  [ nullary main_cst_8 (constant S_ .f32 0x00000000#32),
    binary main_v49 main_cst_8 main_v50 𝕣Add,
    nullary main_cst_9 (constant S_ .f32 0x48C35000#32),
    unary main_cst_9 main_v51 𝕓s32,
    binary main_v50 main_v51 main_v52 𝕕32,
    nullary main_c_10 (constantI S_ 32 0#32),
    nullary main_call2_cst (constant S_ .f32 0x00000000#32),
    binary main_v49 main_call2_cst main_call2_v0 𝕣Add,
    unary main_call2_v0 main_call2_v1 𝕓c1,
    nullary main_call2_cst_0 (constant S_ .f32 0x48C35000#32),
    unary main_call2_cst_0 main_call2_v2 𝕓s1x32,
    binary main_call2_v1 main_call2_v2 main_call2_v3 𝕕1x32,
    unary main_call2_v3 main_call2_v4 𝕓c2,
    binary main_v49 main_call2_v4 main_call2_v5 𝕤Big,
    binary main_call2_v5 main_call2_v5 main_call2_v6 𝕞Big,
    unary main_c_10 main_call2_v7 𝕚0,
    nullary main_call2_cst_1 (constant S_ .f32 0x48C35000#32),
    binary main_call2_cst_1 main_call2_v7 main_call2_v8 𝕤0,
    nullary main_call2_cst_2 (constant S_ .f32 0x00000000#32),
    binary main_call2_v6 main_call2_cst_2 main_call2_v9 𝕣Add,
    unary main_call2_v8 main_call2_v10 𝕓s32,
    binary main_call2_v9 main_call2_v10 main_call2_v11 𝕕32,
    nullary main_call2_cst_3 (constant S_ .f32 0x00000000#32),
    binary main_call2_v8 main_call2_cst_3 main_call2_v12 𝕘0,
    nullary main_call2_cst_4 (constant S_ .f32 0x7FC00000#32),
    unary main_call2_cst_4 main_call2_call0_v0 (id : 𝕋[S_, .f32] → 𝕋[S_, .f32]),
    unary main_call2_call0_v0 main_call2_call0_v1 𝕓s32,
    ternary main_call2_v12 main_call2_v11 main_call2_call0_v1 main_v53 𝕨32,
    unary main_v52 main_v54 𝕓c1,
    unary main_v54 main_v55 𝕓c2,
    binary main_v49 main_v55 main_v56 𝕤Big,
    nullary main_cst_11 (constant S_ .f32 0x3727C5AC#32),
    unary main_cst_11 main_v57 𝕓s32,
    binary main_v53 main_v57 main_v58 𝕒32,
    unary main_v58 main_v59 𝕢32,
    unary main_v59 main_v60 𝕓c1,
    unary main_v60 main_v61 𝕓c2,
    binary main_v56 main_v61 main_v62 𝕞Big,
    unary main_arg7 main_v63 𝕓c1,
    unary main_v63 main_v64 𝕓c2,
    binary main_v62 main_v64 main_v65 𝕞Big,
    unary main_arg8 main_v66 𝕓c1,
    unary main_v66 main_v67 𝕓c2,
    binary main_v65 main_v67 main_v68 𝕒Big,
    nullary main_call3_cst (constant S_ .f32 0x00000000#32),
    unary main_call3_cst main_call3_v0 𝕓sBig,
    binary main_v68 main_call3_v0 main_v69 𝕩Big ]

/-- Stage 3's convolution: @main's operations 85 … 100. -/
abbrev opsE : List (HloOp τ sig (Elt F)) :=
  [ nullary main_c_12 (constantI S_ 32 0#32),
    unary main_c_12 main_v70 (broadcastInDim S27x120000 ![] bcast_S_S27x120000 : 𝕋[S_, .i32] → 𝕋[S27x120000, .i32]),
    binary main_arg16 main_v70 main_v71 (cmpi .slt : 𝕋[S27x120000, .i32] → 𝕋[S27x120000, .i32] → 𝕋[S27x120000, .i1]),
    nullary main_c_13 (constantI S_ 32 400000#32),
    unary main_c_13 main_v72 (broadcastInDim S27x120000 ![] bcast_S_S27x120000 : 𝕋[S_, .i32] → 𝕋[S27x120000, .i32]),
    binary main_arg16 main_v72 main_v73 (addi : 𝕋[S27x120000, .i32] → 𝕋[S27x120000, .i32] → 𝕋[S27x120000, .i32]),
    ternary main_v71 main_v73 main_arg16 main_v74 (select : 𝕋[S27x120000, .i1] → 𝕋[S27x120000, .i32] → 𝕋[S27x120000, .i32] → 𝕋[S27x120000, .i32]),
    unary main_v74 main_v75 (broadcastInDim S27x120000x1 ![0, 1] bcast_S27x120000_S27x120000x1_0_1 : 𝕋[S27x120000, .i32] → 𝕋[S27x120000x1, .i32]),
    binary main_v69 main_v75 main_v76 ((fun x i => Host.gather gather_S400000x32_S27x120000x1_S27x120000x32_2_0_n_n_0_2_132 x i) : 𝕋[S400000x32, .f32] → 𝕋[S27x120000x1, .i32] → 𝕋[S27x120000x32, .f32]),
    binary main_v76 main_arg9 main_v77 ((fun l r => Host.dotGeneral dot_S27x120000x32_S27x32x32_S27x120000x32_2_1_1_2_0_0 none l r) : 𝕋[S27x120000x32, .f32] → 𝕋[S27x32x32, .f32] → 𝕋[S27x120000x32, .f32]),
    reshape main_v77 main_v78 rfl shapeCasts_S27x120000x32_S3240000x32,
    reshape main_arg17 main_v79 rfl shapeCasts_S27x120000_S3240000,
    nullary main_cst_14 (constant S_ .f32 0x00000000#32),
    unary main_cst_14 main_v80 𝕓sBig,
    unary main_v79 main_v81 (broadcastInDim S3240000x1 ![0] bcast_S3240000_S3240000x1_0 : 𝕋[S3240000, .i32] → 𝕋[S3240000x1, .i32]),
    ternary main_v80 main_v81 main_v78 main_v82 ((fun x i u => Host.scatterAdd scatter_S400000x32_S3240000x1_S3240000x32_1_0_0_1 x i u) : 𝕋[S400000x32, .f32] → 𝕋[S3240000x1, .i32] → 𝕋[S3240000x32, .f32] → 𝕋[S400000x32, .f32]) ]

/-- Stage 3's normalisation up to the scale: @main's operations 101 … 120, the variance function's body in place. -/
abbrev opsF1 : List (HloOp τ sig (Elt F)) :=
  [ nullary main_cst_15 (constant S_ .f32 0x00000000#32),
    binary main_v82 main_cst_15 main_v83 𝕣Add,
    nullary main_cst_16 (constant S_ .f32 0x48C35000#32),
    unary main_cst_16 main_v84 𝕓s32,
    binary main_v83 main_v84 main_v85 𝕕32,
    nullary main_c_17 (constantI S_ 32 0#32),
    nullary main_call4_cst (constant S_ .f32 0x00000000#32),
    binary main_v82 main_call4_cst main_call4_v0 𝕣Add,
    unary main_call4_v0 main_call4_v1 𝕓c1,
    nullary main_call4_cst_0 (constant S_ .f32 0x48C35000#32),
    unary main_call4_cst_0 main_call4_v2 𝕓s1x32,
    binary main_call4_v1 main_call4_v2 main_call4_v3 𝕕1x32,
    unary main_call4_v3 main_call4_v4 𝕓c2,
    binary main_v82 main_call4_v4 main_call4_v5 𝕤Big,
    binary main_call4_v5 main_call4_v5 main_call4_v6 𝕞Big,
    unary main_c_17 main_call4_v7 𝕚0,
    nullary main_call4_cst_1 (constant S_ .f32 0x48C35000#32),
    binary main_call4_cst_1 main_call4_v7 main_call4_v8 𝕤0,
    nullary main_call4_cst_2 (constant S_ .f32 0x00000000#32),
    binary main_call4_v6 main_call4_cst_2 main_call4_v9 𝕣Add,
    unary main_call4_v8 main_call4_v10 𝕓s32,
    binary main_call4_v9 main_call4_v10 main_call4_v11 𝕕32,
    nullary main_call4_cst_3 (constant S_ .f32 0x00000000#32),
    binary main_call4_v8 main_call4_cst_3 main_call4_v12 𝕘0,
    nullary main_call4_cst_4 (constant S_ .f32 0x7FC00000#32),
    unary main_call4_cst_4 main_call4_call0_v0 (id : 𝕋[S_, .f32] → 𝕋[S_, .f32]),
    unary main_call4_call0_v0 main_call4_call0_v1 𝕓s32,
    ternary main_call4_v12 main_call4_v11 main_call4_call0_v1 main_v86 𝕨32,
    unary main_v85 main_v87 𝕓c1,
    unary main_v87 main_v88 𝕓c2,
    binary main_v82 main_v88 main_v89 𝕤Big,
    nullary main_cst_18 (constant S_ .f32 0x3727C5AC#32),
    unary main_cst_18 main_v90 𝕓s32,
    binary main_v86 main_v90 main_v91 𝕒32,
    unary main_v91 main_v92 𝕢32,
    unary main_v92 main_v93 𝕓c1,
    unary main_v93 main_v94 𝕓c2,
    binary main_v89 main_v94 main_v95 𝕞Big,
    unary main_arg10 main_v96 𝕓c1,
    unary main_v96 main_v97 𝕓c2,
    binary main_v95 main_v97 main_v98 𝕞Big ]

/-- Stage 3's shift and rectifier: @main's operations 121 … 124, the rectifier's body in place. -/
abbrev opsF2 : List (HloOp τ sig (Elt F)) :=
  [ unary main_arg11 main_v99 𝕓c1,
    unary main_v99 main_v100 𝕓c2,
    binary main_v98 main_v100 main_v101 𝕒Big,
    nullary main_call5_cst (constant S_ .f32 0x00000000#32),
    unary main_call5_cst main_call5_v0 𝕓sBig,
    binary main_v101 main_call5_v0 main_v102 𝕩Big ]

/-- Stage 3's normalisation and rectifier. -/
abbrev opsF : List (HloOp τ sig (Elt F)) := opsF1 ++ opsF2

/-- The whole line. -/
abbrev ops : List (HloOp τ sig (Elt F)) := opsA ++ opsB ++ opsC ++ opsD ++ opsE ++ opsF

/-! ## The program is the line -/

set_option maxRecDepth 65536 in
set_option maxHeartbeats 4000000 in
/-- @main's first window is the first three pieces: the calls unfold to their bodies, and both sides are one chain of
    steps once sequencing is reassociated. -/
theorem main_part0_eq (c : Dev nD) : main_part0 (F := F) c = seq (opsA ++ opsB ++ opsC) := by
  simp only [main_part0, fn_var.body, fn_where.body, fn_relu.body, List.cons_append, List.nil_append, seq, bind_assoc, pure_bind]
  rfl

set_option maxRecDepth 65536 in
set_option maxHeartbeats 4000000 in
theorem main_part1_eq (c : Dev nD) : main_part1 (F := F) c = seq (opsD ++ opsE ++ opsF1) := by
  simp only [main_part1, fn_var.body, fn_where.body, fn_relu.body, List.cons_append, List.nil_append, seq, bind_assoc, pure_bind]
  rfl

set_option maxRecDepth 65536 in
theorem main_part2_eq (c : Dev nD) : main_part2 (F := F) c = seq opsF2 := by
  simp only [main_part2, fn_relu.body, seq, bind_assoc, pure_bind]
  rfl

/-- @main runs its three windows in order, and a line run after a line is their concatenation run as one. -/
theorem main_eq (c : Dev nD) : main (F := F) c = seq ops := by
  have e : (ops : List (HloOp τ sig (Elt F))) = (opsA ++ opsB ++ opsC) ++ ((opsD ++ opsE ++ opsF1) ++ opsF2) := by
    simp only [List.append_assoc]
  rw [e, seq_append (opsA ++ opsB ++ opsC), seq_append (opsD ++ opsE ++ opsF1) opsF2,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What the line touches -/

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Every operation of a literal piece touches TensorCore references only: each builder's own fact, found by its head. -/
local macro "bufs_sub_all" : tactic =>
  `(tactic| simp only [List.Forall, nullary_bufs_sub, unary_bufs_sub, binary_bufs_sub, ternary_bufs_sub, reshape_bufs_sub, and_self])

theorem opsA_sub : (opsA : List (HloOp τ sig (Elt F))).Forall fun op => op.bufs ⊆ tcRefs τ sig := by
  bufs_sub_all
theorem opsB_sub : (opsB : List (HloOp τ sig (Elt F))).Forall fun op => op.bufs ⊆ tcRefs τ sig := by
  bufs_sub_all
theorem opsC_sub : (opsC : List (HloOp τ sig (Elt F))).Forall fun op => op.bufs ⊆ tcRefs τ sig := by
  bufs_sub_all
theorem opsD_sub : (opsD : List (HloOp τ sig (Elt F))).Forall fun op => op.bufs ⊆ tcRefs τ sig := by
  bufs_sub_all
theorem opsE_sub : (opsE : List (HloOp τ sig (Elt F))).Forall fun op => op.bufs ⊆ tcRefs τ sig := by
  bufs_sub_all
theorem opsF1_sub : (opsF1 : List (HloOp τ sig (Elt F))).Forall fun op => op.bufs ⊆ tcRefs τ sig := by
  bufs_sub_all
theorem opsF2_sub : (opsF2 : List (HloOp τ sig (Elt F))).Forall fun op => op.bufs ⊆ tcRefs τ sig := by
  bufs_sub_all

theorem ops_sub : (ops : List (HloOp τ sig (Elt F))).Forall fun op => op.bufs ⊆ tcRefs τ sig :=
  forall_append (forall_append (forall_append (forall_append (forall_append opsA_sub opsB_sub) opsC_sub) opsD_sub) opsE_sub)
    (forall_append opsF1_sub opsF2_sub)

/-- Every operation of a literal piece determines its results. -/
local macro "fresh_all" : tactic => `(tactic| (repeat' apply And.intro) <;> rfl)

theorem opsA_fresh : (opsA : List (HloOp τ sig (Elt F))).Forall fun op => op.fresh = ∅ := by simp only [List.Forall]; fresh_all
theorem opsB_fresh : (opsB : List (HloOp τ sig (Elt F))).Forall fun op => op.fresh = ∅ := by simp only [List.Forall]; fresh_all
theorem opsC_fresh : (opsC : List (HloOp τ sig (Elt F))).Forall fun op => op.fresh = ∅ := by simp only [List.Forall]; fresh_all
theorem opsD_fresh : (opsD : List (HloOp τ sig (Elt F))).Forall fun op => op.fresh = ∅ := by simp only [List.Forall]; fresh_all
theorem opsE_fresh : (opsE : List (HloOp τ sig (Elt F))).Forall fun op => op.fresh = ∅ := by simp only [List.Forall]; fresh_all
theorem opsF1_fresh : (opsF1 : List (HloOp τ sig (Elt F))).Forall fun op => op.fresh = ∅ := by simp only [List.Forall]; fresh_all
theorem opsF2_fresh : (opsF2 : List (HloOp τ sig (Elt F))).Forall fun op => op.fresh = ∅ := by simp only [List.Forall]; fresh_all

theorem ops_fresh : ∀ op ∈ (ops : List (HloOp τ sig (Elt F))), op.fresh = ∅ :=
  List.forall_iff_forall_mem.mp
    (forall_append (forall_append (forall_append (forall_append (forall_append opsA_fresh opsB_fresh) opsC_fresh) opsD_fresh) opsE_fresh)
      (forall_append opsF1_fresh opsF2_fresh))

/-! ## What each piece writes

A piece leaves every buffer it does not write as it was; the arguments are written by none. -/

abbrev opsA_W : List (Ref sig .tc) :=
  [main_c, main_v0, main_v1, main_c_0, main_v2, main_v3, main_v4, main_v5, main_v6, main_v7, main_v8, main_v9, main_cst,
   main_v10, main_v11, main_v12]
abbrev opsB_W : List (Ref sig .tc) :=
  [main_v13, main_v14, main_v15, main_cst_1, main_v16, main_cst_2, main_v17, main_v18, main_c_3,
   main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v19,
   main_v20, main_v21, main_v22, main_cst_4, main_v23, main_v24, main_v25, main_v26, main_v27, main_v28, main_v29, main_v30,
   main_v31, main_v32, main_v33, main_v34, main_call1_cst, main_call1_v0, main_v35, main_v36]
abbrev opsC_W : List (Ref sig .tc) :=
  [main_c_5, main_v37, main_v38, main_c_6, main_v39, main_v40, main_v41, main_v42, main_v43, main_v44, main_v45, main_v46,
   main_cst_7, main_v47, main_v48, main_v49]
abbrev opsD_W : List (Ref sig .tc) :=
  [main_cst_8, main_v50, main_cst_9, main_v51, main_v52, main_c_10,
   main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_cst_3, main_call2_v12, main_call2_cst_4, main_call2_call0_v0, main_call2_call0_v1, main_v53,
   main_v54, main_v55, main_v56, main_cst_11, main_v57, main_v58, main_v59, main_v60, main_v61, main_v62, main_v63, main_v64,
   main_v65, main_v66, main_v67, main_v68, main_call3_cst, main_call3_v0, main_v69]
abbrev opsE_W : List (Ref sig .tc) :=
  [main_c_12, main_v70, main_v71, main_c_13, main_v72, main_v73, main_v74, main_v75, main_v76, main_v77, main_v78, main_v79,
   main_cst_14, main_v80, main_v81, main_v82]
abbrev opsF_W : List (Ref sig .tc) :=
  [main_cst_15, main_v83, main_cst_16, main_v84, main_v85, main_c_17,
   main_call4_cst, main_call4_v0, main_call4_v1, main_call4_cst_0, main_call4_v2, main_call4_v3, main_call4_v4, main_call4_v5,
   main_call4_v6, main_call4_v7, main_call4_cst_1, main_call4_v8, main_call4_cst_2, main_call4_v9, main_call4_v10, main_call4_v11,
   main_call4_cst_3, main_call4_v12, main_call4_cst_4, main_call4_call0_v0, main_call4_call0_v1, main_v86,
   main_v87, main_v88, main_v89, main_cst_18, main_v90, main_v91, main_v92, main_v93, main_v94, main_v95, main_v96, main_v97,
   main_v98, main_v99, main_v100, main_v101, main_call5_cst, main_call5_v0, main_v102]

/-- Each operation of a literal piece writes one buffer, a member of the piece's list. -/
local macro "writes_all" : tactic =>
  `(tactic| (repeat' apply And.intro) <;>
      (simp only [nullary_writes, unary_writes, binary_writes, ternary_writes, reshape_writes, Finset.singleton_subset_iff,
         List.mem_toFinset]; exact List.mem_map_of_mem (by decide)))

theorem opsA_writes : (opsA : List (HloOp τ sig (Elt F))).Forall fun op =>
    op.writes ⊆ (opsA_W.map (Proc.devRef (τ := τ) .tc)).toFinset := by simp only [List.Forall]; writes_all
theorem opsB_writes : (opsB : List (HloOp τ sig (Elt F))).Forall fun op =>
    op.writes ⊆ (opsB_W.map (Proc.devRef (τ := τ) .tc)).toFinset := by simp only [List.Forall]; writes_all
theorem opsC_writes : (opsC : List (HloOp τ sig (Elt F))).Forall fun op =>
    op.writes ⊆ (opsC_W.map (Proc.devRef (τ := τ) .tc)).toFinset := by simp only [List.Forall]; writes_all
theorem opsD_writes : (opsD : List (HloOp τ sig (Elt F))).Forall fun op =>
    op.writes ⊆ (opsD_W.map (Proc.devRef (τ := τ) .tc)).toFinset := by simp only [List.Forall]; writes_all
theorem opsE_writes : (opsE : List (HloOp τ sig (Elt F))).Forall fun op =>
    op.writes ⊆ (opsE_W.map (Proc.devRef (τ := τ) .tc)).toFinset := by simp only [List.Forall]; writes_all
theorem opsF_writes : (opsF : List (HloOp τ sig (Elt F))).Forall fun op =>
    op.writes ⊆ (opsF_W.map (Proc.devRef (τ := τ) .tc)).toFinset := by
  simp only [List.cons_append, List.nil_append, List.Forall]; writes_all

/-! ## The contents between the pieces -/

/-- A line run after a line: the fold of the concatenation. -/
theorem after_app : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_app l₁ l₂]

/-- A reference as the device buffer it names. -/
local notation:max "𝕣[" r "]" => Proc.devRef (τ := τ) (sig := sig) Proc.tc r

theorem keepA (W : Valuation τ sig (Elt F)) {r : Ref sig .tc} (h : r ∉ opsA_W) : after opsA W 𝕣[r] = W 𝕣[r] :=
  after_of_writes_sub opsA W opsA_writes h
theorem keepB (W : Valuation τ sig (Elt F)) {r : Ref sig .tc} (h : r ∉ opsB_W) : after opsB W 𝕣[r] = W 𝕣[r] :=
  after_of_writes_sub opsB W opsB_writes h
theorem keepC (W : Valuation τ sig (Elt F)) {r : Ref sig .tc} (h : r ∉ opsC_W) : after opsC W 𝕣[r] = W 𝕣[r] :=
  after_of_writes_sub opsC W opsC_writes h
theorem keepD (W : Valuation τ sig (Elt F)) {r : Ref sig .tc} (h : r ∉ opsD_W) : after opsD W 𝕣[r] = W 𝕣[r] :=
  after_of_writes_sub opsD W opsD_writes h
theorem keepE (W : Valuation τ sig (Elt F)) {r : Ref sig .tc} (h : r ∉ opsE_W) : after opsE W 𝕣[r] = W 𝕣[r] :=
  after_of_writes_sub opsE W opsE_writes h
theorem keepF (W : Valuation τ sig (Elt F)) {r : Ref sig .tc} (h : r ∉ opsF_W) : after opsF W 𝕣[r] = W 𝕣[r] :=
  after_of_writes_sub opsF W opsF_writes h

end Cert.ReferenceIdeal.RefRun

end
-- ==== Proof.RefRun.lean ====
import proofs.«172556_j661424964110_2_alg».proof.Proof.RefRunOps

/-!
The reference's run, second half: the buffer contents between the pieces of the line, each piece's
result as a function of the arguments' launch contents, and the run itself. Every weakly fair
execution ends with the result buffer at `out` of the arguments' launch contents and the
arguments unchanged.
-/

-- the local notations below abbreviate a reference's device buffer and its launch contents
set_option quotPrecheck false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

/-- A reference as the device buffer it names. -/
local notation:max "𝕣[" r "]" => Proc.devRef (τ := τ) (sig := sig) Proc.tc r

/-! ## The contents between the pieces -/

section Values

variable (V : Valuation τ sig (Elt Ideal))

/-- The launch contents of a reference. -/
local notation:max "𝕧[" r "]" => V 𝕣[r]

/-- The device's buffer contents after stage 1's convolution … after stage 3's normalisation. -/
def val1 : Valuation τ sig (Elt Ideal) := after opsA V
def val2 : Valuation τ sig (Elt Ideal) := after opsB (val1 V)
def val3 : Valuation τ sig (Elt Ideal) := after opsC (val2 V)
def val4 : Valuation τ sig (Elt Ideal) := after opsD (val3 V)
def val5 : Valuation τ sig (Elt Ideal) := after opsE (val4 V)
def val6 : Valuation τ sig (Elt Ideal) := after opsF (val5 V)

/-- The last of them is the contents after the whole line. -/
theorem val6_eq : val6 V = after ops V := by
  simp only [val6, val5, val4, val3, val2, val1, after_app]

/-! A buffer none of the first pieces writes still holds its launch contents. -/
theorem val1_keep {r : Ref sig .tc} (h : r ∉ opsA_W) : val1 V (no_index 𝕣[r]) = 𝕧[r] := keepA V h
theorem val2_keep {r : Ref sig .tc} (h : r ∉ opsA_W ++ opsB_W) : val2 V (no_index 𝕣[r]) = 𝕧[r] := by
  rw [List.mem_append, not_or] at h
  exact (keepB (val1 V) h.2).trans (val1_keep V h.1)
theorem val3_keep {r : Ref sig .tc} (h : r ∉ opsA_W ++ opsB_W ++ opsC_W) : val3 V (no_index 𝕣[r]) = 𝕧[r] := by
  rw [List.mem_append, not_or] at h
  exact (keepC (val2 V) h.2).trans (val2_keep V h.1)
theorem val4_keep {r : Ref sig .tc} (h : r ∉ opsA_W ++ opsB_W ++ opsC_W ++ opsD_W) : val4 V (no_index 𝕣[r]) = 𝕧[r] := by
  rw [List.mem_append, not_or] at h
  exact (keepD (val3 V) h.2).trans (val3_keep V h.1)
theorem val5_keep {r : Ref sig .tc} (h : r ∉ opsA_W ++ opsB_W ++ opsC_W ++ opsD_W ++ opsE_W) : val5 V (no_index 𝕣[r]) = 𝕧[r] := by
  rw [List.mem_append, not_or] at h
  exact (keepE (val4 V) h.2).trans (val4_keep V h.1)
theorem val6_keep {r : Ref sig .tc} (h : r ∉ opsA_W ++ opsB_W ++ opsC_W ++ opsD_W ++ opsE_W ++ opsF_W) :
    val6 V (no_index 𝕣[r]) = 𝕧[r] := by
  rw [List.mem_append, not_or] at h
  exact (keepF (val5 V) h.2).trans (val5_keep V h.1)

/-! Each piece's result, of the launch contents of the arguments. Unfolding the fold over a literal piece and reading each
    operation's result at its own buffer leaves the operations' composed term over the previous contents; those are the
    previous piece's result and kept arguments. -/

set_option maxRecDepth 16384 in
theorem val1_v12 : val1 V (no_index 𝕣[main_v12]) = conv1 𝕧[main_arg0] 𝕧[main_arg2] 𝕧[main_arg12] 𝕧[main_arg13] := by
  unfold val1
  simp only [opsA]
  after_results_simp
  rfl

/-- Stage 1's result, of the launch contents. -/
local notation "𝕤₁" => stage1 𝕧[main_arg0] 𝕧[main_arg2] 𝕧[main_arg3] 𝕧[main_arg4] 𝕧[main_arg5] 𝕧[main_arg12] 𝕧[main_arg13]
/-- Stage 2's result, of the launch contents. -/
local notation "𝕤₂" => stage2 𝕤₁ 𝕧[main_arg1] 𝕧[main_arg6] 𝕧[main_arg7] 𝕧[main_arg8] 𝕧[main_arg14] 𝕧[main_arg15]

set_option maxRecDepth 16384 in
set_option maxHeartbeats 4000000 in
theorem val2_v36 : val2 V (no_index 𝕣[main_v36]) = cat 𝕤₁ 𝕧[main_arg1] := by
  unfold val2
  simp only [opsB]
  -- the last operation pairs its two operands with their shapes in a list; reading it leaves each operand, inside its
  -- pair, as the unread contents after the fifty operations before it: read the two separately
  after_results_simp
  refine congrArg₂ cat ?_ ?_
  · after_results_simp
    simp (disch := decide) only [val1_v12, val1_keep]
    rfl
  · after_results_simp
    exact val1_keep V (by decide)

set_option maxRecDepth 16384 in
theorem val3_v49 : val3 V (no_index 𝕣[main_v49]) = conv2 (cat 𝕤₁ 𝕧[main_arg1]) 𝕧[main_arg6] 𝕧[main_arg14] 𝕧[main_arg15] := by
  unfold val3
  simp only [opsC]
  after_results_simp
  simp (disch := decide) only [val2_v36, val2_keep]
  rfl

set_option maxRecDepth 16384 in
set_option maxHeartbeats 4000000 in
theorem val4_v69 : val4 V (no_index 𝕣[main_v69]) = 𝕤₂ := by
  unfold val4
  simp only [opsD]
  after_results_simp
  simp (disch := decide) only [val3_v49, val3_keep]
  rfl

set_option maxRecDepth 16384 in
theorem val5_v82 : val5 V (no_index 𝕣[main_v82]) = conv3 𝕤₂ 𝕧[main_arg9] 𝕧[main_arg16] 𝕧[main_arg17] := by
  unfold val5
  simp only [opsE]
  after_results_simp
  simp (disch := decide) only [val4_v69, val4_keep]
  rfl

set_option maxRecDepth 16384 in
set_option maxHeartbeats 4000000 in
theorem val6_v102 : val6 V (no_index 𝕣[main_v102]) =
    out 𝕧[main_arg0] 𝕧[main_arg1] 𝕧[main_arg2] 𝕧[main_arg3] 𝕧[main_arg4] 𝕧[main_arg5] 𝕧[main_arg6] 𝕧[main_arg7] 𝕧[main_arg8]
      𝕧[main_arg9] 𝕧[main_arg10] 𝕧[main_arg11] 𝕧[main_arg12] 𝕧[main_arg13] 𝕧[main_arg14] 𝕧[main_arg15] 𝕧[main_arg16] 𝕧[main_arg17] := by
  unfold val6
  simp only [opsF, opsF1, opsF2, List.cons_append, List.nil_append]
  after_results_simp
  simp (disch := decide) only [val5_v82, val5_keep]
  rfl

/-- The result buffer after the whole line. -/
theorem res_out : after ops V 𝕣[main_v102] =
    out 𝕧[main_arg0] 𝕧[main_arg1] 𝕧[main_arg2] 𝕧[main_arg3] 𝕧[main_arg4] 𝕧[main_arg5] 𝕧[main_arg6] 𝕧[main_arg7] 𝕧[main_arg8]
      𝕧[main_arg9] 𝕧[main_arg10] 𝕧[main_arg11] 𝕧[main_arg12] 𝕧[main_arg13] 𝕧[main_arg14] 𝕧[main_arg15] 𝕧[main_arg16] 𝕧[main_arg17] :=
  (congrFun (val6_eq V).symm _).trans (val6_v102 V)

/-- A buffer the line never writes, after the whole line. -/
theorem res_keep {r : Ref sig .tc} (h : r ∉ opsA_W ++ opsB_W ++ opsC_W ++ opsD_W ++ opsE_W ++ opsF_W) :
    after ops V 𝕣[r] = 𝕧[r] :=
  (congrFun (val6_eq V).symm _).trans (val6_keep V h)

end Values

/-! ## The run -/

/-- On every device, from any memory with zero counters: every weakly fair execution of @main terminates with the result
    buffer at `out` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102) =
        out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
      ⟨(h c main_v102).trans (res_out (launchContents m c)),
       (h c main_arg0).trans (res_keep (launchContents m c) (by decide)),
       (h c main_arg1).trans (res_keep (launchContents m c) (by decide)),
       (h c main_arg2).trans (res_keep (launchContents m c) (by decide)),
       (h c main_arg3).trans (res_keep (launchContents m c) (by decide)),
       (h c main_arg4).trans (res_keep (launchContents m c) (by decide)),
       (h c main_arg5).trans (res_keep (launchContents m c) (by decide)),
       (h c main_arg6).trans (res_keep (launchContents m c) (by decide)),
       (h c main_arg7).trans (res_keep (launchContents m c) (by decide)),
       (h c main_arg8).trans (res_keep (launchContents m c) (by decide)),
       (h c main_arg9).trans (res_keep (launchContents m c) (by decide)),
       (h c main_arg10).trans (res_keep (launchContents m c) (by decide)),
       (h c main_arg11).trans (res_keep (launchContents m c) (by decide)),
       (h c main_arg12).trans (res_keep (launchContents m c) (by decide)),
       (h c main_arg13).trans (res_keep (launchContents m c) (by decide)),
       (h c main_arg14).trans (res_keep (launchContents m c) (by decide)),
       (h c main_arg15).trans (res_keep (launchContents m c) (by decide)),
       (h c main_arg16).trans (res_keep (launchContents m c) (by decide)),
       (h c main_arg17).trans (res_keep (launchContents m c) (by decide))⟩)
    (run_seq scopedRefs_eq scopedSems_eq defs main (fun _ => ops) main_eq (fun _ => ops_sub) m ρ (fun _ => ops_fresh))

end Cert.ReferenceIdeal.RefRun

end
-- ==== Proof.Finite.lean ====
/-
  The precondition says of each of the twelve float arguments that every entry's absolute value lies strictly
  below +inf. At the ideal instance an entry is an extended real, and one strictly inside the infinities is a
  real number: this module reads that fact off the precondition, argument by argument.
-/
import proofs.«172556_j661424964110_2_alg».proof.Pre_finite_inputs
import proofs.«172556_j661424964110_2_alg».proof.Proof.Gen.Pre_finite_inputs
import Idealize.ShloMosaic.PureOps.Ideal
import Idealize.ShloMosaic.Lib.ReduceAll
import Idealize.ShloMosaic.Lib.ValueIdx
import Idealize.ShloMosaic.Lib.Affine

noncomputable section

namespace Cert.Finite

open Idealize.ShloMosaic
open Cert.Pre_finite_inputs

/-- An extended real is a real number. -/
def IsReal (x : EReal) : Prop := ∃ r : ℝ, x = (r : EReal)

instance : Subsingleton S_.Idx := ⟨fun a b => funext fun d => d.elim0⟩

/-- An extended real whose absolute value compares strictly below +inf is a real number. -/
theorem isReal_of_abs_lt_top (x b : EReal) (hb : b = ⊤)
    (h : FloatOps.cmpf (F := Ideal) (φ := .f32) .olt (FloatOps.hostAbsf (F := Ideal) (φ := .f32) x) b = 1#1) : IsReal x := by
  subst hb
  induction x using EReal.rec with
  | bot => exfalso; revert h; show Ideal.cmp .olt (max (⊥ : EReal) (-⊥)) ⊤ = 1#1 → False; simp [Ideal.cmp]
  | top => exfalso; revert h; show Ideal.cmp .olt (max (⊤ : EReal) (-⊤)) ⊤ = 1#1 → False; simp [Ideal.cmp]
  | coe r => exact ⟨r, rfl⟩

variable [hP : Cert.Pre_finite_inputs.Facts]

/-- Under the precondition every entry of every float argument is a real number. -/
theorem reals_of_pre (a0 : FVec Ideal S100000x64 .f32) (a1 : FVec Ideal S400000x32 .f32) (a2 : FVec Ideal S27x64x32 .f32)
    (a3 a4 a5 : FVec Ideal S32 .f32) (a6 : FVec Ideal S27x64x32 .f32) (a7 a8 : FVec Ideal S32 .f32)
    (a9 : FVec Ideal S27x32x32 .f32) (a10 a11 : FVec Ideal S32 .f32) (a12 a13 : IVec S27x100000 32)
    (a14 a15 a16 a17 : IVec S27x120000 32)
    (h : fn (F := Ideal) a0 a1 a2 a3 a4 a5 a6 a7 a8 a9 a10 a11 a12 a13 a14 a15 a16 a17 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h0 := congrFun h ValueIdx.ix0
  dsimp only [fn, fn_part1, fn_part2, fn_part3] at h0
  simp only [andi, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  refine ⟨fun i => ?_, fun i => ?_, fun i => ?_, fun i => ?_, fun i => ?_, fun i => ?_, fun i => ?_, fun i => ?_,
    fun i => ?_, fun i => ?_, fun i => ?_, fun i => ?_⟩
  · have hi := Host.reduce_andi_all _ _ _ _ _ e0 i
    simp only [cmpf, Host.absf] at hi
    exact isReal_of_abs_lt_top _ _ (by simp [broadcastInDim, constant, Ideal.ofBits, Ideal.ieee]) hi
  · have hi := Host.reduce_andi_all _ _ _ _ _ e1 i
    simp only [cmpf, Host.absf] at hi
    exact isReal_of_abs_lt_top _ _ (by simp [broadcastInDim, constant, Ideal.ofBits, Ideal.ieee]) hi
  · have hi := Host.reduce_andi_all _ _ _ _ _ e2 i
    simp only [cmpf, Host.absf] at hi
    exact isReal_of_abs_lt_top _ _ (by simp [broadcastInDim, constant, Ideal.ofBits, Ideal.ieee]) hi
  · have hi := Host.reduce_andi_all _ _ _ _ _ e3 i
    simp only [cmpf, Host.absf] at hi
    exact isReal_of_abs_lt_top _ _ (by simp [broadcastInDim, constant, Ideal.ofBits, Ideal.ieee]) hi
  · have hi := Host.reduce_andi_all _ _ _ _ _ e4 i
    simp only [cmpf, Host.absf] at hi
    exact isReal_of_abs_lt_top _ _ (by simp [broadcastInDim, constant, Ideal.ofBits, Ideal.ieee]) hi
  · have hi := Host.reduce_andi_all _ _ _ _ _ e5 i
    simp only [cmpf, Host.absf] at hi
    exact isReal_of_abs_lt_top _ _ (by simp [broadcastInDim, constant, Ideal.ofBits, Ideal.ieee]) hi
  · have hi := Host.reduce_andi_all _ _ _ _ _ e6 i
    simp only [cmpf, Host.absf] at hi
    exact isReal_of_abs_lt_top _ _ (by simp [broadcastInDim, constant, Ideal.ofBits, Ideal.ieee]) hi
  · have hi := Host.reduce_andi_all _ _ _ _ _ e7 i
    simp only [cmpf, Host.absf] at hi
    exact isReal_of_abs_lt_top _ _ (by simp [broadcastInDim, constant, Ideal.ofBits, Ideal.ieee]) hi
  · have hi := Host.reduce_andi_all _ _ _ _ _ e8 i
    simp only [cmpf, Host.absf] at hi
    exact isReal_of_abs_lt_top _ _ (by simp [broadcastInDim, constant, Ideal.ofBits, Ideal.ieee]) hi
  · have hi := Host.reduce_andi_all _ _ _ _ _ e9 i
    simp only [cmpf, Host.absf] at hi
    exact isReal_of_abs_lt_top _ _ (by simp [broadcastInDim, constant, Ideal.ofBits, Ideal.ieee]) hi
  · have hi := Host.reduce_andi_all _ _ _ _ _ e10 i
    simp only [cmpf, Host.absf] at hi
    exact isReal_of_abs_lt_top _ _ (by simp [broadcastInDim, constant, Ideal.ofBits, Ideal.ieee]) hi
  · have hi := Host.reduce_andi_all _ _ _ _ _ e11 i
    simp only [cmpf, Host.absf] at hi
    exact isReal_of_abs_lt_top _ _ (by simp [broadcastInDim, constant, Ideal.ofBits, Ideal.ieee]) hi

end Cert.Finite

end
-- ==== Proof.ConvReal.lean ====
/-
  A stage's sparse convolution of real-valued arrays is real-valued, whatever the integer index tables hold.
  The gather reads an entry of its operand at every result index; the contraction at the ideal values is a finite sum
  of products of entries; a reshape and a broadcast re-index; the accumulating scatter leaves, at every index, the
  operand's entry plus a finite sum of update entries (an update landing outside contributes nothing); and a
  concatenation's entry is an entry of one of its pieces. Finite sums and products of reals are reals.
-/
import proofs.«172556_j661424964110_2_alg».proof.Proof.RefRunDefs
import proofs.«172556_j661424964110_2_alg».proof.Proof.Finite
import Idealize.ShloMosaic.PureOps.Ideal.Laws

noncomputable section

namespace Cert.ConvReal

open Idealize.ShloMosaic Idealize.SL.Sem
open Cert.ReferenceIdeal Cert.ReferenceIdeal.RefRun Cert.Finite

/-! ## Reals among the extended reals -/

theorem isReal_zero : IsReal 0 := ⟨0, EReal.coe_zero.symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-! ## One lemma per operation: real operands give a real result -/

/-- Every gathered entry is an entry of the operand. -/
theorem gather_real {s si t : Shape} {w : Nat} (d : GatherDims s si t) (x : FVec Ideal s .f32) (idx : IVec si w)
    (hx : ∀ i, IsReal (x i)) (j : t.Idx) : IsReal (Host.gather d x idx j) := hx _

/-- Every entry of a reshaped array is an entry of the array. -/
theorem shapeCast_real {s t : Shape} (x : FVec Ideal s .f32) (h : s.ShapeCasts t) (hx : ∀ i, IsReal (x i)) (j : t.Idx) :
    IsReal (shapeCast t x h j) := hx _

/-- Every entry of a broadcast array is an entry of the array. -/
theorem broadcastInDim_real {s t : Shape} (dims : Fin s.rank → Fin t.rank) (h : s.BroadcastsInDim t dims)
    (x : FVec Ideal s .f32) (hx : ∀ i, IsReal (x i)) (j : t.Idx) : IsReal (broadcastInDim t dims h x j) := hx _

/-- The zero splat is real. -/
theorem constant_zero_real {s : Shape} (i : s.Idx) : IsReal (constant (F := Ideal) s .f32 0x00000000#32 i) := by
  show IsReal (Ideal.ofBits .f32 0x00000000#32)
  rw [Ideal.ofBits_zero_f32]
  exact isReal_zero

/-- The contraction at the ideal values is a finite sum of products of entries. -/
theorem dotGeneral_real {sl sr so : Shape} (d : DotDims sl sr so) (prec : Option ContractPrecision)
    (a : FVec Ideal sl .f32) (b : FVec Ideal sr .f32) (ha : ∀ i, IsReal (a i)) (hb : ∀ i, IsReal (b i)) (j : so.Idx) :
    IsReal (Host.dotGeneral (F := Ideal) d prec a b j) := by
  show IsReal (FloatOps.dotGeneral d prec _ a b j)
  rw [Ideal.dotGeneral_apply]
  exact isReal_sum _ _ fun k _ => isReal_mul (ha _) (hb _)

/-- The accumulating scatter at the ideal values leaves the operand's entry plus a finite sum of update entries. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact isReal_add (hx i) (isReal_sum _ _ fun j _ => hu j)

/-- Every entry of a concatenation is an entry of one of its pieces. -/
theorem concatenate_real {t : Shape} (a : Fin t.rank) (xs : List ((s : Shape) × (s.Idx → EReal)))
    (h : Shape.Concatenates (xs.map (·.1)) t a) (hxs : ∀ p ∈ xs, ∀ i, IsReal (p.2 i)) (j : t.Idx) :
    IsReal (concatenate t a xs h j) := by
  unfold concatenate
  exact hxs _ (List.getElem_mem _) _

/-! ## The three convolutions and the concatenation -/

theorem conv1_real (x : FVec Ideal S100000x64 .f32) (w : FVec Ideal S27x64x32 .f32) (inIdx outIdx : IVec S27x100000 32)
    (hx : ∀ i, IsReal (x i)) (hw : ∀ i, IsReal (w i)) : ∀ i, IsReal (conv1 x w inIdx outIdx i) := by
  intro i
  unfold conv1
  refine scatterAdd_real _ _ _ _ (fun i => broadcastInDim_real _ _ _ (fun i => constant_zero_real i) i) (fun j => ?_) i
  refine shapeCast_real _ _ (fun j => ?_) j
  exact dotGeneral_real _ _ _ _ (fun i => gather_real _ _ _ hx i) hw j

theorem conv2_real (x : FVec Ideal S400000x64 .f32) (w : FVec Ideal S27x64x32 .f32) (inIdx outIdx : IVec S27x120000 32)
    (hx : ∀ i, IsReal (x i)) (hw : ∀ i, IsReal (w i)) : ∀ i, IsReal (conv2 x w inIdx outIdx i) := by
  intro i
  unfold conv2
  refine scatterAdd_real _ _ _ _ (fun i => broadcastInDim_real _ _ _ (fun i => constant_zero_real i) i) (fun j => ?_) i
  refine shapeCast_real _ _ (fun j => ?_) j
  exact dotGeneral_real _ _ _ _ (fun i => gather_real _ _ _ hx i) hw j

theorem conv3_real (x : FVec Ideal S400000x32 .f32) (w : FVec Ideal S27x32x32 .f32) (inIdx outIdx : IVec S27x120000 32)
    (hx : ∀ i, IsReal (x i)) (hw : ∀ i, IsReal (w i)) : ∀ i, IsReal (conv3 x w inIdx outIdx i) := by
  intro i
  unfold conv3
  refine scatterAdd_real _ _ _ _ (fun i => broadcastInDim_real _ _ _ (fun i => constant_zero_real i) i) (fun j => ?_) i
  refine shapeCast_real _ _ (fun j => ?_) j
  exact dotGeneral_real _ _ _ _ (fun i => gather_real _ _ _ hx i) hw j

theorem cat_real (a b : FVec Ideal S400000x32 .f32) (ha : ∀ i, IsReal (a i)) (hb : ∀ i, IsReal (b i)) :
    ∀ i, IsReal (cat a b i) := by
  intro i
  unfold cat
  refine concatenate_real _ _ _ (fun p hp => ?_) i
  rcases List.mem_cons.mp hp with rfl | hp
  · exact ha
  · rcases List.mem_cons.mp hp with rfl | hp
    · exact hb
    · exact absurd hp (List.not_mem_nil)

end Cert.ConvReal

end
-- ==== Proof.Consts.lean ====
/-
  The float constants both programs spell, as the extended reals their patterns denote at the ideal instance:
  the zero, the row count 400000 that divides the column sums, and the batch-norm epsilon, a positive dyadic
  rational. They are unfolded here once; every other module cites these equations and unfolds no pattern.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `400000.0` denotes the real `400000`, the number of rows the statistics run over. -/
theorem ofBits_rows : Ideal.ofBits .f32 0x48C35000#32 = ((400000 : ℝ) : EReal) := by
  simp [Ideal.ofBits, Ideal.ieee, -EReal.coe_mul]; norm_num

/-- The epsilon's value: the dyadic rational nearest to `1e-5` in binary32. -/
def eps : ℝ := 10995116 / 2 ^ 40

theorem eps_pos : 0 < eps := by unfold eps; positivity

/-- The pattern of the epsilon denotes that positive real. -/
theorem ofBits_eps : Ideal.ofBits .f32 0x3727C5AC#32 = ((eps : ℝ) : EReal) := by
  unfold eps
  simp [Ideal.ofBits, Ideal.ieee, -EReal.coe_mul]; norm_num

end Cert.Consts

end
-- ==== Proof.Algebra.lean ====
/-
  The real-number algebra behind the two forms of the batch variance, and the closure of "every entry is a real
  number" under the operations the programs apply.

  For reals `x i` over a finite index type with `n` elements, `n > 0`, and `μ = (∑ x) / n`:
      (∑ x²) / n − μ² = (∑ (x − μ)²) / n ≥ 0,
  so clamping the left side at zero changes nothing. On the extended reals the identity fails at infinities
  (`⊤ − ⊤`), which is why both sides are first shown to be coercions of reals.
-/
import Idealize.ShloMosaic.PureOps.Ideal

noncomputable section

namespace Cert.Algebra

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, as the ideal instance divides, is the real quotient. -/
theorem div_real (a n : ℝ) (hn : n ≠ 0) : Ideal.div (a : EReal) (n : EReal) = ((a / n : ℝ) : EReal) := by
  rw [Ideal.div_coe hn, ← EReal.coe_mul]; congr 1; ring

/-- The variance identity over the reals: the mean of the squares less the squared mean is the mean of the
    squared deviations. -/
theorem var_real {ι : Type*} [Fintype ι] (x : ι → ℝ) (n : ℝ) (hn : (Fintype.card ι : ℝ) = n) (hn0 : n ≠ 0) :
    (∑ i, x i * x i) / n - (∑ i, x i) / n * ((∑ i, x i) / n)
      = (∑ i, (x i - (∑ k, x k) / n) * (x i - (∑ k, x k) / n)) / n := by
  have h1 : ∑ i, (x i - (∑ k, x k) / n) * (x i - (∑ k, x k) / n)
      = ∑ i, x i * x i - 2 * ((∑ k, x k) / n) * ∑ i, x i + (Fintype.card ι : ℝ) * ((∑ k, x k) / n * ((∑ k, x k) / n)) := by
    have : ∀ i, (x i - (∑ k, x k) / n) * (x i - (∑ k, x k) / n)
        = x i * x i - 2 * ((∑ k, x k) / n) * x i + (∑ k, x k) / n * ((∑ k, x k) / n) := fun i => by ring
    simp only [this, Finset.sum_add_distrib, Finset.sum_sub_distrib, ← Finset.mul_sum, Finset.sum_const,
      Finset.card_univ, nsmul_eq_mul]
    ring
  rw [h1, hn]; field_simp; ring

/-- The mean of squared deviations is not negative. -/
theorem var_nonneg {ι : Type*} [Fintype ι] (x : ι → ℝ) (μ n : ℝ) (hn : 0 < n) :
    0 ≤ (∑ i, (x i - μ) * (x i - μ)) / n :=
  div_nonneg (Finset.sum_nonneg fun i _ => mul_self_nonneg _) hn.le

/-- The reciprocal square root of a positive real is a real. -/
theorem rsqrt_real (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

end Cert.Algebra

end
-- ==== Proof.BnReal.lean ====
/-
  The reference's batch normalisation of a real-valued array, with real scale and shift, is real-valued.

  With every entry of h real: a column sum is the initial zero plus a finite sum of reals; the mean divides it by the
  row count 400000, a nonzero real; the centred rows are differences of reals. The variance's normaliser is
  400000 − 0 = 400000 > 0, so the comparison holds and the selection takes the quotient: the column sum of the
  squared centred rows, a nonnegative real, divided by 400000 — a nonnegative real. Adding the positive epsilon
  gives a positive real, whose reciprocal square root is a real; and differences, products, sums and the maximum
  with zero of reals are reals.
-/
import proofs.«172556_j661424964110_2_alg».proof.Proof.RefRunDefs
import proofs.«172556_j661424964110_2_alg».proof.Proof.ConvReal
import proofs.«172556_j661424964110_2_alg».proof.Proof.Finite
import proofs.«172556_j661424964110_2_alg».proof.Proof.Consts
import proofs.«172556_j661424964110_2_alg».proof.Proof.Algebra

noncomputable section

namespace Cert.BnReal

open Idealize.ShloMosaic Idealize.SL.Sem
open Cert.ReferenceIdeal Cert.ReferenceIdeal.RefRun Cert.Finite Cert.ConvReal
open Cert.ReferenceIdeal.Facts₀ Cert.ReferenceIdeal.Facts

/-! ## Reals among the extended reals, continued -/

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_max {x y : EReal} (hx : IsReal x) (hy : IsReal y) : IsReal (max x y) := by
  rcases max_choice x y with h | h <;> rw [h] <;> assumption

/-! ## The pointwise operations, the column sum and the quotient by a nonzero real -/

theorem addf_real {s : Shape} (a b : FVec Ideal s .f32) (ha : ∀ i, IsReal (a i)) (hb : ∀ i, IsReal (b i)) (i : s.Idx) :
    IsReal (addf (F := Ideal) a b i) := isReal_add (ha i) (hb i)

theorem subf_real {s : Shape} (a b : FVec Ideal s .f32) (ha : ∀ i, IsReal (a i)) (hb : ∀ i, IsReal (b i)) (i : s.Idx) :
    IsReal (subf (F := Ideal) a b i) := isReal_sub (ha i) (hb i)

theorem mulf_real {s : Shape} (a b : FVec Ideal s .f32) (ha : ∀ i, IsReal (a i)) (hb : ∀ i, IsReal (b i)) (i : s.Idx) :
    IsReal (mulf (F := Ideal) a b i) := isReal_mul (ha i) (hb i)

theorem maximumf_real {s : Shape} (a b : FVec Ideal s .f32) (ha : ∀ i, IsReal (a i)) (hb : ∀ i, IsReal (b i)) (i : s.Idx) :
    IsReal (maximumf (F := Ideal) a b i) := isReal_max (ha i) (hb i)

/-- A broadcast splat reads the extended real its pattern denotes. -/
theorem bcast_constant_apply {s t : Shape} (dims : Fin s.rank → Fin t.rank) (h : s.BroadcastsInDim t dims) (b : BitVec 32)
    (i : t.Idx) : broadcastInDim t dims h (constant (F := Ideal) s .f32 b) i = Ideal.ofBits .f32 b := rfl

/-- The host's sum over some axes: the initial value plus a finite sum of entries. -/
theorem reduceAdd_real {s t u : Shape} {axes : List (Fin s.rank)} (x : FVec Ideal s .f32) (init : u.Idx → Ideal .f32)
    (h : s.ReducesTo axes t) (hu : 0 < u.numel) (hx : ∀ i, IsReal (x i)) (hinit : ∀ i, IsReal (init i)) (j : t.Idx) :
    IsReal (Host.reduceAdd (F := Ideal) x init h hu j) := by
  show IsReal (Ideal.hostReduceAdd h x (init (Shape.Idx.first hu)) j)
  unfold Ideal.hostReduceAdd
  exact isReal_add (hinit _) (isReal_sum _ _ fun i _ => hx i)

/-- The host's sum of squares from the zero: a nonnegative real. -/
theorem reduceAdd_sq_nonneg {s t : Shape} {axes : List (Fin s.rank)} (x : FVec Ideal s .f32)
    (h : s.ReducesTo axes t) (hu : 0 < S_.numel) (hx : ∀ i, IsReal (x i)) (j : t.Idx) :
    ∃ v : ℝ, 0 ≤ v ∧ Host.reduceAdd (F := Ideal) (mulf (F := Ideal) x x) (constant (F := Ideal) S_ .f32 0x00000000#32) h hu j
      = (v : EReal) := by
  choose c hc using hx
  refine ⟨∑ i ∈ Finset.univ.filter (fun i => h.drop i = j), c i * c i,
    Finset.sum_nonneg fun i _ => mul_self_nonneg _, ?_⟩
  show Ideal.hostReduceAdd h (mulf (F := Ideal) x x) (Ideal.ofBits .f32 0x00000000#32) j = _
  unfold Ideal.hostReduceAdd
  rw [Consts.ofBits_zero, zero_add, Cert.Algebra.coe_sum]
  refine Finset.sum_congr rfl fun i _ => ?_
  show x i * x i = _
  rw [hc i, EReal.coe_mul]

/-- The host's quotient of a real by a nonzero real is a real. -/
theorem divf_real {s : Shape} (a b : FVec Ideal s .f32) (n : ℝ) (hn : n ≠ 0) (ha : ∀ i, IsReal (a i))
    (hb : ∀ i, b i = (n : EReal)) (i : s.Idx) : IsReal (Host.divf (F := Ideal) a b i) := by
  obtain ⟨r, hr⟩ := ha i
  show IsReal (Ideal.div (a i) (b i))
  rw [hr, hb i, Cert.Algebra.div_real r n hn]
  exact ⟨_, rfl⟩

/-! ## The statistics -/

/-- A per-channel vector repeated over the rows has the vector's entries. -/
theorem rows_real (v : FVec Ideal S32 .f32) (hv : ∀ i, IsReal (v i)) (i : S400000x32.Idx) : IsReal (rows v i) := hv _

/-- Adding a per-channel vector to every row keeps the entries real. -/
theorem add_rows_real (h : FVec Ideal S400000x32 .f32) (b : FVec Ideal S32 .f32) (hh : ∀ i, IsReal (h i))
    (hb : ∀ i, IsReal (b i)) : ∀ i, IsReal (addf (F := Ideal) h (rows b) i) :=
  fun i => addf_real h (rows b) hh (rows_real b hb) i

/-- The per-channel mean of real rows is real. -/
theorem mean_real (h : FVec Ideal S400000x32 .f32) (hh : ∀ i, IsReal (h i)) : ∀ q, IsReal (mean h q) := by
  intro q
  unfold mean
  exact divf_real _ _ 400000 (by norm_num) (fun j => reduceAdd_real _ _ _ _ hh (fun i => constant_zero_real i) j)
    (fun j => Consts.ofBits_rows) q

/-- The centred rows of real rows are real. -/
theorem centered_real (h : FVec Ideal S400000x32 .f32) (hh : ∀ i, IsReal (h i)) : ∀ i, IsReal (centered h i) := by
  intro i
  unfold centered
  refine subf_real _ _ hh (fun i => broadcastInDim_real _ _ _ (fun k => ?_) i) i
  exact divf_real _ _ 400000 (by norm_num)
    (fun k => broadcastInDim_real _ _ _ (fun j => reduceAdd_real _ _ _ _ hh (fun i => constant_zero_real i) j) k)
    (fun k => Consts.ofBits_rows) k

/-- The variance's normaliser is the row count. -/
theorem varNorm_apply (i : S_.Idx) : varNorm i = ((400000 : ℝ) : EReal) := by
  show Ideal.ofBits .f32 0x48C35000#32 - ((((0#32 : BitVec 32).toInt : ℤ) : ℝ) : EReal) = _
  rw [Consts.ofBits_rows]
  simp

/-- The per-channel variance of real rows is a nonnegative real. -/
theorem var_nonneg_real (h : FVec Ideal S400000x32 .f32) (hh : ∀ i, IsReal (h i)) :
    ∀ q, ∃ v : ℝ, 0 ≤ v ∧ var h q = (v : EReal) := by
  intro q
  obtain ⟨s, hs0, hs⟩ := reduceAdd_sq_nonneg (centered h) reducesTo_S400000x32_S32_d0 h_S_ (centered_real h hh) q
  refine ⟨s / 400000, div_nonneg hs0 (by norm_num), ?_⟩
  unfold var
  show Scalar.select (Ideal.cmp .ogt (varNorm _) (Ideal.ofBits .f32 0x00000000#32))
      (Ideal.div (Host.reduceAdd (F := Ideal) (mulf (F := Ideal) (centered h) (centered h))
        (constant (F := Ideal) S_ .f32 0x00000000#32) reducesTo_S400000x32_S32_d0 h_S_ q) (varNorm _))
      (Ideal.ofBits .f32 0x7FC00000#32) = _
  rw [varNorm_apply, Consts.ofBits_zero, hs, Cert.Algebra.div_real s 400000 (by norm_num)]
  have hc : Ideal.cmp .ogt (((400000 : ℝ) : EReal)) 0 = 1#1 := by
    have : (0 : EReal) < ((400000 : ℝ) : EReal) := EReal.coe_pos.mpr (by norm_num)
    simp [Ideal.cmp, this]
  rw [hc]
  rfl

/-! ## The normalisation -/

/-- Batch normalisation of real rows with real scale and shift, then the rectifier, is real. -/
theorem bn_real (h : FVec Ideal S400000x32 .f32) (γ β : FVec Ideal S32 .f32) (hh : ∀ i, IsReal (h i))
    (hγ : ∀ i, IsReal (γ i)) (hβ : ∀ i, IsReal (β i)) : ∀ i, IsReal (bn h γ β i) := by
  have hr : ∀ q, IsReal (Host.rsqrt (F := Ideal)
      (addf (F := Ideal) (var h) (broadcastInDim S32 ![] bcast_S_S32 (constant (F := Ideal) S_ .f32 0x3727C5AC#32))) q) := by
    intro q
    obtain ⟨v, hv0, hv⟩ := var_nonneg_real h hh q
    show IsReal (Ideal.rsqrt (var h q + Ideal.ofBits .f32 0x3727C5AC#32))
    rw [hv, Consts.ofBits_eps, ← EReal.coe_add, Cert.Algebra.rsqrt_real _ (add_pos_of_nonneg_of_pos hv0 Consts.eps_pos)]
    exact ⟨_, rfl⟩
  intro i
  unfold bn relu
  refine maximumf_real _ _ (fun i => ?_) (fun i => broadcastInDim_real _ _ _ (fun i => constant_zero_real i) i) i
  refine addf_real _ _ (fun i => ?_) (rows_real β hβ) i
  refine mulf_real _ _ (fun i => ?_) (rows_real γ hγ) i
  refine mulf_real _ _ (fun i => ?_) (rows_real _ hr) i
  exact subf_real _ _ hh (rows_real _ (mean_real h hh)) i

end Cert.BnReal

end
-- ==== Proof.VarBridge.lean ====
/-
  The batch variance in its two forms. The kernel computes it in one pass — the column sums S of x and Q of x², the
  second moment Q / n less the squared mean (S / n)², clamped at zero — and the reference in two passes — the mean
  S / n first, then the mean of the squared deviations. For a channel whose 400000 entries x r = h (r, q) + b q are
  real numbers both are coercions of reals, the identity
      Q / n − (S / n)² = (∑ r, (x r − S / n)²) / n
  holds over the reals, and the right side is not negative, so the clamp changes nothing. (On the extended reals the
  identity fails at infinities, which is why the entries are first shown to be reals.)
-/
import proofs.«172556_j661424964110_2_alg».proof.Proof.KDefs
import proofs.«172556_j661424964110_2_alg».proof.Proof.RefRunDefs
import proofs.«172556_j661424964110_2_alg».proof.Proof.BnReal
import proofs.«172556_j661424964110_2_alg».proof.Proof.Algebra
import proofs.«172556_j661424964110_2_alg».proof.Proof.Consts
import Idealize.ShloMosaic.Lib.Pipeline.Value
import Idealize.ShloMosaic.PureOps.Ideal.Laws

noncomputable section

namespace Cert.VarBridge

open Idealize.ShloMosaic Idealize.SL.Sem Idealize.ShloMosaic.ValueIdx
open Cert.KVal Cert.ReferenceIdeal Cert.ReferenceIdeal.RefRun Cert.Finite
open Cert.ReferenceIdeal.Facts₀ Cert.ReferenceIdeal.Facts

/-! ## The layout operations at an index -/

/-- A per-channel vector as one row, read at (0, q), is the vector at q. -/
theorem row_apply (v : FVec Ideal S32 .f32) (q : Fin 32) : row v (ix2 (0 : Fin 1) q) = v (ix1 q) := by
  unfold row
  refine (shapeCast_addUnit_apply ![32] v _ (ix2 (0 : Fin 1) q)).trans (congrArg v ?_)
  funext a
  match a with
  | ⟨0, _⟩ => rfl

/-- A one-row array repeated over the rows, read at (r, q), is the row at (0, q). -/
theorem overRows_apply (M : FVec Ideal S1x32 .f32) (r : Fin 400000) (q : Fin 32) :
    broadcastInDim S400000x32 ![0, 1] bcast_S1x32_S400000x32_0_1 M (ix2 r q) = M (ix2 (0 : Fin 1) q) := by
  refine broadcastInDim_apply _ _ M (ix2 r q) (ix2 (0 : Fin 1) q) fun a => ?_
  match a with
  | ⟨0, _⟩ => rfl
  | ⟨1, _⟩ => rfl

/-- A per-channel vector as one row (by broadcast), read at (0, q), is the vector at q. -/
theorem asRow_apply (v : FVec Ideal S32 .f32) (q : Fin 32) :
    broadcastInDim S1x32 ![1] bcast_S32_S1x32_1 v (ix2 (0 : Fin 1) q) = v (ix1 q) := by
  refine broadcastInDim_apply _ _ v (ix2 (0 : Fin 1) q) (ix1 q) fun a => ?_
  match a with
  | ⟨0, _⟩ => rfl

/-- A per-channel vector repeated over the rows, read at (r, q), is the vector at q. -/
theorem rows_apply (v : FVec Ideal S32 .f32) (r : Fin 400000) (q : Fin 32) : rows v (ix2 r q) = v (ix1 q) := by
  unfold rows
  rw [overRows_apply, asRow_apply]

/-- The reference's column sum from the zero, at channel q: the sum over the 400000 rows. -/
theorem refColSum_apply (x : FVec Ideal S400000x32 .f32) (q : Fin 32) :
    Host.reduceAdd (F := Ideal) x (constant (F := Ideal) S_ .f32 0x00000000#32) reducesTo_S400000x32_S32_d0 h_S_ (ix1 q)
      = ∑ r : Fin 400000, x (ix2 r q) := by
  show Ideal.hostReduceAdd reducesTo_S400000x32_S32_d0 x (Ideal.ofBits .f32 0x00000000#32) (ix1 q) = _
  rw [Ideal.hostReduceAdd_single reducesTo_S400000x32_S32_d0 (by decide : S400000x32.Reduces [0] S32),
    Consts.ofBits_zero, zero_add]
  refine Finset.sum_congr rfl fun r _ => congrArg x ?_
  funext a; apply Fin.ext
  match a with
  | ⟨0, _⟩ => rfl
  | ⟨1, _⟩ => rfl

/-! ## The kernel's one-pass variance of a real column -/

theorem varK_apply (h : FVec Ideal S400000x32 .f32) (b : FVec Ideal S32 .f32) (x : Fin 400000 → ℝ) (q : Fin 32)
    (hx : ∀ r, h (ix2 r q) + b (ix1 q) = (x r : EReal)) :
    varK (colSum h (row b)) (colSumSq h (row b)) (ix2 (0 : Fin 1) q)
      = max ((((∑ r, x r * x r) / 400000 - (∑ r, x r) / 400000 * ((∑ r, x r) / 400000) : ℝ)) : EReal) 0 := by
  have hn : (400000 : ℝ) ≠ 0 := by norm_num
  have hs : colSum h (row b) (ix2 (0 : Fin 1) q) = ((∑ r, x r : ℝ) : EReal) := by
    show (∑ r : Fin 400000, (h (ix2 r q) + row b (ix2 (0 : Fin 1) q))) = _
    rw [Cert.Algebra.coe_sum, row_apply]
    exact Finset.sum_congr rfl fun r _ => hx r
  have hq : colSumSq h (row b) (ix2 (0 : Fin 1) q) = ((∑ r, x r * x r : ℝ) : EReal) := by
    show (∑ r : Fin 400000, (h (ix2 r q) + row b (ix2 (0 : Fin 1) q)) * (h (ix2 r q) + row b (ix2 (0 : Fin 1) q))) = _
    rw [Cert.Algebra.coe_sum, row_apply]
    exact Finset.sum_congr rfl fun r _ => by rw [hx r, EReal.coe_mul]
  show max (Ideal.div (colSumSq h (row b) (ix2 (0 : Fin 1) q)) (Ideal.ofBits .f32 0x48C35000#32)
      - Ideal.div (colSum h (row b) (ix2 (0 : Fin 1) q)) (Ideal.ofBits .f32 0x48C35000#32)
        * Ideal.div (colSum h (row b) (ix2 (0 : Fin 1) q)) (Ideal.ofBits .f32 0x48C35000#32))
    (Ideal.ofBits .f32 0x00000000#32) = _
  rw [hs, hq, Consts.ofBits_rows, Consts.ofBits_zero, Cert.Algebra.div_real _ _ hn, Cert.Algebra.div_real _ _ hn,
    ← EReal.coe_mul, ← EReal.coe_sub]

/-! ## The reference's two-pass variance of a real column -/

theorem var_apply (H : FVec Ideal S400000x32 .f32) (x : Fin 400000 → ℝ) (q : Fin 32)
    (hx : ∀ r, H (ix2 r q) = (x r : EReal)) :
    var H (ix1 q)
      = (((∑ r, (x r - (∑ k, x k) / 400000) * (x r - (∑ k, x k) / 400000)) / 400000 : ℝ) : EReal) := by
  have hn : (400000 : ℝ) ≠ 0 := by norm_num
  have hS : Host.reduceAdd (F := Ideal) H (constant (F := Ideal) S_ .f32 0x00000000#32) reducesTo_S400000x32_S32_d0 h_S_ (ix1 q)
      = ((∑ k, x k : ℝ) : EReal) := by
    rw [refColSum_apply, Cert.Algebra.coe_sum]
    exact Finset.sum_congr rfl fun r _ => hx r
  have hc : ∀ r, centered H (ix2 r q) = ((x r - (∑ k, x k) / 400000 : ℝ) : EReal) := by
    intro r
    unfold centered
    show H (ix2 r q) - broadcastInDim (s := S1x32) S400000x32 ![0, 1] bcast_S1x32_S400000x32_0_1 _ (ix2 r q) = _
    rw [overRows_apply]
    show H (ix2 r q) - Ideal.div (broadcastInDim (s := S32) S1x32 ![1] bcast_S32_S1x32_1 _ (ix2 (0 : Fin 1) q))
      (Ideal.ofBits .f32 0x48C35000#32) = _
    rw [asRow_apply, hS, hx, Consts.ofBits_rows, Cert.Algebra.div_real _ _ hn, ← EReal.coe_sub]
  have hQ : Host.reduceAdd (F := Ideal) (mulf (F := Ideal) (centered H) (centered H))
      (constant (F := Ideal) S_ .f32 0x00000000#32) reducesTo_S400000x32_S32_d0 h_S_ (ix1 q)
      = ((∑ r, (x r - (∑ k, x k) / 400000) * (x r - (∑ k, x k) / 400000) : ℝ) : EReal) := by
    rw [refColSum_apply, Cert.Algebra.coe_sum]
    refine Finset.sum_congr rfl fun r _ => ?_
    show centered H (ix2 r q) * centered H (ix2 r q) = _
    rw [hc r, EReal.coe_mul]
  unfold var
  show Scalar.select (Ideal.cmp .ogt (varNorm _) (Ideal.ofBits .f32 0x00000000#32))
      (Ideal.div (Host.reduceAdd (F := Ideal) (mulf (F := Ideal) (centered H) (centered H))
        (constant (F := Ideal) S_ .f32 0x00000000#32) reducesTo_S400000x32_S32_d0 h_S_ (ix1 q)) (varNorm _))
      (Ideal.ofBits .f32 0x7FC00000#32) = _
  rw [Cert.BnReal.varNorm_apply, Consts.ofBits_zero, hQ, Cert.Algebra.div_real _ _ hn]
  have hcmp : Ideal.cmp .ogt (((400000 : ℝ) : EReal)) 0 = 1#1 := by
    have : (0 : EReal) < ((400000 : ℝ) : EReal) := EReal.coe_pos.mpr (by norm_num)
    simp [Ideal.cmp, this]
  rw [hcmp]
  rfl

/-! ## The two forms agree on real rows -/

/-- The kernel's one-pass variance of h + b at channel q is the reference's two-pass variance of h + rows b there,
    when every entry of h and of b is a real number. -/
theorem var_bridge (h : FVec Ideal Cert.ReferenceIdeal.S400000x32 .f32) (b : FVec Ideal Cert.ReferenceIdeal.S32 .f32)
    (hh : ∀ i, IsReal (h i)) (hb : ∀ i, IsReal (b i)) (q : Fin 32) :
    varK (colSum h (row b)) (colSumSq h (row b)) (ix2 (0 : Fin 1) q) = var (addf (F := Ideal) h (rows b)) (ix1 q) := by
  choose ch hch using hh
  choose cb hcb using hb
  have hx : ∀ r : Fin 400000, h (ix2 r q) + b (ix1 q) = ((ch (ix2 r q) + cb (ix1 q) : ℝ) : EReal) := fun r => by
    rw [hch, hcb, EReal.coe_add]
  rw [varK_apply h b (fun r => ch (ix2 r q) + cb (ix1 q)) q hx,
    var_apply (addf (F := Ideal) h (rows b)) (fun r => ch (ix2 r q) + cb (ix1 q)) q (fun r => by
      show h (ix2 r q) + rows b (ix2 r q) = _
      rw [rows_apply]; exact hx r),
    Cert.Algebra.var_real (fun r : Fin 400000 => ch (ix2 r q) + cb (ix1 q)) 400000 (by simp) (by norm_num)]
  exact max_eq_left (EReal.coe_nonneg.mpr (Cert.Algebra.var_nonneg _ _ 400000 (by norm_num)))

end Cert.VarBridge

end
-- ==== Proof.BnBridge.lean ====
/-
  The idealized kernel's batch normalisation against the reference's, on real-valued arrays: with the convolution
  result h and the bias b, the kernel's statistics are taken of h + b in one pass and the reference's of the same array
  in two; the means agree outright, the variances agree because the entries are real numbers, and the rest of the
  entry formula — the reciprocal square root of the variance plus epsilon, the scale, the shift, the maximum with
  zero — is the same text on both sides.
-/
import proofs.«172556_j661424964110_2_alg».proof.Proof.KDefs
import proofs.«172556_j661424964110_2_alg».proof.Proof.RefRunDefs
import proofs.«172556_j661424964110_2_alg».proof.Proof.BnReal
import proofs.«172556_j661424964110_2_alg».proof.Proof.VarBridge
import proofs.«172556_j661424964110_2_alg».proof.Proof.Algebra
import proofs.«172556_j661424964110_2_alg».proof.Proof.Consts
import proofs.«172556_j661424964110_2_alg».proof.Proof.Finite

noncomputable section

namespace Cert.BnBridge

open Idealize.ShloMosaic Idealize.SL.Sem Idealize.ShloMosaic.ValueIdx
open Cert.KVal Cert.ReferenceIdeal Cert.ReferenceIdeal.RefRun Cert.Finite Cert.VarBridge
open Cert.ReferenceIdeal.Facts₀ Cert.ReferenceIdeal.Facts

/-- The two means agree at every channel, whatever the entries: both divide the same column sum of h + b by the row
    count (the reference adds its sum to a zero initial value). -/
theorem mean_bridge (h : FVec Ideal Cert.ReferenceIdeal.S400000x32 .f32) (b : FVec Ideal Cert.ReferenceIdeal.S32 .f32)
    (q : Fin 32) :
    meanK (colSum h (row b)) (ix2 (0 : Fin 1) q) = mean (addf (F := Ideal) h (rows b)) (ix1 q) := by
  unfold mean
  show Ideal.div (colSum h (row b) (ix2 (0 : Fin 1) q)) (Ideal.ofBits .f32 0x48C35000#32)
    = Ideal.div (Host.reduceAdd (F := Ideal) (addf (F := Ideal) h (rows b)) (constant (F := Ideal) S_ .f32 0x00000000#32)
        reducesTo_S400000x32_S32_d0 h_S_ (ix1 q)) (Ideal.ofBits .f32 0x48C35000#32)
  rw [refColSum_apply]
  refine congrArg (fun s => Ideal.div s (Ideal.ofBits .f32 0x48C35000#32)) ?_
  show (∑ r : Fin 400000, (h (ix2 r q) + row b (ix2 (0 : Fin 1) q)))
    = ∑ r : Fin 400000, (h (ix2 r q) + rows b (ix2 r q))
  refine Finset.sum_congr rfl fun r _ => ?_
  rw [row_apply, rows_apply]

/-- The kernel's normalisation of h with bias b is the reference's normalisation of h + b, entry by entry: the same
    mean, the same variance (for real entries), the same reciprocal square root, scale, shift and rectifier. -/
theorem bn_bridge (h : FVec Ideal Cert.ReferenceIdeal.S400000x32 .f32) (b γ β : FVec Ideal Cert.ReferenceIdeal.S32 .f32)
    (hh : ∀ i, IsReal (h i)) (hb : ∀ i, IsReal (b i)) (hγ : ∀ i, IsReal (γ i)) (hβ : ∀ i, IsReal (β i)) :
    bnK h (row b) (row γ) (row β) = bn (addf (F := Ideal) h (rows b)) γ β := by
  funext j
  obtain ⟨r, q, rfl⟩ : ∃ (r : Fin 400000) (q : Fin 32), j = ix2 r q := ⟨j 0, j 1, eq_ix2 j⟩
  unfold bnK applyK bn relu
  show max ((((h (ix2 r q) + row b (ix2 (0 : Fin 1) q)) - meanK (colSum h (row b)) (ix2 (0 : Fin 1) q))
        * Ideal.rsqrt (varK (colSum h (row b)) (colSumSq h (row b)) (ix2 (0 : Fin 1) q) + Ideal.ofBits .f32 0x3727C5AC#32))
        * row γ (ix2 (0 : Fin 1) q) + row β (ix2 (0 : Fin 1) q)) (Ideal.ofBits .f32 0x00000000#32)
    = max ((((h (ix2 r q) + rows b (ix2 r q)) - rows (mean (addf (F := Ideal) h (rows b))) (ix2 r q))
        * rows (Host.rsqrt (F := Ideal) (addf (F := Ideal) (var (addf (F := Ideal) h (rows b)))
            (broadcastInDim S32 ![] bcast_S_S32 (constant (F := Ideal) S_ .f32 0x3727C5AC#32)))) (ix2 r q))
        * rows γ (ix2 r q) + rows β (ix2 r q)) (Ideal.ofBits .f32 0x00000000#32)
  simp only [rows_apply, row_apply]
  rw [mean_bridge, var_bridge h b hh hb q]
  rfl

/-- The same for a stage without bias: the zero bias row adds nothing. -/
theorem bn_bridge0 (h : FVec Ideal Cert.ReferenceIdeal.S400000x32 .f32) (γ β : FVec Ideal Cert.ReferenceIdeal.S32 .f32)
    (hh : ∀ i, IsReal (h i)) (hγ : ∀ i, IsReal (γ i)) (hβ : ∀ i, IsReal (β i)) :
    bnK h (row zero32) (row γ) (row β) = bn h γ β := by
  have hz : ∀ i, zero32 i = 0 := fun i => Consts.ofBits_zero
  have e : addf (F := Ideal) h (rows zero32) = h := by
    funext j
    have hj : rows zero32 j = 0 := Consts.ofBits_zero
    show h j + rows zero32 j = h j
    rw [hj, add_zero]
  have key := bn_bridge h zero32 γ β hh (fun i => by rw [hz i]; exact Cert.ConvReal.isReal_zero) hγ hβ
  rw [e] at key
  exact key

end Cert.BnBridge

end
-- ==== Proof.Bridge.lean ====
/-
  The kernel-side function of the argument arrays IS the reference's, when every float argument's entries are real
  numbers. Stage by stage: the two convolutions are one function outright (the kernel's host operations are the
  reference's, its matmul region the batched contraction); a convolution of real-valued arrays is real-valued; on a
  real-valued array the kernel's one-pass batch normalisation (mean of squares less squared mean, clamped at zero) is the
  reference's two-pass one (mean of squared deviations) — the variance identity, which needs finiteness —, and its
  result is real-valued again, so the next stage's input is.
-/
import proofs.«172556_j661424964110_2_alg».proof.Proof.KOut
import proofs.«172556_j661424964110_2_alg».proof.Proof.RefRunDefs
import proofs.«172556_j661424964110_2_alg».proof.Proof.BnBridge
import proofs.«172556_j661424964110_2_alg».proof.Proof.BnReal
import proofs.«172556_j661424964110_2_alg».proof.Proof.ConvReal
import proofs.«172556_j661424964110_2_alg».proof.Proof.Finite

noncomputable section

namespace Cert.Bridge

open Idealize.ShloMosaic
open Cert.ReferenceIdeal Cert.ReferenceIdeal.RefRun Cert.KVal Cert.Finite Cert.BnBridge Cert.BnReal Cert.ConvReal

/-- Under "every float argument is real-valued" the kernel's function of the arguments is the reference's. -/
theorem kout_eq_out (x : FVec Ideal S100000x64 .f32) (x_skip : FVec Ideal S400000x32 .f32) (w_up : FVec Ideal S27x64x32 .f32)
    (b_up g_up bt_up : FVec Ideal S32 .f32) (w1 : FVec Ideal S27x64x32 .f32) (g1 bt1 : FVec Ideal S32 .f32)
    (w2 : FVec Ideal S27x32x32 .f32) (g2 bt2 : FVec Ideal S32 .f32) (up_in up_out : IVec S27x100000 32)
    (c1_in c1_out c2_in c2_out : IVec S27x120000 32)
    (hx : ∀ i, IsReal (x i)) (hxs : ∀ i, IsReal (x_skip i)) (hwu : ∀ i, IsReal (w_up i)) (hbu : ∀ i, IsReal (b_up i))
    (hgu : ∀ i, IsReal (g_up i)) (hbtu : ∀ i, IsReal (bt_up i)) (hw1 : ∀ i, IsReal (w1 i)) (hg1 : ∀ i, IsReal (g1 i))
    (hbt1 : ∀ i, IsReal (bt1 i)) (hw2 : ∀ i, IsReal (w2 i)) (hg2 : ∀ i, IsReal (g2 i)) (hbt2 : ∀ i, IsReal (bt2 i)) :
    kout x x_skip w_up b_up g_up bt_up w1 g1 bt1 w2 g2 bt2 up_in up_out c1_in c1_out c2_in c2_out
      = out x x_skip w_up b_up g_up bt_up w1 g1 bt1 w2 g2 bt2 up_in up_out c1_in c1_out c2_in c2_out := by
  -- stage 1
  have c1r : ∀ i, IsReal (conv1 x w_up up_in up_out i) := conv1_real x w_up up_in up_out hx hwu
  have e1 : kstage1 x w_up b_up g_up bt_up up_in up_out = stage1 x w_up b_up g_up bt_up up_in up_out := by
    unfold kstage1 stage1
    rw [kconv1_eq]
    exact bn_bridge _ b_up g_up bt_up c1r hbu hgu hbtu
  have r1 : ∀ i, IsReal (stage1 x w_up b_up g_up bt_up up_in up_out i) := by
    unfold stage1
    exact bn_real _ g_up bt_up (add_rows_real _ b_up c1r hbu) hgu hbtu
  -- stage 2
  have c2r : ∀ i, IsReal (conv2 (cat (stage1 x w_up b_up g_up bt_up up_in up_out) x_skip) w1 c1_in c1_out i) :=
    conv2_real _ w1 c1_in c1_out (cat_real _ x_skip r1 hxs) hw1
  have e2 : kstage2 (stage1 x w_up b_up g_up bt_up up_in up_out) x_skip w1 g1 bt1 c1_in c1_out
      = stage2 (stage1 x w_up b_up g_up bt_up up_in up_out) x_skip w1 g1 bt1 c1_in c1_out := by
    unfold kstage2 stage2
    rw [kcat_eq, kconv2_eq]
    exact bn_bridge0 _ g1 bt1 c2r hg1 hbt1
  have r2 : ∀ i, IsReal (stage2 (stage1 x w_up b_up g_up bt_up up_in up_out) x_skip w1 g1 bt1 c1_in c1_out i) := by
    unfold stage2
    exact bn_real _ g1 bt1 c2r hg1 hbt1
  -- stage 3
  have c3r : ∀ i, IsReal (conv3 (stage2 (stage1 x w_up b_up g_up bt_up up_in up_out) x_skip w1 g1 bt1 c1_in c1_out) w2 c2_in c2_out i) :=
    conv3_real _ w2 c2_in c2_out r2 hw2
  have e3 : kstage3 (stage2 (stage1 x w_up b_up g_up bt_up up_in up_out) x_skip w1 g1 bt1 c1_in c1_out) w2 g2 bt2 c2_in c2_out
      = stage3 (stage2 (stage1 x w_up b_up g_up bt_up up_in up_out) x_skip w1 g1 bt1 c1_in c1_out) w2 g2 bt2 c2_in c2_out := by
    unfold kstage3 stage3
    rw [kconv3_eq]
    exact bn_bridge0 _ g2 bt2 c3r hg2 hbt2
  unfold kout out
  rw [e1, e2, e3]

end Cert.Bridge

end
-- ==== Proof.lean ====
/-
  The certificate of a three-stage sparse up-sampling block (gather, batched matmul, accumulating scatter, then
  train-mode batch normalisation and a rectifier, three times) against its plain reference.

  The three frames: the two kernel programs' are the generated frame certificates; the reference's is its run with the
  result dropped. The idealization rewrote no operation, so `preserves` has nothing to state.

  The value claim, at the ideal instance (a float an extended real, every operation exact). Both runs end with the
  result array a function of the argument arrays: the kernel's, read off the frame's boundary contents region by region
  (each matmul region's array the batched contraction of its gathered rows with the weights; each statistics region's
  the column sums of the rows and of their squares, accumulated over forty blocks; each apply region's the normalised,
  scaled, shifted and rectified rows), and the reference's, its operations composed. The programs differ in one place
  only: the kernel takes the batch variance in one pass, as the mean of the squares less the squared mean, clamped at
  zero, where the reference takes the mean of the squared deviations. For real numbers these are one value; on the
  extended reals they are not (an infinite entry makes one `⊤ − ⊤`), so the precondition — every float input finite —
  is used: it makes every entry of every argument a real number, and a gather (clamped), a contraction, an accumulating
  scatter into zeros, and a batch normalisation with a positive epsilon keep entries real from stage to stage.
-/
import proofs.«172556_j661424964110_2_alg».proof.Defs
import proofs.«172556_j661424964110_2_alg».proof.Proof.Gen.Kernel
import proofs.«172556_j661424964110_2_alg».proof.Proof.Gen.Kernel.Skeleton
import proofs.«172556_j661424964110_2_alg».proof.Proof.Gen.Kernel.Launch
import proofs.«172556_j661424964110_2_alg».proof.Proof.Gen.Kernel.Points
import proofs.«172556_j661424964110_2_alg».proof.Proof.Gen.Kernel.Frame
import proofs.«172556_j661424964110_2_alg».proof.Proof.Gen.KernelIdeal
import proofs.«172556_j661424964110_2_alg».proof.Proof.Gen.KernelIdeal.Skeleton
import proofs.«172556_j661424964110_2_alg».proof.Proof.Gen.KernelIdeal.Launch
import proofs.«172556_j661424964110_2_alg».proof.Proof.Gen.KernelIdeal.Points
import proofs.«172556_j661424964110_2_alg».proof.Proof.Gen.KernelIdeal.Frame
import proofs.«172556_j661424964110_2_alg».proof.Proof.Gen.ReferenceIdeal
import proofs.«172556_j661424964110_2_alg».proof.Proof.Gen.Pre_finite_inputs
import proofs.«172556_j661424964110_2_alg».proof.Proof.KerRun
import proofs.«172556_j661424964110_2_alg».proof.Proof.KerValue
import proofs.«172556_j661424964110_2_alg».proof.Proof.RefRun
import proofs.«172556_j661424964110_2_alg».proof.Proof.Bridge
import proofs.«172556_j661424964110_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result's conjunct dropped. -/
theorem frame_referenceIdeal : Cert.frame_ReferenceIdeal := fun m ρ _ =>
  (θ_run Cert.ReferenceIdeal.defs _ _).mono (fun _ h c => (h c).2) (Cert.ReferenceIdeal.RefRun.run m ρ)

/-- Both idealized programs, from memories agreeing on the arguments, end with one result array: the kernel-side
    function of the arguments, which under the precondition is the reference's. -/
theorem algebraic : Cert.algebraic_KernelIdeal_ReferenceIdeal := by
  intro m ρ m' ρ' hpre hagree
  refine ⟨fun c => Cert.KVal.kout (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run (Cert.KernelIdeal.defs (F := Ideal)) _ _).mono
      (fun r h c => ⟨(h c).1.trans (Cert.KernelIdeal.KerValue.result m ρ c), (h c).2⟩)
      (Cert.KernelIdeal.KerRun.run (F := Ideal) m ρ)
  · refine (θ_run (Cert.ReferenceIdeal.defs (F := Ideal)) _ _).mono (fun r h c => ⟨(h c).1.trans ?_, (h c).2⟩)
      (Cert.ReferenceIdeal.RefRun.run m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    obtain ⟨r0, r1, r2, r3, r4, r5, r6, r7, r8, r9, r10, r11⟩ := Cert.Finite.reals_of_pre _ _ _ _ _ _ _ _ _ _ _ _ _ _ _ _ _ _ (hpre c)
    exact (Cert.Bridge.kout_eq_out _ _ _ _ _ _ _ _ _ _ _ _ _ _ _ _ _ _ r0 r1 r2 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
